-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v220)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v220) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v347) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S400000 : Shape := ⟨1, ![400000]⟩
abbrev S10000x128 : Shape := ⟨2, ![10000, 128]⟩
abbrev S3x2x128x128 : Shape := ⟨4, ![3, 2, 128, 128]⟩
abbrev S3x2x128 : Shape := ⟨3, ![3, 2, 128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S3x2x128x128 : S_.BroadcastsInDim S3x2x128x128 (![] : Fin 0 → Fin S3x2x128x128.rank)
  reducesTo_S3x2x128x128_S_d0_1_2_3 : S3x2x128x128.ReducesTo [0, 1, 2, 3] S_
  bcast_S_S3x2x128 : S_.BroadcastsInDim S3x2x128 (![] : Fin 0 → Fin S3x2x128.rank)
  reducesTo_S3x2x128_S_d0_1_2 : S3x2x128.ReducesTo [0, 1, 2] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_arg17 : FVec F S64x2 .f32) (main_arg18 : FVec F S2 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x2 .f32 := Host.absf main_arg17
  let main_cst_20 : FVec F S_ .f32 := constant S_ .f32 0x7F800000#32
  let main_v55 : FVec F S64x2 .f32 := broadcastInDim S64x2 ![] bcast_S_S64x2 main_cst_20
  let main_v56 : IVec S64x2 1 := cmpf .olt main_v54 main_v55
  let main_c_21 : IVec S_ 1 := constantI S_ 1 1#1
  let main_v57 : IVec S_ 1 := (fun x v => Host.reduce IntOp.andi x v reducesTo_S64x2_S_d0_1 h_S_) main_v56 main_c_21
  let main_v58 : IVec S_ 1 := andi main_v53 main_v57
  let main_v59 : FVec F S2 .f32 := Host.absf main_arg18
  let main_cst_22 : FVec F S_ .f32 := constant S_ .f32 0x7F800000#32
  let main_v60 : FVec F S2 .f32 := broadcastInDim S2 ![] bcast_S_S2 main_cst_22
  let main_v61 : IVec S2 1 := cmpf .olt main_v59 main_v60
  let main_c_23 : IVec S_ 1 := constantI S_ 1 1#1
  let main_v62 : IVec S_ 1 := (fun x v => Host.reduce IntOp.andi x v reducesTo_S2_S_d0 h_S_) main_v61 main_c_23
  let main_v63 : IVec S_ 1 := andi main_v58 main_v62
  main_v63

def fn_part2 {F : FTy → Type} [FloatOps F] (main_arg13 : FVec F S3x2x128 .f32) (main_arg14 : FVec F S3x2x128 .f32) (main_arg15 : FVec F S128x64 .f32) (main_arg16 : FVec F S64 .f32) (main_arg17 : FVec F S64x2 .f32) (main_arg18 : FVec F S2 .f32) (main_v33 : IVec S_ 1) : IVec S_ 1 :=
  let main_v34 : FVec F S3x2x128 .f32 := Host.absf main_arg13
  let main_cst_12 : FVec F S_ .f32 := constant S_ .f32 0x7F800000#32
  let main_v35 : FVec F S3x2x128 .f32 := broadcastInDim S3x2x128 ![] bcast_S_S3x2x128 main_cst_12
  let main_v36 : IVec S3x2x128 1 := cmpf .olt main_v34 main_v35
  let main_c_13 : IVec S_ 1 := constantI S_ 1 1#1
  let main_v37 : IVec S_ 1 := (fun x v => Host.reduce IntOp.andi x v reducesTo_S3x2x128_S_d0_1_2 h_S_) main_v36 main_c_13
  let main_v38 : IVec S_ 1 := andi main_v33 main_v37
  let main_v39 : FVec F S3x2x128 .f32 := Host.absf main_arg14
  let main_cst_14 : FVec F S_ .f32 := constant S_ .f32 0x7F800000#32
  let main_v40 : FVec F S3x2x128 .f32 := broadcastInDim S3x2x128 ![] bcast_S_S3x2x128 main_cst_14
  let main_v41 : IVec S3x2x128 1 := cmpf .olt main_v39 main_v40
  let main_c_15 : IVec S_ 1 := constantI S_ 1 1#1
  let main_v42 : IVec S_ 1 := (fun x v => Host.reduce IntOp.andi x v reducesTo_S3x2x128_S_d0_1_2 h_S_) main_v41 main_c_15
  let main_v43 : IVec S_ 1 := andi main_v38 main_v42
  let main_v44 : FVec F S128x64 .f32 := Host.absf main_arg15
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg16
  let main_cst_18 : FVec F S_ .f32 := constant S_ .f32 0x7F800000#32
  let main_v50 : FVec F S64 .f32 := broadcastInDim S64 ![] bcast_S_S64 main_cst_18
  fn_part3 (F := F) main_arg17 main_arg18 main_v48 main_v49 main_v50

def fn_part1 {F : FTy → Type} [FloatOps F] (main_arg10 : FVec F S3x2x128x128 .f32) (main_arg11 : FVec F S3x2x128 .f32) (main_arg12 : FVec F S3x2x128 .f32) (main_arg13 : FVec F S3x2x128 .f32) (main_arg14 : FVec F S3x2x128 .f32) (main_arg15 : FVec F S128x64 .f32) (main_arg16 : FVec F S64 .f32) (main_arg17 : FVec F S64x2 .f32) (main_arg18 : FVec F S2 .f32) (main_v13 : IVec S_ 1) (main_v16 : IVec S3x2x128 1) : IVec S_ 1 :=
  let main_c_5 : IVec S_ 1 := constantI S_ 1 1#1
  let main_v17 : IVec S_ 1 := (fun x v => Host.reduce IntOp.andi x v reducesTo_S3x2x128_S_d0_1_2 h_S_) main_v16 main_c_5
  let main_v18 : IVec S_ 1 := andi main_v13 main_v17
  let main_v19 : FVec F S3x2x128x128 .f32 := Host.absf main_arg10
  let main_cst_6 : FVec F S_ .f32 := constant S_ .f32 0x7F800000#32
  let main_v20 : FVec F S3x2x128x128 .f32 := broadcastInDim S3x2x128x128 ![] bcast_S_S3x2x128x128 main_cst_6
  let main_v21 : IVec S3x2x128x128 1 := cmpf .olt main_v19 main_v20
  let main_c_7 : IVec S_ 1 := constantI S_ 1 1#1
  let main_v22 : IVec S_ 1 := (fun x v => Host.reduce IntOp.andi x v reducesTo_S3x2x128x128_S_d0_1_2_3 h_S_) main_v21 main_c_7
  let main_v23 : IVec S_ 1 := andi main_v18 main_v22
  let main_v24 : FVec F S3x2x128 .f32 := Host.absf main_arg11
  let main_cst_8 : FVec F S_ .f32 := constant S_ .f32 0x7F800000#32
  let main_v25 : FVec F S3x2x128 .f32 := broadcastInDim S3x2x128 ![] bcast_S_S3x2x128 main_cst_8
  let main_v26 : IVec S3x2x128 1 := cmpf .olt main_v24 main_v25
  let main_c_9 : IVec S_ 1 := constantI S_ 1 1#1
  let main_v27 : IVec S_ 1 := (fun x v => Host.reduce IntOp.andi x v reducesTo_S3x2x128_S_d0_1_2 h_S_) main_v26 main_c_9
  let main_v28 : IVec S_ 1 := andi main_v23 main_v27
  let main_v29 : FVec F S3x2x128 .f32 := Host.absf main_arg12
  let main_cst_10 : FVec F S_ .f32 := constant S_ .f32 0x7F800000#32
  let main_v30 : FVec F S3x2x128 .f32 := broadcastInDim S3x2x128 ![] bcast_S_S3x2x128 main_cst_10
  let main_v31 : IVec S3x2x128 1 := cmpf .olt main_v29 main_v30
  let main_c_11 : IVec S_ 1 := constantI S_ 1 1#1
  let main_v32 : IVec S_ 1 := (fun x v => Host.reduce IntOp.andi x v reducesTo_S3x2x128_S_d0_1_2 h_S_) main_v31 main_c_11
  let main_v33 : IVec S_ 1 := andi main_v28 main_v32
  fn_part2 (F := F) main_arg13 main_arg14 main_arg15 main_arg16 main_arg17 main_arg18 main_v33

def fn {F : FTy → Type} [FloatOps F] (main_arg0 : IVec S100000 32) (main_arg1 : IVec S400000 32) (main_arg2 : IVec S400000 32) (main_arg3 : IVec S400000 32) (main_arg4 : IVec S400000 32) (main_arg5 : IVec S400000 32) (main_arg6 : FVec F S10000x128 .f32) (main_arg7 : FVec F S10000x128 .f32) (main_arg8 : FVec F S3x2x128x128 .f32) (main_arg9 : FVec F S3x2x128 .f32) (main_arg10 : FVec F S3x2x128x128 .f32) (main_arg11 : FVec F S3x2x128 .f32) (main_arg12 : FVec F S3x2x128 .f32) (main_arg13 : FVec F S3x2x128 .f32) (main_arg14 : FVec F S3x2x128 .f32) (main_arg15 : FVec F S128x64 .f32) (main_arg16 : FVec F S64 .f32) (main_arg17 : FVec F S64x2 .f32) (main_arg18 : FVec F S2 .f32) : IVec S_ 1 :=
  let main_v0 : FVec F S10000x128 .f32 := Host.absf main_arg6
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x128 .f32 := Host.absf main_arg7
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S3x2x128x128 .f32 := Host.absf main_arg8
  let main_cst_2 : FVec F S_ .f32 := constant S_ .f32 0x7F800000#32
  let main_v10 : FVec F S3x2x128x128 .f32 := broadcastInDim S3x2x128x128 ![] bcast_S_S3x2x128x128 main_cst_2
  let main_v11 : IVec S3x2x128x128 1 := cmpf .olt main_v9 main_v10
  let main_c_3 : IVec S_ 1 := constantI S_ 1 1#1
  let main_v12 : IVec S_ 1 := (fun x v => Host.reduce IntOp.andi x v reducesTo_S3x2x128x128_S_d0_1_2_3 h_S_) main_v11 main_c_3
  let main_v13 : IVec S_ 1 := andi main_v8 main_v12
  let main_v14 : FVec F S3x2x128 .f32 := Host.absf main_arg9
  let main_cst_4 : FVec F S_ .f32 := constant S_ .f32 0x7F800000#32
  let main_v15 : FVec F S3x2x128 .f32 := broadcastInDim S3x2x128 ![] bcast_S_S3x2x128 main_cst_4
  let main_v16 : IVec S3x2x128 1 := cmpf .olt main_v14 main_v15
  fn_part1 (F := F) main_arg10 main_arg11 main_arg12 main_arg13 main_arg14 main_arg15 main_arg16 main_arg17 main_arg18 main_v13 main_v16
-- ==== Kernel.lean ====
abbrev S100000 : Shape := ⟨1, ![100000]⟩
abbrev S400000 : Shape := ⟨1, ![400000]⟩
abbrev S10000x128 : Shape := ⟨2, ![10000, 128]⟩
abbrev S3x2x128x128 : Shape := ⟨4, ![3, 2, 128, 128]⟩
abbrev S3x2x128 : Shape := ⟨3, ![3, 2, 128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S_ : Shape := ⟨0, ![]⟩
abbrev S100000x1 : Shape := ⟨2, ![100000, 1]⟩
abbrev S100000x128 : Shape := ⟨2, ![100000, 128]⟩
abbrev S400000x1 : Shape := ⟨2, ![400000, 1]⟩
abbrev S400000x128 : Shape := ⟨2, ![400000, 128]⟩
abbrev S1x1x128x128 : Shape := ⟨4, ![1, 1, 128, 128]⟩
abbrev S128x128 : Shape := ⟨2, ![128, 128]⟩
abbrev S1x1x128 : Shape := ⟨3, ![1, 1, 128]⟩
abbrev S128 : Shape := ⟨1, ![128]⟩
abbrev S1x128 : Shape := ⟨2, ![1, 128]⟩
abbrev S5000x128 : Shape := ⟨2, ![5000, 128]⟩
abbrev S500000x128 : Shape := ⟨2, ![500000, 128]⟩
abbrev S1x64 : Shape := ⟨2, ![1, 64]⟩
abbrev S1x2 : Shape := ⟨2, ![1, 2]⟩
abbrev S500000x2 : Shape := ⟨2, ![500000, 2]⟩
abbrev S5000x2 : Shape := ⟨2, ![5000, 2]⟩
abbrev S5000x64 : Shape := ⟨2, ![5000, 64]⟩

abbrev nBuf : Space → Nat
  | .hbm => 267
  | .vmem => 86
  | .smem => 0
  | _ => 0

abbrev hbmTy0_0 (i : Nat) : BufTy := match i % 128 with
  | 0 => ⟨S100000, .i32⟩
  | 1 => ⟨S400000, .i32⟩
  | 2 => ⟨S400000, .i32⟩
  | 3 => ⟨S400000, .i32⟩
  | 4 => ⟨S400000, .i32⟩
  | 5 => ⟨S400000, .i32⟩
  | 6 => ⟨S10000x128, .f32⟩
  | 7 => ⟨S10000x128, .f32⟩
  | 8 => ⟨S3x2x128x128, .f32⟩
  | 9 => ⟨S3x2x128, .f32⟩
  | 10 => ⟨S3x2x128x128, .f32⟩
  | 11 => ⟨S3x2x128, .f32⟩
  | 12 => ⟨S3x2x128, .f32⟩
  | 13 => ⟨S3x2x128, .f32⟩
  | 14 => ⟨S3x2x128, .f32⟩
  | 15 => ⟨S128x64, .f32⟩
  | 16 => ⟨S64, .f32⟩
  | 17 => ⟨S64x2, .f32⟩
  | 18 => ⟨S2, .f32⟩
  | 19 => ⟨S_, .i32⟩
  | 20 => ⟨S100000, .i32⟩
  | 21 => ⟨S100000, .i1⟩
  | 22 => ⟨S_, .i32⟩
  | 23 => ⟨S100000, .i32⟩
  | 24 => ⟨S100000, .i32⟩
  | 25 => ⟨S100000, .i32⟩
  | 26 => ⟨S100000x1, .i32⟩
  | 27 => ⟨S100000x128, .f32⟩
  | 28 => ⟨S_, .i32⟩
  | 29 => ⟨S400000, .i32⟩
  | 30 => ⟨S400000, .i1⟩
  | 31 => ⟨S_, .i32⟩
  | 32 => ⟨S400000, .i32⟩
  | 33 => ⟨S400000, .i32⟩
  | 34 => ⟨S400000, .i32⟩
  | 35 => ⟨S400000x1, .i32⟩
  | 36 => ⟨S400000x128, .f32⟩
  | 37 => ⟨S_, .f32⟩
  | 38 => ⟨S400000x1, .f32⟩
  | 39 => ⟨S_, .f32⟩
  | 40 => ⟨S400000x1, .f32⟩
  | 41 => ⟨S400000x1, .i32⟩
  | 42 => ⟨S400000x1, .f32⟩
  | 43 => ⟨S_, .f32⟩
  | 44 => ⟨S400000x1, .f32⟩
  | 45 => ⟨S400000x1, .f32⟩
  | 46 => ⟨S_, .f32⟩
  | 47 => ⟨S100000x1, .f32⟩
  | 48 => ⟨S400000x1, .i32⟩
  | 49 => ⟨S100000x1, .f32⟩
  | 50 => ⟨S_, .f32⟩
  | 51 => ⟨S100000x1, .f32⟩
  | 52 => ⟨S100000x1, .f32⟩
  | 53 => ⟨S_, .i32⟩
  | 54 => ⟨S400000, .i32⟩
  | 55 => ⟨S400000, .i1⟩
  | 56 => ⟨S_, .i32⟩
  | 57 => ⟨S400000, .i32⟩
  | 58 => ⟨S400000, .i32⟩
  | 59 => ⟨S400000, .i32⟩
  | 60 => ⟨S400000x1, .i32⟩
  | 61 => ⟨S400000x128, .f32⟩
  | 62 => ⟨S_, .f32⟩
  | 63 => ⟨S400000x128, .f32⟩
  | 64 => ⟨S400000x1, .i32⟩
  | 65 => ⟨S400000x128, .f32⟩
  | 66 => ⟨S400000x128, .f32⟩
  | 67 => ⟨S400000x128, .f32⟩
  | 68 => ⟨S_, .i32⟩
  | 69 => ⟨S400000, .i32⟩
  | 70 => ⟨S400000, .i1⟩
  | 71 => ⟨S_, .i32⟩
  | 72 => ⟨S400000, .i32⟩
  | 73 => ⟨S400000, .i32⟩
  | 74 => ⟨S400000, .i32⟩
  | 75 => ⟨S400000x1, .i32⟩
  | 76 => ⟨S400000x128, .f32⟩
  | 77 => ⟨S_, .f32⟩
  | 78 => ⟨S100000x128, .f32⟩
  | 79 => ⟨S400000x1, .i32⟩
  | 80 => ⟨S100000x128, .f32⟩
  | 81 => ⟨S100000x128, .f32⟩
  | 82 => ⟨S100000x128, .f32⟩
  | 83 => ⟨S1x1x128x128, .f32⟩
  | 84 => ⟨S128x128, .f32⟩
  | 85 => ⟨S1x1x128x128, .f32⟩
  | 86 => ⟨S128x128, .f32⟩
  | 87 => ⟨S1x1x128, .f32⟩
  | 88 => ⟨S128, .f32⟩
  | 89 => ⟨S1x128, .f32⟩
  | 90 => ⟨S1x1x128, .f32⟩
  | 91 => ⟨S128, .f32⟩
  | 92 => ⟨S1x128, .f32⟩
  | 93 => ⟨S1x1x128, .f32⟩
  | 94 => ⟨S128, .f32⟩
  | 95 => ⟨S1x128, .f32⟩
  | 96 => ⟨S1x1x128, .f32⟩
  | 97 => ⟨S128, .f32⟩
  | 98 => ⟨S1x128, .f32⟩
  | 99 => ⟨S1x1x128, .f32⟩
  | 100 => ⟨S128, .f32⟩
  | 101 => ⟨S1x128, .f32⟩
  | 102 => ⟨S1x1x128x128, .f32⟩
  | 103 => ⟨S128x128, .f32⟩
  | 104 => ⟨S1x1x128x128, .f32⟩
  | 105 => ⟨S128x128, .f32⟩
  | 106 => ⟨S1x1x128, .f32⟩
  | 107 => ⟨S128, .f32⟩
  | 108 => ⟨S1x128, .f32⟩
  | 109 => ⟨S1x1x128, .f32⟩
  | 110 => ⟨S128, .f32⟩
  | 111 => ⟨S1x128, .f32⟩
  | 112 => ⟨S1x1x128, .f32⟩
  | 113 => ⟨S128, .f32⟩
  | 114 => ⟨S1x128, .f32⟩
  | 115 => ⟨S1x1x128, .f32⟩
  | 116 => ⟨S128, .f32⟩
  | 117 => ⟨S1x128, .f32⟩
  | 118 => ⟨S1x1x128, .f32⟩
  | 119 => ⟨S128, .f32⟩
  | 120 => ⟨S1x128, .f32⟩
  | 121 => ⟨S400000x128, .f32⟩
  | 122 => ⟨S100000x128, .f32⟩
  | 123 => ⟨S_, .i32⟩
  | 124 => ⟨S400000, .i32⟩
  | 125 => ⟨S400000, .i1⟩
  | 126 => ⟨S_, .i32⟩
  | 127 => ⟨S400000, .i32⟩
  | _ => ⟨S100000, .i32⟩

abbrev hbmTy0_1 (i : Nat) : BufTy := match i % 128 with
  | 0 => ⟨S400000, .i32⟩
  | 1 => ⟨S400000, .i32⟩
  | 2 => ⟨S400000x1, .i32⟩
  | 3 => ⟨S400000x128, .f32⟩
  | 4 => ⟨S_, .f32⟩
  | 5 => ⟨S400000x128, .f32⟩
  | 6 => ⟨S400000x1, .i32⟩
  | 7 => ⟨S400000x128, .f32⟩
  | 8 => ⟨S400000x128, .f32⟩
  | 9 => ⟨S400000x128, .f32⟩
  | 10 => ⟨S_, .i32⟩
  | 11 => ⟨S400000, .i32⟩
  | 12 => ⟨S400000, .i1⟩
  | 13 => ⟨S_, .i32⟩
  | 14 => ⟨S400000, .i32⟩
  | 15 => ⟨S400000, .i32⟩
  | 16 => ⟨S400000, .i32⟩
  | 17 => ⟨S400000x1, .i32⟩
  | 18 => ⟨S400000x128, .f32⟩
  | 19 => ⟨S_, .f32⟩
  | 20 => ⟨S100000x128, .f32⟩
  | 21 => ⟨S400000x1, .i32⟩
  | 22 => ⟨S100000x128, .f32⟩
  | 23 => ⟨S100000x128, .f32⟩
  | 24 => ⟨S100000x128, .f32⟩
  | 25 => ⟨S1x1x128x128, .f32⟩
  | 26 => ⟨S128x128, .f32⟩
  | 27 => ⟨S1x1x128x128, .f32⟩
  | 28 => ⟨S128x128, .f32⟩
  | 29 => ⟨S1x1x128, .f32⟩
  | 30 => ⟨S128, .f32⟩
  | 31 => ⟨S1x128, .f32⟩
  | 32 => ⟨S1x1x128, .f32⟩
  | 33 => ⟨S128, .f32⟩
  | 34 => ⟨S1x128, .f32⟩
  | 35 => ⟨S1x1x128, .f32⟩
  | 36 => ⟨S128, .f32⟩
  | 37 => ⟨S1x128, .f32⟩
  | 38 => ⟨S1x1x128, .f32⟩
  | 39 => ⟨S128, .f32⟩
  | 40 => ⟨S1x128, .f32⟩
  | 41 => ⟨S1x1x128, .f32⟩
  | 42 => ⟨S128, .f32⟩
  | 43 => ⟨S1x128, .f32⟩
  | 44 => ⟨S1x1x128x128, .f32⟩
  | 45 => ⟨S128x128, .f32⟩
  | 46 => ⟨S1x1x128x128, .f32⟩
  | 47 => ⟨S128x128, .f32⟩
  | 48 => ⟨S1x1x128, .f32⟩
  | 49 => ⟨S128, .f32⟩
  | 50 => ⟨S1x128, .f32⟩
  | 51 => ⟨S1x1x128, .f32⟩
  | 52 => ⟨S128, .f32⟩
  | 53 => ⟨S1x128, .f32⟩
  | 54 => ⟨S1x1x128, .f32⟩
  | 55 => ⟨S128, .f32⟩
  | 56 => ⟨S1x128, .f32⟩
  | 57 => ⟨S1x1x128, .f32⟩
  | 58 => ⟨S128, .f32⟩
  | 59 => ⟨S1x128, .f32⟩
  | 60 => ⟨S1x1x128, .f32⟩
  | 61 => ⟨S128, .f32⟩
  | 62 => ⟨S1x128, .f32⟩
  | 63 => ⟨S400000x128, .f32⟩
  | 64 => ⟨S100000x128, .f32⟩
  | 65 => ⟨S_, .i32⟩
  | 66 => ⟨S400000, .i32⟩
  | 67 => ⟨S400000, .i1⟩
  | 68 => ⟨S_, .i32⟩
  | 69 => ⟨S400000, .i32⟩
  | 70 => ⟨S400000, .i32⟩
  | 71 => ⟨S400000, .i32⟩
  | 72 => ⟨S400000x1, .i32⟩
  | 73 => ⟨S400000x128, .f32⟩
  | 74 => ⟨S_, .f32⟩
  | 75 => ⟨S400000x128, .f32⟩
  | 76 => ⟨S400000x1, .i32⟩
  | 77 => ⟨S400000x128, .f32⟩
  | 78 => ⟨S400000x128, .f32⟩
  | 79 => ⟨S400000x128, .f32⟩
  | 80 => ⟨S_, .i32⟩
  | 81 => ⟨S400000, .i32⟩
  | 82 => ⟨S400000, .i1⟩
  | 83 => ⟨S_, .i32⟩
  | 84 => ⟨S400000, .i32⟩
  | 85 => ⟨S400000, .i32⟩
  | 86 => ⟨S400000, .i32⟩
  | 87 => ⟨S400000x1, .i32⟩
  | 88 => ⟨S400000x128, .f32⟩
  | 89 => ⟨S_, .f32⟩
  | 90 => ⟨S100000x128, .f32⟩
  | 91 => ⟨S400000x1, .i32⟩
  | 92 => ⟨S100000x128, .f32⟩
  | 93 => ⟨S100000x128, .f32⟩
  | 94 => ⟨S100000x128, .f32⟩
  | 95 => ⟨S1x1x128x128, .f32⟩
  | 96 => ⟨S128x128, .f32⟩
  | 97 => ⟨S1x1x128x128, .f32⟩
  | 98 => ⟨S128x128, .f32⟩
  | 99 => ⟨S1x1x128, .f32⟩
  | 100 => ⟨S128, .f32⟩
  | 101 => ⟨S1x128, .f32⟩
  | 102 => ⟨S1x1x128, .f32⟩
  | 103 => ⟨S128, .f32⟩
  | 104 => ⟨S1x128, .f32⟩
  | 105 => ⟨S1x1x128, .f32⟩
  | 106 => ⟨S128, .f32⟩
  | 107 => ⟨S1x128, .f32⟩
  | 108 => ⟨S1x1x128, .f32⟩
  | 109 => ⟨S128, .f32⟩
  | 110 => ⟨S1x128, .f32⟩
  | 111 => ⟨S1x1x128, .f32⟩
  | 112 => ⟨S128, .f32⟩
  | 113 => ⟨S1x128, .f32⟩
  | 114 => ⟨S1x1x128x128, .f32⟩
  | 115 => ⟨S128x128, .f32⟩
  | 116 => ⟨S1x1x128x128, .f32⟩
  | 117 => ⟨S128x128, .f32⟩
  | 118 => ⟨S1x1x128, .f32⟩
  | 119 => ⟨S128, .f32⟩
  | 120 => ⟨S1x128, .f32⟩
  | 121 => ⟨S1x1x128, .f32⟩
  | 122 => ⟨S128, .f32⟩
  | 123 => ⟨S1x128, .f32⟩
  | 124 => ⟨S1x1x128, .f32⟩
  | 125 => ⟨S128, .f32⟩
  | 126 => ⟨S1x128, .f32⟩
  | 127 => ⟨S1x1x128, .f32⟩
  | _ => ⟨S100000, .i32⟩

abbrev hbmTy0_2 (i : Nat) : BufTy := match i % 128 with
  | 0 => ⟨S128, .f32⟩
  | 1 => ⟨S1x128, .f32⟩
  | 2 => ⟨S1x1x128, .f32⟩
  | 3 => ⟨S128, .f32⟩
  | 4 => ⟨S1x128, .f32⟩
  | 5 => ⟨S400000x128, .f32⟩
  | 6 => ⟨S100000x128, .f32⟩
  | 7 => ⟨S500000x128, .f32⟩
  | 8 => ⟨S1x64, .f32⟩
  | 9 => ⟨S1x2, .f32⟩
  | 10 => ⟨S500000x2, .f32⟩
  | _ => ⟨S100000, .i32⟩

abbrev hbmTy (i : Nat) : BufTy := match i / 128 with
  | 0 => hbmTy0_0 i
  | 1 => hbmTy0_1 i
  | 2 => hbmTy0_2 i
  | _ => ⟨S100000, .i32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x128, .f32⟩
  | .local _ .vmem, ⟨31, _⟩ => ⟨S128x128, .f32⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S128x128, .f32⟩
  | .local _ .vmem, ⟨44, _⟩ => ⟨S128x128, .f32⟩
  | .local _ .vmem, ⟨45, _⟩ => ⟨S1x128, .f32⟩
  | .local _ .vmem, ⟨46, _⟩ => ⟨S1x128, .f32⟩
  | .local _ .vmem, ⟨47, _⟩ => ⟨S1x128, .f32⟩
  | .local _ .vmem, ⟨48, _⟩ => ⟨S1x128, .f32⟩
  | .local _ .vmem, ⟨49, _⟩ => ⟨S1x128, .f32⟩
  | .local _ .vmem, ⟨50, _⟩ => ⟨S5000x128, .f32⟩
  | .local _ .vmem, ⟨51, _⟩ => ⟨S5000x128, .f32⟩
  | .local _ .vmem, ⟨52, _⟩ => ⟨S5000x128, .f32⟩
  | .local _ .vmem, ⟨53, _⟩ => ⟨S5000x128, .f32⟩
  | .local _ .vmem, ⟨54, _⟩ => ⟨S5000x128, .f32⟩
  | .local _ .vmem, ⟨55, _⟩ => ⟨S5000x128, .f32⟩
  | .local _ .vmem, ⟨56, _⟩ => ⟨S128x128, .f32⟩
  | .local _ .vmem, ⟨57, _⟩ => ⟨S128x128, .f32⟩
  | .local _ .vmem, ⟨58, _⟩ => ⟨S1x128, .f32⟩
  | .local _ .vmem, ⟨59, _⟩ => ⟨S1x128, .f32⟩
  | .local _ .vmem, ⟨60, _⟩ => ⟨S1x128, .f32⟩
  | .local _ .vmem, ⟨61, _⟩ => ⟨S1x128, .f32⟩
  | .local _ .vmem, ⟨62, _⟩ => ⟨S1x128, .f32⟩
  | .local _ .vmem, ⟨63, _⟩ => ⟨S5000x128, .f32⟩
  | .local _ .vmem, ⟨64, _⟩ => ⟨S5000x128, .f32⟩
  | .local _ .vmem, ⟨65, _⟩ => ⟨S5000x128, .f32⟩
  | .local _ .vmem, ⟨66, _⟩ => ⟨S5000x128, .f32⟩
  | .local _ .vmem, ⟨67, _⟩ => ⟨S5000x128, .f32⟩
  | .local _ .vmem, ⟨68, _⟩ => ⟨S5000x128, .f32⟩
  | .local _ .vmem, ⟨69, _⟩ => ⟨S128x128, .f32⟩
  | .local _ .vmem, ⟨70, _⟩ => ⟨S128x128, .f32⟩
  | .local _ .vmem, ⟨71, _⟩ => ⟨S1x128, .f32⟩
  | .local _ .vmem, ⟨72, _⟩ => ⟨S1x128, .f32⟩
  | .local _ .vmem, ⟨73, _⟩ => ⟨S1x128, .f32⟩
  | .local _ .vmem, ⟨74, _⟩ => ⟨S1x128, .f32⟩
  | .local _ .vmem, ⟨75, _⟩ => ⟨S1x128, .f32⟩
  | .local _ .vmem, ⟨76, _⟩ => ⟨S5000x128, .f32⟩
  | .local _ .vmem, ⟨77, _⟩ => ⟨S5000x128, .f32⟩
  | .local _ .vmem, ⟨78, _⟩ => ⟨S5000x128, .f32⟩
  | .local _ .vmem, ⟨79, _⟩ => ⟨S5000x128, .f32⟩
  | .local _ .vmem, ⟨80, _⟩ => ⟨S128x64, .f32⟩
  | .local _ .vmem, ⟨81, _⟩ => ⟨S1x64, .f32⟩
  | .local _ .vmem, ⟨82, _⟩ => ⟨S64x2, .f32⟩
  | .local _ .vmem, ⟨83, _⟩ => ⟨S1x2, .f32⟩
  | .local _ .vmem, ⟨84, _⟩ => ⟨S5000x2, .f32⟩
  | .local _ .vmem, ⟨85, _⟩ => ⟨S5000x2, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | _, _ => false

abbrev semScoped : Fin 0 → Bool
  | ⟨_, h⟩ => absurd h (Nat.not_lt_zero _)

abbrev dmaSemScoped : Fin 86 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | _ => false

abbrev sig : RefSig :=
  ofTc nBuf bufTy 0 86 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_v0 : Ref sig .tc := ⟨.hbm, 20, rfl⟩
abbrev main_v1 : Ref sig .tc := ⟨.hbm, 21, rfl⟩
abbrev main_c_0 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_c_1 : Ref sig .tc := ⟨.hbm, 28, rfl⟩
abbrev main_v7 : Ref sig .tc := ⟨.hbm, 29, rfl⟩
abbrev main_v8 : Ref sig .tc := ⟨.hbm, 30, rfl⟩
abbrev main_c_2 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_cst : Ref sig .tc := ⟨.hbm, 37, rfl⟩
abbrev main_v14 : Ref sig .tc := ⟨.hbm, 38, rfl⟩
abbrev main_cst_3 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_cst_4 : Ref sig .tc := ⟨.hbm, 43, rfl⟩
abbrev main_v18 : Ref sig .tc := ⟨.hbm, 44, rfl⟩
abbrev main_v19 : Ref sig .tc := ⟨.hbm, 45, rfl⟩
abbrev main_cst_5 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_cst_6 : Ref sig .tc := ⟨.hbm, 50, rfl⟩
abbrev main_v23 : Ref sig .tc := ⟨.hbm, 51, rfl⟩
abbrev main_v24 : Ref sig .tc := ⟨.hbm, 52, rfl⟩
abbrev main_c_7 : Ref sig .tc := ⟨.hbm, 53, rfl⟩
abbrev main_v25 : Ref sig .tc := ⟨.hbm, 54, rfl⟩
abbrev main_v26 : Ref sig .tc := ⟨.hbm, 55, rfl⟩
abbrev main_c_8 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_cst_9 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_c_10 : Ref sig .tc := ⟨.hbm, 68, rfl⟩
abbrev main_v37 : Ref sig .tc := ⟨.hbm, 69, rfl⟩
abbrev main_v38 : Ref sig .tc := ⟨.hbm, 70, rfl⟩
abbrev main_c_11 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_cst_12 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_c_13 : Ref sig .tc := ⟨.hbm, 123, rfl⟩
abbrev main_v89 : Ref sig .tc := ⟨.hbm, 124, rfl⟩
abbrev main_v90 : Ref sig .tc := ⟨.hbm, 125, rfl⟩
abbrev main_c_14 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_cst_15 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_c_16 : Ref sig .tc := ⟨.hbm, 138, rfl⟩
abbrev main_v101 : Ref sig .tc := ⟨.hbm, 139, rfl⟩
abbrev main_v102 : Ref sig .tc := ⟨.hbm, 140, rfl⟩
abbrev main_c_17 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_cst_18 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_c_19 : Ref sig .tc := ⟨.hbm, 193, rfl⟩
abbrev main_v153 : Ref sig .tc := ⟨.hbm, 194, rfl⟩
abbrev main_v154 : Ref sig .tc := ⟨.hbm, 195, rfl⟩
abbrev main_c_20 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_cst_21 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_c_22 : Ref sig .tc := ⟨.hbm, 208, rfl⟩
abbrev main_v165 : Ref sig .tc := ⟨.hbm, 209, rfl⟩
abbrev main_v166 : Ref sig .tc := ⟨.hbm, 210, rfl⟩
abbrev main_c_23 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩
abbrev main_v170 : Ref sig .tc := ⟨.hbm, 215, rfl⟩
abbrev main_v171 : Ref sig .tc := ⟨.hbm, 216, rfl⟩
abbrev main_cst_24 : Ref sig .tc := ⟨.hbm, 217, rfl⟩
abbrev main_v172 : Ref sig .tc := ⟨.hbm, 218, rfl⟩
abbrev main_v173 : Ref sig .tc := ⟨.hbm, 219, rfl⟩
abbrev main_v174 : Ref sig .tc := ⟨.hbm, 220, rfl⟩
abbrev main_v175 : Ref sig .tc := ⟨.hbm, 221, rfl⟩
abbrev main_v176 : Ref sig .tc := ⟨.hbm, 222, rfl⟩
abbrev main_v177 : Ref sig .tc := ⟨.hbm, 223, rfl⟩
abbrev main_v178 : Ref sig .tc := ⟨.hbm, 224, rfl⟩
abbrev main_v179 : Ref sig .tc := ⟨.hbm, 225, rfl⟩
abbrev main_v180 : Ref sig .tc := ⟨.hbm, 226, rfl⟩
abbrev main_v181 : Ref sig .tc := ⟨.hbm, 227, rfl⟩
abbrev main_v182 : Ref sig .tc := ⟨.hbm, 228, rfl⟩
abbrev main_v183 : Ref sig .tc := ⟨.hbm, 229, rfl⟩
abbrev main_v184 : Ref sig .tc := ⟨.hbm, 230, rfl⟩
abbrev main_v185 : Ref sig .tc := ⟨.hbm, 231, rfl⟩
abbrev main_v186 : Ref sig .tc := ⟨.hbm, 232, rfl⟩
abbrev main_v187 : Ref sig .tc := ⟨.hbm, 233, rfl⟩
abbrev main_v188 : Ref sig .tc := ⟨.hbm, 234, rfl⟩
abbrev main_v189 : Ref sig .tc := ⟨.hbm, 235, rfl⟩
abbrev main_v190 : Ref sig .tc := ⟨.hbm, 236, rfl⟩
abbrev main_v191 : Ref sig .tc := ⟨.hbm, 237, rfl⟩
abbrev main_v192 : Ref sig .tc := ⟨.hbm, 238, rfl⟩
abbrev main_v193 : Ref sig .tc := ⟨.hbm, 239, rfl⟩
abbrev main_v194 : Ref sig .tc := ⟨.hbm, 240, rfl⟩
abbrev main_v195 : Ref sig .tc := ⟨.hbm, 241, rfl⟩
abbrev main_v196 : Ref sig .tc := ⟨.hbm, 242, rfl⟩
abbrev main_v197 : Ref sig .tc := ⟨.hbm, 243, rfl⟩
abbrev main_v198 : Ref sig .tc := ⟨.hbm, 244, rfl⟩
abbrev main_v199 : Ref sig .tc := ⟨.hbm, 245, rfl⟩
abbrev main_v200 : Ref sig .tc := ⟨.hbm, 246, rfl⟩
abbrev main_v201 : Ref sig .tc := ⟨.hbm, 247, rfl⟩
abbrev main_v202 : Ref sig .tc := ⟨.hbm, 248, rfl⟩
abbrev main_v203 : Ref sig .tc := ⟨.hbm, 249, rfl⟩
abbrev main_v204 : Ref sig .tc := ⟨.hbm, 250, rfl⟩
abbrev main_v205 : Ref sig .tc := ⟨.hbm, 251, rfl⟩
abbrev main_v206 : Ref sig .tc := ⟨.hbm, 252, rfl⟩
abbrev main_v207 : Ref sig .tc := ⟨.hbm, 253, rfl⟩
abbrev main_v208 : Ref sig .tc := ⟨.hbm, 254, rfl⟩
abbrev main_v209 : Ref sig .tc := ⟨.hbm, 255, rfl⟩
abbrev main_v210 : Ref sig .tc := ⟨.hbm, 256, rfl⟩
abbrev main_v211 : Ref sig .tc := ⟨.hbm, 257, rfl⟩
abbrev main_v212 : Ref sig .tc := ⟨.hbm, 258, rfl⟩
abbrev main_v213 : Ref sig .tc := ⟨.hbm, 259, rfl⟩
abbrev main_v214 : Ref sig .tc := ⟨.hbm, 260, rfl⟩
abbrev main_v215 : Ref sig .tc := ⟨.hbm, 261, rfl⟩
abbrev main_v216 : Ref sig .tc := ⟨.hbm, 262, rfl⟩
abbrev main_v217 : Ref sig .tc := ⟨.hbm, 263, rfl⟩
abbrev main_v218 : Ref sig .tc := ⟨.hbm, 264, rfl⟩
abbrev main_v219 : Ref sig .tc := ⟨.hbm, 265, rfl⟩
abbrev main_v220 : Ref sig .tc := ⟨.hbm, 266, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg9_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg6_0 : Ref sig .tc := ⟨.vmem, 34, rfl⟩
abbrev cc2_stg7_0 : Ref sig .tc := ⟨.vmem, 35, rfl⟩
abbrev cc2_stg8_0 : Ref sig .tc := ⟨.vmem, 36, rfl⟩
abbrev cc2_stg9_0 : Ref sig .tc := ⟨.vmem, 37, rfl⟩
abbrev cc2_stg9_1 : Ref sig .tc := ⟨.vmem, 38, rfl⟩
abbrev cc3_stg0_0 : Ref sig .tc := ⟨.vmem, 39, rfl⟩
abbrev cc3_stg0_1 : Ref sig .tc := ⟨.vmem, 40, rfl⟩
abbrev cc3_stg1_0 : Ref sig .tc := ⟨.vmem, 41, rfl⟩
abbrev cc3_stg1_1 : Ref sig .tc := ⟨.vmem, 42, rfl⟩
abbrev cc3_stg2_0 : Ref sig .tc := ⟨.vmem, 43, rfl⟩
abbrev cc3_stg3_0 : Ref sig .tc := ⟨.vmem, 44, rfl⟩
abbrev cc3_stg4_0 : Ref sig .tc := ⟨.vmem, 45, rfl⟩
abbrev cc3_stg5_0 : Ref sig .tc := ⟨.vmem, 46, rfl⟩
abbrev cc3_stg6_0 : Ref sig .tc := ⟨.vmem, 47, rfl⟩
abbrev cc3_stg7_0 : Ref sig .tc := ⟨.vmem, 48, rfl⟩
abbrev cc3_stg8_0 : Ref sig .tc := ⟨.vmem, 49, rfl⟩
abbrev cc3_stg9_0 : Ref sig .tc := ⟨.vmem, 50, rfl⟩
abbrev cc3_stg9_1 : Ref sig .tc := ⟨.vmem, 51, rfl⟩
abbrev cc4_stg0_0 : Ref sig .tc := ⟨.vmem, 52, rfl⟩
abbrev cc4_stg0_1 : Ref sig .tc := ⟨.vmem, 53, rfl⟩
abbrev cc4_stg1_0 : Ref sig .tc := ⟨.vmem, 54, rfl⟩
abbrev cc4_stg1_1 : Ref sig .tc := ⟨.vmem, 55, rfl⟩
abbrev cc4_stg2_0 : Ref sig .tc := ⟨.vmem, 56, rfl⟩
abbrev cc4_stg3_0 : Ref sig .tc := ⟨.vmem, 57, rfl⟩
abbrev cc4_stg4_0 : Ref sig .tc := ⟨.vmem, 58, rfl⟩
abbrev cc4_stg5_0 : Ref sig .tc := ⟨.vmem, 59, rfl⟩
abbrev cc4_stg6_0 : Ref sig .tc := ⟨.vmem, 60, rfl⟩
abbrev cc4_stg7_0 : Ref sig .tc := ⟨.vmem, 61, rfl⟩
abbrev cc4_stg8_0 : Ref sig .tc := ⟨.vmem, 62, rfl⟩
abbrev cc4_stg9_0 : Ref sig .tc := ⟨.vmem, 63, rfl⟩
abbrev cc4_stg9_1 : Ref sig .tc := ⟨.vmem, 64, rfl⟩
abbrev cc5_stg0_0 : Ref sig .tc := ⟨.vmem, 65, rfl⟩
abbrev cc5_stg0_1 : Ref sig .tc := ⟨.vmem, 66, rfl⟩
abbrev cc5_stg1_0 : Ref sig .tc := ⟨.vmem, 67, rfl⟩
abbrev cc5_stg1_1 : Ref sig .tc := ⟨.vmem, 68, rfl⟩
abbrev cc5_stg2_0 : Ref sig .tc := ⟨.vmem, 69, rfl⟩
abbrev cc5_stg3_0 : Ref sig .tc := ⟨.vmem, 70, rfl⟩
abbrev cc5_stg4_0 : Ref sig .tc := ⟨.vmem, 71, rfl⟩
abbrev cc5_stg5_0 : Ref sig .tc := ⟨.vmem, 72, rfl⟩
abbrev cc5_stg6_0 : Ref sig .tc := ⟨.vmem, 73, rfl⟩
abbrev cc5_stg7_0 : Ref sig .tc := ⟨.vmem, 74, rfl⟩
abbrev cc5_stg8_0 : Ref sig .tc := ⟨.vmem, 75, rfl⟩
abbrev cc5_stg9_0 : Ref sig .tc := ⟨.vmem, 76, rfl⟩
abbrev cc5_stg9_1 : Ref sig .tc := ⟨.vmem, 77, rfl⟩
abbrev cc6_stg0_0 : Ref sig .tc := ⟨.vmem, 78, rfl⟩
abbrev cc6_stg0_1 : Ref sig .tc := ⟨.vmem, 79, rfl⟩
abbrev cc6_stg1_0 : Ref sig .tc := ⟨.vmem, 80, rfl⟩
abbrev cc6_stg2_0 : Ref sig .tc := ⟨.vmem, 81, rfl⟩
abbrev cc6_stg3_0 : Ref sig .tc := ⟨.vmem, 82, rfl⟩
abbrev cc6_stg4_0 : Ref sig .tc := ⟨.vmem, 83, rfl⟩
abbrev cc6_stg5_0 : Ref sig .tc := ⟨.vmem, 84, rfl⟩
abbrev cc6_stg5_1 : Ref sig .tc := ⟨.vmem, 85, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem9_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem3_0 : DmaSem sig := 31
abbrev cc2_sem4_0 : DmaSem sig := 32
abbrev cc2_sem5_0 : DmaSem sig := 33
abbrev cc2_sem6_0 : DmaSem sig := 34
abbrev cc2_sem7_0 : DmaSem sig := 35
abbrev cc2_sem8_0 : DmaSem sig := 36
abbrev cc2_sem9_0 : DmaSem sig := 37
abbrev cc2_sem9_1 : DmaSem sig := 38
abbrev cc3_sem0_0 : DmaSem sig := 39
abbrev cc3_sem0_1 : DmaSem sig := 40
abbrev cc3_sem1_0 : DmaSem sig := 41
abbrev cc3_sem1_1 : DmaSem sig := 42
abbrev cc3_sem2_0 : DmaSem sig := 43
abbrev cc3_sem3_0 : DmaSem sig := 44
abbrev cc3_sem4_0 : DmaSem sig := 45
abbrev cc3_sem5_0 : DmaSem sig := 46
abbrev cc3_sem6_0 : DmaSem sig := 47
abbrev cc3_sem7_0 : DmaSem sig := 48
abbrev cc3_sem8_0 : DmaSem sig := 49
abbrev cc3_sem9_0 : DmaSem sig := 50
abbrev cc3_sem9_1 : DmaSem sig := 51
abbrev cc4_sem0_0 : DmaSem sig := 52
abbrev cc4_sem0_1 : DmaSem sig := 53
abbrev cc4_sem1_0 : DmaSem sig := 54
abbrev cc4_sem1_1 : DmaSem sig := 55
abbrev cc4_sem2_0 : DmaSem sig := 56
abbrev cc4_sem3_0 : DmaSem sig := 57
abbrev cc4_sem4_0 : DmaSem sig := 58
abbrev cc4_sem5_0 : DmaSem sig := 59
abbrev cc4_sem6_0 : DmaSem sig := 60
abbrev cc4_sem7_0 : DmaSem sig := 61
abbrev cc4_sem8_0 : DmaSem sig := 62
abbrev cc4_sem9_0 : DmaSem sig := 63
abbrev cc4_sem9_1 : DmaSem sig := 64
abbrev cc5_sem0_0 : DmaSem sig := 65
abbrev cc5_sem0_1 : DmaSem sig := 66
abbrev cc5_sem1_0 : DmaSem sig := 67
abbrev cc5_sem1_1 : DmaSem sig := 68
abbrev cc5_sem2_0 : DmaSem sig := 69
abbrev cc5_sem3_0 : DmaSem sig := 70
abbrev cc5_sem4_0 : DmaSem sig := 71
abbrev cc5_sem5_0 : DmaSem sig := 72
abbrev cc5_sem6_0 : DmaSem sig := 73
abbrev cc5_sem7_0 : DmaSem sig := 74
abbrev cc5_sem8_0 : DmaSem sig := 75
abbrev cc5_sem9_0 : DmaSem sig := 76
abbrev cc5_sem9_1 : DmaSem sig := 77
abbrev cc6_sem0_0 : DmaSem sig := 78
abbrev cc6_sem0_1 : DmaSem sig := 79
abbrev cc6_sem1_0 : DmaSem sig := 80
abbrev cc6_sem2_0 : DmaSem sig := 81
abbrev cc6_sem3_0 : DmaSem sig := 82
abbrev cc6_sem4_0 : DmaSem sig := 83
abbrev cc6_sem5_0 : DmaSem sig := 84
abbrev cc6_sem5_1 : DmaSem sig := 85

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![80], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S5000x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S5000x128 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev grid4 : Pipeline.Grid := ⟨1, ![80], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 2 → Memref sig .tc .vmem S5000x128 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x128 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S1x128 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 2 → Memref sig .tc .vmem S5000x128 .f32 := fun | 0 => Memref.whole cc5_stg9_0 | 1 => Memref.whole cc5_stg9_1 | ⟨_ + 2, h⟩ => absurd h (Nat.not_lt.2 (Nat.le_add_left _ _))
abbrev sem5_9 : Fin 2 → DmaSem sig := fun | 0 => cc5_sem9_0 | 1 => cc5_sem9_1 | ⟨_ + 2, h⟩ => absurd h (Nat.not_lt.2 (Nat.le_add_left _ _))
abbrev reads5_9 : Fin grid5.rank → Bool := ![true]

abbrev grid6 : Pipeline.Grid := ⟨1, ![100], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x2 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x2 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x2 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  bcast_S_S400000 : S_.BroadcastsInDim S400000 (![] : Fin 0 → Fin S400000.rank)
  bcast_S400000_S400000x1_0 : S400000.BroadcastsInDim S400000x1 (![0] : Fin 1 → Fin S400000x1.rank)
  bcast_S_S400000x1 : S_.BroadcastsInDim S400000x1 (![] : Fin 0 → Fin S400000x1.rank)
  bcast_S_S100000x1 : S_.BroadcastsInDim S100000x1 (![] : Fin 0 → Fin S100000x1.rank)
  bcast_S_S400000x128 : S_.BroadcastsInDim S400000x128 (![] : Fin 0 → Fin S400000x128.rank)
  bcast_S400000x1_S400000x128_0_1 : S400000x1.BroadcastsInDim S400000x128 (![0, 1] : Fin 2 → Fin S400000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  slices_S3x2x128x128_S1x1x128x128_0_0_0_0 : S3x2x128x128.Slices ![0, 0, 0, 0] S1x1x128x128
  shapeCasts_S1x1x128x128_S128x128 : S1x1x128x128.ShapeCasts S128x128
  slices_S3x2x128_S1x1x128_0_0_0 : S3x2x128.Slices ![0, 0, 0] S1x1x128
  shapeCasts_S1x1x128_S128 : S1x1x128.ShapeCasts S128
  shapeCasts_S128_S1x128 : S128.ShapeCasts S1x128
  slices_S3x2x128_S1x1x128_0_1_0 : S3x2x128.Slices ![0, 1, 0] S1x1x128
  slices_S3x2x128x128_S1x1x128x128_0_1_0_0 : S3x2x128x128.Slices ![0, 1, 0, 0] S1x1x128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S3x2x128x128_S1x1x128x128_1_0_0_0 : S3x2x128x128.Slices ![1, 0, 0, 0] S1x1x128x128
  slices_S3x2x128_S1x1x128_1_0_0 : S3x2x128.Slices ![1, 0, 0] S1x1x128
  slices_S3x2x128_S1x1x128_1_1_0 : S3x2x128.Slices ![1, 1, 0] S1x1x128
  slices_S3x2x128x128_S1x1x128x128_1_1_0_0 : S3x2x128x128.Slices ![1, 1, 0, 0] S1x1x128x128
  slices_S3x2x128x128_S1x1x128x128_2_0_0_0 : S3x2x128x128.Slices ![2, 0, 0, 0] S1x1x128x128
  slices_S3x2x128_S1x1x128_2_0_0 : S3x2x128.Slices ![2, 0, 0] S1x1x128
  slices_S3x2x128_S1x1x128_2_1_0 : S3x2x128.Slices ![2, 1, 0] S1x1x128
  slices_S3x2x128x128_S1x1x128x128_2_1_0_0 : S3x2x128x128.Slices ![2, 1, 0, 0] S1x1x128x128
  concatenates_S100000x128_S400000x128_S500000x128_d0 : Shape.Concatenates [S100000x128, S400000x128] S500000x128 0
  shapeCasts_S64_S1x64 : S64.ShapeCasts S1x64
  shapeCasts_S2_S1x2 : S2.ShapeCasts S1x2
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  gather_S10000x128_S100000x1_S100000x128_1_0_n_n_0_1_1128_wf : GatherDims.WF S10000x128 S100000x1 S100000x128 [1] [0] [] [0] [] 1 ![1, 128]
  gather_S10000x128_S400000x1_S400000x128_1_0_n_n_0_1_1128_wf : GatherDims.WF S10000x128 S400000x1 S400000x128 [1] [0] [] [0] [] 1 ![1, 128]
  scatter_S400000x1_S400000x1_S400000x1_1_0_0_1_wf : ScatterDims.WF S400000x1 S400000x1 S400000x1 [1] [0] [0] 1
  scatter_S100000x1_S400000x1_S400000x1_1_0_0_1_wf : ScatterDims.WF S100000x1 S400000x1 S400000x1 [1] [0] [0] 1
  gather_S100000x128_S400000x1_S400000x128_1_0_n_n_0_1_1128_wf : GatherDims.WF S100000x128 S400000x1 S400000x128 [1] [0] [] [0] [] 1 ![1, 128]
  scatter_S400000x128_S400000x1_S400000x128_1_0_0_1_wf : ScatterDims.WF S400000x128 S400000x1 S400000x128 [1] [0] [0] 1
  gather_S400000x128_S400000x1_S400000x128_1_0_n_n_0_1_1128_wf : GatherDims.WF S400000x128 S400000x1 S400000x128 [1] [0] [] [0] [] 1 ![1, 128]
  scatter_S100000x128_S400000x1_S400000x128_1_0_0_1_wf : ScatterDims.WF S100000x128 S400000x1 S400000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  dot_S5000x64_S64x2_S5000x2_1_0_0_1_n_n_wf : DotDims.WF S5000x64 S64x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S400000x128.size a
  hwx0_0 : ∀ i : grid0.Coords, EltTy.bits .f32 = 32 ∨ (Rect.block (s := S400000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S400000x128.size a
  hwx0_1 : ∀ i : grid0.Coords, EltTy.bits .f32 = 32 ∨ (Rect.block (s := S400000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x128.size a ≤ S400000x128.size a
  hwx0_9 : ∀ i : grid0.Coords, EltTy.bits .f32 = 32 ∨ (Rect.block (s := S400000x128) S5000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x128.size a ≤ S100000x128.size a
  hwx1_9 : ∀ i : grid1.Coords, EltTy.bits .f32 = 32 ∨ (Rect.block (s := S100000x128) S5000x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S400000x128.size a
  hwx2_0 : ∀ i : grid2.Coords, EltTy.bits .f32 = 32 ∨ (Rect.block (s := S400000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S400000x128.size a
  hwx2_1 : ∀ i : grid2.Coords, EltTy.bits .f32 = 32 ∨ (Rect.block (s := S400000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S5000x128.size a ≤ S400000x128.size a
  hwx2_9 : ∀ i : grid2.Coords, EltTy.bits .f32 = 32 ∨ (Rect.block (s := S400000x128) S5000x128.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x128.size a ≤ S1x128.size a
  hwx3_8 : ∀ i : grid3.Coords, EltTy.bits .f32 = 32 ∨ (Rect.block (s := S1x128) S1x128.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S5000x128.size a ≤ S100000x128.size a
  hwx3_9 : ∀ i : grid3.Coords, EltTy.bits .f32 = 32 ∨ (Rect.block (s := S100000x128) S5000x128.size (cc3_transform_9 i) (hinb3_9 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S400000x128.size a
  hwx4_0 : ∀ i : grid4.Coords, EltTy.bits .f32 = 32 ∨ (Rect.block (s := S400000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S400000x128.size a
  hwx4_1 : ∀ i : grid4.Coords, EltTy.bits .f32 = 32 ∨ (Rect.block (s := S400000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x128.size a ≤ S1x128.size a
  hwx4_7 : ∀ i : grid4.Coords, EltTy.bits .f32 = 32 ∨ (Rect.block (s := S1x128) S1x128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x128.size a ≤ S1x128.size a
  hwx4_8 : ∀ i : grid4.Coords, EltTy.bits .f32 = 32 ∨ (Rect.block (s := S1x128) S1x128.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S5000x128.size a ≤ S400000x128.size a
  hwx4_9 : ∀ i : grid4.Coords, EltTy.bits .f32 = 32 ∨ (Rect.block (s := S400000x128) S5000x128.size (cc4_transform_9 i) (hinb4_9 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S100000x128.size a
  hwx5_1 : ∀ i : grid5.Coords, EltTy.bits .f32 = 32 ∨ (Rect.block (s := S100000x128) S5000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x128.size a ≤ S1x128.size a
  hwx5_6 : ∀ i : grid5.Coords, EltTy.bits .f32 = 32 ∨ (Rect.block (s := S1x128) S1x128.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x128.size a ≤ S1x128.size a
  hwx5_7 : ∀ i : grid5.Coords, EltTy.bits .f32 = 32 ∨ (Rect.block (s := S1x128) S1x128.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S1x128.size a ≤ S1x128.size a
  hwx5_8 : ∀ i : grid5.Coords, EltTy.bits .f32 = 32 ∨ (Rect.block (s := S1x128) S1x128.size (cc5_transform_8 i) (hinb5_8 i)).WholeWords (EltTy.packing .f32)
  hstage5_9 : ∀ j, (stage5_9 j).IsWhole
  nbuf5_9 : grid5.bufCount reads5_9 false = 2
  hreads5_9 : ∀ i i' : grid5.Coords, (∀ a, reads5_9 a = true → i a = i' a) → cc5_transform_9 i = cc5_transform_9 i'
  hinb5_9 : ∀ (i : grid5.Coords) a, (cc5_transform_9 i a + 1) * S5000x128.size a ≤ S100000x128.size a
  hwx5_9 : ∀ i : grid5.Coords, EltTy.bits .f32 = 32 ∨ (Rect.block (s := S100000x128) S5000x128.size (cc5_transform_9 i) (hinb5_9 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S500000x128.size a
  hwx6_0 : ∀ i : grid6.Coords, EltTy.bits .f32 = 32 ∨ (Rect.block (s := S500000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x64.size a ≤ S128x64.size a
  hwx6_1 : ∀ i : grid6.Coords, EltTy.bits .f32 = 32 ∨ (Rect.block (s := S128x64) S128x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x2.size a ≤ S64x2.size a
  hwx6_3 : ∀ i : grid6.Coords, EltTy.bits .f32 = 32 ∨ (Rect.block (s := S64x2) S64x2.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x2.size a ≤ S1x2.size a
  hwx6_4 : ∀ i : grid6.Coords, EltTy.bits .f32 = 32 ∨ (Rect.block (s := S1x2) S1x2.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x2.size a ≤ S500000x2.size a
  hwx6_5 : ∀ i : grid6.Coords, EltTy.bits .f32 = 32 ∨ (Rect.block (s := S500000x2) S5000x2.size (cc6_transform_5 i) (hinb6_5 i)).WholeWords (EltTy.packing .f32)

variable [Facts₀]

def gather_S10000x128_S100000x1_S100000x128_1_0_n_n_0_1_1128 : GatherDims S10000x128 S100000x1 S100000x128 where
  offsetDims := [1]
  collapsedSliceDims := [0]
  operandBatchingDims := []
  startIndicesBatchingDims := []
  startIndexMap := [0]
  indexVectorDim := 1
  sliceSizes := ![1, 128]
  wf := gather_S10000x128_S100000x1_S100000x128_1_0_n_n_0_1_1128_wf
def gather_S10000x128_S400000x1_S400000x128_1_0_n_n_0_1_1128 : GatherDims S10000x128 S400000x1 S400000x128 where
  offsetDims := [1]
  collapsedSliceDims := [0]
  operandBatchingDims := []
  startIndicesBatchingDims := []
  startIndexMap := [0]
  indexVectorDim := 1
  sliceSizes := ![1, 128]
  wf := gather_S10000x128_S400000x1_S400000x128_1_0_n_n_0_1_1128_wf
def scatter_S400000x1_S400000x1_S400000x1_1_0_0_1 : ScatterDims S400000x1 S400000x1 S400000x1 where
  updateWindowDims := [1]
  insertedWindowDims := [0]
  scatterDimsToOperandDims := [0]
  indexVectorDim := 1
  wf := scatter_S400000x1_S400000x1_S400000x1_1_0_0_1_wf
def scatter_S100000x1_S400000x1_S400000x1_1_0_0_1 : ScatterDims S100000x1 S400000x1 S400000x1 where
  updateWindowDims := [1]
  insertedWindowDims := [0]
  scatterDimsToOperandDims := [0]
  indexVectorDim := 1
  wf := scatter_S100000x1_S400000x1_S400000x1_1_0_0_1_wf
def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def scatter_S400000x128_S400000x1_S400000x128_1_0_0_1 : ScatterDims S400000x128 S400000x1 S400000x128 where
  updateWindowDims := [1]
  insertedWindowDims := [0]
  scatterDimsToOperandDims := [0]
  indexVectorDim := 1
  wf := scatter_S400000x128_S400000x1_S400000x128_1_0_0_1_wf
def gather_S400000x128_S400000x1_S400000x128_1_0_n_n_0_1_1128 : GatherDims S400000x128 S400000x1 S400000x128 where
  offsetDims := [1]
  collapsedSliceDims := [0]
  operandBatchingDims := []
  startIndicesBatchingDims := []
  startIndexMap := [0]
  indexVectorDim := 1
  sliceSizes := ![1, 128]
  wf := gather_S400000x128_S400000x1_S400000x128_1_0_n_n_0_1_1128_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x2_S5000x2_1_0_0_1_n_n : DotDims S5000x64 S64x2 S5000x2 where
  lhsContracting := [1]
  rhsContracting := [0]
  lhsNonContracting := [0]
  rhsNonContracting := [1]
  lhsBatch := []
  rhsBatch := []
  wf := dot_S5000x64_S64x2_S5000x2_1_0_0_1_n_n_wf

abbrev win0_0 : Pipeline.Window sig grid0 :=
  Pipeline.Window.ofSpec (Memref.whole main_v36) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v50) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v52) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v55) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v58) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v61) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v64) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v67) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v87) S5000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v48) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v69) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v71) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v74) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v77) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v80) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v83) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v86) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v88) S5000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v100) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v87) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v114) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v116) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v119) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v122) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v125) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v128) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v131) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v151) S5000x128.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v112) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v88) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v133) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v135) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v138) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v141) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v144) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v147) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v150) S1x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v152) S5000x128.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev win4_0 : Pipeline.Window sig grid4 :=
  Pipeline.Window.ofSpec (Memref.whole main_v164) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v151) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v178) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v180) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v183) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v186) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v189) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v192) S1x128.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v195) S1x128.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v215) S5000x128.size cc4_transform_9 reads4_9 true false 2 stage4_9 sem4_9
    hrank4 hreads4_9 hinb4_9 nbuf4_9 (Memref.isWhole_whole _) hwx4_9 hstage4_9

abbrev win4 : Fin 10 → Pipeline.Window sig grid4 := fun | 0 => win4_0 | 1 => win4_1 | 2 => win4_2 | 3 => win4_3 | 4 => win4_4 | 5 => win4_5 | 6 => win4_6 | 7 => win4_7 | 8 => win4_8 | 9 => win4_9 | ⟨_ + 10, h⟩ => absurd h (Nat.not_lt.2 (Nat.le_add_left _ _))
abbrev spec4 : Fin 10 → Pipeline.WinSpec sig grid4.rank := fun w => (win4 w).toWinSpec

abbrev win5_0 : Pipeline.Window sig grid5 :=
  Pipeline.Window.ofSpec (Memref.whole main_v176) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v152) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v197) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v199) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v202) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v205) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v208) S1x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v211) S1x128.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v214) S1x128.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v216) S5000x128.size cc5_transform_9 reads5_9 true false 2 stage5_9 sem5_9
    hrank5 hreads5_9 hinb5_9 nbuf5_9 (Memref.isWhole_whole _) hwx5_9 hstage5_9

abbrev win5 : Fin 10 → Pipeline.Window sig grid5 := fun | 0 => win5_0 | 1 => win5_1 | 2 => win5_2 | 3 => win5_3 | 4 => win5_4 | 5 => win5_5 | 6 => win5_6 | 7 => win5_7 | 8 => win5_8 | 9 => win5_9 | ⟨_ + 10, h⟩ => absurd h (Nat.not_lt.2 (Nat.le_add_left _ _))
abbrev spec5 : Fin 10 → Pipeline.WinSpec sig grid5.rank := fun w => (win5 w).toWinSpec

abbrev win6_0 : Pipeline.Window sig grid6 :=
  Pipeline.Window.ofSpec (Memref.whole main_v217) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg15) S128x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v218) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg17) S64x2.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v219) S1x2.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v220) S5000x2.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S100000 : Shape := ⟨1, ![100000]⟩
abbrev S400000 : Shape := ⟨1, ![400000]⟩
abbrev S10000x128 : Shape := ⟨2, ![10000, 128]⟩
abbrev S3x2x128x128 : Shape := ⟨4, ![3, 2, 128, 128]⟩
abbrev S3x2x128 : Shape := ⟨3, ![3, 2, 128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S_ : Shape := ⟨0, ![]⟩
abbrev S100000x1 : Shape := ⟨2, ![100000, 1]⟩
abbrev S100000x128 : Shape := ⟨2, ![100000, 128]⟩
abbrev S400000x1 : Shape := ⟨2, ![400000, 1]⟩
abbrev S400000x128 : Shape := ⟨2, ![400000, 128]⟩
abbrev S1x1x128x128 : Shape := ⟨4, ![1, 1, 128, 128]⟩
abbrev S128x128 : Shape := ⟨2, ![128, 128]⟩
abbrev S1x1x128 : Shape := ⟨3, ![1, 1, 128]⟩
abbrev S128 : Shape := ⟨1, ![128]⟩
abbrev S1x128 : Shape := ⟨2, ![1, 128]⟩
abbrev S500000x128 : Shape := ⟨2, ![500000, 128]⟩
abbrev S500000x64 : Shape := ⟨2, ![500000, 64]⟩
abbrev S1x64 : Shape := ⟨2, ![1, 64]⟩
abbrev S500000x2 : Shape := ⟨2, ![500000, 2]⟩
abbrev S1x2 : Shape := ⟨2, ![1, 2]⟩

abbrev nBuf : Space → Nat
  | .hbm => 427
  | .vmem => 0
  | .smem => 0
  | _ => 0

abbrev hbmTy0_0 (i : Nat) : BufTy := match i % 128 with
  | 0 => ⟨S100000, .i32⟩
  | 1 => ⟨S400000, .i32⟩
  | 2 => ⟨S400000, .i32⟩
  | 3 => ⟨S400000, .i32⟩
  | 4 => ⟨S400000, .i32⟩
  | 5 => ⟨S400000, .i32⟩
  | 6 => ⟨S10000x128, .f32⟩
  | 7 => ⟨S10000x128, .f32⟩
  | 8 => ⟨S3x2x128x128, .f32⟩
  | 9 => ⟨S3x2x128, .f32⟩
  | 10 => ⟨S3x2x128x128, .f32⟩
  | 11 => ⟨S3x2x128, .f32⟩
  | 12 => ⟨S3x2x128, .f32⟩
  | 13 => ⟨S3x2x128, .f32⟩
  | 14 => ⟨S3x2x128, .f32⟩
  | 15 => ⟨S128x64, .f32⟩
  | 16 => ⟨S64, .f32⟩
  | 17 => ⟨S64x2, .f32⟩
  | 18 => ⟨S2, .f32⟩
  | 19 => ⟨S_, .i32⟩
  | 20 => ⟨S100000, .i32⟩
  | 21 => ⟨S100000, .i1⟩
  | 22 => ⟨S_, .i32⟩
  | 23 => ⟨S100000, .i32⟩
  | 24 => ⟨S100000, .i32⟩
  | 25 => ⟨S100000, .i32⟩
  | 26 => ⟨S100000x1, .i32⟩
  | 27 => ⟨S100000x128, .f32⟩
  | 28 => ⟨S_, .i32⟩
  | 29 => ⟨S400000, .i32⟩
  | 30 => ⟨S400000, .i1⟩
  | 31 => ⟨S_, .i32⟩
  | 32 => ⟨S400000, .i32⟩
  | 33 => ⟨S400000, .i32⟩
  | 34 => ⟨S400000, .i32⟩
  | 35 => ⟨S400000x1, .i32⟩
  | 36 => ⟨S400000x128, .f32⟩
  | 37 => ⟨S_, .i32⟩
  | 38 => ⟨S400000, .i32⟩
  | 39 => ⟨S400000, .i1⟩
  | 40 => ⟨S_, .i32⟩
  | 41 => ⟨S400000, .i32⟩
  | 42 => ⟨S400000, .i32⟩
  | 43 => ⟨S400000, .i32⟩
  | 44 => ⟨S400000x1, .i32⟩
  | 45 => ⟨S400000x128, .f32⟩
  | 46 => ⟨S_, .f32⟩
  | 47 => ⟨S400000x128, .f32⟩
  | 48 => ⟨S400000x1, .i32⟩
  | 49 => ⟨S400000x128, .f32⟩
  | 50 => ⟨S_, .f32⟩
  | 51 => ⟨S400000x1, .f32⟩
  | 52 => ⟨S_, .f32⟩
  | 53 => ⟨S400000x1, .f32⟩
  | 54 => ⟨S400000x1, .i32⟩
  | 55 => ⟨S400000x1, .f32⟩
  | 56 => ⟨S_, .f32⟩
  | 57 => ⟨S400000x1, .f32⟩
  | 58 => ⟨S400000x1, .f32⟩
  | 59 => ⟨S400000x128, .f32⟩
  | 60 => ⟨S400000x128, .f32⟩
  | 61 => ⟨S_, .i32⟩
  | 62 => ⟨S400000, .i32⟩
  | 63 => ⟨S400000, .i1⟩
  | 64 => ⟨S_, .i32⟩
  | 65 => ⟨S400000, .i32⟩
  | 66 => ⟨S400000, .i32⟩
  | 67 => ⟨S400000, .i32⟩
  | 68 => ⟨S400000x1, .i32⟩
  | 69 => ⟨S400000x128, .f32⟩
  | 70 => ⟨S_, .f32⟩
  | 71 => ⟨S100000x128, .f32⟩
  | 72 => ⟨S400000x1, .i32⟩
  | 73 => ⟨S100000x128, .f32⟩
  | 74 => ⟨S_, .f32⟩
  | 75 => ⟨S400000x1, .f32⟩
  | 76 => ⟨S_, .f32⟩
  | 77 => ⟨S100000x1, .f32⟩
  | 78 => ⟨S400000x1, .i32⟩
  | 79 => ⟨S100000x1, .f32⟩
  | 80 => ⟨S_, .f32⟩
  | 81 => ⟨S100000x1, .f32⟩
  | 82 => ⟨S100000x1, .f32⟩
  | 83 => ⟨S100000x128, .f32⟩
  | 84 => ⟨S100000x128, .f32⟩
  | 85 => ⟨S1x1x128x128, .f32⟩
  | 86 => ⟨S128x128, .f32⟩
  | 87 => ⟨S400000x128, .f32⟩
  | 88 => ⟨S1x1x128, .f32⟩
  | 89 => ⟨S128, .f32⟩
  | 90 => ⟨S1x128, .f32⟩
  | 91 => ⟨S400000x128, .f32⟩
  | 92 => ⟨S400000x128, .f32⟩
  | 93 => ⟨S1x1x128x128, .f32⟩
  | 94 => ⟨S128x128, .f32⟩
  | 95 => ⟨S400000x128, .f32⟩
  | 96 => ⟨S400000x128, .f32⟩
  | 97 => ⟨S1x1x128x128, .f32⟩
  | 98 => ⟨S128x128, .f32⟩
  | 99 => ⟨S100000x128, .f32⟩
  | 100 => ⟨S1x1x128, .f32⟩
  | 101 => ⟨S128, .f32⟩
  | 102 => ⟨S1x128, .f32⟩
  | 103 => ⟨S100000x128, .f32⟩
  | 104 => ⟨S100000x128, .f32⟩
  | 105 => ⟨S1x1x128x128, .f32⟩
  | 106 => ⟨S128x128, .f32⟩
  | 107 => ⟨S100000x128, .f32⟩
  | 108 => ⟨S100000x128, .f32⟩
  | 109 => ⟨S1x1x128, .f32⟩
  | 110 => ⟨S128, .f32⟩
  | 111 => ⟨S1x1x128, .f32⟩
  | 112 => ⟨S128, .f32⟩
  | 113 => ⟨S1x1x128, .f32⟩
  | 114 => ⟨S128, .f32⟩
  | 115 => ⟨S1x1x128, .f32⟩
  | 116 => ⟨S128, .f32⟩
  | 117 => ⟨S1x128, .f32⟩
  | 118 => ⟨S100000x128, .f32⟩
  | 119 => ⟨S100000x128, .f32⟩
  | 120 => ⟨S_, .f32⟩
  | 121 => ⟨S128, .f32⟩
  | 122 => ⟨S128, .f32⟩
  | 123 => ⟨S128, .f32⟩
  | 124 => ⟨S1x128, .f32⟩
  | 125 => ⟨S100000x128, .f32⟩
  | 126 => ⟨S100000x128, .f32⟩
  | 127 => ⟨S1x128, .f32⟩
  | _ => ⟨S100000, .i32⟩

abbrev hbmTy0_1 (i : Nat) : BufTy := match i % 128 with
  | 0 => ⟨S100000x128, .f32⟩
  | 1 => ⟨S100000x128, .f32⟩
  | 2 => ⟨S1x128, .f32⟩
  | 3 => ⟨S100000x128, .f32⟩
  | 4 => ⟨S100000x128, .f32⟩
  | 5 => ⟨S_, .f32⟩
  | 6 => ⟨S100000x128, .f32⟩
  | 7 => ⟨S100000x128, .f32⟩
  | 8 => ⟨S1x1x128, .f32⟩
  | 9 => ⟨S128, .f32⟩
  | 10 => ⟨S1x1x128, .f32⟩
  | 11 => ⟨S128, .f32⟩
  | 12 => ⟨S1x1x128, .f32⟩
  | 13 => ⟨S128, .f32⟩
  | 14 => ⟨S1x1x128, .f32⟩
  | 15 => ⟨S128, .f32⟩
  | 16 => ⟨S1x128, .f32⟩
  | 17 => ⟨S400000x128, .f32⟩
  | 18 => ⟨S400000x128, .f32⟩
  | 19 => ⟨S_, .f32⟩
  | 20 => ⟨S128, .f32⟩
  | 21 => ⟨S128, .f32⟩
  | 22 => ⟨S128, .f32⟩
  | 23 => ⟨S1x128, .f32⟩
  | 24 => ⟨S400000x128, .f32⟩
  | 25 => ⟨S400000x128, .f32⟩
  | 26 => ⟨S1x128, .f32⟩
  | 27 => ⟨S400000x128, .f32⟩
  | 28 => ⟨S400000x128, .f32⟩
  | 29 => ⟨S1x128, .f32⟩
  | 30 => ⟨S400000x128, .f32⟩
  | 31 => ⟨S400000x128, .f32⟩
  | 32 => ⟨S_, .f32⟩
  | 33 => ⟨S400000x128, .f32⟩
  | 34 => ⟨S400000x128, .f32⟩
  | 35 => ⟨S_, .i32⟩
  | 36 => ⟨S400000, .i32⟩
  | 37 => ⟨S400000, .i1⟩
  | 38 => ⟨S_, .i32⟩
  | 39 => ⟨S400000, .i32⟩
  | 40 => ⟨S400000, .i32⟩
  | 41 => ⟨S400000, .i32⟩
  | 42 => ⟨S400000x1, .i32⟩
  | 43 => ⟨S400000x128, .f32⟩
  | 44 => ⟨S_, .f32⟩
  | 45 => ⟨S400000x128, .f32⟩
  | 46 => ⟨S400000x1, .i32⟩
  | 47 => ⟨S400000x128, .f32⟩
  | 48 => ⟨S_, .f32⟩
  | 49 => ⟨S400000x1, .f32⟩
  | 50 => ⟨S_, .f32⟩
  | 51 => ⟨S400000x1, .f32⟩
  | 52 => ⟨S400000x1, .i32⟩
  | 53 => ⟨S400000x1, .f32⟩
  | 54 => ⟨S_, .f32⟩
  | 55 => ⟨S400000x1, .f32⟩
  | 56 => ⟨S400000x1, .f32⟩
  | 57 => ⟨S400000x128, .f32⟩
  | 58 => ⟨S400000x128, .f32⟩
  | 59 => ⟨S_, .i32⟩
  | 60 => ⟨S400000, .i32⟩
  | 61 => ⟨S400000, .i1⟩
  | 62 => ⟨S_, .i32⟩
  | 63 => ⟨S400000, .i32⟩
  | 64 => ⟨S400000, .i32⟩
  | 65 => ⟨S400000, .i32⟩
  | 66 => ⟨S400000x1, .i32⟩
  | 67 => ⟨S400000x128, .f32⟩
  | 68 => ⟨S_, .f32⟩
  | 69 => ⟨S100000x128, .f32⟩
  | 70 => ⟨S400000x1, .i32⟩
  | 71 => ⟨S100000x128, .f32⟩
  | 72 => ⟨S_, .f32⟩
  | 73 => ⟨S400000x1, .f32⟩
  | 74 => ⟨S_, .f32⟩
  | 75 => ⟨S100000x1, .f32⟩
  | 76 => ⟨S400000x1, .i32⟩
  | 77 => ⟨S100000x1, .f32⟩
  | 78 => ⟨S_, .f32⟩
  | 79 => ⟨S100000x1, .f32⟩
  | 80 => ⟨S100000x1, .f32⟩
  | 81 => ⟨S100000x128, .f32⟩
  | 82 => ⟨S100000x128, .f32⟩
  | 83 => ⟨S1x1x128x128, .f32⟩
  | 84 => ⟨S128x128, .f32⟩
  | 85 => ⟨S400000x128, .f32⟩
  | 86 => ⟨S1x1x128, .f32⟩
  | 87 => ⟨S128, .f32⟩
  | 88 => ⟨S1x128, .f32⟩
  | 89 => ⟨S400000x128, .f32⟩
  | 90 => ⟨S400000x128, .f32⟩
  | 91 => ⟨S1x1x128x128, .f32⟩
  | 92 => ⟨S128x128, .f32⟩
  | 93 => ⟨S400000x128, .f32⟩
  | 94 => ⟨S400000x128, .f32⟩
  | 95 => ⟨S1x1x128x128, .f32⟩
  | 96 => ⟨S128x128, .f32⟩
  | 97 => ⟨S100000x128, .f32⟩
  | 98 => ⟨S1x1x128, .f32⟩
  | 99 => ⟨S128, .f32⟩
  | 100 => ⟨S1x128, .f32⟩
  | 101 => ⟨S100000x128, .f32⟩
  | 102 => ⟨S100000x128, .f32⟩
  | 103 => ⟨S1x1x128x128, .f32⟩
  | 104 => ⟨S128x128, .f32⟩
  | 105 => ⟨S100000x128, .f32⟩
  | 106 => ⟨S100000x128, .f32⟩
  | 107 => ⟨S1x1x128, .f32⟩
  | 108 => ⟨S128, .f32⟩
  | 109 => ⟨S1x1x128, .f32⟩
  | 110 => ⟨S128, .f32⟩
  | 111 => ⟨S1x1x128, .f32⟩
  | 112 => ⟨S128, .f32⟩
  | 113 => ⟨S1x1x128, .f32⟩
  | 114 => ⟨S128, .f32⟩
  | 115 => ⟨S1x128, .f32⟩
  | 116 => ⟨S100000x128, .f32⟩
  | 117 => ⟨S100000x128, .f32⟩
  | 118 => ⟨S_, .f32⟩
  | 119 => ⟨S128, .f32⟩
  | 120 => ⟨S128, .f32⟩
  | 121 => ⟨S128, .f32⟩
  | 122 => ⟨S1x128, .f32⟩
  | 123 => ⟨S100000x128, .f32⟩
  | 124 => ⟨S100000x128, .f32⟩
  | 125 => ⟨S1x128, .f32⟩
  | 126 => ⟨S100000x128, .f32⟩
  | 127 => ⟨S100000x128, .f32⟩
  | _ => ⟨S100000, .i32⟩

abbrev hbmTy0_2 (i : Nat) : BufTy := match i % 128 with
  | 0 => ⟨S1x128, .f32⟩
  | 1 => ⟨S100000x128, .f32⟩
  | 2 => ⟨S100000x128, .f32⟩
  | 3 => ⟨S_, .f32⟩
  | 4 => ⟨S100000x128, .f32⟩
  | 5 => ⟨S100000x128, .f32⟩
  | 6 => ⟨S1x1x128, .f32⟩
  | 7 => ⟨S128, .f32⟩
  | 8 => ⟨S1x1x128, .f32⟩
  | 9 => ⟨S128, .f32⟩
  | 10 => ⟨S1x1x128, .f32⟩
  | 11 => ⟨S128, .f32⟩
  | 12 => ⟨S1x1x128, .f32⟩
  | 13 => ⟨S128, .f32⟩
  | 14 => ⟨S1x128, .f32⟩
  | 15 => ⟨S400000x128, .f32⟩
  | 16 => ⟨S400000x128, .f32⟩
  | 17 => ⟨S_, .f32⟩
  | 18 => ⟨S128, .f32⟩
  | 19 => ⟨S128, .f32⟩
  | 20 => ⟨S128, .f32⟩
  | 21 => ⟨S1x128, .f32⟩
  | 22 => ⟨S400000x128, .f32⟩
  | 23 => ⟨S400000x128, .f32⟩
  | 24 => ⟨S1x128, .f32⟩
  | 25 => ⟨S400000x128, .f32⟩
  | 26 => ⟨S400000x128, .f32⟩
  | 27 => ⟨S1x128, .f32⟩
  | 28 => ⟨S400000x128, .f32⟩
  | 29 => ⟨S400000x128, .f32⟩
  | 30 => ⟨S_, .f32⟩
  | 31 => ⟨S400000x128, .f32⟩
  | 32 => ⟨S400000x128, .f32⟩
  | 33 => ⟨S_, .i32⟩
  | 34 => ⟨S400000, .i32⟩
  | 35 => ⟨S400000, .i1⟩
  | 36 => ⟨S_, .i32⟩
  | 37 => ⟨S400000, .i32⟩
  | 38 => ⟨S400000, .i32⟩
  | 39 => ⟨S400000, .i32⟩
  | 40 => ⟨S400000x1, .i32⟩
  | 41 => ⟨S400000x128, .f32⟩
  | 42 => ⟨S_, .f32⟩
  | 43 => ⟨S400000x128, .f32⟩
  | 44 => ⟨S400000x1, .i32⟩
  | 45 => ⟨S400000x128, .f32⟩
  | 46 => ⟨S_, .f32⟩
  | 47 => ⟨S400000x1, .f32⟩
  | 48 => ⟨S_, .f32⟩
  | 49 => ⟨S400000x1, .f32⟩
  | 50 => ⟨S400000x1, .i32⟩
  | 51 => ⟨S400000x1, .f32⟩
  | 52 => ⟨S_, .f32⟩
  | 53 => ⟨S400000x1, .f32⟩
  | 54 => ⟨S400000x1, .f32⟩
  | 55 => ⟨S400000x128, .f32⟩
  | 56 => ⟨S400000x128, .f32⟩
  | 57 => ⟨S_, .i32⟩
  | 58 => ⟨S400000, .i32⟩
  | 59 => ⟨S400000, .i1⟩
  | 60 => ⟨S_, .i32⟩
  | 61 => ⟨S400000, .i32⟩
  | 62 => ⟨S400000, .i32⟩
  | 63 => ⟨S400000, .i32⟩
  | 64 => ⟨S400000x1, .i32⟩
  | 65 => ⟨S400000x128, .f32⟩
  | 66 => ⟨S_, .f32⟩
  | 67 => ⟨S100000x128, .f32⟩
  | 68 => ⟨S400000x1, .i32⟩
  | 69 => ⟨S100000x128, .f32⟩
  | 70 => ⟨S_, .f32⟩
  | 71 => ⟨S400000x1, .f32⟩
  | 72 => ⟨S_, .f32⟩
  | 73 => ⟨S100000x1, .f32⟩
  | 74 => ⟨S400000x1, .i32⟩
  | 75 => ⟨S100000x1, .f32⟩
  | 76 => ⟨S_, .f32⟩
  | 77 => ⟨S100000x1, .f32⟩
  | 78 => ⟨S100000x1, .f32⟩
  | 79 => ⟨S100000x128, .f32⟩
  | 80 => ⟨S100000x128, .f32⟩
  | 81 => ⟨S1x1x128x128, .f32⟩
  | 82 => ⟨S128x128, .f32⟩
  | 83 => ⟨S400000x128, .f32⟩
  | 84 => ⟨S1x1x128, .f32⟩
  | 85 => ⟨S128, .f32⟩
  | 86 => ⟨S1x128, .f32⟩
  | 87 => ⟨S400000x128, .f32⟩
  | 88 => ⟨S400000x128, .f32⟩
  | 89 => ⟨S1x1x128x128, .f32⟩
  | 90 => ⟨S128x128, .f32⟩
  | 91 => ⟨S400000x128, .f32⟩
  | 92 => ⟨S400000x128, .f32⟩
  | 93 => ⟨S1x1x128x128, .f32⟩
  | 94 => ⟨S128x128, .f32⟩
  | 95 => ⟨S100000x128, .f32⟩
  | 96 => ⟨S1x1x128, .f32⟩
  | 97 => ⟨S128, .f32⟩
  | 98 => ⟨S1x128, .f32⟩
  | 99 => ⟨S100000x128, .f32⟩
  | 100 => ⟨S100000x128, .f32⟩
  | 101 => ⟨S1x1x128x128, .f32⟩
  | 102 => ⟨S128x128, .f32⟩
  | 103 => ⟨S100000x128, .f32⟩
  | 104 => ⟨S100000x128, .f32⟩
  | 105 => ⟨S1x1x128, .f32⟩
  | 106 => ⟨S128, .f32⟩
  | 107 => ⟨S1x1x128, .f32⟩
  | 108 => ⟨S128, .f32⟩
  | 109 => ⟨S1x1x128, .f32⟩
  | 110 => ⟨S128, .f32⟩
  | 111 => ⟨S1x1x128, .f32⟩
  | 112 => ⟨S128, .f32⟩
  | 113 => ⟨S1x128, .f32⟩
  | 114 => ⟨S100000x128, .f32⟩
  | 115 => ⟨S100000x128, .f32⟩
  | 116 => ⟨S_, .f32⟩
  | 117 => ⟨S128, .f32⟩
  | 118 => ⟨S128, .f32⟩
  | 119 => ⟨S128, .f32⟩
  | 120 => ⟨S1x128, .f32⟩
  | 121 => ⟨S100000x128, .f32⟩
  | 122 => ⟨S100000x128, .f32⟩
  | 123 => ⟨S1x128, .f32⟩
  | 124 => ⟨S100000x128, .f32⟩
  | 125 => ⟨S100000x128, .f32⟩
  | 126 => ⟨S1x128, .f32⟩
  | 127 => ⟨S100000x128, .f32⟩
  | _ => ⟨S100000, .i32⟩

abbrev hbmTy0_3 (i : Nat) : BufTy := match i % 128 with
  | 0 => ⟨S100000x128, .f32⟩
  | 1 => ⟨S_, .f32⟩
  | 2 => ⟨S100000x128, .f32⟩
  | 3 => ⟨S100000x128, .f32⟩
  | 4 => ⟨S1x1x128, .f32⟩
  | 5 => ⟨S128, .f32⟩
  | 6 => ⟨S1x1x128, .f32⟩
  | 7 => ⟨S128, .f32⟩
  | 8 => ⟨S1x1x128, .f32⟩
  | 9 => ⟨S128, .f32⟩
  | 10 => ⟨S1x1x128, .f32⟩
  | 11 => ⟨S128, .f32⟩
  | 12 => ⟨S1x128, .f32⟩
  | 13 => ⟨S400000x128, .f32⟩
  | 14 => ⟨S400000x128, .f32⟩
  | 15 => ⟨S_, .f32⟩
  | 16 => ⟨S128, .f32⟩
  | 17 => ⟨S128, .f32⟩
  | 18 => ⟨S128, .f32⟩
  | 19 => ⟨S1x128, .f32⟩
  | 20 => ⟨S400000x128, .f32⟩
  | 21 => ⟨S400000x128, .f32⟩
  | 22 => ⟨S1x128, .f32⟩
  | 23 => ⟨S400000x128, .f32⟩
  | 24 => ⟨S400000x128, .f32⟩
  | 25 => ⟨S1x128, .f32⟩
  | 26 => ⟨S400000x128, .f32⟩
  | 27 => ⟨S400000x128, .f32⟩
  | 28 => ⟨S_, .f32⟩
  | 29 => ⟨S400000x128, .f32⟩
  | 30 => ⟨S400000x128, .f32⟩
  | 31 => ⟨S500000x128, .f32⟩
  | 32 => ⟨S500000x64, .f32⟩
  | 33 => ⟨S1x64, .f32⟩
  | 34 => ⟨S500000x64, .f32⟩
  | 35 => ⟨S500000x64, .f32⟩
  | 36 => ⟨S_, .f32⟩
  | 37 => ⟨S500000x64, .f32⟩
  | 38 => ⟨S500000x64, .f32⟩
  | 39 => ⟨S500000x2, .f32⟩
  | 40 => ⟨S1x2, .f32⟩
  | 41 => ⟨S500000x2, .f32⟩
  | 42 => ⟨S500000x2, .f32⟩
  | _ => ⟨S100000, .i32⟩

abbrev hbmTy (i : Nat) : BufTy := match i / 128 with
  | 0 => hbmTy0_0 i
  | 1 => hbmTy0_1 i
  | 2 => hbmTy0_2 i
  | 3 => hbmTy0_3 i
  | _ => ⟨S100000, .i32⟩

abbrev bufTy : (tb : Table) → Fin (tcTables nBuf tb) → BufTy
  | .hbm, ⟨i, _⟩ => hbmTy i
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_v0 : Ref sig .tc := ⟨.hbm, 20, rfl⟩
abbrev main_v1 : Ref sig .tc := ⟨.hbm, 21, rfl⟩
abbrev main_c_0 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_c_1 : Ref sig .tc := ⟨.hbm, 28, rfl⟩
abbrev main_v7 : Ref sig .tc := ⟨.hbm, 29, rfl⟩
abbrev main_v8 : Ref sig .tc := ⟨.hbm, 30, rfl⟩
abbrev main_c_2 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_c_3 : Ref sig .tc := ⟨.hbm, 37, rfl⟩
abbrev main_v14 : Ref sig .tc := ⟨.hbm, 38, rfl⟩
abbrev main_v15 : Ref sig .tc := ⟨.hbm, 39, rfl⟩
abbrev main_c_4 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_cst : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_cst_5 : Ref sig .tc := ⟨.hbm, 50, rfl⟩
abbrev main_v24 : Ref sig .tc := ⟨.hbm, 51, rfl⟩
abbrev main_cst_6 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_cst_7 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_c_8 : Ref sig .tc := ⟨.hbm, 61, rfl⟩
abbrev main_v32 : Ref sig .tc := ⟨.hbm, 62, rfl⟩
abbrev main_v33 : Ref sig .tc := ⟨.hbm, 63, rfl⟩
abbrev main_c_9 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_cst_10 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_cst_11 : Ref sig .tc := ⟨.hbm, 74, rfl⟩
abbrev main_v42 : Ref sig .tc := ⟨.hbm, 75, rfl⟩
abbrev main_cst_12 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_cst_13 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_14 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_call0_cst : Ref sig .tc := ⟨.hbm, 133, rfl⟩
abbrev main_call0_v0 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_cst_15 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_call1_cst : Ref sig .tc := ⟨.hbm, 160, rfl⟩
abbrev main_call1_v0 : Ref sig .tc := ⟨.hbm, 161, rfl⟩
abbrev main_v121 : Ref sig .tc := ⟨.hbm, 162, rfl⟩
abbrev main_c_16 : Ref sig .tc := ⟨.hbm, 163, rfl⟩
abbrev main_v122 : Ref sig .tc := ⟨.hbm, 164, rfl⟩
abbrev main_v123 : Ref sig .tc := ⟨.hbm, 165, rfl⟩
abbrev main_c_17 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_cst_18 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_cst_19 : Ref sig .tc := ⟨.hbm, 176, rfl⟩
abbrev main_v132 : Ref sig .tc := ⟨.hbm, 177, rfl⟩
abbrev main_cst_20 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_cst_21 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_c_22 : Ref sig .tc := ⟨.hbm, 187, rfl⟩
abbrev main_v140 : Ref sig .tc := ⟨.hbm, 188, rfl⟩
abbrev main_v141 : Ref sig .tc := ⟨.hbm, 189, rfl⟩
abbrev main_c_23 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_cst_24 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_cst_25 : Ref sig .tc := ⟨.hbm, 200, rfl⟩
abbrev main_v150 : Ref sig .tc := ⟨.hbm, 201, rfl⟩
abbrev main_cst_26 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_cst_27 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_v171 : Ref sig .tc := ⟨.hbm, 224, rfl⟩
abbrev main_v172 : Ref sig .tc := ⟨.hbm, 225, rfl⟩
abbrev main_v173 : Ref sig .tc := ⟨.hbm, 226, rfl⟩
abbrev main_v174 : Ref sig .tc := ⟨.hbm, 227, rfl⟩
abbrev main_v175 : Ref sig .tc := ⟨.hbm, 228, rfl⟩
abbrev main_v176 : Ref sig .tc := ⟨.hbm, 229, rfl⟩
abbrev main_v177 : Ref sig .tc := ⟨.hbm, 230, rfl⟩
abbrev main_v178 : Ref sig .tc := ⟨.hbm, 231, rfl⟩
abbrev main_v179 : Ref sig .tc := ⟨.hbm, 232, rfl⟩
abbrev main_v180 : Ref sig .tc := ⟨.hbm, 233, rfl⟩
abbrev main_v181 : Ref sig .tc := ⟨.hbm, 234, rfl⟩
abbrev main_v182 : Ref sig .tc := ⟨.hbm, 235, rfl⟩
abbrev main_v183 : Ref sig .tc := ⟨.hbm, 236, rfl⟩
abbrev main_v184 : Ref sig .tc := ⟨.hbm, 237, rfl⟩
abbrev main_v185 : Ref sig .tc := ⟨.hbm, 238, rfl⟩
abbrev main_v186 : Ref sig .tc := ⟨.hbm, 239, rfl⟩
abbrev main_v187 : Ref sig .tc := ⟨.hbm, 240, rfl⟩
abbrev main_v188 : Ref sig .tc := ⟨.hbm, 241, rfl⟩
abbrev main_v189 : Ref sig .tc := ⟨.hbm, 242, rfl⟩
abbrev main_v190 : Ref sig .tc := ⟨.hbm, 243, rfl⟩
abbrev main_v191 : Ref sig .tc := ⟨.hbm, 244, rfl⟩
abbrev main_v192 : Ref sig .tc := ⟨.hbm, 245, rfl⟩
abbrev main_cst_28 : Ref sig .tc := ⟨.hbm, 246, rfl⟩
abbrev main_v193 : Ref sig .tc := ⟨.hbm, 247, rfl⟩
abbrev main_v194 : Ref sig .tc := ⟨.hbm, 248, rfl⟩
abbrev main_v195 : Ref sig .tc := ⟨.hbm, 249, rfl⟩
abbrev main_v196 : Ref sig .tc := ⟨.hbm, 250, rfl⟩
abbrev main_v197 : Ref sig .tc := ⟨.hbm, 251, rfl⟩
abbrev main_v198 : Ref sig .tc := ⟨.hbm, 252, rfl⟩
abbrev main_v199 : Ref sig .tc := ⟨.hbm, 253, rfl⟩
abbrev main_v200 : Ref sig .tc := ⟨.hbm, 254, rfl⟩
abbrev main_v201 : Ref sig .tc := ⟨.hbm, 255, rfl⟩
abbrev main_v202 : Ref sig .tc := ⟨.hbm, 256, rfl⟩
abbrev main_v203 : Ref sig .tc := ⟨.hbm, 257, rfl⟩
abbrev main_v204 : Ref sig .tc := ⟨.hbm, 258, rfl⟩
abbrev main_call2_cst : Ref sig .tc := ⟨.hbm, 259, rfl⟩
abbrev main_call2_v0 : Ref sig .tc := ⟨.hbm, 260, rfl⟩
abbrev main_v205 : Ref sig .tc := ⟨.hbm, 261, rfl⟩
abbrev main_v206 : Ref sig .tc := ⟨.hbm, 262, rfl⟩
abbrev main_v207 : Ref sig .tc := ⟨.hbm, 263, rfl⟩
abbrev main_v208 : Ref sig .tc := ⟨.hbm, 264, rfl⟩
abbrev main_v209 : Ref sig .tc := ⟨.hbm, 265, rfl⟩
abbrev main_v210 : Ref sig .tc := ⟨.hbm, 266, rfl⟩
abbrev main_v211 : Ref sig .tc := ⟨.hbm, 267, rfl⟩
abbrev main_v212 : Ref sig .tc := ⟨.hbm, 268, rfl⟩
abbrev main_v213 : Ref sig .tc := ⟨.hbm, 269, rfl⟩
abbrev main_v214 : Ref sig .tc := ⟨.hbm, 270, rfl⟩
abbrev main_v215 : Ref sig .tc := ⟨.hbm, 271, rfl⟩
abbrev main_v216 : Ref sig .tc := ⟨.hbm, 272, rfl⟩
abbrev main_cst_29 : Ref sig .tc := ⟨.hbm, 273, rfl⟩
abbrev main_v217 : Ref sig .tc := ⟨.hbm, 274, rfl⟩
abbrev main_v218 : Ref sig .tc := ⟨.hbm, 275, rfl⟩
abbrev main_v219 : Ref sig .tc := ⟨.hbm, 276, rfl⟩
abbrev main_v220 : Ref sig .tc := ⟨.hbm, 277, rfl⟩
abbrev main_v221 : Ref sig .tc := ⟨.hbm, 278, rfl⟩
abbrev main_v222 : Ref sig .tc := ⟨.hbm, 279, rfl⟩
abbrev main_v223 : Ref sig .tc := ⟨.hbm, 280, rfl⟩
abbrev main_v224 : Ref sig .tc := ⟨.hbm, 281, rfl⟩
abbrev main_v225 : Ref sig .tc := ⟨.hbm, 282, rfl⟩
abbrev main_v226 : Ref sig .tc := ⟨.hbm, 283, rfl⟩
abbrev main_v227 : Ref sig .tc := ⟨.hbm, 284, rfl⟩
abbrev main_v228 : Ref sig .tc := ⟨.hbm, 285, rfl⟩
abbrev main_call3_cst : Ref sig .tc := ⟨.hbm, 286, rfl⟩
abbrev main_call3_v0 : Ref sig .tc := ⟨.hbm, 287, rfl⟩
abbrev main_v229 : Ref sig .tc := ⟨.hbm, 288, rfl⟩
abbrev main_c_30 : Ref sig .tc := ⟨.hbm, 289, rfl⟩
abbrev main_v230 : Ref sig .tc := ⟨.hbm, 290, rfl⟩
abbrev main_v231 : Ref sig .tc := ⟨.hbm, 291, rfl⟩
abbrev main_c_31 : Ref sig .tc := ⟨.hbm, 292, rfl⟩
abbrev main_v232 : Ref sig .tc := ⟨.hbm, 293, rfl⟩
abbrev main_v233 : Ref sig .tc := ⟨.hbm, 294, rfl⟩
abbrev main_v234 : Ref sig .tc := ⟨.hbm, 295, rfl⟩
abbrev main_v235 : Ref sig .tc := ⟨.hbm, 296, rfl⟩
abbrev main_v236 : Ref sig .tc := ⟨.hbm, 297, rfl⟩
abbrev main_cst_32 : Ref sig .tc := ⟨.hbm, 298, rfl⟩
abbrev main_v237 : Ref sig .tc := ⟨.hbm, 299, rfl⟩
abbrev main_v238 : Ref sig .tc := ⟨.hbm, 300, rfl⟩
abbrev main_v239 : Ref sig .tc := ⟨.hbm, 301, rfl⟩
abbrev main_cst_33 : Ref sig .tc := ⟨.hbm, 302, rfl⟩
abbrev main_v240 : Ref sig .tc := ⟨.hbm, 303, rfl⟩
abbrev main_cst_34 : Ref sig .tc := ⟨.hbm, 304, rfl⟩
abbrev main_v241 : Ref sig .tc := ⟨.hbm, 305, rfl⟩
abbrev main_v242 : Ref sig .tc := ⟨.hbm, 306, rfl⟩
abbrev main_v243 : Ref sig .tc := ⟨.hbm, 307, rfl⟩
abbrev main_cst_35 : Ref sig .tc := ⟨.hbm, 308, rfl⟩
abbrev main_v244 : Ref sig .tc := ⟨.hbm, 309, rfl⟩
abbrev main_v245 : Ref sig .tc := ⟨.hbm, 310, rfl⟩
abbrev main_v246 : Ref sig .tc := ⟨.hbm, 311, rfl⟩
abbrev main_v247 : Ref sig .tc := ⟨.hbm, 312, rfl⟩
abbrev main_c_36 : Ref sig .tc := ⟨.hbm, 313, rfl⟩
abbrev main_v248 : Ref sig .tc := ⟨.hbm, 314, rfl⟩
abbrev main_v249 : Ref sig .tc := ⟨.hbm, 315, rfl⟩
abbrev main_c_37 : Ref sig .tc := ⟨.hbm, 316, rfl⟩
abbrev main_v250 : Ref sig .tc := ⟨.hbm, 317, rfl⟩
abbrev main_v251 : Ref sig .tc := ⟨.hbm, 318, rfl⟩
abbrev main_v252 : Ref sig .tc := ⟨.hbm, 319, rfl⟩
abbrev main_v253 : Ref sig .tc := ⟨.hbm, 320, rfl⟩
abbrev main_v254 : Ref sig .tc := ⟨.hbm, 321, rfl⟩
abbrev main_cst_38 : Ref sig .tc := ⟨.hbm, 322, rfl⟩
abbrev main_v255 : Ref sig .tc := ⟨.hbm, 323, rfl⟩
abbrev main_v256 : Ref sig .tc := ⟨.hbm, 324, rfl⟩
abbrev main_v257 : Ref sig .tc := ⟨.hbm, 325, rfl⟩
abbrev main_cst_39 : Ref sig .tc := ⟨.hbm, 326, rfl⟩
abbrev main_v258 : Ref sig .tc := ⟨.hbm, 327, rfl⟩
abbrev main_cst_40 : Ref sig .tc := ⟨.hbm, 328, rfl⟩
abbrev main_v259 : Ref sig .tc := ⟨.hbm, 329, rfl⟩
abbrev main_v260 : Ref sig .tc := ⟨.hbm, 330, rfl⟩
abbrev main_v261 : Ref sig .tc := ⟨.hbm, 331, rfl⟩
abbrev main_cst_41 : Ref sig .tc := ⟨.hbm, 332, rfl⟩
abbrev main_v262 : Ref sig .tc := ⟨.hbm, 333, rfl⟩
abbrev main_v263 : Ref sig .tc := ⟨.hbm, 334, rfl⟩
abbrev main_v264 : Ref sig .tc := ⟨.hbm, 335, rfl⟩
abbrev main_v265 : Ref sig .tc := ⟨.hbm, 336, rfl⟩
abbrev main_v266 : Ref sig .tc := ⟨.hbm, 337, rfl⟩
abbrev main_v267 : Ref sig .tc := ⟨.hbm, 338, rfl⟩
abbrev main_v268 : Ref sig .tc := ⟨.hbm, 339, rfl⟩
abbrev main_v269 : Ref sig .tc := ⟨.hbm, 340, rfl⟩
abbrev main_v270 : Ref sig .tc := ⟨.hbm, 341, rfl⟩
abbrev main_v271 : Ref sig .tc := ⟨.hbm, 342, rfl⟩
abbrev main_v272 : Ref sig .tc := ⟨.hbm, 343, rfl⟩
abbrev main_v273 : Ref sig .tc := ⟨.hbm, 344, rfl⟩
abbrev main_v274 : Ref sig .tc := ⟨.hbm, 345, rfl⟩
abbrev main_v275 : Ref sig .tc := ⟨.hbm, 346, rfl⟩
abbrev main_v276 : Ref sig .tc := ⟨.hbm, 347, rfl⟩
abbrev main_v277 : Ref sig .tc := ⟨.hbm, 348, rfl⟩
abbrev main_v278 : Ref sig .tc := ⟨.hbm, 349, rfl⟩
abbrev main_v279 : Ref sig .tc := ⟨.hbm, 350, rfl⟩
abbrev main_v280 : Ref sig .tc := ⟨.hbm, 351, rfl⟩
abbrev main_v281 : Ref sig .tc := ⟨.hbm, 352, rfl⟩
abbrev main_v282 : Ref sig .tc := ⟨.hbm, 353, rfl⟩
abbrev main_v283 : Ref sig .tc := ⟨.hbm, 354, rfl⟩
abbrev main_v284 : Ref sig .tc := ⟨.hbm, 355, rfl⟩
abbrev main_v285 : Ref sig .tc := ⟨.hbm, 356, rfl⟩
abbrev main_v286 : Ref sig .tc := ⟨.hbm, 357, rfl⟩
abbrev main_v287 : Ref sig .tc := ⟨.hbm, 358, rfl⟩
abbrev main_v288 : Ref sig .tc := ⟨.hbm, 359, rfl⟩
abbrev main_v289 : Ref sig .tc := ⟨.hbm, 360, rfl⟩
abbrev main_v290 : Ref sig .tc := ⟨.hbm, 361, rfl⟩
abbrev main_v291 : Ref sig .tc := ⟨.hbm, 362, rfl⟩
abbrev main_v292 : Ref sig .tc := ⟨.hbm, 363, rfl⟩
abbrev main_v293 : Ref sig .tc := ⟨.hbm, 364, rfl⟩
abbrev main_v294 : Ref sig .tc := ⟨.hbm, 365, rfl⟩
abbrev main_v295 : Ref sig .tc := ⟨.hbm, 366, rfl⟩
abbrev main_v296 : Ref sig .tc := ⟨.hbm, 367, rfl⟩
abbrev main_v297 : Ref sig .tc := ⟨.hbm, 368, rfl⟩
abbrev main_v298 : Ref sig .tc := ⟨.hbm, 369, rfl⟩
abbrev main_v299 : Ref sig .tc := ⟨.hbm, 370, rfl⟩
abbrev main_v300 : Ref sig .tc := ⟨.hbm, 371, rfl⟩
abbrev main_cst_42 : Ref sig .tc := ⟨.hbm, 372, rfl⟩
abbrev main_v301 : Ref sig .tc := ⟨.hbm, 373, rfl⟩
abbrev main_v302 : Ref sig .tc := ⟨.hbm, 374, rfl⟩
abbrev main_v303 : Ref sig .tc := ⟨.hbm, 375, rfl⟩
abbrev main_v304 : Ref sig .tc := ⟨.hbm, 376, rfl⟩
abbrev main_v305 : Ref sig .tc := ⟨.hbm, 377, rfl⟩
abbrev main_v306 : Ref sig .tc := ⟨.hbm, 378, rfl⟩
abbrev main_v307 : Ref sig .tc := ⟨.hbm, 379, rfl⟩
abbrev main_v308 : Ref sig .tc := ⟨.hbm, 380, rfl⟩
abbrev main_v309 : Ref sig .tc := ⟨.hbm, 381, rfl⟩
abbrev main_v310 : Ref sig .tc := ⟨.hbm, 382, rfl⟩
abbrev main_v311 : Ref sig .tc := ⟨.hbm, 383, rfl⟩
abbrev main_v312 : Ref sig .tc := ⟨.hbm, 384, rfl⟩
abbrev main_call4_cst : Ref sig .tc := ⟨.hbm, 385, rfl⟩
abbrev main_call4_v0 : Ref sig .tc := ⟨.hbm, 386, rfl⟩
abbrev main_v313 : Ref sig .tc := ⟨.hbm, 387, rfl⟩
abbrev main_v314 : Ref sig .tc := ⟨.hbm, 388, rfl⟩
abbrev main_v315 : Ref sig .tc := ⟨.hbm, 389, rfl⟩
abbrev main_v316 : Ref sig .tc := ⟨.hbm, 390, rfl⟩
abbrev main_v317 : Ref sig .tc := ⟨.hbm, 391, rfl⟩
abbrev main_v318 : Ref sig .tc := ⟨.hbm, 392, rfl⟩
abbrev main_v319 : Ref sig .tc := ⟨.hbm, 393, rfl⟩
abbrev main_v320 : Ref sig .tc := ⟨.hbm, 394, rfl⟩
abbrev main_v321 : Ref sig .tc := ⟨.hbm, 395, rfl⟩
abbrev main_v322 : Ref sig .tc := ⟨.hbm, 396, rfl⟩
abbrev main_v323 : Ref sig .tc := ⟨.hbm, 397, rfl⟩
abbrev main_v324 : Ref sig .tc := ⟨.hbm, 398, rfl⟩
abbrev main_cst_43 : Ref sig .tc := ⟨.hbm, 399, rfl⟩
abbrev main_v325 : Ref sig .tc := ⟨.hbm, 400, rfl⟩
abbrev main_v326 : Ref sig .tc := ⟨.hbm, 401, rfl⟩
abbrev main_v327 : Ref sig .tc := ⟨.hbm, 402, rfl⟩
abbrev main_v328 : Ref sig .tc := ⟨.hbm, 403, rfl⟩
abbrev main_v329 : Ref sig .tc := ⟨.hbm, 404, rfl⟩
abbrev main_v330 : Ref sig .tc := ⟨.hbm, 405, rfl⟩
abbrev main_v331 : Ref sig .tc := ⟨.hbm, 406, rfl⟩
abbrev main_v332 : Ref sig .tc := ⟨.hbm, 407, rfl⟩
abbrev main_v333 : Ref sig .tc := ⟨.hbm, 408, rfl⟩
abbrev main_v334 : Ref sig .tc := ⟨.hbm, 409, rfl⟩
abbrev main_v335 : Ref sig .tc := ⟨.hbm, 410, rfl⟩
abbrev main_v336 : Ref sig .tc := ⟨.hbm, 411, rfl⟩
abbrev main_call5_cst : Ref sig .tc := ⟨.hbm, 412, rfl⟩
abbrev main_call5_v0 : Ref sig .tc := ⟨.hbm, 413, rfl⟩
abbrev main_v337 : Ref sig .tc := ⟨.hbm, 414, rfl⟩
abbrev main_v338 : Ref sig .tc := ⟨.hbm, 415, rfl⟩
abbrev main_v339 : Ref sig .tc := ⟨.hbm, 416, rfl⟩
abbrev main_v340 : Ref sig .tc := ⟨.hbm, 417, rfl⟩
abbrev main_v341 : Ref sig .tc := ⟨.hbm, 418, rfl⟩
abbrev main_v342 : Ref sig .tc := ⟨.hbm, 419, rfl⟩
abbrev main_call6_cst : Ref sig .tc := ⟨.hbm, 420, rfl⟩
abbrev main_call6_v0 : Ref sig .tc := ⟨.hbm, 421, rfl⟩
abbrev main_v343 : Ref sig .tc := ⟨.hbm, 422, rfl⟩
abbrev main_v344 : Ref sig .tc := ⟨.hbm, 423, rfl⟩
abbrev main_v345 : Ref sig .tc := ⟨.hbm, 424, rfl⟩
abbrev main_v346 : Ref sig .tc := ⟨.hbm, 425, rfl⟩
abbrev main_v347 : Ref sig .tc := ⟨.hbm, 426, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  bcast_S_S400000 : S_.BroadcastsInDim S400000 (![] : Fin 0 → Fin S400000.rank)
  bcast_S400000_S400000x1_0 : S400000.BroadcastsInDim S400000x1 (![0] : Fin 1 → Fin S400000x1.rank)
  bcast_S_S400000x128 : S_.BroadcastsInDim S400000x128 (![] : Fin 0 → Fin S400000x128.rank)
  bcast_S_S400000x1 : S_.BroadcastsInDim S400000x1 (![] : Fin 0 → Fin S400000x1.rank)
  bcast_S400000x1_S400000x128_0_1 : S400000x1.BroadcastsInDim S400000x128 (![0, 1] : Fin 2 → Fin S400000x128.rank)
  bcast_S_S100000x128 : S_.BroadcastsInDim S100000x128 (![] : Fin 0 → Fin S100000x128.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  slices_S3x2x128x128_S1x1x128x128_0_0_0_0 : S3x2x128x128.Slices ![0, 0, 0, 0] S1x1x128x128
  shapeCasts_S1x1x128x128_S128x128 : S1x1x128x128.ShapeCasts S128x128
  slices_S3x2x128_S1x1x128_0_0_0 : S3x2x128.Slices ![0, 0, 0] S1x1x128
  shapeCasts_S1x1x128_S128 : S1x1x128.ShapeCasts S128
  bcast_S128_S1x128_1 : S128.BroadcastsInDim S1x128 (![1] : Fin 1 → Fin S1x128.rank)
  bcast_S1x128_S400000x128_0_1 : S1x128.BroadcastsInDim S400000x128 (![0, 1] : Fin 2 → Fin S400000x128.rank)
  slices_S3x2x128x128_S1x1x128x128_0_1_0_0 : S3x2x128x128.Slices ![0, 1, 0, 0] S1x1x128x128
  slices_S3x2x128_S1x1x128_0_1_0 : S3x2x128.Slices ![0, 1, 0] S1x1x128
  bcast_S1x128_S100000x128_0_1 : S1x128.BroadcastsInDim S100000x128 (![0, 1] : Fin 2 → Fin S100000x128.rank)
  bcast_S_S128 : S_.BroadcastsInDim S128 (![] : Fin 0 → Fin S128.rank)
  slices_S3x2x128x128_S1x1x128x128_1_0_0_0 : S3x2x128x128.Slices ![1, 0, 0, 0] S1x1x128x128
  slices_S3x2x128_S1x1x128_1_0_0 : S3x2x128.Slices ![1, 0, 0] S1x1x128
  slices_S3x2x128x128_S1x1x128x128_1_1_0_0 : S3x2x128x128.Slices ![1, 1, 0, 0] S1x1x128x128
  slices_S3x2x128_S1x1x128_1_1_0 : S3x2x128.Slices ![1, 1, 0] S1x1x128
  slices_S3x2x128x128_S1x1x128x128_2_0_0_0 : S3x2x128x128.Slices ![2, 0, 0, 0] S1x1x128x128
  slices_S3x2x128_S1x1x128_2_0_0 : S3x2x128.Slices ![2, 0, 0] S1x1x128
  slices_S3x2x128x128_S1x1x128x128_2_1_0_0 : S3x2x128x128.Slices ![2, 1, 0, 0] S1x1x128x128
  slices_S3x2x128_S1x1x128_2_1_0 : S3x2x128.Slices ![2, 1, 0] S1x1x128
  concatenates_S100000x128_S400000x128_S500000x128_d0 : Shape.Concatenates [S100000x128, S400000x128] S500000x128 0
  bcast_S64_S1x64_1 : S64.BroadcastsInDim S1x64 (![1] : Fin 1 → Fin S1x64.rank)
  bcast_S1x64_S500000x64_0_1 : S1x64.BroadcastsInDim S500000x64 (![0, 1] : Fin 2 → Fin S500000x64.rank)
  bcast_S_S500000x64 : S_.BroadcastsInDim S500000x64 (![] : Fin 0 → Fin S500000x64.rank)
  bcast_S2_S1x2_1 : S2.BroadcastsInDim S1x2 (![1] : Fin 1 → Fin S1x2.rank)
  bcast_S1x2_S500000x2_0_1 : S1x2.BroadcastsInDim S500000x2 (![0, 1] : Fin 2 → Fin S500000x2.rank)
  gather_S10000x128_S100000x1_S100000x128_1_0_n_n_0_1_1128_wf : GatherDims.WF S10000x128 S100000x1 S100000x128 [1] [0] [] [0] [] 1 ![1, 128]
  gather_S10000x128_S400000x1_S400000x128_1_0_n_n_0_1_1128_wf : GatherDims.WF S10000x128 S400000x1 S400000x128 [1] [0] [] [0] [] 1 ![1, 128]
  gather_S100000x128_S400000x1_S400000x128_1_0_n_n_0_1_1128_wf : GatherDims.WF S100000x128 S400000x1 S400000x128 [1] [0] [] [0] [] 1 ![1, 128]
  scatter_S400000x128_S400000x1_S400000x128_1_0_0_1_wf : ScatterDims.WF S400000x128 S400000x1 S400000x128 [1] [0] [0] 1
  scatter_S400000x1_S400000x1_S400000x1_1_0_0_1_wf : ScatterDims.WF S400000x1 S400000x1 S400000x1 [1] [0] [0] 1
  gather_S400000x128_S400000x1_S400000x128_1_0_n_n_0_1_1128_wf : GatherDims.WF S400000x128 S400000x1 S400000x128 [1] [0] [] [0] [] 1 ![1, 128]
  scatter_S100000x128_S400000x1_S400000x128_1_0_0_1_wf : ScatterDims.WF S100000x128 S400000x1 S400000x128 [1] [0] [0] 1
  scatter_S100000x1_S400000x1_S400000x1_1_0_0_1_wf : ScatterDims.WF S100000x1 S400000x1 S400000x1 [1] [0] [0] 1
  dot_S400000x128_S128x128_S400000x128_1_0_0_1_n_n_wf : DotDims.WF S400000x128 S128x128 S400000x128 [1] [0] [0] [1] [] []
  dot_S100000x128_S128x128_S100000x128_1_0_0_1_n_n_wf : DotDims.WF S100000x128 S128x128 S100000x128 [1] [0] [0] [1] [] []
  dot_S500000x128_S128x64_S500000x64_1_0_0_1_n_n_wf : DotDims.WF S500000x128 S128x64 S500000x64 [1] [0] [0] [1] [] []
  dot_S500000x64_S64x2_S500000x2_1_0_0_1_n_n_wf : DotDims.WF S500000x64 S64x2 S500000x2 [1] [0] [0] [1] [] []

variable [Facts₀]

def gather_S10000x128_S100000x1_S100000x128_1_0_n_n_0_1_1128 : GatherDims S10000x128 S100000x1 S100000x128 where
  offsetDims := [1]
  collapsedSliceDims := [0]
  operandBatchingDims := []
  startIndicesBatchingDims := []
  startIndexMap := [0]
  indexVectorDim := 1
  sliceSizes := ![1, 128]
  wf := gather_S10000x128_S100000x1_S100000x128_1_0_n_n_0_1_1128_wf
def gather_S10000x128_S400000x1_S400000x128_1_0_n_n_0_1_1128 : GatherDims S10000x128 S400000x1 S400000x128 where
  offsetDims := [1]
  collapsedSliceDims := [0]
  operandBatchingDims := []
  startIndicesBatchingDims := []
  startIndexMap := [0]
  indexVectorDim := 1
  sliceSizes := ![1, 128]
  wf := gather_S10000x128_S400000x1_S400000x128_1_0_n_n_0_1_1128_wf
def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def scatter_S400000x128_S400000x1_S400000x128_1_0_0_1 : ScatterDims S400000x128 S400000x1 S400000x128 where
  updateWindowDims := [1]
  insertedWindowDims := [0]
  scatterDimsToOperandDims := [0]
  indexVectorDim := 1
  wf := scatter_S400000x128_S400000x1_S400000x128_1_0_0_1_wf
def scatter_S400000x1_S400000x1_S400000x1_1_0_0_1 : ScatterDims S400000x1 S400000x1 S400000x1 where
  updateWindowDims := [1]
  insertedWindowDims := [0]
  scatterDimsToOperandDims := [0]
  indexVectorDim := 1
  wf := scatter_S400000x1_S400000x1_S400000x1_1_0_0_1_wf
def gather_S400000x128_S400000x1_S400000x128_1_0_n_n_0_1_1128 : GatherDims S400000x128 S400000x1 S400000x128 where
  offsetDims := [1]
  collapsedSliceDims := [0]
  operandBatchingDims := []
  startIndicesBatchingDims := []
  startIndexMap := [0]
  indexVectorDim := 1
  sliceSizes := ![1, 128]
  wf := gather_S400000x128_S400000x1_S400000x128_1_0_n_n_0_1_1128_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def scatter_S100000x1_S400000x1_S400000x1_1_0_0_1 : ScatterDims S100000x1 S400000x1 S400000x1 where
  updateWindowDims := [1]
  insertedWindowDims := [0]
  scatterDimsToOperandDims := [0]
  indexVectorDim := 1
  wf := scatter_S100000x1_S400000x1_S400000x1_1_0_0_1_wf
def dot_S400000x128_S128x128_S400000x128_1_0_0_1_n_n : DotDims S400000x128 S128x128 S400000x128 where
  lhsContracting := [1]
  rhsContracting := [0]
  lhsNonContracting := [0]
  rhsNonContracting := [1]
  lhsBatch := []
  rhsBatch := []
  wf := dot_S400000x128_S128x128_S400000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S500000x128_S128x64_S500000x64_1_0_0_1_n_n : DotDims S500000x128 S128x64 S500000x64 where
  lhsContracting := [1]
  rhsContracting := [0]
  lhsNonContracting := [0]
  rhsNonContracting := [1]
  lhsBatch := []
  rhsBatch := []
  wf := dot_S500000x128_S128x64_S500000x64_1_0_0_1_n_n_wf
def dot_S500000x64_S64x2_S500000x2_1_0_0_1_n_n : DotDims S500000x64 S64x2 S500000x2 where
  lhsContracting := [1]
  rhsContracting := [0]
  lhsNonContracting := [0]
  rhsNonContracting := [1]
  lhsBatch := []
  rhsBatch := []
  wf := dot_S500000x64_S64x2_S500000x2_1_0_0_1_n_n_wf

class Facts : Prop extends Facts₀ where

variable [Facts]
-- ==== Proof.KernelRun.lean ====
/-
  The idealized kernel's run, with EVERY unscoped buffer named at the return.

  The program is eleven segments: four stretches of host operations (the gathers, the segment sums, the slices of the
  weights) and seven pallas regions (three layers of two node transforms, then the two-layer head). The buffer contents at
  the segment boundaries form a fold from the launch memory; the last of them is the contents at the return. The run
  below says that every weakly fair execution ends with each unscoped buffer at that last fold, so the result array (the
  head's output) can be read off it, and so can every argument array.
-/
import proofs.«179405_j8443905704157_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and at the return every unscoped buffer of
    every core holds the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h => h)

end Cert.KernelIdeal.Whole

end
-- ==== Proof.LibPlainDot.lean ====
/-
  A plain matrix product read at an index, generic in the three extents.

  For the dimension numbers "rows × contraction times contraction × columns" (`DotDims.plain M K N`:
  no batch axis, the left operand contracted on its last axis, the right on its first), at the ideal
  values — floats extended reals, every operation exact — a `tpu.matmul` into the zero accumulator, read
  at the output index (r, c), is the plain sum over k of lhs (r, k) · rhs (k, c): no rounding and no
  chunk order is left in it.  The contraction index, a one-axis multi-index, is re-indexed by its one
  coordinate.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The left operand's index at output index (r, c) and contraction position k is (r, k). -/
theorem lhsIdx_plain (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  exact funext fun a => Fin.ext (by
    match a with
    | ⟨0, _⟩ => rfl
    | ⟨1, _⟩ => exact ((DotDims.plain M K N).lhsIdx_val_of_single rfl _ _).trans hk)

/-- The right operand's index at output index (r, c) and contraction position k is (k, c). -/
theorem rhsIdx_plain (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => rfl)

/-- A plain `tpu.matmul` into the zero accumulator, at the ideal values, read at (r, c):
    the sum over k of lhs (r, k) · rhs (k, c). -/
theorem matmul_plain_zero_apply {φ₁ φ₂ : FTy} (prec : Option ContractPrecision)
    (lhs : FVec Ideal ⟨2, ![M, K]⟩ φ₁) (rhs : FVec Ideal ⟨2, ![K, N]⟩ φ₂) (r : Fin M) (c : Fin N) :
    matmul (DotDims.plain M K N) prec lhs rhs (constant (F := Ideal) ⟨2, ![M, N]⟩ .f32 0x00000000#32) (ix2 r c)
      = ∑ k : Fin K, lhs (ix2 r k) * rhs (ix2 k c) := by
  show FloatOps.matmul (DotDims.plain M K N) prec lhs rhs (constant (F := Ideal) ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  rw [lhsIdx_plain, rhsIdx_plain]

end Cert.Lib.PlainDot

end
-- ==== Proof.NodeSpec.lean ====
/-
  One entry of a node transform, and one entry of the two-layer head, over the extended reals.

  A node transform takes, for one node, the row `A` of the mean of its neighbours' features and the row `H` of its own
  features, multiplies each by a column of a 128 × 128 weight matrix, adds a bias, normalises with a stored mean and
  variance (the reciprocal square root of the variance plus the small literal both programs carry), scales, shifts
  and clamps below at zero. The two programs add the bias at different places — one after the first product, the other
  after both — which on the extended reals is the same sum, because addition there is commutative and associative
  without any finiteness assumption.

  The head takes a row `X` of the final features through a 128 × 64 layer with bias and clamp, then a 64 × 2 layer with
  bias.
-/
import Idealize.ShloMosaic.PureOps.Ideal
import Mathlib.Algebra.BigOperators.Group.Finset.Basic

noncomputable section

namespace Cert.NodeSpec

open Idealize.ShloMosaic

/-- The small literal added to the variance (the float nearest to one hundred-thousandth), as both programs spell it. -/
abbrev epsWord : BitVec 32 := 0x3727C5AC#32

/-- One entry of a node transform: `wl`, `wr` are one column of each weight matrix; `bl`, `g`, `be`, `mu`, `v` the
    bias, scale, shift, mean and variance of that column. The bias is added after the first product. -/
def nodeAt (A H wl wr : Fin 128 → EReal) (bl g be mu v : EReal) : EReal :=
  max ((((∑ k : Fin 128, A k * wl k) + bl + (∑ k : Fin 128, H k * wr k) - mu)
      * Ideal.rsqrt (v + Ideal.ofBits .f32 epsWord)) * g + be) (Ideal.ofBits .f32 0x00000000#32)

/-- Adding the bias after both products gives the same entry: (a + b) + c = (a + c) + b in any commutative monoid. -/
theorem nodeAt_bias_last (A H wl wr : Fin 128 → EReal) (bl g be mu v : EReal) :
    max (((((∑ k : Fin 128, A k * wl k) + (∑ k : Fin 128, H k * wr k)) + bl - mu)
      * Ideal.rsqrt (v + Ideal.ofBits .f32 epsWord)) * g + be) (Ideal.ofBits .f32 0x00000000#32)
    = nodeAt A H wl wr bl g be mu v := by
  unfold nodeAt
  rw [add_right_comm]

/-- One entry of the head: `w1` the first layer's matrix, `b1` its bias, `w2` one column of the second layer's
    matrix, `b2` that column's bias. -/
def headAt (X : Fin 128 → EReal) (w1 : Fin 128 → Fin 64 → EReal) (b1 w2 : Fin 64 → EReal) (b2 : EReal) : EReal :=
  (∑ q : Fin 64, max ((∑ k : Fin 128, X k * w1 k q) + b1 q) (Ideal.ofBits .f32 0x00000000#32) * w2 q) + b2

end Cert.NodeSpec

end
-- ==== Proof.NodeBody.lean ====
/-
  What the kernel bodies compute, entry by entry, over the extended reals.

  The node-transform body loads a 5000-row block of the aggregated features and of the node's own features, the two
  128 × 128 weight matrices and five 1 × 128 rows (bias, scale, shift, mean, variance). The roundings to the
  matrix unit's input format are the identity on the extended reals, the two products into zero accumulators are
  plain sums, the rows are laid along the block's rows, and the rest is pointwise. So the entry at row `r`, column `j`
  is `nodeAt` of row `r` of the two blocks, column `j` of the two matrices and entry `j` of the five rows.
  The head's body is read the same way against `headAt`.
-/
import proofs.«179405_j8443905704157_1_alg».proof.Proof.Gen.KernelIdeal.Skeleton
import proofs.«179405_j8443905704157_1_alg».proof.Proof.LibPlainDot
import proofs.«179405_j8443905704157_1_alg».proof.Proof.NodeSpec
import Idealize.ShloMosaic.Lib.Pipeline.Value
import Idealize.ShloMosaic.Lib.ValueLayout

noncomputable section

namespace Cert.KernelIdeal.Body

open Idealize.ShloMosaic Idealize.ShloMosaic.ValueIdx Cert.KernelIdeal Cert.KernelIdeal.Gen Cert.Lib.PlainDot Cert.NodeSpec

/-- A 5000 × 128 block times a 128 × 128 matrix, into the zero accumulator, at (r, j). -/
theorem mm_5000_128_128 (a : FVec Ideal S5000x128 .bf16) (b : FVec Ideal S128x128 .bf16) (r : Fin 5000) (j : Fin 128) :
    matmul dot_S5000x128_S128x128_S5000x128_1_0_0_1_n_n none a b (constant (F := Ideal) S5000x128 .f32 0x00000000#32) (ix2 r j)
      = ∑ k : Fin 128, a (ix2 r k) * b (ix2 k j) :=
  matmul_plain_zero_apply (M := 5000) (K := 128) (N := 128) none a b r j

/-- A 5000 × 128 block times a 128 × 64 matrix, into the zero accumulator, at (r, q). -/
theorem mm_5000_128_64 (a : FVec Ideal S5000x128 .bf16) (b : FVec Ideal S128x64 .bf16) (r : Fin 5000) (q : Fin 64) :
    matmul dot_S5000x128_S128x64_S5000x64_1_0_0_1_n_n none a b (constant (F := Ideal) S5000x64 .f32 0x00000000#32) (ix2 r q)
      = ∑ k : Fin 128, a (ix2 r k) * b (ix2 k q) :=
  matmul_plain_zero_apply (M := 5000) (K := 128) (N := 64) none a b r q

/-- A 5000 × 64 block times a 64 × 2 matrix, into the zero accumulator, at (r, o). -/
theorem mm_5000_64_2 (a : FVec Ideal S5000x64 .bf16) (b : FVec Ideal S64x2 .bf16) (r : Fin 5000) (o : Fin 2) :
    matmul dot_S5000x64_S64x2_S5000x2_1_0_0_1_n_n none a b (constant (F := Ideal) S5000x2 .f32 0x00000000#32) (ix2 r o)
      = ∑ q : Fin 64, a (ix2 r q) * b (ix2 q o) :=
  matmul_plain_zero_apply (M := 5000) (K := 64) (N := 2) none a b r o

/-- The node-transform body's stored value at (r, j). -/
theorem node_pay_at (x0 x1 : Vec Ideal S5000x128 .f32) (x2 x3 : Vec Ideal S128x128 .f32) (x4 x5 x6 x7 x8 : Vec Ideal S1x128 .f32)
    (r : Fin 5000) (j : Fin 128) :
    k0_pay1 (k0_pay2 x0 x1 x2 x3 x4 x5 x6 x7 x8) (ix2 r j)
      = nodeAt (fun k => x0 (ix2 r k)) (fun k => x1 (ix2 r k)) (fun k => x2 (ix2 k j)) (fun k => x3 (ix2 k j))
          (x4 (ix2 (0 : Fin 1) j)) (x5 (ix2 (0 : Fin 1) j)) (x6 (ix2 (0 : Fin 1) j)) (x7 (ix2 (0 : Fin 1) j)) (x8 (ix2 (0 : Fin 1) j)) := by
  rw [← nodeAt_bias_last]
  unfold k0_pay1 k0_pay2
  simp only [shapeCast_self]
  show max (((((matmul dot_S5000x128_S128x128_S5000x128_1_0_0_1_n_n none (truncf .bf16 x0 bitsLt_bf16_f32) (truncf .bf16 x2 bitsLt_bf16_f32) (constant (F := Ideal) S5000x128 .f32 0x00000000#32) (ix2 r j)
      + matmul dot_S5000x128_S128x128_S5000x128_1_0_0_1_n_n none (truncf .bf16 x1 bitsLt_bf16_f32) (truncf .bf16 x3 bitsLt_bf16_f32) (constant (F := Ideal) S5000x128 .f32 0x00000000#32) (ix2 r j))
      + broadcastTo S5000x128 x4 broadcasts_S1x128_S5000x128 (ix2 r j)) - broadcastTo S5000x128 x7 broadcasts_S1x128_S5000x128 (ix2 r j))
      * broadcastTo S5000x128 (rsqrt (addf x8 (broadcast S1x128 (FloatOps.ofBits (F := Ideal) .f32 0x3727C5AC#32)))) broadcasts_S1x128_S5000x128 (ix2 r j))
      * broadcastTo S5000x128 x5 broadcasts_S1x128_S5000x128 (ix2 r j) + broadcastTo S5000x128 x6 broadcasts_S1x128_S5000x128 (ix2 r j))
      (Ideal.ofBits .f32 0x00000000#32) = _
  rw [mm_5000_128_128, mm_5000_128_128, broadcastTo_1b_ab_apply, broadcastTo_1b_ab_apply, broadcastTo_1b_ab_apply,
    broadcastTo_1b_ab_apply, broadcastTo_1b_ab_apply]
  rfl

/-- The head body's stored value at (r, o). -/
theorem head_pay_at (x0 : Vec Ideal S5000x128 .f32) (x1 : Vec Ideal S128x64 .f32) (x2 : Vec Ideal S1x64 .f32) (x3 : Vec Ideal S64x2 .f32)
    (x4 : Vec Ideal S1x2 .f32) (r : Fin 5000) (o : Fin 2) :
    k6_pay1 x0 x1 x2 x3 x4 (ix2 r o)
      = headAt (fun k => x0 (ix2 r k)) (fun k q => x1 (ix2 k q)) (fun q => x2 (ix2 (0 : Fin 1) q)) (fun q => x3 (ix2 q o))
          (x4 (ix2 (0 : Fin 1) o)) := by
  unfold k6_pay1 headAt
  simp only [shapeCast_self]
  show matmul dot_S5000x64_S64x2_S5000x2_1_0_0_1_n_n none
        (truncf .bf16 (maximumf (addf (matmul dot_S5000x128_S128x64_S5000x64_1_0_0_1_n_n none (truncf .bf16 x0 bitsLt_bf16_f32)
          (truncf .bf16 x1 bitsLt_bf16_f32) (constant (F := Ideal) S5000x64 .f32 0x00000000#32)) (broadcastTo S5000x64 x2 broadcasts_S1x64_S5000x64))
          (broadcast S5000x64 (FloatOps.ofBits (F := Ideal) .f32 0x00000000#32))) bitsLt_bf16_f32)
        (truncf .bf16 x3 bitsLt_bf16_f32) (constant (F := Ideal) S5000x2 .f32 0x00000000#32) (ix2 r o)
      + broadcastTo S5000x2 x4 broadcasts_S1x2_S5000x2 (ix2 r o) = _
  rw [mm_5000_64_2, broadcastTo_1b_ab_apply]
  refine congrArg (fun s : EReal => s + x4 (ix2 (0 : Fin 1) o)) (Finset.sum_congr rfl fun q _ => ?_)
  show max (matmul dot_S5000x128_S128x64_S5000x64_1_0_0_1_n_n none (truncf .bf16 x0 bitsLt_bf16_f32)
          (truncf .bf16 x1 bitsLt_bf16_f32) (constant (F := Ideal) S5000x64 .f32 0x00000000#32) (ix2 r q)
        + broadcastTo S5000x64 x2 broadcasts_S1x64_S5000x64 (ix2 r q)) (Ideal.ofBits .f32 0x00000000#32) * x3 (ix2 q o) = _
  rw [mm_5000_128_64, broadcastTo_1b_ab_apply]
  rfl

end Cert.KernelIdeal.Body

end
-- ==== Proof.LibRowBlocks.lean ====
/-
  A matrix product computed by blocks of rows is the whole product.

  At the ideal values — floats extended reals, every operation exact — the host's `dot_general` with
  the plain dimension numbers "rows × contraction times contraction × columns", read at the output
  index (r, c), is the sum over k of lhs (r, k) · rhs (k, c), exactly what a `tpu.matmul` into the zero
  accumulator is.  So a row block of the left operand, multiplied on the matrix unit by the whole right
  operand, gives at its local index (p, c) the whole product's entry at (r, c), where r is the row of the
  whole array that the block's row p is.  No finiteness is used: both sides are one and the same sum.
-/
import proofs.«179405_j8443905704157_1_alg».proof.Proof.LibPlainDot

noncomputable section

namespace Cert.Lib.RowBlocks

open Idealize.ShloMosaic Idealize.ShloMosaic.ValueIdx Cert.Lib.PlainDot

variable {M K N : Nat}

/-- The host's plain `dot_general`, at the ideal values, read at (r, c): the sum over k of
    lhs (r, k) · rhs (k, c). -/
theorem dotGeneral_plain_apply {φ₁ φ₂ : FTy} (prec : Option ContractPrecision)
    (lhs : FVec Ideal ⟨2, ![M, K]⟩ φ₁) (rhs : FVec Ideal ⟨2, ![K, N]⟩ φ₂) (r : Fin M) (c : Fin N) :
    Host.dotGeneral (DotDims.plain M K N) prec lhs rhs (ix2 r c) = ∑ k : Fin K, lhs (ix2 r k) * rhs (ix2 k c) := by
  show FloatOps.dotGeneral (DotDims.plain M K N) prec .single lhs rhs (ix2 r c) = _
  rw [Ideal.dotGeneral_apply, ← Equiv.sum_comp (contrEquiv1 (DotDims.plain M K N) K rfl rfl).symm]
  refine Finset.sum_congr rfl fun k _ => ?_
  rw [lhsIdx_plain, rhsIdx_plain]

/-- A block of B rows of the left operand times the whole right operand, into the zero accumulator: its
    entry at the local index (p, c) is the whole product's entry at (r, c), when row p of the block is row r
    of the whole left operand and the block's right operand is the whole one (the operands' float formats may
    differ between the block and the whole: at the ideal values every format is the extended reals). -/
theorem matmul_rows_eq_dotGeneral {B : Nat} {φ₁ φ₂ ψ₁ ψ₂ : FTy} (prec prec' : Option ContractPrecision)
    (x : FVec Ideal ⟨2, ![M, K]⟩ ψ₁) (w : FVec Ideal ⟨2, ![K, N]⟩ ψ₂)
    (xb : FVec Ideal ⟨2, ![B, K]⟩ φ₁) (wb : FVec Ideal ⟨2, ![K, N]⟩ φ₂) (p : Fin B) (r : Fin M) (c : Fin N)
    (hx : ∀ k : Fin K, (xb (ix2 p k) : EReal) = x (ix2 r k)) (hw : ∀ k : Fin K, (wb (ix2 k c) : EReal) = w (ix2 k c)) :
    matmul (DotDims.plain B K N) prec xb wb (constant (F := Ideal) ⟨2, ![B, N]⟩ .f32 0x00000000#32) (ix2 p c)
      = Host.dotGeneral (DotDims.plain M K N) prec' x w (ix2 r c) := by
  rw [matmul_plain_zero_apply, dotGeneral_plain_apply]
  exact Finset.sum_congr rfl fun k _ => congrArg₂ (fun a b : EReal => a * b) (hx k) (hw k)

end Cert.Lib.RowBlocks

end
-- ==== Proof.LayerRef.lean ====
/-
  The reference's node transform and head as whole-array functions, and their entries.

  `layerT` (400000 rows) and `layerU` (100000 rows) are the reference's host operations of one node transform, composed
  in the reference's own order, as one function of the aggregated features, the node features, the two weight
  matrices and the five 128-vectors. Read at (r, j) each is `nodeAt`: the host's `dot_general` over the extended reals
  is the plain sum, a vector broadcast first to 1 × 128 and then along the rows reads its entry j, everything else is
  pointwise. `headRef` is the reference's last operations (two products with bias, a clamp between) the same way.
-/
import proofs.«179405_j8443905704157_1_alg».proof.Proof.Gen.ReferenceIdeal
import proofs.«179405_j8443905704157_1_alg».proof.Proof.LibRowBlocks
import proofs.«179405_j8443905704157_1_alg».proof.Proof.NodeSpec
import Idealize.ShloMosaic.Lib.Pipeline.Value
import Idealize.ShloMosaic.Lib.ValueLayout

noncomputable section

namespace Cert.ReferenceIdeal.Layer

open Idealize.ShloMosaic Idealize.ShloMosaic.ValueIdx Cert.ReferenceIdeal Cert.ReferenceIdeal.Gen Cert.Lib.PlainDot Cert.Lib.RowBlocks Cert.NodeSpec

/-- A node transform of all 400000 rows at once, spelt with the reference's own host operations in the reference's own order:
    product, bias, second product, minus the mean, times the reciprocal root of variance plus the literal, times the
    scale, plus the shift, clamped below at zero. -/
def layerT (agg h : FVec Ideal S400000x128 .f32) (wl wr : FVec Ideal S128x128 .f32) (bl g be mu v : FVec Ideal S128 .f32) :
    FVec Ideal S400000x128 .f32 :=
  maximumf
    (addf (mulf (mulf (subf (addf (addf (Host.dotGeneral dot_S400000x128_S128x128_S400000x128_1_0_0_1_n_n none agg wl) (broadcastInDim S400000x128 ![0, 1] bcast_S1x128_S400000x128_0_1 (broadcastInDim S1x128 ![1] bcast_S128_S1x128_1 bl)))
        (Host.dotGeneral dot_S400000x128_S128x128_S400000x128_1_0_0_1_n_n none h wr)) (broadcastInDim S400000x128 ![0, 1] bcast_S1x128_S400000x128_0_1 (broadcastInDim S1x128 ![1] bcast_S128_S1x128_1 mu)))
        (broadcastInDim S400000x128 ![0, 1] bcast_S1x128_S400000x128_0_1 (broadcastInDim S1x128 ![1] bcast_S128_S1x128_1 (Host.rsqrt (addf v (broadcastInDim S128 ![] bcast_S_S128 (constant S_ .f32 0x3727C5AC#32)))))))
        (broadcastInDim S400000x128 ![0, 1] bcast_S1x128_S400000x128_0_1 (broadcastInDim S1x128 ![1] bcast_S128_S1x128_1 g))) (broadcastInDim S400000x128 ![0, 1] bcast_S1x128_S400000x128_0_1 (broadcastInDim S1x128 ![1] bcast_S128_S1x128_1 be)))
    (broadcastInDim S400000x128 ![] bcast_S_S400000x128 (constant S_ .f32 0x00000000#32))

/-- A 128-vector laid along the rows of the 400000 × 128 array reads, at (r, j), its entry j. -/
theorem row_layerT (x : FVec Ideal S128 .f32) (r : Fin 400000) (j : Fin 128) :
    (broadcastInDim S400000x128 ![0, 1] bcast_S1x128_S400000x128_0_1 (broadcastInDim S1x128 ![1] bcast_S128_S1x128_1 x)) (ix2 r j) = x (ix1 j) := by
  rw [broadcastInDim_apply _ bcast_S1x128_S400000x128_0_1 _ (ix2 r j) (ix2 (0 : Fin 1) j) (fun a => match a with
    | ⟨0, _⟩ => by show 0 = if (1 : Nat) = 1 then 0 else r.val; rw [if_pos rfl]
    | ⟨1, _⟩ => by show j.val = if (128 : Nat) = 1 then 0 else j.val; rw [if_neg (by decide)])]
  exact broadcastInDim_apply _ bcast_S128_S1x128_1 x (ix2 (0 : Fin 1) j) (ix1 j) (fun a => match a with
    | ⟨0, _⟩ => by show j.val = if (128 : Nat) = 1 then 0 else j.val; rw [if_neg (by decide)])

/-- The whole-array node transform at (r, j) is `nodeAt` of row r of the two feature arrays, column j of the two weight
    matrices and entry j of the five vectors. -/
theorem layerT_apply (agg h : FVec Ideal S400000x128 .f32) (wl wr : FVec Ideal S128x128 .f32) (bl g be mu v : FVec Ideal S128 .f32)
    (r : Fin 400000) (j : Fin 128) :
    layerT agg h wl wr bl g be mu v (ix2 r j)
      = nodeAt (fun k => agg (ix2 r k)) (fun k => h (ix2 r k)) (fun k => wl (ix2 k j)) (fun k => wr (ix2 k j))
          (bl (ix1 j)) (g (ix1 j)) (be (ix1 j)) (mu (ix1 j)) (v (ix1 j)) := by
  unfold layerT nodeAt
  show max ((((Host.dotGeneral (DotDims.plain 400000 128 128) none agg wl (ix2 r j) + (broadcastInDim S400000x128 ![0, 1] bcast_S1x128_S400000x128_0_1 (broadcastInDim S1x128 ![1] bcast_S128_S1x128_1 bl)) (ix2 r j))
      + Host.dotGeneral (DotDims.plain 400000 128 128) none h wr (ix2 r j) - (broadcastInDim S400000x128 ![0, 1] bcast_S1x128_S400000x128_0_1 (broadcastInDim S1x128 ![1] bcast_S128_S1x128_1 mu)) (ix2 r j))
      * (broadcastInDim S400000x128 ![0, 1] bcast_S1x128_S400000x128_0_1 (broadcastInDim S1x128 ![1] bcast_S128_S1x128_1 (Host.rsqrt (addf v (broadcastInDim S128 ![] bcast_S_S128 (constant S_ .f32 0x3727C5AC#32)))))) (ix2 r j))
      * (broadcastInDim S400000x128 ![0, 1] bcast_S1x128_S400000x128_0_1 (broadcastInDim S1x128 ![1] bcast_S128_S1x128_1 g)) (ix2 r j) + (broadcastInDim S400000x128 ![0, 1] bcast_S1x128_S400000x128_0_1 (broadcastInDim S1x128 ![1] bcast_S128_S1x128_1 be)) (ix2 r j)) _ = _
  rw [dotGeneral_plain_apply, dotGeneral_plain_apply, row_layerT, row_layerT, row_layerT, row_layerT, row_layerT]
  rfl

/-- A node transform of all 100000 rows at once, spelt with the reference's own host operations in the reference's own order:
    product, bias, second product, minus the mean, times the reciprocal root of variance plus the literal, times the
    scale, plus the shift, clamped below at zero. -/
def layerU (agg h : FVec Ideal S100000x128 .f32) (wl wr : FVec Ideal S128x128 .f32) (bl g be mu v : FVec Ideal S128 .f32) :
    FVec Ideal S100000x128 .f32 :=
  maximumf
    (addf (mulf (mulf (subf (addf (addf (Host.dotGeneral dot_S100000x128_S128x128_S100000x128_1_0_0_1_n_n none agg wl) (broadcastInDim S100000x128 ![0, 1] bcast_S1x128_S100000x128_0_1 (broadcastInDim S1x128 ![1] bcast_S128_S1x128_1 bl)))
        (Host.dotGeneral dot_S100000x128_S128x128_S100000x128_1_0_0_1_n_n none h wr)) (broadcastInDim S100000x128 ![0, 1] bcast_S1x128_S100000x128_0_1 (broadcastInDim S1x128 ![1] bcast_S128_S1x128_1 mu)))
        (broadcastInDim S100000x128 ![0, 1] bcast_S1x128_S100000x128_0_1 (broadcastInDim S1x128 ![1] bcast_S128_S1x128_1 (Host.rsqrt (addf v (broadcastInDim S128 ![] bcast_S_S128 (constant S_ .f32 0x3727C5AC#32)))))))
        (broadcastInDim S100000x128 ![0, 1] bcast_S1x128_S100000x128_0_1 (broadcastInDim S1x128 ![1] bcast_S128_S1x128_1 g))) (broadcastInDim S100000x128 ![0, 1] bcast_S1x128_S100000x128_0_1 (broadcastInDim S1x128 ![1] bcast_S128_S1x128_1 be)))
    (broadcastInDim S100000x128 ![] bcast_S_S100000x128 (constant S_ .f32 0x00000000#32))

/-- A 128-vector laid along the rows of the 100000 × 128 array reads, at (r, j), its entry j. -/
theorem row_layerU (x : FVec Ideal S128 .f32) (r : Fin 100000) (j : Fin 128) :
    (broadcastInDim S100000x128 ![0, 1] bcast_S1x128_S100000x128_0_1 (broadcastInDim S1x128 ![1] bcast_S128_S1x128_1 x)) (ix2 r j) = x (ix1 j) := by
  rw [broadcastInDim_apply _ bcast_S1x128_S100000x128_0_1 _ (ix2 r j) (ix2 (0 : Fin 1) j) (fun a => match a with
    | ⟨0, _⟩ => by show 0 = if (1 : Nat) = 1 then 0 else r.val; rw [if_pos rfl]
    | ⟨1, _⟩ => by show j.val = if (128 : Nat) = 1 then 0 else j.val; rw [if_neg (by decide)])]
  exact broadcastInDim_apply _ bcast_S128_S1x128_1 x (ix2 (0 : Fin 1) j) (ix1 j) (fun a => match a with
    | ⟨0, _⟩ => by show j.val = if (128 : Nat) = 1 then 0 else j.val; rw [if_neg (by decide)])

/-- The whole-array node transform at (r, j) is `nodeAt` of row r of the two feature arrays, column j of the two weight
    matrices and entry j of the five vectors. -/
theorem layerU_apply (agg h : FVec Ideal S100000x128 .f32) (wl wr : FVec Ideal S128x128 .f32) (bl g be mu v : FVec Ideal S128 .f32)
    (r : Fin 100000) (j : Fin 128) :
    layerU agg h wl wr bl g be mu v (ix2 r j)
      = nodeAt (fun k => agg (ix2 r k)) (fun k => h (ix2 r k)) (fun k => wl (ix2 k j)) (fun k => wr (ix2 k j))
          (bl (ix1 j)) (g (ix1 j)) (be (ix1 j)) (mu (ix1 j)) (v (ix1 j)) := by
  unfold layerU nodeAt
  show max ((((Host.dotGeneral (DotDims.plain 100000 128 128) none agg wl (ix2 r j) + (broadcastInDim S100000x128 ![0, 1] bcast_S1x128_S100000x128_0_1 (broadcastInDim S1x128 ![1] bcast_S128_S1x128_1 bl)) (ix2 r j))
      + Host.dotGeneral (DotDims.plain 100000 128 128) none h wr (ix2 r j) - (broadcastInDim S100000x128 ![0, 1] bcast_S1x128_S100000x128_0_1 (broadcastInDim S1x128 ![1] bcast_S128_S1x128_1 mu)) (ix2 r j))
      * (broadcastInDim S100000x128 ![0, 1] bcast_S1x128_S100000x128_0_1 (broadcastInDim S1x128 ![1] bcast_S128_S1x128_1 (Host.rsqrt (addf v (broadcastInDim S128 ![] bcast_S_S128 (constant S_ .f32 0x3727C5AC#32)))))) (ix2 r j))
      * (broadcastInDim S100000x128 ![0, 1] bcast_S1x128_S100000x128_0_1 (broadcastInDim S1x128 ![1] bcast_S128_S1x128_1 g)) (ix2 r j) + (broadcastInDim S100000x128 ![0, 1] bcast_S1x128_S100000x128_0_1 (broadcastInDim S1x128 ![1] bcast_S128_S1x128_1 be)) (ix2 r j)) _ = _
  rw [dotGeneral_plain_apply, dotGeneral_plain_apply, row_layerU, row_layerU, row_layerU, row_layerU, row_layerU]
  rfl

end Cert.ReferenceIdeal.Layer

end
-- ==== Proof.HeadRef.lean ====
/-
  The reference's head as a whole-array function, and its entries.

  `headRef` is the reference's last host operations composed in its own order: the 500000 × 128 features times the
  128 × 64 matrix, plus the bias laid along the rows, clamped below at zero, times the 64 × 2 matrix, plus the second
  bias. Read at (r, o) it is `headAt` of row r of the features: both products are plain sums over the extended reals.
-/
import proofs.«179405_j8443905704157_1_alg».proof.Proof.Gen.ReferenceIdeal
import proofs.«179405_j8443905704157_1_alg».proof.Proof.LibRowBlocks
import proofs.«179405_j8443905704157_1_alg».proof.Proof.NodeSpec
import Idealize.ShloMosaic.Lib.Pipeline.Value
import Idealize.ShloMosaic.Lib.ValueLayout

noncomputable section

namespace Cert.ReferenceIdeal.Layer

open Idealize.ShloMosaic Idealize.ShloMosaic.ValueIdx Cert.ReferenceIdeal Cert.ReferenceIdeal.Gen Cert.Lib.PlainDot Cert.Lib.RowBlocks Cert.NodeSpec

/-- The head of all 500000 rows at once, spelt with the reference's own host operations. -/
def headRef (x : FVec Ideal S500000x128 .f32) (w1 : FVec Ideal S128x64 .f32) (b1 : FVec Ideal S64 .f32) (w2 : FVec Ideal S64x2 .f32)
    (b2 : FVec Ideal S2 .f32) : FVec Ideal S500000x2 .f32 :=
  addf (Host.dotGeneral dot_S500000x64_S64x2_S500000x2_1_0_0_1_n_n none
      (maximumf (addf (Host.dotGeneral dot_S500000x128_S128x64_S500000x64_1_0_0_1_n_n none x w1) (broadcastInDim S500000x64 ![0, 1] bcast_S1x64_S500000x64_0_1 (broadcastInDim S1x64 ![1] bcast_S64_S1x64_1 b1)))
        (broadcastInDim S500000x64 ![] bcast_S_S500000x64 (constant S_ .f32 0x00000000#32))) w2)
    (broadcastInDim S500000x2 ![0, 1] bcast_S1x2_S500000x2_0_1 (broadcastInDim S1x2 ![1] bcast_S2_S1x2_1 b2))

/-- A 64-vector laid along the rows of the 500000 × 64 array reads, at (r, j), its entry j. -/
theorem row_head64 (x : FVec Ideal S64 .f32) (r : Fin 500000) (j : Fin 64) :
    (broadcastInDim S500000x64 ![0, 1] bcast_S1x64_S500000x64_0_1 (broadcastInDim S1x64 ![1] bcast_S64_S1x64_1 x)) (ix2 r j) = x (ix1 j) := by
  rw [broadcastInDim_apply _ bcast_S1x64_S500000x64_0_1 _ (ix2 r j) (ix2 (0 : Fin 1) j) (fun a => match a with
    | ⟨0, _⟩ => by show 0 = if (1 : Nat) = 1 then 0 else r.val; rw [if_pos rfl]
    | ⟨1, _⟩ => by show j.val = if (64 : Nat) = 1 then 0 else j.val; rw [if_neg (by decide)])]
  exact broadcastInDim_apply _ bcast_S64_S1x64_1 x (ix2 (0 : Fin 1) j) (ix1 j) (fun a => match a with
    | ⟨0, _⟩ => by show j.val = if (64 : Nat) = 1 then 0 else j.val; rw [if_neg (by decide)])

/-- A 2-vector laid along the rows of the 500000 × 2 array reads, at (r, j), its entry j. -/
theorem row_head2 (x : FVec Ideal S2 .f32) (r : Fin 500000) (j : Fin 2) :
    (broadcastInDim S500000x2 ![0, 1] bcast_S1x2_S500000x2_0_1 (broadcastInDim S1x2 ![1] bcast_S2_S1x2_1 x)) (ix2 r j) = x (ix1 j) := by
  rw [broadcastInDim_apply _ bcast_S1x2_S500000x2_0_1 _ (ix2 r j) (ix2 (0 : Fin 1) j) (fun a => match a with
    | ⟨0, _⟩ => by show 0 = if (1 : Nat) = 1 then 0 else r.val; rw [if_pos rfl]
    | ⟨1, _⟩ => by show j.val = if (2 : Nat) = 1 then 0 else j.val; rw [if_neg (by decide)])]
  exact broadcastInDim_apply _ bcast_S2_S1x2_1 x (ix2 (0 : Fin 1) j) (ix1 j) (fun a => match a with
    | ⟨0, _⟩ => by show j.val = if (2 : Nat) = 1 then 0 else j.val; rw [if_neg (by decide)])

/-- The whole-array head at (r, o) is `headAt` of row r of the features, the first layer's matrix and bias, column o of the
    second layer's matrix and entry o of its bias. -/
theorem headRef_apply (x : FVec Ideal S500000x128 .f32) (w1 : FVec Ideal S128x64 .f32) (b1 : FVec Ideal S64 .f32) (w2 : FVec Ideal S64x2 .f32)
    (b2 : FVec Ideal S2 .f32) (r : Fin 500000) (o : Fin 2) :
    headRef x w1 b1 w2 b2 (ix2 r o)
      = headAt (fun k => x (ix2 r k)) (fun k q => w1 (ix2 k q)) (fun q => b1 (ix1 q)) (fun q => w2 (ix2 q o)) (b2 (ix1 o)) := by
  unfold headRef headAt
  show Host.dotGeneral (DotDims.plain 500000 64 2) none
        (maximumf (addf (Host.dotGeneral dot_S500000x128_S128x64_S500000x64_1_0_0_1_n_n none x w1) (broadcastInDim S500000x64 ![0, 1] bcast_S1x64_S500000x64_0_1 (broadcastInDim S1x64 ![1] bcast_S64_S1x64_1 b1)))
          (broadcastInDim S500000x64 ![] bcast_S_S500000x64 (constant S_ .f32 0x00000000#32))) w2 (ix2 r o)
      + (broadcastInDim S500000x2 ![0, 1] bcast_S1x2_S500000x2_0_1 (broadcastInDim S1x2 ![1] bcast_S2_S1x2_1 b2)) (ix2 r o) = _
  rw [dotGeneral_plain_apply, row_head2]
  refine congrArg (fun s : EReal => s + b2 (ix1 o)) (Finset.sum_congr rfl fun q _ => ?_)
  show max (Host.dotGeneral (DotDims.plain 500000 128 64) none x w1 (ix2 r q) + (broadcastInDim S500000x64 ![0, 1] bcast_S1x64_S500000x64_0_1 (broadcastInDim S1x64 ![1] bcast_S64_S1x64_1 b1)) (ix2 r q))
      (Ideal.ofBits .f32 0x00000000#32) * w2 (ix2 q o) = _
  rw [dotGeneral_plain_apply, row_head64]

end Cert.ReferenceIdeal.Layer

end
-- ==== Proof.BlockEq.lean ====
/-
  One block of a region is the matching rows of the reference's whole-array function.

  Stated over plain variables: if a 5000-row block `x0` holds the rows `rowOf p` of a whole array, the weight blocks are
  the whole matrices and the 1 × 128 rows carry the five 128-vectors, then the body's stored value at (p, q) is the
  reference's node transform of the whole arrays at (`rowOf p`, q): both are `nodeAt` of the same rows and columns. The
  same for the head.
-/
import proofs.«179405_j8443905704157_1_alg».proof.Proof.NodeBody
import proofs.«179405_j8443905704157_1_alg».proof.Proof.LayerRef
import proofs.«179405_j8443905704157_1_alg».proof.Proof.HeadRef

noncomputable section

namespace Cert.KernelIdeal.Body

open Idealize.ShloMosaic Idealize.ShloMosaic.ValueIdx Cert.KernelIdeal Cert.KernelIdeal.Gen Cert.NodeSpec
open Cert.ReferenceIdeal.Layer

/-- A block of a 400000-row node transform is the reference's transform at the block's rows. -/
theorem blockT_eq (agg h : FVec Ideal ⟨2, ![400000, 128]⟩ .f32) (wl wr : FVec Ideal ⟨2, ![128, 128]⟩ .f32) (bl g be mu v : FVec Ideal ⟨1, ![128]⟩ .f32)
    (x0 x1 : Vec Ideal S5000x128 .f32) (x2 x3 : Vec Ideal S128x128 .f32) (x4 x5 x6 x7 x8 : Vec Ideal S1x128 .f32)
    (rowOf : Fin 5000 → Fin 400000)
    (h0 : ∀ (p : Fin 5000) (k : Fin 128), x0 (ix2 p k) = agg (ix2 (rowOf p) k))
    (h1 : ∀ (p : Fin 5000) (k : Fin 128), x1 (ix2 p k) = h (ix2 (rowOf p) k))
    (h2 : ∀ k j : Fin 128, x2 (ix2 k j) = wl (ix2 k j)) (h3 : ∀ k j : Fin 128, x3 (ix2 k j) = wr (ix2 k j))
    (h4 : ∀ j : Fin 128, x4 (ix2 (0 : Fin 1) j) = bl (ix1 j)) (h5 : ∀ j : Fin 128, x5 (ix2 (0 : Fin 1) j) = g (ix1 j))
    (h6 : ∀ j : Fin 128, x6 (ix2 (0 : Fin 1) j) = be (ix1 j)) (h7 : ∀ j : Fin 128, x7 (ix2 (0 : Fin 1) j) = mu (ix1 j))
    (h8 : ∀ j : Fin 128, x8 (ix2 (0 : Fin 1) j) = v (ix1 j)) (p : Fin 5000) (q : Fin 128) :
    k0_pay1 (k0_pay2 x0 x1 x2 x3 x4 x5 x6 x7 x8) (ix2 p q) = layerT agg h wl wr bl g be mu v (ix2 (rowOf p) q) := by
  rw [node_pay_at, layerT_apply]
  simp only [h0, h1, h2, h3, h4, h5, h6, h7, h8]

/-- A block of a 100000-row node transform is the reference's transform at the block's rows. -/
theorem blockU_eq (agg h : FVec Ideal ⟨2, ![100000, 128]⟩ .f32) (wl wr : FVec Ideal ⟨2, ![128, 128]⟩ .f32) (bl g be mu v : FVec Ideal ⟨1, ![128]⟩ .f32)
    (x0 x1 : Vec Ideal S5000x128 .f32) (x2 x3 : Vec Ideal S128x128 .f32) (x4 x5 x6 x7 x8 : Vec Ideal S1x128 .f32)
    (rowOf : Fin 5000 → Fin 100000)
    (h0 : ∀ (p : Fin 5000) (k : Fin 128), x0 (ix2 p k) = agg (ix2 (rowOf p) k))
    (h1 : ∀ (p : Fin 5000) (k : Fin 128), x1 (ix2 p k) = h (ix2 (rowOf p) k))
    (h2 : ∀ k j : Fin 128, x2 (ix2 k j) = wl (ix2 k j)) (h3 : ∀ k j : Fin 128, x3 (ix2 k j) = wr (ix2 k j))
    (h4 : ∀ j : Fin 128, x4 (ix2 (0 : Fin 1) j) = bl (ix1 j)) (h5 : ∀ j : Fin 128, x5 (ix2 (0 : Fin 1) j) = g (ix1 j))
    (h6 : ∀ j : Fin 128, x6 (ix2 (0 : Fin 1) j) = be (ix1 j)) (h7 : ∀ j : Fin 128, x7 (ix2 (0 : Fin 1) j) = mu (ix1 j))
    (h8 : ∀ j : Fin 128, x8 (ix2 (0 : Fin 1) j) = v (ix1 j)) (p : Fin 5000) (q : Fin 128) :
    k0_pay1 (k0_pay2 x0 x1 x2 x3 x4 x5 x6 x7 x8) (ix2 p q) = layerU agg h wl wr bl g be mu v (ix2 (rowOf p) q) := by
  rw [node_pay_at, layerU_apply]
  simp only [h0, h1, h2, h3, h4, h5, h6, h7, h8]

/-- A block of the head is the reference's head at the block's rows. -/
theorem blockH_eq (x : FVec Ideal ⟨2, ![500000, 128]⟩ .f32) (w1 : FVec Ideal ⟨2, ![128, 64]⟩ .f32) (b1 : FVec Ideal ⟨1, ![64]⟩ .f32)
    (w2 : FVec Ideal ⟨2, ![64, 2]⟩ .f32) (b2 : FVec Ideal ⟨1, ![2]⟩ .f32)
    (x0 : Vec Ideal S5000x128 .f32) (x1 : Vec Ideal S128x64 .f32) (x2 : Vec Ideal S1x64 .f32) (x3 : Vec Ideal S64x2 .f32) (x4 : Vec Ideal S1x2 .f32)
    (rowOf : Fin 5000 → Fin 500000)
    (h0 : ∀ (p : Fin 5000) (k : Fin 128), x0 (ix2 p k) = x (ix2 (rowOf p) k))
    (h1 : ∀ (k : Fin 128) (q : Fin 64), x1 (ix2 k q) = w1 (ix2 k q)) (h2 : ∀ q : Fin 64, x2 (ix2 (0 : Fin 1) q) = b1 (ix1 q))
    (h3 : ∀ (q : Fin 64) (o : Fin 2), x3 (ix2 q o) = w2 (ix2 q o)) (h4 : ∀ o : Fin 2, x4 (ix2 (0 : Fin 1) o) = b2 (ix1 o))
    (p : Fin 5000) (o : Fin 2) :
    k6_pay1 x0 x1 x2 x3 x4 (ix2 p o) = headRef x w1 b1 w2 b2 (ix2 (rowOf p) o) := by
  rw [head_pay_at, headRef_apply]
  simp only [h0, h1, h2, h3, h4]

end Cert.KernelIdeal.Body

end
-- ==== Proof.Region0.lean ====
/-
  Region 0: the 400000-row node transform, from its blocks to its whole output array.

  The grid has 80 points; point t takes rows 5000·t … 5000·t + 4999 of the two feature arrays and writes the same rows
  of the output, while the weights and the five rows are the same whole arrays at every point. So what point t writes
  back is the reference's whole-array transform read through block t, the blocks cover the output array, and the
  array therefore ends holding that transform of the arrays the region found.
-/
import proofs.«179405_j8443905704157_1_alg».proof.Proof.Gen.KernelIdeal.Frame
import proofs.«179405_j8443905704157_1_alg».proof.Proof.BlockEq
import Idealize.ShloMosaic.Lib.Pipeline.Value

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Body Cert.ReferenceIdeal.Layer

variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- Where each window's index map sends point t: the feature windows and the output move with the point along the
    rows, every other window stays at block (0, 0). Decided over the 80 points. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

/-- The row of the whole array that row p of point t's block is. -/
def rowOf (t : Fin cfg0.N) (p : Fin 5000) : Fin 400000 :=
  ⟨t.val * 5000 + p.val, by have h := t.isLt; have hN : cfg0.N = 80 := N_0; have hp := p.isLt; omega⟩

/-- Row p of point t's block of input 0 is row `rowOf t p` of the whole array. -/
theorem read0 (t : Fin cfg0.N) (p : Fin 5000) (k : Fin 128) :
    iblk0 V c 0 t (ix2 p k) = (V c main_v36 : (⟨2, ![400000, 128]⟩ : Shape).Idx → Elt Ideal .f32) (ix2 (rowOf t p) k) := by
  obtain ⟨ea, eb, -, -, -, -, -, -, -, -, -, -, -, -, -, -, -, -, -, -⟩ := idx_facts t
  show (V c main_v36 : (⟨2, ![400000, 128]⟩ : Shape).Idx → Elt Ideal .f32) (((cfg0.win 0).blk t).view.emb (ix2 p k)) = _
  refine congrArg _ (funext fun a => Fin.ext ?_)
  match a with
  | ⟨0, _⟩ => show win0_0.index t (0 : Fin 2) * 5000 + 1 * p.val = t.val * 5000 + p.val; rw [ea]; omega
  | ⟨1, _⟩ => show win0_0.index t (1 : Fin 2) * 128 + 1 * k.val = k.val; rw [eb]; omega

/-- Row p of point t's block of input 1 is row `rowOf t p` of the whole array. -/
theorem read1 (t : Fin cfg0.N) (p : Fin 5000) (k : Fin 128) :
    iblk0 V c 1 t (ix2 p k) = (V c main_v13 : (⟨2, ![400000, 128]⟩ : Shape).Idx → Elt Ideal .f32) (ix2 (rowOf t p) k) := by
  obtain ⟨-, -, ea, eb, -, -, -, -, -, -, -, -, -, -, -, -, -, -, -, -⟩ := idx_facts t
  show (V c main_v13 : (⟨2, ![400000, 128]⟩ : Shape).Idx → Elt Ideal .f32) (((cfg0.win 1).blk t).view.emb (ix2 p k)) = _
  refine congrArg _ (funext fun a => Fin.ext ?_)
  match a with
  | ⟨0, _⟩ => show win0_1.index t (0 : Fin 2) * 5000 + 1 * p.val = t.val * 5000 + p.val; rw [ea]; omega
  | ⟨1, _⟩ => show win0_1.index t (1 : Fin 2) * 128 + 1 * k.val = k.val; rw [eb]; omega

/-- Every point's block of input 2 is the whole matrix. -/
theorem read2 (t : Fin cfg0.N) (k j : Fin 128) :
    iblk0 V c 2 t (ix2 k j) = (V c main_v50 : (⟨2, ![128, 128]⟩ : Shape).Idx → Elt Ideal .f32) (ix2 k j) := by
  obtain ⟨-, -, -, -, ea, eb, -, -, -, -, -, -, -, -, -, -, -, -, -, -⟩ := idx_facts t
  show (V c main_v50 : (⟨2, ![128, 128]⟩ : Shape).Idx → Elt Ideal .f32) (((cfg0.win 2).blk t).view.emb (ix2 k j)) = _
  refine congrArg _ (funext fun a => Fin.ext ?_)
  match a with
  | ⟨0, _⟩ => show win0_2.index t (0 : Fin 2) * 128 + 1 * k.val = k.val; rw [ea]; omega
  | ⟨1, _⟩ => show win0_2.index t (1 : Fin 2) * 128 + 1 * j.val = j.val; rw [eb]; omega

/-- Every point's block of input 3 is the whole matrix. -/
theorem read3 (t : Fin cfg0.N) (k j : Fin 128) :
    iblk0 V c 3 t (ix2 k j) = (V c main_v52 : (⟨2, ![128, 128]⟩ : Shape).Idx → Elt Ideal .f32) (ix2 k j) := by
  obtain ⟨-, -, -, -, -, -, ea, eb, -, -, -, -, -, -, -, -, -, -, -, -⟩ := idx_facts t
  show (V c main_v52 : (⟨2, ![128, 128]⟩ : Shape).Idx → Elt Ideal .f32) (((cfg0.win 3).blk t).view.emb (ix2 k j)) = _
  refine congrArg _ (funext fun a => Fin.ext ?_)
  match a with
  | ⟨0, _⟩ => show win0_3.index t (0 : Fin 2) * 128 + 1 * k.val = k.val; rw [ea]; omega
  | ⟨1, _⟩ => show win0_3.index t (1 : Fin 2) * 128 + 1 * j.val = j.val; rw [eb]; omega

/-- Every point's block of input 4 is the whole row. -/
theorem read4 (t : Fin cfg0.N) (j : Fin 128) :
    iblk0 V c 4 t (ix2 (0 : Fin 1) j) = (V c main_v55 : (⟨2, ![1, 128]⟩ : Shape).Idx → Elt Ideal .f32) (ix2 (0 : Fin 1) j) := by
  obtain ⟨-, -, -, -, -, -, -, -, ea, eb, -, -, -, -, -, -, -, -, -, -⟩ := idx_facts t
  show (V c main_v55 : (⟨2, ![1, 128]⟩ : Shape).Idx → Elt Ideal .f32) (((cfg0.win 4).blk t).view.emb (ix2 (0 : Fin 1) j)) = _
  refine congrArg _ (funext fun a => Fin.ext ?_)
  match a with
  | ⟨0, _⟩ => show win0_4.index t (0 : Fin 2) * 1 + 1 * 0 = 0; rw [ea]
  | ⟨1, _⟩ => show win0_4.index t (1 : Fin 2) * 128 + 1 * j.val = j.val; rw [eb]; omega

/-- Every point's block of input 5 is the whole row. -/
theorem read5 (t : Fin cfg0.N) (j : Fin 128) :
    iblk0 V c 5 t (ix2 (0 : Fin 1) j) = (V c main_v58 : (⟨2, ![1, 128]⟩ : Shape).Idx → Elt Ideal .f32) (ix2 (0 : Fin 1) j) := by
  obtain ⟨-, -, -, -, -, -, -, -, -, -, ea, eb, -, -, -, -, -, -, -, -⟩ := idx_facts t
  show (V c main_v58 : (⟨2, ![1, 128]⟩ : Shape).Idx → Elt Ideal .f32) (((cfg0.win 5).blk t).view.emb (ix2 (0 : Fin 1) j)) = _
  refine congrArg _ (funext fun a => Fin.ext ?_)
  match a with
  | ⟨0, _⟩ => show win0_5.index t (0 : Fin 2) * 1 + 1 * 0 = 0; rw [ea]
  | ⟨1, _⟩ => show win0_5.index t (1 : Fin 2) * 128 + 1 * j.val = j.val; rw [eb]; omega

/-- Every point's block of input 6 is the whole row. -/
theorem read6 (t : Fin cfg0.N) (j : Fin 128) :
    iblk0 V c 6 t (ix2 (0 : Fin 1) j) = (V c main_v61 : (⟨2, ![1, 128]⟩ : Shape).Idx → Elt Ideal .f32) (ix2 (0 : Fin 1) j) := by
  obtain ⟨-, -, -, -, -, -, -, -, -, -, -, -, ea, eb, -, -, -, -, -, -⟩ := idx_facts t
  show (V c main_v61 : (⟨2, ![1, 128]⟩ : Shape).Idx → Elt Ideal .f32) (((cfg0.win 6).blk t).view.emb (ix2 (0 : Fin 1) j)) = _
  refine congrArg _ (funext fun a => Fin.ext ?_)
  match a with
  | ⟨0, _⟩ => show win0_6.index t (0 : Fin 2) * 1 + 1 * 0 = 0; rw [ea]
  | ⟨1, _⟩ => show win0_6.index t (1 : Fin 2) * 128 + 1 * j.val = j.val; rw [eb]; omega

/-- Every point's block of input 7 is the whole row. -/
theorem read7 (t : Fin cfg0.N) (j : Fin 128) :
    iblk0 V c 7 t (ix2 (0 : Fin 1) j) = (V c main_v64 : (⟨2, ![1, 128]⟩ : Shape).Idx → Elt Ideal .f32) (ix2 (0 : Fin 1) j) := by
  obtain ⟨-, -, -, -, -, -, -, -, -, -, -, -, -, -, ea, eb, -, -, -, -⟩ := idx_facts t
  show (V c main_v64 : (⟨2, ![1, 128]⟩ : Shape).Idx → Elt Ideal .f32) (((cfg0.win 7).blk t).view.emb (ix2 (0 : Fin 1) j)) = _
  refine congrArg _ (funext fun a => Fin.ext ?_)
  match a with
  | ⟨0, _⟩ => show win0_7.index t (0 : Fin 2) * 1 + 1 * 0 = 0; rw [ea]
  | ⟨1, _⟩ => show win0_7.index t (1 : Fin 2) * 128 + 1 * j.val = j.val; rw [eb]; omega

/-- Every point's block of input 8 is the whole row. -/
theorem read8 (t : Fin cfg0.N) (j : Fin 128) :
    iblk0 V c 8 t (ix2 (0 : Fin 1) j) = (V c main_v67 : (⟨2, ![1, 128]⟩ : Shape).Idx → Elt Ideal .f32) (ix2 (0 : Fin 1) j) := by
  obtain ⟨-, -, -, -, -, -, -, -, -, -, -, -, -, -, -, -, ea, eb, -, -⟩ := idx_facts t
  show (V c main_v67 : (⟨2, ![1, 128]⟩ : Shape).Idx → Elt Ideal .f32) (((cfg0.win 8).blk t).view.emb (ix2 (0 : Fin 1) j)) = _
  refine congrArg _ (funext fun a => Fin.ext ?_)
  match a with
  | ⟨0, _⟩ => show win0_8.index t (0 : Fin 2) * 1 + 1 * 0 = 0; rw [ea]
  | ⟨1, _⟩ => show win0_8.index t (1 : Fin 2) * 128 + 1 * j.val = j.val; rw [eb]; omega

/-- The body's stored value in this region is the first region's body, term for term. -/
theorem pay_same (x0 x1 : Vec Ideal S5000x128 .f32) (x2 x3 : Vec Ideal S128x128 .f32) (x4 x5 x6 x7 x8 : Vec Ideal S1x128 .f32) :
    k0_pay1 (k0_pay2 x0 x1 x2 x3 x4 x5 x6 x7 x8) = k0_pay1 (k0_pay2 x0 x1 x2 x3 x4 x5 x6 x7 x8) := rfl

/-- What point t writes back is block t of the reference's whole-array transform of the arrays the region found. -/
theorem flushed (agg h : FVec Ideal ⟨2, ![400000, 128]⟩ .f32) (wl wr : FVec Ideal ⟨2, ![128, 128]⟩ .f32) (bl g be mu v : FVec Ideal ⟨1, ![128]⟩ .f32)
    (e0 : (V c main_v36 : (⟨2, ![400000, 128]⟩ : Shape).Idx → Elt Ideal .f32) = agg) (e1 : (V c main_v13 : (⟨2, ![400000, 128]⟩ : Shape).Idx → Elt Ideal .f32) = h) (e2 : (V c main_v50 : (⟨2, ![128, 128]⟩ : Shape).Idx → Elt Ideal .f32) = wl) (e3 : (V c main_v52 : (⟨2, ![128, 128]⟩ : Shape).Idx → Elt Ideal .f32) = wr)
    (e4 : ∀ j : Fin 128, (V c main_v55 : (⟨2, ![1, 128]⟩ : Shape).Idx → Elt Ideal .f32) (ix2 (0 : Fin 1) j) = bl (ix1 j)) (e5 : ∀ j : Fin 128, (V c main_v58 : (⟨2, ![1, 128]⟩ : Shape).Idx → Elt Ideal .f32) (ix2 (0 : Fin 1) j) = g (ix1 j))
    (e6 : ∀ j : Fin 128, (V c main_v61 : (⟨2, ![1, 128]⟩ : Shape).Idx → Elt Ideal .f32) (ix2 (0 : Fin 1) j) = be (ix1 j)) (e7 : ∀ j : Fin 128, (V c main_v64 : (⟨2, ![1, 128]⟩ : Shape).Idx → Elt Ideal .f32) (ix2 (0 : Fin 1) j) = mu (ix1 j))
    (e8 : ∀ j : Fin 128, (V c main_v67 : (⟨2, ![1, 128]⟩ : Shape).Idx → Elt Ideal .f32) (ix2 (0 : Fin 1) j) = v (ix1 j)) (t : Fin cfg0.N) :
    (dat0 V c).flushed 9 t = ((cfg0.win 9).blk t).view.read (Elt Ideal) (layerT agg h wl wr bl g be mu v) := by
  show (cfg0.win 9).cut (grid0.coords t) ((dat0 V c).after 9 t) = _
  rw [after0_9]
  unfold out0_9
  rw [View.canon_unit_zero hz]
  simp only [View.ld_unit_zero (S := S5000x128) hz, View.ld_unit_zero (S := S128x128) hz, View.ld_unit_zero (S := S1x128) hz]
  funext y
  obtain ⟨p, q, rfl⟩ : ∃ (p : Fin 5000) (q : Fin 128), y = ix2 p q := ⟨y 0, y 1, eq_ix2 y⟩
  have hemb : ((cfg0.win 9).blk t).view.emb (ix2 p q) = ix2 (rowOf t p) q := by
    obtain ⟨-, -, -, -, -, -, -, -, -, -, -, -, -, -, -, -, -, -, ea, eb⟩ := idx_facts t
    refine funext fun a => Fin.ext ?_
    match a with
    | ⟨0, _⟩ => show win0_9.index t (0 : Fin 2) * 5000 + 1 * p.val = t.val * 5000 + p.val; rw [ea]; omega
    | ⟨1, _⟩ => show win0_9.index t (1 : Fin 2) * 128 + 1 * q.val = q.val; rw [eb]; omega
  show k0_pay1 (k0_pay2 (iblk0 V c 0 t) (iblk0 V c 1 t) (iblk0 V c 2 t) (iblk0 V c 3 t) (iblk0 V c 4 t) (iblk0 V c 5 t) (iblk0 V c 6 t) (iblk0 V c 7 t) (iblk0 V c 8 t)) (ix2 p q)
    = layerT agg h wl wr bl g be mu v (((cfg0.win 9).blk t).view.emb (ix2 p q))
  rw [hemb, pay_same]
  exact blockT_eq agg h wl wr bl g be mu v (iblk0 V c 0 t) (iblk0 V c 1 t) (iblk0 V c 2 t) (iblk0 V c 3 t) (iblk0 V c 4 t) (iblk0 V c 5 t) (iblk0 V c 6 t) (iblk0 V c 7 t) (iblk0 V c 8 t) (rowOf t)
    (fun p k => (read0 V c t p k).trans (congrFun e0 _)) (fun p k => (read1 V c t p k).trans (congrFun e1 _))
    (fun k j => (read2 V c t k j).trans (congrFun e2 _)) (fun k j => (read3 V c t k j).trans (congrFun e3 _))
    (fun j => (read4 V c t j).trans (e4 j)) (fun j => (read5 V c t j).trans (e5 j)) (fun j => (read6 V c t j).trans (e6 j))
    (fun j => (read7 V c t j).trans (e7 j)) (fun j => (read8 V c t j).trans (e8 j)) p q

/-- An index of the output array is in point t's block iff each coordinate is in the block's range on its axis. -/
theorem mem_blk (t : Fin cfg0.N) (i : S400000x128.Idx) :
    i ∈ ((cfg0.win 9).blk t).view.set ↔ ∀ a : Fin 2, win0_9.index t a * S5000x128.size a ≤ (i a).val
      ∧ (i a).val < win0_9.index t a * S5000x128.size a + S5000x128.size a := by
  show i ∈ ((View.whole main_v87).slice (win0_9.rect t)).set ↔ _
  rw [View.set_slice_whole, Rect.mem_set_unit]
  exact Iff.rfl

/-- Every row of the output is in the block of the point that is its row number divided by 5000. -/
theorem cover (i : S400000x128.Idx) : ∃ t : Fin cfg0.N, (cfg0.win 9).flush t = true ∧ i ∈ ((cfg0.win 9).blk t).view.set := by
  have hi0 : (i 0).val < 400000 := (i 0).isLt
  have hi1 : (i 1).val < 128 := (i 1).isLt
  have hN : cfg0.N = 80 := N_0
  obtain ⟨t, ht⟩ : ∃ t : Fin cfg0.N, t.val = (i 0).val / 5000 := ⟨⟨(i 0).val / 5000, by omega⟩, rfl⟩
  obtain ⟨-, -, -, -, -, -, -, -, -, -, -, -, -, -, -, -, -, -, ea, eb⟩ := idx_facts t
  refine ⟨t, flush0_9 t, ?_⟩
  rw [mem_blk]
  intro a
  match a with
  | ⟨0, _⟩ =>
    show win0_9.index t (0 : Fin 2) * 5000 ≤ (i 0).val ∧ (i 0).val < win0_9.index t (0 : Fin 2) * 5000 + 5000
    rw [ea, ht]; omega
  | ⟨1, _⟩ =>
    show win0_9.index t (1 : Fin 2) * 128 ≤ (i 1).val ∧ (i 1).val < win0_9.index t (1 : Fin 2) * 128 + 128
    rw [eb]; omega

/-- The output array after the region: the reference's whole-array transform of the arrays the region found. -/
theorem final (agg h : FVec Ideal ⟨2, ![400000, 128]⟩ .f32) (wl wr : FVec Ideal ⟨2, ![128, 128]⟩ .f32) (bl g be mu v : FVec Ideal ⟨1, ![128]⟩ .f32)
    (e0 : (V c main_v36 : (⟨2, ![400000, 128]⟩ : Shape).Idx → Elt Ideal .f32) = agg) (e1 : (V c main_v13 : (⟨2, ![400000, 128]⟩ : Shape).Idx → Elt Ideal .f32) = h) (e2 : (V c main_v50 : (⟨2, ![128, 128]⟩ : Shape).Idx → Elt Ideal .f32) = wl) (e3 : (V c main_v52 : (⟨2, ![128, 128]⟩ : Shape).Idx → Elt Ideal .f32) = wr)
    (e4 : ∀ j : Fin 128, (V c main_v55 : (⟨2, ![1, 128]⟩ : Shape).Idx → Elt Ideal .f32) (ix2 (0 : Fin 1) j) = bl (ix1 j)) (e5 : ∀ j : Fin 128, (V c main_v58 : (⟨2, ![1, 128]⟩ : Shape).Idx → Elt Ideal .f32) (ix2 (0 : Fin 1) j) = g (ix1 j))
    (e6 : ∀ j : Fin 128, (V c main_v61 : (⟨2, ![1, 128]⟩ : Shape).Idx → Elt Ideal .f32) (ix2 (0 : Fin 1) j) = be (ix1 j)) (e7 : ∀ j : Fin 128, (V c main_v64 : (⟨2, ![1, 128]⟩ : Shape).Idx → Elt Ideal .f32) (ix2 (0 : Fin 1) j) = mu (ix1 j))
    (e8 : ∀ j : Fin 128, (V c main_v67 : (⟨2, ![1, 128]⟩ : Shape).Idx → Elt Ideal .f32) (ix2 (0 : Fin 1) j) = v (ix1 j)) :
    (dat0 V c).arrAt 9 cfg0.N = layerT agg h wl wr bl g be mu v :=
  (dat0 V c).arrAt_eq_of_cover 9 (layerT agg h wl wr bl g be mu v)
    (fun t _ => flushed V c agg h wl wr bl g be mu v e0 e1 e2 e3 e4 e5 e6 e7 e8 t) (cover)

end Cert.KernelIdeal.Region0

end
-- ==== Proof.Region1.lean ====
/-
  Region 1: the 100000-row node transform, from its blocks to its whole output array.

  The grid has 20 points; point t takes rows 5000·t … 5000·t + 4999 of the two feature arrays and writes the same rows
  of the output, while the weights and the five rows are the same whole arrays at every point. So what point t writes
  back is the reference's whole-array transform read through block t, the blocks cover the output array, and the
  array therefore ends holding that transform of the arrays the region found.
-/
import proofs.«179405_j8443905704157_1_alg».proof.Proof.Gen.KernelIdeal.Frame
import proofs.«179405_j8443905704157_1_alg».proof.Proof.BlockEq
import Idealize.ShloMosaic.Lib.Pipeline.Value

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Body Cert.ReferenceIdeal.Layer

variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- Where each window's index map sends point t: the feature windows and the output move with the point along the
    rows, every other window stays at block (0, 0). Decided over the 20 points. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = t.val ∧ win1_9.index t (1 : Fin 2) = 0 :=
  (by decide +kernel : ∀ t : Fin grid1.N, _)

/-- The row of the whole array that row p of point t's block is. -/
def rowOf (t : Fin cfg1.N) (p : Fin 5000) : Fin 100000 :=
  ⟨t.val * 5000 + p.val, by have h := t.isLt; have hN : cfg1.N = 20 := N_1; have hp := p.isLt; omega⟩

/-- Row p of point t's block of input 0 is row `rowOf t p` of the whole array. -/
theorem read0 (t : Fin cfg1.N) (p : Fin 5000) (k : Fin 128) :
    iblk1 V c 0 t (ix2 p k) = (V c main_v48 : (⟨2, ![100000, 128]⟩ : Shape).Idx → Elt Ideal .f32) (ix2 (rowOf t p) k) := by
  obtain ⟨ea, eb, -, -, -, -, -, -, -, -, -, -, -, -, -, -, -, -, -, -⟩ := idx_facts t
  show (V c main_v48 : (⟨2, ![100000, 128]⟩ : Shape).Idx → Elt Ideal .f32) (((cfg1.win 0).blk t).view.emb (ix2 p k)) = _
  refine congrArg _ (funext fun a => Fin.ext ?_)
  match a with
  | ⟨0, _⟩ => show win1_0.index t (0 : Fin 2) * 5000 + 1 * p.val = t.val * 5000 + p.val; rw [ea]; omega
  | ⟨1, _⟩ => show win1_0.index t (1 : Fin 2) * 128 + 1 * k.val = k.val; rw [eb]; omega

/-- Row p of point t's block of input 1 is row `rowOf t p` of the whole array. -/
theorem read1 (t : Fin cfg1.N) (p : Fin 5000) (k : Fin 128) :
    iblk1 V c 1 t (ix2 p k) = (V c main_v6 : (⟨2, ![100000, 128]⟩ : Shape).Idx → Elt Ideal .f32) (ix2 (rowOf t p) k) := by
  obtain ⟨-, -, ea, eb, -, -, -, -, -, -, -, -, -, -, -, -, -, -, -, -⟩ := idx_facts t
  show (V c main_v6 : (⟨2, ![100000, 128]⟩ : Shape).Idx → Elt Ideal .f32) (((cfg1.win 1).blk t).view.emb (ix2 p k)) = _
  refine congrArg _ (funext fun a => Fin.ext ?_)
  match a with
  | ⟨0, _⟩ => show win1_1.index t (0 : Fin 2) * 5000 + 1 * p.val = t.val * 5000 + p.val; rw [ea]; omega
  | ⟨1, _⟩ => show win1_1.index t (1 : Fin 2) * 128 + 1 * k.val = k.val; rw [eb]; omega

/-- Every point's block of input 2 is the whole matrix. -/
theorem read2 (t : Fin cfg1.N) (k j : Fin 128) :
    iblk1 V c 2 t (ix2 k j) = (V c main_v69 : (⟨2, ![128, 128]⟩ : Shape).Idx → Elt Ideal .f32) (ix2 k j) := by
  obtain ⟨-, -, -, -, ea, eb, -, -, -, -, -, -, -, -, -, -, -, -, -, -⟩ := idx_facts t
  show (V c main_v69 : (⟨2, ![128, 128]⟩ : Shape).Idx → Elt Ideal .f32) (((cfg1.win 2).blk t).view.emb (ix2 k j)) = _
  refine congrArg _ (funext fun a => Fin.ext ?_)
  match a with
  | ⟨0, _⟩ => show win1_2.index t (0 : Fin 2) * 128 + 1 * k.val = k.val; rw [ea]; omega
  | ⟨1, _⟩ => show win1_2.index t (1 : Fin 2) * 128 + 1 * j.val = j.val; rw [eb]; omega

/-- Every point's block of input 3 is the whole matrix. -/
theorem read3 (t : Fin cfg1.N) (k j : Fin 128) :
    iblk1 V c 3 t (ix2 k j) = (V c main_v71 : (⟨2, ![128, 128]⟩ : Shape).Idx → Elt Ideal .f32) (ix2 k j) := by
  obtain ⟨-, -, -, -, -, -, ea, eb, -, -, -, -, -, -, -, -, -, -, -, -⟩ := idx_facts t
  show (V c main_v71 : (⟨2, ![128, 128]⟩ : Shape).Idx → Elt Ideal .f32) (((cfg1.win 3).blk t).view.emb (ix2 k j)) = _
  refine congrArg _ (funext fun a => Fin.ext ?_)
  match a with
  | ⟨0, _⟩ => show win1_3.index t (0 : Fin 2) * 128 + 1 * k.val = k.val; rw [ea]; omega
  | ⟨1, _⟩ => show win1_3.index t (1 : Fin 2) * 128 + 1 * j.val = j.val; rw [eb]; omega

/-- Every point's block of input 4 is the whole row. -/
theorem read4 (t : Fin cfg1.N) (j : Fin 128) :
    iblk1 V c 4 t (ix2 (0 : Fin 1) j) = (V c main_v74 : (⟨2, ![1, 128]⟩ : Shape).Idx → Elt Ideal .f32) (ix2 (0 : Fin 1) j) := by
  obtain ⟨-, -, -, -, -, -, -, -, ea, eb, -, -, -, -, -, -, -, -, -, -⟩ := idx_facts t
  show (V c main_v74 : (⟨2, ![1, 128]⟩ : Shape).Idx → Elt Ideal .f32) (((cfg1.win 4).blk t).view.emb (ix2 (0 : Fin 1) j)) = _
  refine congrArg _ (funext fun a => Fin.ext ?_)
  match a with
  | ⟨0, _⟩ => show win1_4.index t (0 : Fin 2) * 1 + 1 * 0 = 0; rw [ea]
  | ⟨1, _⟩ => show win1_4.index t (1 : Fin 2) * 128 + 1 * j.val = j.val; rw [eb]; omega

/-- Every point's block of input 5 is the whole row. -/
theorem read5 (t : Fin cfg1.N) (j : Fin 128) :
    iblk1 V c 5 t (ix2 (0 : Fin 1) j) = (V c main_v77 : (⟨2, ![1, 128]⟩ : Shape).Idx → Elt Ideal .f32) (ix2 (0 : Fin 1) j) := by
  obtain ⟨-, -, -, -, -, -, -, -, -, -, ea, eb, -, -, -, -, -, -, -, -⟩ := idx_facts t
  show (V c main_v77 : (⟨2, ![1, 128]⟩ : Shape).Idx → Elt Ideal .f32) (((cfg1.win 5).blk t).view.emb (ix2 (0 : Fin 1) j)) = _
  refine congrArg _ (funext fun a => Fin.ext ?_)
  match a with
  | ⟨0, _⟩ => show win1_5.index t (0 : Fin 2) * 1 + 1 * 0 = 0; rw [ea]
  | ⟨1, _⟩ => show win1_5.index t (1 : Fin 2) * 128 + 1 * j.val = j.val; rw [eb]; omega

/-- Every point's block of input 6 is the whole row. -/
theorem read6 (t : Fin cfg1.N) (j : Fin 128) :
    iblk1 V c 6 t (ix2 (0 : Fin 1) j) = (V c main_v80 : (⟨2, ![1, 128]⟩ : Shape).Idx → Elt Ideal .f32) (ix2 (0 : Fin 1) j) := by
  obtain ⟨-, -, -, -, -, -, -, -, -, -, -, -, ea, eb, -, -, -, -, -, -⟩ := idx_facts t
  show (V c main_v80 : (⟨2, ![1, 128]⟩ : Shape).Idx → Elt Ideal .f32) (((cfg1.win 6).blk t).view.emb (ix2 (0 : Fin 1) j)) = _
  refine congrArg _ (funext fun a => Fin.ext ?_)
  match a with
  | ⟨0, _⟩ => show win1_6.index t (0 : Fin 2) * 1 + 1 * 0 = 0; rw [ea]
  | ⟨1, _⟩ => show win1_6.index t (1 : Fin 2) * 128 + 1 * j.val = j.val; rw [eb]; omega

/-- Every point's block of input 7 is the whole row. -/
theorem read7 (t : Fin cfg1.N) (j : Fin 128) :
    iblk1 V c 7 t (ix2 (0 : Fin 1) j) = (V c main_v83 : (⟨2, ![1, 128]⟩ : Shape).Idx → Elt Ideal .f32) (ix2 (0 : Fin 1) j) := by
  obtain ⟨-, -, -, -, -, -, -, -, -, -, -, -, -, -, ea, eb, -, -, -, -⟩ := idx_facts t
  show (V c main_v83 : (⟨2, ![1, 128]⟩ : Shape).Idx → Elt Ideal .f32) (((cfg1.win 7).blk t).view.emb (ix2 (0 : Fin 1) j)) = _
  refine congrArg _ (funext fun a => Fin.ext ?_)
  match a with
  | ⟨0, _⟩ => show win1_7.index t (0 : Fin 2) * 1 + 1 * 0 = 0; rw [ea]
  | ⟨1, _⟩ => show win1_7.index t (1 : Fin 2) * 128 + 1 * j.val = j.val; rw [eb]; omega

/-- Every point's block of input 8 is the whole row. -/
theorem read8 (t : Fin cfg1.N) (j : Fin 128) :
    iblk1 V c 8 t (ix2 (0 : Fin 1) j) = (V c main_v86 : (⟨2, ![1, 128]⟩ : Shape).Idx → Elt Ideal .f32) (ix2 (0 : Fin 1) j) := by
  obtain ⟨-, -, -, -, -, -, -, -, -, -, -, -, -, -, -, -, ea, eb, -, -⟩ := idx_facts t
  show (V c main_v86 : (⟨2, ![1, 128]⟩ : Shape).Idx → Elt Ideal .f32) (((cfg1.win 8).blk t).view.emb (ix2 (0 : Fin 1) j)) = _
  refine congrArg _ (funext fun a => Fin.ext ?_)
  match a with
  | ⟨0, _⟩ => show win1_8.index t (0 : Fin 2) * 1 + 1 * 0 = 0; rw [ea]
  | ⟨1, _⟩ => show win1_8.index t (1 : Fin 2) * 128 + 1 * j.val = j.val; rw [eb]; omega

/-- The body's stored value in this region is the first region's body, term for term. -/
theorem pay_same (x0 x1 : Vec Ideal S5000x128 .f32) (x2 x3 : Vec Ideal S128x128 .f32) (x4 x5 x6 x7 x8 : Vec Ideal S1x128 .f32) :
    k1_pay1 (k1_pay2 x0 x1 x2 x3 x4 x5 x6 x7 x8) = k0_pay1 (k0_pay2 x0 x1 x2 x3 x4 x5 x6 x7 x8) := rfl

/-- What point t writes back is block t of the reference's whole-array transform of the arrays the region found. -/
theorem flushed (agg h : FVec Ideal ⟨2, ![100000, 128]⟩ .f32) (wl wr : FVec Ideal ⟨2, ![128, 128]⟩ .f32) (bl g be mu v : FVec Ideal ⟨1, ![128]⟩ .f32)
    (e0 : (V c main_v48 : (⟨2, ![100000, 128]⟩ : Shape).Idx → Elt Ideal .f32) = agg) (e1 : (V c main_v6 : (⟨2, ![100000, 128]⟩ : Shape).Idx → Elt Ideal .f32) = h) (e2 : (V c main_v69 : (⟨2, ![128, 128]⟩ : Shape).Idx → Elt Ideal .f32) = wl) (e3 : (V c main_v71 : (⟨2, ![128, 128]⟩ : Shape).Idx → Elt Ideal .f32) = wr)
    (e4 : ∀ j : Fin 128, (V c main_v74 : (⟨2, ![1, 128]⟩ : Shape).Idx → Elt Ideal .f32) (ix2 (0 : Fin 1) j) = bl (ix1 j)) (e5 : ∀ j : Fin 128, (V c main_v77 : (⟨2, ![1, 128]⟩ : Shape).Idx → Elt Ideal .f32) (ix2 (0 : Fin 1) j) = g (ix1 j))
    (e6 : ∀ j : Fin 128, (V c main_v80 : (⟨2, ![1, 128]⟩ : Shape).Idx → Elt Ideal .f32) (ix2 (0 : Fin 1) j) = be (ix1 j)) (e7 : ∀ j : Fin 128, (V c main_v83 : (⟨2, ![1, 128]⟩ : Shape).Idx → Elt Ideal .f32) (ix2 (0 : Fin 1) j) = mu (ix1 j))
    (e8 : ∀ j : Fin 128, (V c main_v86 : (⟨2, ![1, 128]⟩ : Shape).Idx → Elt Ideal .f32) (ix2 (0 : Fin 1) j) = v (ix1 j)) (t : Fin cfg1.N) :
    (dat1 V c).flushed 9 t = ((cfg1.win 9).blk t).view.read (Elt Ideal) (layerU agg h wl wr bl g be mu v) := by
  show (cfg1.win 9).cut (grid1.coords t) ((dat1 V c).after 9 t) = _
  rw [after1_9]
  unfold out1_9
  rw [View.canon_unit_zero hz]
  simp only [View.ld_unit_zero (S := S5000x128) hz, View.ld_unit_zero (S := S128x128) hz, View.ld_unit_zero (S := S1x128) hz]
  funext y
  obtain ⟨p, q, rfl⟩ : ∃ (p : Fin 5000) (q : Fin 128), y = ix2 p q := ⟨y 0, y 1, eq_ix2 y⟩
  have hemb : ((cfg1.win 9).blk t).view.emb (ix2 p q) = ix2 (rowOf t p) q := by
    obtain ⟨-, -, -, -, -, -, -, -, -, -, -, -, -, -, -, -, -, -, ea, eb⟩ := idx_facts t
    refine funext fun a => Fin.ext ?_
    match a with
    | ⟨0, _⟩ => show win1_9.index t (0 : Fin 2) * 5000 + 1 * p.val = t.val * 5000 + p.val; rw [ea]; omega
    | ⟨1, _⟩ => show win1_9.index t (1 : Fin 2) * 128 + 1 * q.val = q.val; rw [eb]; omega
  show k1_pay1 (k1_pay2 (iblk1 V c 0 t) (iblk1 V c 1 t) (iblk1 V c 2 t) (iblk1 V c 3 t) (iblk1 V c 4 t) (iblk1 V c 5 t) (iblk1 V c 6 t) (iblk1 V c 7 t) (iblk1 V c 8 t)) (ix2 p q)
    = layerU agg h wl wr bl g be mu v (((cfg1.win 9).blk t).view.emb (ix2 p q))
  rw [hemb, pay_same]
  exact blockU_eq agg h wl wr bl g be mu v (iblk1 V c 0 t) (iblk1 V c 1 t) (iblk1 V c 2 t) (iblk1 V c 3 t) (iblk1 V c 4 t) (iblk1 V c 5 t) (iblk1 V c 6 t) (iblk1 V c 7 t) (iblk1 V c 8 t) (rowOf t)
    (fun p k => (read0 V c t p k).trans (congrFun e0 _)) (fun p k => (read1 V c t p k).trans (congrFun e1 _))
    (fun k j => (read2 V c t k j).trans (congrFun e2 _)) (fun k j => (read3 V c t k j).trans (congrFun e3 _))
    (fun j => (read4 V c t j).trans (e4 j)) (fun j => (read5 V c t j).trans (e5 j)) (fun j => (read6 V c t j).trans (e6 j))
    (fun j => (read7 V c t j).trans (e7 j)) (fun j => (read8 V c t j).trans (e8 j)) p q

/-- An index of the output array is in point t's block iff each coordinate is in the block's range on its axis. -/
theorem mem_blk (t : Fin cfg1.N) (i : S100000x128.Idx) :
    i ∈ ((cfg1.win 9).blk t).view.set ↔ ∀ a : Fin 2, win1_9.index t a * S5000x128.size a ≤ (i a).val
      ∧ (i a).val < win1_9.index t a * S5000x128.size a + S5000x128.size a := by
  show i ∈ ((View.whole main_v88).slice (win1_9.rect t)).set ↔ _
  rw [View.set_slice_whole, Rect.mem_set_unit]
  exact Iff.rfl

/-- Every row of the output is in the block of the point that is its row number divided by 5000. -/
theorem cover (i : S100000x128.Idx) : ∃ t : Fin cfg1.N, (cfg1.win 9).flush t = true ∧ i ∈ ((cfg1.win 9).blk t).view.set := by
  have hi0 : (i 0).val < 100000 := (i 0).isLt
  have hi1 : (i 1).val < 128 := (i 1).isLt
  have hN : cfg1.N = 20 := N_1
  obtain ⟨t, ht⟩ : ∃ t : Fin cfg1.N, t.val = (i 0).val / 5000 := ⟨⟨(i 0).val / 5000, by omega⟩, rfl⟩
  obtain ⟨-, -, -, -, -, -, -, -, -, -, -, -, -, -, -, -, -, -, ea, eb⟩ := idx_facts t
  refine ⟨t, flush1_9 t, ?_⟩
  rw [mem_blk]
  intro a
  match a with
  | ⟨0, _⟩ =>
    show win1_9.index t (0 : Fin 2) * 5000 ≤ (i 0).val ∧ (i 0).val < win1_9.index t (0 : Fin 2) * 5000 + 5000
    rw [ea, ht]; omega
  | ⟨1, _⟩ =>
    show win1_9.index t (1 : Fin 2) * 128 ≤ (i 1).val ∧ (i 1).val < win1_9.index t (1 : Fin 2) * 128 + 128
    rw [eb]; omega

/-- The output array after the region: the reference's whole-array transform of the arrays the region found. -/
theorem final (agg h : FVec Ideal ⟨2, ![100000, 128]⟩ .f32) (wl wr : FVec Ideal ⟨2, ![128, 128]⟩ .f32) (bl g be mu v : FVec Ideal ⟨1, ![128]⟩ .f32)
    (e0 : (V c main_v48 : (⟨2, ![100000, 128]⟩ : Shape).Idx → Elt Ideal .f32) = agg) (e1 : (V c main_v6 : (⟨2, ![100000, 128]⟩ : Shape).Idx → Elt Ideal .f32) = h) (e2 : (V c main_v69 : (⟨2, ![128, 128]⟩ : Shape).Idx → Elt Ideal .f32) = wl) (e3 : (V c main_v71 : (⟨2, ![128, 128]⟩ : Shape).Idx → Elt Ideal .f32) = wr)
    (e4 : ∀ j : Fin 128, (V c main_v74 : (⟨2, ![1, 128]⟩ : Shape).Idx → Elt Ideal .f32) (ix2 (0 : Fin 1) j) = bl (ix1 j)) (e5 : ∀ j : Fin 128, (V c main_v77 : (⟨2, ![1, 128]⟩ : Shape).Idx → Elt Ideal .f32) (ix2 (0 : Fin 1) j) = g (ix1 j))
    (e6 : ∀ j : Fin 128, (V c main_v80 : (⟨2, ![1, 128]⟩ : Shape).Idx → Elt Ideal .f32) (ix2 (0 : Fin 1) j) = be (ix1 j)) (e7 : ∀ j : Fin 128, (V c main_v83 : (⟨2, ![1, 128]⟩ : Shape).Idx → Elt Ideal .f32) (ix2 (0 : Fin 1) j) = mu (ix1 j))
    (e8 : ∀ j : Fin 128, (V c main_v86 : (⟨2, ![1, 128]⟩ : Shape).Idx → Elt Ideal .f32) (ix2 (0 : Fin 1) j) = v (ix1 j)) :
    (dat1 V c).arrAt 9 cfg1.N = layerU agg h wl wr bl g be mu v :=
  (dat1 V c).arrAt_eq_of_cover 9 (layerU agg h wl wr bl g be mu v)
    (fun t _ => flushed V c agg h wl wr bl g be mu v e0 e1 e2 e3 e4 e5 e6 e7 e8 t) (cover)

end Cert.KernelIdeal.Region1

end
-- ==== Proof.Region2.lean ====
/-
  Region 2: the 400000-row node transform, from its blocks to its whole output array.

  The grid has 80 points; point t takes rows 5000·t … 5000·t + 4999 of the two feature arrays and writes the same rows
  of the output, while the weights and the five rows are the same whole arrays at every point. So what point t writes
  back is the reference's whole-array transform read through block t, the blocks cover the output array, and the
  array therefore ends holding that transform of the arrays the region found.
-/
import proofs.«179405_j8443905704157_1_alg».proof.Proof.Gen.KernelIdeal.Frame
import proofs.«179405_j8443905704157_1_alg».proof.Proof.BlockEq
import Idealize.ShloMosaic.Lib.Pipeline.Value

set_option maxRecDepth 16384

noncomputable section

namespace Cert.KernelIdeal.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Body Cert.ReferenceIdeal.Layer

variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- Where each window's index map sends point t: the feature windows and the output move with the point along the
    rows, every other window stays at block (0, 0). Decided over the 80 points. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = t.val ∧ win2_9.index t (1 : Fin 2) = 0 :=
  (by decide +kernel : ∀ t : Fin grid2.N, _)

/-- The row of the whole array that row p of point t's block is. -/
def rowOf (t : Fin cfg2.N) (p : Fin 5000) : Fin 400000 :=
  ⟨t.val * 5000 + p.val, by have h := t.isLt; have hN : cfg2.N = 80 := N_2; have hp := p.isLt; omega⟩

/-- Row p of point t's block of input 0 is row `rowOf t p` of the whole array. -/
theorem read0 (t : Fin cfg2.N) (p : Fin 5000) (k : Fin 128) :
    iblk2 V c 0 t (ix2 p k) = (V c main_v100 : (⟨2, ![400000, 128]⟩ : Shape).Idx → Elt Ideal .f32) (ix2 (rowOf t p) k) := by
  obtain ⟨ea, eb, -, -, -, -, -, -, -, -, -, -, -, -, -, -, -, -, -, -⟩ := idx_facts t
  show (V c main_v100 : (⟨2, ![400000, 128]⟩ : Shape).Idx → Elt Ideal .f32) (((cfg2.win 0).blk t).view.emb (ix2 p k)) = _
  refine congrArg _ (funext fun a => Fin.ext ?_)
  match a with
  | ⟨0, _⟩ => show win2_0.index t (0 : Fin 2) * 5000 + 1 * p.val = t.val * 5000 + p.val; rw [ea]; omega
  | ⟨1, _⟩ => show win2_0.index t (1 : Fin 2) * 128 + 1 * k.val = k.val; rw [eb]; omega

/-- Row p of point t's block of input 1 is row `rowOf t p` of the whole array. -/
theorem read1 (t : Fin cfg2.N) (p : Fin 5000) (k : Fin 128) :
    iblk2 V c 1 t (ix2 p k) = (V c main_v87 : (⟨2, ![400000, 128]⟩ : Shape).Idx → Elt Ideal .f32) (ix2 (rowOf t p) k) := by
  obtain ⟨-, -, ea, eb, -, -, -, -, -, -, -, -, -, -, -, -, -, -, -, -⟩ := idx_facts t
  show (V c main_v87 : (⟨2, ![400000, 128]⟩ : Shape).Idx → Elt Ideal .f32) (((cfg2.win 1).blk t).view.emb (ix2 p k)) = _
  refine congrArg _ (funext fun a => Fin.ext ?_)
  match a with
  | ⟨0, _⟩ => show win2_1.index t (0 : Fin 2) * 5000 + 1 * p.val = t.val * 5000 + p.val; rw [ea]; omega
  | ⟨1, _⟩ => show win2_1.index t (1 : Fin 2) * 128 + 1 * k.val = k.val; rw [eb]; omega

/-- Every point's block of input 2 is the whole matrix. -/
theorem read2 (t : Fin cfg2.N) (k j : Fin 128) :
    iblk2 V c 2 t (ix2 k j) = (V c main_v114 : (⟨2, ![128, 128]⟩ : Shape).Idx → Elt Ideal .f32) (ix2 k j) := by
  obtain ⟨-, -, -, -, ea, eb, -, -, -, -, -, -, -, -, -, -, -, -, -, -⟩ := idx_facts t
  show (V c main_v114 : (⟨2, ![128, 128]⟩ : Shape).Idx → Elt Ideal .f32) (((cfg2.win 2).blk t).view.emb (ix2 k j)) = _
  refine congrArg _ (funext fun a => Fin.ext ?_)
  match a with
  | ⟨0, _⟩ => show win2_2.index t (0 : Fin 2) * 128 + 1 * k.val = k.val; rw [ea]; omega
  | ⟨1, _⟩ => show win2_2.index t (1 : Fin 2) * 128 + 1 * j.val = j.val; rw [eb]; omega

/-- Every point's block of input 3 is the whole matrix. -/
theorem read3 (t : Fin cfg2.N) (k j : Fin 128) :
    iblk2 V c 3 t (ix2 k j) = (V c main_v116 : (⟨2, ![128, 128]⟩ : Shape).Idx → Elt Ideal .f32) (ix2 k j) := by
  obtain ⟨-, -, -, -, -, -, ea, eb, -, -, -, -, -, -, -, -, -, -, -, -⟩ := idx_facts t
  show (V c main_v116 : (⟨2, ![128, 128]⟩ : Shape).Idx → Elt Ideal .f32) (((cfg2.win 3).blk t).view.emb (ix2 k j)) = _
  refine congrArg _ (funext fun a => Fin.ext ?_)
  match a with
  | ⟨0, _⟩ => show win2_3.index t (0 : Fin 2) * 128 + 1 * k.val = k.val; rw [ea]; omega
  | ⟨1, _⟩ => show win2_3.index t (1 : Fin 2) * 128 + 1 * j.val = j.val; rw [eb]; omega

/-- Every point's block of input 4 is the whole row. -/
theorem read4 (t : Fin cfg2.N) (j : Fin 128) :
    iblk2 V c 4 t (ix2 (0 : Fin 1) j) = (V c main_v119 : (⟨2, ![1, 128]⟩ : Shape).Idx → Elt Ideal .f32) (ix2 (0 : Fin 1) j) := by
  obtain ⟨-, -, -, -, -, -, -, -, ea, eb, -, -, -, -, -, -, -, -, -, -⟩ := idx_facts t
  show (V c main_v119 : (⟨2, ![1, 128]⟩ : Shape).Idx → Elt Ideal .f32) (((cfg2.win 4).blk t).view.emb (ix2 (0 : Fin 1) j)) = _
  refine congrArg _ (funext fun a => Fin.ext ?_)
  match a with
  | ⟨0, _⟩ => show win2_4.index t (0 : Fin 2) * 1 + 1 * 0 = 0; rw [ea]
  | ⟨1, _⟩ => show win2_4.index t (1 : Fin 2) * 128 + 1 * j.val = j.val; rw [eb]; omega

/-- Every point's block of input 5 is the whole row. -/
theorem read5 (t : Fin cfg2.N) (j : Fin 128) :
    iblk2 V c 5 t (ix2 (0 : Fin 1) j) = (V c main_v122 : (⟨2, ![1, 128]⟩ : Shape).Idx → Elt Ideal .f32) (ix2 (0 : Fin 1) j) := by
  obtain ⟨-, -, -, -, -, -, -, -, -, -, ea, eb, -, -, -, -, -, -, -, -⟩ := idx_facts t
  show (V c main_v122 : (⟨2, ![1, 128]⟩ : Shape).Idx → Elt Ideal .f32) (((cfg2.win 5).blk t).view.emb (ix2 (0 : Fin 1) j)) = _
  refine congrArg _ (funext fun a => Fin.ext ?_)
  match a with
  | ⟨0, _⟩ => show win2_5.index t (0 : Fin 2) * 1 + 1 * 0 = 0; rw [ea]
  | ⟨1, _⟩ => show win2_5.index t (1 : Fin 2) * 128 + 1 * j.val = j.val; rw [eb]; omega

/-- Every point's block of input 6 is the whole row. -/
theorem read6 (t : Fin cfg2.N) (j : Fin 128) :
    iblk2 V c 6 t (ix2 (0 : Fin 1) j) = (V c main_v125 : (⟨2, ![1, 128]⟩ : Shape).Idx → Elt Ideal .f32) (ix2 (0 : Fin 1) j) := by
  obtain ⟨-, -, -, -, -, -, -, -, -, -, -, -, ea, eb, -, -, -, -, -, -⟩ := idx_facts t
  show (V c main_v125 : (⟨2, ![1, 128]⟩ : Shape).Idx → Elt Ideal .f32) (((cfg2.win 6).blk t).view.emb (ix2 (0 : Fin 1) j)) = _
  refine congrArg _ (funext fun a => Fin.ext ?_)
  match a with
  | ⟨0, _⟩ => show win2_6.index t (0 : Fin 2) * 1 + 1 * 0 = 0; rw [ea]
  | ⟨1, _⟩ => show win2_6.index t (1 : Fin 2) * 128 + 1 * j.val = j.val; rw [eb]; omega

/-- Every point's block of input 7 is the whole row. -/
theorem read7 (t : Fin cfg2.N) (j : Fin 128) :
    iblk2 V c 7 t (ix2 (0 : Fin 1) j) = (V c main_v128 : (⟨2, ![1, 128]⟩ : Shape).Idx → Elt Ideal .f32) (ix2 (0 : Fin 1) j) := by
  obtain ⟨-, -, -, -, -, -, -, -, -, -, -, -, -, -, ea, eb, -, -, -, -⟩ := idx_facts t
  show (V c main_v128 : (⟨2, ![1, 128]⟩ : Shape).Idx → Elt Ideal .f32) (((cfg2.win 7).blk t).view.emb (ix2 (0 : Fin 1) j)) = _
  refine congrArg _ (funext fun a => Fin.ext ?_)
  match a with
  | ⟨0, _⟩ => show win2_7.index t (0 : Fin 2) * 1 + 1 * 0 = 0; rw [ea]
  | ⟨1, _⟩ => show win2_7.index t (1 : Fin 2) * 128 + 1 * j.val = j.val; rw [eb]; omega

/-- Every point's block of input 8 is the whole row. -/
theorem read8 (t : Fin cfg2.N) (j : Fin 128) :
    iblk2 V c 8 t (ix2 (0 : Fin 1) j) = (V c main_v131 : (⟨2, ![1, 128]⟩ : Shape).Idx → Elt Ideal .f32) (ix2 (0 : Fin 1) j) := by
  obtain ⟨-, -, -, -, -, -, -, -, -, -, -, -, -, -, -, -, ea, eb, -, -⟩ := idx_facts t
  show (V c main_v131 : (⟨2, ![1, 128]⟩ : Shape).Idx → Elt Ideal .f32) (((cfg2.win 8).blk t).view.emb (ix2 (0 : Fin 1) j)) = _
  refine congrArg _ (funext fun a => Fin.ext ?_)
  match a with
  | ⟨0, _⟩ => show win2_8.index t (0 : Fin 2) * 1 + 1 * 0 = 0; rw [ea]
  | ⟨1, _⟩ => show win2_8.index t (1 : Fin 2) * 128 + 1 * j.val = j.val; rw [eb]; omega

/-- The body's stored value in this region is the first region's body, term for term. -/
theorem pay_same (x0 x1 : Vec Ideal S5000x128 .f32) (x2 x3 : Vec Ideal S128x128 .f32) (x4 x5 x6 x7 x8 : Vec Ideal S1x128 .f32) :
    k2_pay1 (k2_pay2 x0 x1 x2 x3 x4 x5 x6 x7 x8) = k0_pay1 (k0_pay2 x0 x1 x2 x3 x4 x5 x6 x7 x8) := rfl

/-- What point t writes back is block t of the reference's whole-array transform of the arrays the region found. -/
theorem flushed (agg h : FVec Ideal ⟨2, ![400000, 128]⟩ .f32) (wl wr : FVec Ideal ⟨2, ![128, 128]⟩ .f32) (bl g be mu v : FVec Ideal ⟨1, ![128]⟩ .f32)
    (e0 : (V c main_v100 : (⟨2, ![400000, 128]⟩ : Shape).Idx → Elt Ideal .f32) = agg) (e1 : (V c main_v87 : (⟨2, ![400000, 128]⟩ : Shape).Idx → Elt Ideal .f32) = h) (e2 : (V c main_v114 : (⟨2, ![128, 128]⟩ : Shape).Idx → Elt Ideal .f32) = wl) (e3 : (V c main_v116 : (⟨2, ![128, 128]⟩ : Shape).Idx → Elt Ideal .f32) = wr)
    (e4 : ∀ j : Fin 128, (V c main_v119 : (⟨2, ![1, 128]⟩ : Shape).Idx → Elt Ideal .f32) (ix2 (0 : Fin 1) j) = bl (ix1 j)) (e5 : ∀ j : Fin 128, (V c main_v122 : (⟨2, ![1, 128]⟩ : Shape).Idx → Elt Ideal .f32) (ix2 (0 : Fin 1) j) = g (ix1 j))
    (e6 : ∀ j : Fin 128, (V c main_v125 : (⟨2, ![1, 128]⟩ : Shape).Idx → Elt Ideal .f32) (ix2 (0 : Fin 1) j) = be (ix1 j)) (e7 : ∀ j : Fin 128, (V c main_v128 : (⟨2, ![1, 128]⟩ : Shape).Idx → Elt Ideal .f32) (ix2 (0 : Fin 1) j) = mu (ix1 j))
    (e8 : ∀ j : Fin 128, (V c main_v131 : (⟨2, ![1, 128]⟩ : Shape).Idx → Elt Ideal .f32) (ix2 (0 : Fin 1) j) = v (ix1 j)) (t : Fin cfg2.N) :
    (dat2 V c).flushed 9 t = ((cfg2.win 9).blk t).view.read (Elt Ideal) (layerT agg h wl wr bl g be mu v) := by
  show (cfg2.win 9).cut (grid2.coords t) ((dat2 V c).after 9 t) = _
  rw [after2_9]
  unfold out2_9
  rw [View.canon_unit_zero hz]
  simp only [View.ld_unit_zero (S := S5000x128) hz, View.ld_unit_zero (S := S128x128) hz, View.ld_unit_zero (S := S1x128) hz]
  funext y
  obtain ⟨p, q, rfl⟩ : ∃ (p : Fin 5000) (q : Fin 128), y = ix2 p q := ⟨y 0, y 1, eq_ix2 y⟩
  have hemb : ((cfg2.win 9).blk t).view.emb (ix2 p q) = ix2 (rowOf t p) q := by
    obtain ⟨-, -, -, -, -, -, -, -, -, -, -, -, -, -, -, -, -, -, ea, eb⟩ := idx_facts t
    refine funext fun a => Fin.ext ?_
    match a with
    | ⟨0, _⟩ => show win2_9.index t (0 : Fin 2) * 5000 + 1 * p.val = t.val * 5000 + p.val; rw [ea]; omega
    | ⟨1, _⟩ => show win2_9.index t (1 : Fin 2) * 128 + 1 * q.val = q.val; rw [eb]; omega
  show k2_pay1 (k2_pay2 (iblk2 V c 0 t) (iblk2 V c 1 t) (iblk2 V c 2 t) (iblk2 V c 3 t) (iblk2 V c 4 t) (iblk2 V c 5 t) (iblk2 V c 6 t) (iblk2 V c 7 t) (iblk2 V c 8 t)) (ix2 p q)
    = layerT agg h wl wr bl g be mu v (((cfg2.win 9).blk t).view.emb (ix2 p q))
  rw [hemb, pay_same]
  exact blockT_eq agg h wl wr bl g be mu v (iblk2 V c 0 t) (iblk2 V c 1 t) (iblk2 V c 2 t) (iblk2 V c 3 t) (iblk2 V c 4 t) (iblk2 V c 5 t) (iblk2 V c 6 t) (iblk2 V c 7 t) (iblk2 V c 8 t) (rowOf t)
    (fun p k => (read0 V c t p k).trans (congrFun e0 _)) (fun p k => (read1 V c t p k).trans (congrFun e1 _))
    (fun k j => (read2 V c t k j).trans (congrFun e2 _)) (fun k j => (read3 V c t k j).trans (congrFun e3 _))
    (fun j => (read4 V c t j).trans (e4 j)) (fun j => (read5 V c t j).trans (e5 j)) (fun j => (read6 V c t j).trans (e6 j))
    (fun j => (read7 V c t j).trans (e7 j)) (fun j => (read8 V c t j).trans (e8 j)) p q

/-- An index of the output array is in point t's block iff each coordinate is in the block's range on its axis. -/
theorem mem_blk (t : Fin cfg2.N) (i : S400000x128.Idx) :
    i ∈ ((cfg2.win 9).blk t).view.set ↔ ∀ a : Fin 2, win2_9.index t a * S5000x128.size a ≤ (i a).val
      ∧ (i a).val < win2_9.index t a * S5000x128.size a + S5000x128.size a := by
  show i ∈ ((View.whole main_v151).slice (win2_9.rect t)).set ↔ _
  rw [View.set_slice_whole, Rect.mem_set_unit]
  exact Iff.rfl

/-- Every row of the output is in the block of the point that is its row number divided by 5000. -/
theorem cover (i : S400000x128.Idx) : ∃ t : Fin cfg2.N, (cfg2.win 9).flush t = true ∧ i ∈ ((cfg2.win 9).blk t).view.set := by
  have hi0 : (i 0).val < 400000 := (i 0).isLt
  have hi1 : (i 1).val < 128 := (i 1).isLt
  have hN : cfg2.N = 80 := N_2
  obtain ⟨t, ht⟩ : ∃ t : Fin cfg2.N, t.val = (i 0).val / 5000 := ⟨⟨(i 0).val / 5000, by omega⟩, rfl⟩
  obtain ⟨-, -, -, -, -, -, -, -, -, -, -, -, -, -, -, -, -, -, ea, eb⟩ := idx_facts t
  refine ⟨t, flush2_9 t, ?_⟩
  rw [mem_blk]
  intro a
  match a with
  | ⟨0, _⟩ =>
    show win2_9.index t (0 : Fin 2) * 5000 ≤ (i 0).val ∧ (i 0).val < win2_9.index t (0 : Fin 2) * 5000 + 5000
    rw [ea, ht]; omega
  | ⟨1, _⟩ =>
    show win2_9.index t (1 : Fin 2) * 128 ≤ (i 1).val ∧ (i 1).val < win2_9.index t (1 : Fin 2) * 128 + 128
    rw [eb]; omega

/-- The output array after the region: the reference's whole-array transform of the arrays the region found. -/
theorem final (agg h : FVec Ideal ⟨2, ![400000, 128]⟩ .f32) (wl wr : FVec Ideal ⟨2, ![128, 128]⟩ .f32) (bl g be mu v : FVec Ideal ⟨1, ![128]⟩ .f32)
    (e0 : (V c main_v100 : (⟨2, ![400000, 128]⟩ : Shape).Idx → Elt Ideal .f32) = agg) (e1 : (V c main_v87 : (⟨2, ![400000, 128]⟩ : Shape).Idx → Elt Ideal .f32) = h) (e2 : (V c main_v114 : (⟨2, ![128, 128]⟩ : Shape).Idx → Elt Ideal .f32) = wl) (e3 : (V c main_v116 : (⟨2, ![128, 128]⟩ : Shape).Idx → Elt Ideal .f32) = wr)
    (e4 : ∀ j : Fin 128, (V c main_v119 : (⟨2, ![1, 128]⟩ : Shape).Idx → Elt Ideal .f32) (ix2 (0 : Fin 1) j) = bl (ix1 j)) (e5 : ∀ j : Fin 128, (V c main_v122 : (⟨2, ![1, 128]⟩ : Shape).Idx → Elt Ideal .f32) (ix2 (0 : Fin 1) j) = g (ix1 j))
    (e6 : ∀ j : Fin 128, (V c main_v125 : (⟨2, ![1, 128]⟩ : Shape).Idx → Elt Ideal .f32) (ix2 (0 : Fin 1) j) = be (ix1 j)) (e7 : ∀ j : Fin 128, (V c main_v128 : (⟨2, ![1, 128]⟩ : Shape).Idx → Elt Ideal .f32) (ix2 (0 : Fin 1) j) = mu (ix1 j))
    (e8 : ∀ j : Fin 128, (V c main_v131 : (⟨2, ![1, 128]⟩ : Shape).Idx → Elt Ideal .f32) (ix2 (0 : Fin 1) j) = v (ix1 j)) :
    (dat2 V c).arrAt 9 cfg2.N = layerT agg h wl wr bl g be mu v :=
  (dat2 V c).arrAt_eq_of_cover 9 (layerT agg h wl wr bl g be mu v)
    (fun t _ => flushed V c agg h wl wr bl g be mu v e0 e1 e2 e3 e4 e5 e6 e7 e8 t) (cover)

end Cert.KernelIdeal.Region2

end
-- ==== Proof.Region3.lean ====
/-
  Region 3: the 100000-row node transform, from its blocks to its whole output array.

  The grid has 20 points; point t takes rows 5000·t … 5000·t + 4999 of the two feature arrays and writes the same rows
  of the output, while the weights and the five rows are the same whole arrays at every point. So what point t writes
  back is the reference's whole-array transform read through block t, the blocks cover the output array, and the
  array therefore ends holding that transform of the arrays the region found.
-/
import proofs.«179405_j8443905704157_1_alg».proof.Proof.Gen.KernelIdeal.Frame
import proofs.«179405_j8443905704157_1_alg».proof.Proof.BlockEq
import Idealize.ShloMosaic.Lib.Pipeline.Value

set_option maxRecDepth 16384

noncomputable section

namespace Cert.KernelIdeal.Region3

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Body Cert.ReferenceIdeal.Layer

variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- Where each window's index map sends point t: the feature windows and the output move with the point along the
    rows, every other window stays at block (0, 0). Decided over the 20 points. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = 0 ∧ win3_8.index t (1 : Fin 2) = 0
    ∧ win3_9.index t (0 : Fin 2) = t.val ∧ win3_9.index t (1 : Fin 2) = 0 :=
  (by decide +kernel : ∀ t : Fin grid3.N, _)

/-- The row of the whole array that row p of point t's block is. -/
def rowOf (t : Fin cfg3.N) (p : Fin 5000) : Fin 100000 :=
  ⟨t.val * 5000 + p.val, by have h := t.isLt; have hN : cfg3.N = 20 := N_3; have hp := p.isLt; omega⟩

/-- Row p of point t's block of input 0 is row `rowOf t p` of the whole array. -/
theorem read0 (t : Fin cfg3.N) (p : Fin 5000) (k : Fin 128) :
    iblk3 V c 0 t (ix2 p k) = (V c main_v112 : (⟨2, ![100000, 128]⟩ : Shape).Idx → Elt Ideal .f32) (ix2 (rowOf t p) k) := by
  obtain ⟨ea, eb, -, -, -, -, -, -, -, -, -, -, -, -, -, -, -, -, -, -⟩ := idx_facts t
  show (V c main_v112 : (⟨2, ![100000, 128]⟩ : Shape).Idx → Elt Ideal .f32) (((cfg3.win 0).blk t).view.emb (ix2 p k)) = _
  refine congrArg _ (funext fun a => Fin.ext ?_)
  match a with
  | ⟨0, _⟩ => show win3_0.index t (0 : Fin 2) * 5000 + 1 * p.val = t.val * 5000 + p.val; rw [ea]; omega
  | ⟨1, _⟩ => show win3_0.index t (1 : Fin 2) * 128 + 1 * k.val = k.val; rw [eb]; omega

/-- Row p of point t's block of input 1 is row `rowOf t p` of the whole array. -/
theorem read1 (t : Fin cfg3.N) (p : Fin 5000) (k : Fin 128) :
    iblk3 V c 1 t (ix2 p k) = (V c main_v88 : (⟨2, ![100000, 128]⟩ : Shape).Idx → Elt Ideal .f32) (ix2 (rowOf t p) k) := by
  obtain ⟨-, -, ea, eb, -, -, -, -, -, -, -, -, -, -, -, -, -, -, -, -⟩ := idx_facts t
  show (V c main_v88 : (⟨2, ![100000, 128]⟩ : Shape).Idx → Elt Ideal .f32) (((cfg3.win 1).blk t).view.emb (ix2 p k)) = _
  refine congrArg _ (funext fun a => Fin.ext ?_)
  match a with
  | ⟨0, _⟩ => show win3_1.index t (0 : Fin 2) * 5000 + 1 * p.val = t.val * 5000 + p.val; rw [ea]; omega
  | ⟨1, _⟩ => show win3_1.index t (1 : Fin 2) * 128 + 1 * k.val = k.val; rw [eb]; omega

/-- Every point's block of input 2 is the whole matrix. -/
theorem read2 (t : Fin cfg3.N) (k j : Fin 128) :
    iblk3 V c 2 t (ix2 k j) = (V c main_v133 : (⟨2, ![128, 128]⟩ : Shape).Idx → Elt Ideal .f32) (ix2 k j) := by
  obtain ⟨-, -, -, -, ea, eb, -, -, -, -, -, -, -, -, -, -, -, -, -, -⟩ := idx_facts t
  show (V c main_v133 : (⟨2, ![128, 128]⟩ : Shape).Idx → Elt Ideal .f32) (((cfg3.win 2).blk t).view.emb (ix2 k j)) = _
  refine congrArg _ (funext fun a => Fin.ext ?_)
  match a with
  | ⟨0, _⟩ => show win3_2.index t (0 : Fin 2) * 128 + 1 * k.val = k.val; rw [ea]; omega
  | ⟨1, _⟩ => show win3_2.index t (1 : Fin 2) * 128 + 1 * j.val = j.val; rw [eb]; omega

/-- Every point's block of input 3 is the whole matrix. -/
theorem read3 (t : Fin cfg3.N) (k j : Fin 128) :
    iblk3 V c 3 t (ix2 k j) = (V c main_v135 : (⟨2, ![128, 128]⟩ : Shape).Idx → Elt Ideal .f32) (ix2 k j) := by
  obtain ⟨-, -, -, -, -, -, ea, eb, -, -, -, -, -, -, -, -, -, -, -, -⟩ := idx_facts t
  show (V c main_v135 : (⟨2, ![128, 128]⟩ : Shape).Idx → Elt Ideal .f32) (((cfg3.win 3).blk t).view.emb (ix2 k j)) = _
  refine congrArg _ (funext fun a => Fin.ext ?_)
  match a with
  | ⟨0, _⟩ => show win3_3.index t (0 : Fin 2) * 128 + 1 * k.val = k.val; rw [ea]; omega
  | ⟨1, _⟩ => show win3_3.index t (1 : Fin 2) * 128 + 1 * j.val = j.val; rw [eb]; omega

/-- Every point's block of input 4 is the whole row. -/
theorem read4 (t : Fin cfg3.N) (j : Fin 128) :
    iblk3 V c 4 t (ix2 (0 : Fin 1) j) = (V c main_v138 : (⟨2, ![1, 128]⟩ : Shape).Idx → Elt Ideal .f32) (ix2 (0 : Fin 1) j) := by
  obtain ⟨-, -, -, -, -, -, -, -, ea, eb, -, -, -, -, -, -, -, -, -, -⟩ := idx_facts t
  show (V c main_v138 : (⟨2, ![1, 128]⟩ : Shape).Idx → Elt Ideal .f32) (((cfg3.win 4).blk t).view.emb (ix2 (0 : Fin 1) j)) = _
  refine congrArg _ (funext fun a => Fin.ext ?_)
  match a with
  | ⟨0, _⟩ => show win3_4.index t (0 : Fin 2) * 1 + 1 * 0 = 0; rw [ea]
  | ⟨1, _⟩ => show win3_4.index t (1 : Fin 2) * 128 + 1 * j.val = j.val; rw [eb]; omega

/-- Every point's block of input 5 is the whole row. -/
theorem read5 (t : Fin cfg3.N) (j : Fin 128) :
    iblk3 V c 5 t (ix2 (0 : Fin 1) j) = (V c main_v141 : (⟨2, ![1, 128]⟩ : Shape).Idx → Elt Ideal .f32) (ix2 (0 : Fin 1) j) := by
  obtain ⟨-, -, -, -, -, -, -, -, -, -, ea, eb, -, -, -, -, -, -, -, -⟩ := idx_facts t
  show (V c main_v141 : (⟨2, ![1, 128]⟩ : Shape).Idx → Elt Ideal .f32) (((cfg3.win 5).blk t).view.emb (ix2 (0 : Fin 1) j)) = _
  refine congrArg _ (funext fun a => Fin.ext ?_)
  match a with
  | ⟨0, _⟩ => show win3_5.index t (0 : Fin 2) * 1 + 1 * 0 = 0; rw [ea]
  | ⟨1, _⟩ => show win3_5.index t (1 : Fin 2) * 128 + 1 * j.val = j.val; rw [eb]; omega

/-- Every point's block of input 6 is the whole row. -/
theorem read6 (t : Fin cfg3.N) (j : Fin 128) :
    iblk3 V c 6 t (ix2 (0 : Fin 1) j) = (V c main_v144 : (⟨2, ![1, 128]⟩ : Shape).Idx → Elt Ideal .f32) (ix2 (0 : Fin 1) j) := by
  obtain ⟨-, -, -, -, -, -, -, -, -, -, -, -, ea, eb, -, -, -, -, -, -⟩ := idx_facts t
  show (V c main_v144 : (⟨2, ![1, 128]⟩ : Shape).Idx → Elt Ideal .f32) (((cfg3.win 6).blk t).view.emb (ix2 (0 : Fin 1) j)) = _
  refine congrArg _ (funext fun a => Fin.ext ?_)
  match a with
  | ⟨0, _⟩ => show win3_6.index t (0 : Fin 2) * 1 + 1 * 0 = 0; rw [ea]
  | ⟨1, _⟩ => show win3_6.index t (1 : Fin 2) * 128 + 1 * j.val = j.val; rw [eb]; omega

/-- Every point's block of input 7 is the whole row. -/
theorem read7 (t : Fin cfg3.N) (j : Fin 128) :
    iblk3 V c 7 t (ix2 (0 : Fin 1) j) = (V c main_v147 : (⟨2, ![1, 128]⟩ : Shape).Idx → Elt Ideal .f32) (ix2 (0 : Fin 1) j) := by
  obtain ⟨-, -, -, -, -, -, -, -, -, -, -, -, -, -, ea, eb, -, -, -, -⟩ := idx_facts t
  show (V c main_v147 : (⟨2, ![1, 128]⟩ : Shape).Idx → Elt Ideal .f32) (((cfg3.win 7).blk t).view.emb (ix2 (0 : Fin 1) j)) = _
  refine congrArg _ (funext fun a => Fin.ext ?_)
  match a with
  | ⟨0, _⟩ => show win3_7.index t (0 : Fin 2) * 1 + 1 * 0 = 0; rw [ea]
  | ⟨1, _⟩ => show win3_7.index t (1 : Fin 2) * 128 + 1 * j.val = j.val; rw [eb]; omega

/-- Every point's block of input 8 is the whole row. -/
theorem read8 (t : Fin cfg3.N) (j : Fin 128) :
    iblk3 V c 8 t (ix2 (0 : Fin 1) j) = (V c main_v150 : (⟨2, ![1, 128]⟩ : Shape).Idx → Elt Ideal .f32) (ix2 (0 : Fin 1) j) := by
  obtain ⟨-, -, -, -, -, -, -, -, -, -, -, -, -, -, -, -, ea, eb, -, -⟩ := idx_facts t
  show (V c main_v150 : (⟨2, ![1, 128]⟩ : Shape).Idx → Elt Ideal .f32) (((cfg3.win 8).blk t).view.emb (ix2 (0 : Fin 1) j)) = _
  refine congrArg _ (funext fun a => Fin.ext ?_)
  match a with
  | ⟨0, _⟩ => show win3_8.index t (0 : Fin 2) * 1 + 1 * 0 = 0; rw [ea]
  | ⟨1, _⟩ => show win3_8.index t (1 : Fin 2) * 128 + 1 * j.val = j.val; rw [eb]; omega

/-- The body's stored value in this region is the first region's body, term for term. -/
theorem pay_same (x0 x1 : Vec Ideal S5000x128 .f32) (x2 x3 : Vec Ideal S128x128 .f32) (x4 x5 x6 x7 x8 : Vec Ideal S1x128 .f32) :
    k3_pay1 (k3_pay2 x0 x1 x2 x3 x4 x5 x6 x7 x8) = k0_pay1 (k0_pay2 x0 x1 x2 x3 x4 x5 x6 x7 x8) := rfl

/-- What point t writes back is block t of the reference's whole-array transform of the arrays the region found. -/
theorem flushed (agg h : FVec Ideal ⟨2, ![100000, 128]⟩ .f32) (wl wr : FVec Ideal ⟨2, ![128, 128]⟩ .f32) (bl g be mu v : FVec Ideal ⟨1, ![128]⟩ .f32)
    (e0 : (V c main_v112 : (⟨2, ![100000, 128]⟩ : Shape).Idx → Elt Ideal .f32) = agg) (e1 : (V c main_v88 : (⟨2, ![100000, 128]⟩ : Shape).Idx → Elt Ideal .f32) = h) (e2 : (V c main_v133 : (⟨2, ![128, 128]⟩ : Shape).Idx → Elt Ideal .f32) = wl) (e3 : (V c main_v135 : (⟨2, ![128, 128]⟩ : Shape).Idx → Elt Ideal .f32) = wr)
    (e4 : ∀ j : Fin 128, (V c main_v138 : (⟨2, ![1, 128]⟩ : Shape).Idx → Elt Ideal .f32) (ix2 (0 : Fin 1) j) = bl (ix1 j)) (e5 : ∀ j : Fin 128, (V c main_v141 : (⟨2, ![1, 128]⟩ : Shape).Idx → Elt Ideal .f32) (ix2 (0 : Fin 1) j) = g (ix1 j))
    (e6 : ∀ j : Fin 128, (V c main_v144 : (⟨2, ![1, 128]⟩ : Shape).Idx → Elt Ideal .f32) (ix2 (0 : Fin 1) j) = be (ix1 j)) (e7 : ∀ j : Fin 128, (V c main_v147 : (⟨2, ![1, 128]⟩ : Shape).Idx → Elt Ideal .f32) (ix2 (0 : Fin 1) j) = mu (ix1 j))
    (e8 : ∀ j : Fin 128, (V c main_v150 : (⟨2, ![1, 128]⟩ : Shape).Idx → Elt Ideal .f32) (ix2 (0 : Fin 1) j) = v (ix1 j)) (t : Fin cfg3.N) :
    (dat3 V c).flushed 9 t = ((cfg3.win 9).blk t).view.read (Elt Ideal) (layerU agg h wl wr bl g be mu v) := by
  show (cfg3.win 9).cut (grid3.coords t) ((dat3 V c).after 9 t) = _
  rw [after3_9]
  unfold out3_9
  rw [View.canon_unit_zero hz]
  simp only [View.ld_unit_zero (S := S5000x128) hz, View.ld_unit_zero (S := S128x128) hz, View.ld_unit_zero (S := S1x128) hz]
  funext y
  obtain ⟨p, q, rfl⟩ : ∃ (p : Fin 5000) (q : Fin 128), y = ix2 p q := ⟨y 0, y 1, eq_ix2 y⟩
  have hemb : ((cfg3.win 9).blk t).view.emb (ix2 p q) = ix2 (rowOf t p) q := by
    obtain ⟨-, -, -, -, -, -, -, -, -, -, -, -, -, -, -, -, -, -, ea, eb⟩ := idx_facts t
    refine funext fun a => Fin.ext ?_
    match a with
    | ⟨0, _⟩ => show win3_9.index t (0 : Fin 2) * 5000 + 1 * p.val = t.val * 5000 + p.val; rw [ea]; omega
    | ⟨1, _⟩ => show win3_9.index t (1 : Fin 2) * 128 + 1 * q.val = q.val; rw [eb]; omega
  show k3_pay1 (k3_pay2 (iblk3 V c 0 t) (iblk3 V c 1 t) (iblk3 V c 2 t) (iblk3 V c 3 t) (iblk3 V c 4 t) (iblk3 V c 5 t) (iblk3 V c 6 t) (iblk3 V c 7 t) (iblk3 V c 8 t)) (ix2 p q)
    = layerU agg h wl wr bl g be mu v (((cfg3.win 9).blk t).view.emb (ix2 p q))
  rw [hemb, pay_same]
  exact blockU_eq agg h wl wr bl g be mu v (iblk3 V c 0 t) (iblk3 V c 1 t) (iblk3 V c 2 t) (iblk3 V c 3 t) (iblk3 V c 4 t) (iblk3 V c 5 t) (iblk3 V c 6 t) (iblk3 V c 7 t) (iblk3 V c 8 t) (rowOf t)
    (fun p k => (read0 V c t p k).trans (congrFun e0 _)) (fun p k => (read1 V c t p k).trans (congrFun e1 _))
    (fun k j => (read2 V c t k j).trans (congrFun e2 _)) (fun k j => (read3 V c t k j).trans (congrFun e3 _))
    (fun j => (read4 V c t j).trans (e4 j)) (fun j => (read5 V c t j).trans (e5 j)) (fun j => (read6 V c t j).trans (e6 j))
    (fun j => (read7 V c t j).trans (e7 j)) (fun j => (read8 V c t j).trans (e8 j)) p q

/-- An index of the output array is in point t's block iff each coordinate is in the block's range on its axis. -/
theorem mem_blk (t : Fin cfg3.N) (i : S100000x128.Idx) :
    i ∈ ((cfg3.win 9).blk t).view.set ↔ ∀ a : Fin 2, win3_9.index t a * S5000x128.size a ≤ (i a).val
      ∧ (i a).val < win3_9.index t a * S5000x128.size a + S5000x128.size a := by
  show i ∈ ((View.whole main_v152).slice (win3_9.rect t)).set ↔ _
  rw [View.set_slice_whole, Rect.mem_set_unit]
  exact Iff.rfl

/-- Every row of the output is in the block of the point that is its row number divided by 5000. -/
theorem cover (i : S100000x128.Idx) : ∃ t : Fin cfg3.N, (cfg3.win 9).flush t = true ∧ i ∈ ((cfg3.win 9).blk t).view.set := by
  have hi0 : (i 0).val < 100000 := (i 0).isLt
  have hi1 : (i 1).val < 128 := (i 1).isLt
  have hN : cfg3.N = 20 := N_3
  obtain ⟨t, ht⟩ : ∃ t : Fin cfg3.N, t.val = (i 0).val / 5000 := ⟨⟨(i 0).val / 5000, by omega⟩, rfl⟩
  obtain ⟨-, -, -, -, -, -, -, -, -, -, -, -, -, -, -, -, -, -, ea, eb⟩ := idx_facts t
  refine ⟨t, flush3_9 t, ?_⟩
  rw [mem_blk]
  intro a
  match a with
  | ⟨0, _⟩ =>
    show win3_9.index t (0 : Fin 2) * 5000 ≤ (i 0).val ∧ (i 0).val < win3_9.index t (0 : Fin 2) * 5000 + 5000
    rw [ea, ht]; omega
  | ⟨1, _⟩ =>
    show win3_9.index t (1 : Fin 2) * 128 ≤ (i 1).val ∧ (i 1).val < win3_9.index t (1 : Fin 2) * 128 + 128
    rw [eb]; omega

/-- The output array after the region: the reference's whole-array transform of the arrays the region found. -/
theorem final (agg h : FVec Ideal ⟨2, ![100000, 128]⟩ .f32) (wl wr : FVec Ideal ⟨2, ![128, 128]⟩ .f32) (bl g be mu v : FVec Ideal ⟨1, ![128]⟩ .f32)
    (e0 : (V c main_v112 : (⟨2, ![100000, 128]⟩ : Shape).Idx → Elt Ideal .f32) = agg) (e1 : (V c main_v88 : (⟨2, ![100000, 128]⟩ : Shape).Idx → Elt Ideal .f32) = h) (e2 : (V c main_v133 : (⟨2, ![128, 128]⟩ : Shape).Idx → Elt Ideal .f32) = wl) (e3 : (V c main_v135 : (⟨2, ![128, 128]⟩ : Shape).Idx → Elt Ideal .f32) = wr)
    (e4 : ∀ j : Fin 128, (V c main_v138 : (⟨2, ![1, 128]⟩ : Shape).Idx → Elt Ideal .f32) (ix2 (0 : Fin 1) j) = bl (ix1 j)) (e5 : ∀ j : Fin 128, (V c main_v141 : (⟨2, ![1, 128]⟩ : Shape).Idx → Elt Ideal .f32) (ix2 (0 : Fin 1) j) = g (ix1 j))
    (e6 : ∀ j : Fin 128, (V c main_v144 : (⟨2, ![1, 128]⟩ : Shape).Idx → Elt Ideal .f32) (ix2 (0 : Fin 1) j) = be (ix1 j)) (e7 : ∀ j : Fin 128, (V c main_v147 : (⟨2, ![1, 128]⟩ : Shape).Idx → Elt Ideal .f32) (ix2 (0 : Fin 1) j) = mu (ix1 j))
    (e8 : ∀ j : Fin 128, (V c main_v150 : (⟨2, ![1, 128]⟩ : Shape).Idx → Elt Ideal .f32) (ix2 (0 : Fin 1) j) = v (ix1 j)) :
    (dat3 V c).arrAt 9 cfg3.N = layerU agg h wl wr bl g be mu v :=
  (dat3 V c).arrAt_eq_of_cover 9 (layerU agg h wl wr bl g be mu v)
    (fun t _ => flushed V c agg h wl wr bl g be mu v e0 e1 e2 e3 e4 e5 e6 e7 e8 t) (cover)

end Cert.KernelIdeal.Region3

end
-- ==== Proof.Region4.lean ====
/-
  Region 4: the 400000-row node transform, from its blocks to its whole output array.

  The grid has 80 points; point t takes rows 5000·t … 5000·t + 4999 of the two feature arrays and writes the same rows
  of the output, while the weights and the five rows are the same whole arrays at every point. So what point t writes
  back is the reference's whole-array transform read through block t, the blocks cover the output array, and the
  array therefore ends holding that transform of the arrays the region found.
-/
import proofs.«179405_j8443905704157_1_alg».proof.Proof.Gen.KernelIdeal.Frame
import proofs.«179405_j8443905704157_1_alg».proof.Proof.BlockEq
import Idealize.ShloMosaic.Lib.Pipeline.Value

set_option maxRecDepth 16384

noncomputable section

namespace Cert.KernelIdeal.Region4

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Body Cert.ReferenceIdeal.Layer

variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- Where each window's index map sends point t: the feature windows and the output move with the point along the
    rows, every other window stays at block (0, 0). Decided over the 80 points. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = 0 ∧ win4_7.index t (1 : Fin 2) = 0
    ∧ win4_8.index t (0 : Fin 2) = 0 ∧ win4_8.index t (1 : Fin 2) = 0
    ∧ win4_9.index t (0 : Fin 2) = t.val ∧ win4_9.index t (1 : Fin 2) = 0 :=
  (by decide +kernel : ∀ t : Fin grid4.N, _)

/-- The row of the whole array that row p of point t's block is. -/
def rowOf (t : Fin cfg4.N) (p : Fin 5000) : Fin 400000 :=
  ⟨t.val * 5000 + p.val, by have h := t.isLt; have hN : cfg4.N = 80 := N_4; have hp := p.isLt; omega⟩

/-- Row p of point t's block of input 0 is row `rowOf t p` of the whole array. -/
theorem read0 (t : Fin cfg4.N) (p : Fin 5000) (k : Fin 128) :
    iblk4 V c 0 t (ix2 p k) = (V c main_v164 : (⟨2, ![400000, 128]⟩ : Shape).Idx → Elt Ideal .f32) (ix2 (rowOf t p) k) := by
  obtain ⟨ea, eb, -, -, -, -, -, -, -, -, -, -, -, -, -, -, -, -, -, -⟩ := idx_facts t
  show (V c main_v164 : (⟨2, ![400000, 128]⟩ : Shape).Idx → Elt Ideal .f32) (((cfg4.win 0).blk t).view.emb (ix2 p k)) = _
  refine congrArg _ (funext fun a => Fin.ext ?_)
  match a with
  | ⟨0, _⟩ => show win4_0.index t (0 : Fin 2) * 5000 + 1 * p.val = t.val * 5000 + p.val; rw [ea]; omega
  | ⟨1, _⟩ => show win4_0.index t (1 : Fin 2) * 128 + 1 * k.val = k.val; rw [eb]; omega

/-- Row p of point t's block of input 1 is row `rowOf t p` of the whole array. -/
theorem read1 (t : Fin cfg4.N) (p : Fin 5000) (k : Fin 128) :
    iblk4 V c 1 t (ix2 p k) = (V c main_v151 : (⟨2, ![400000, 128]⟩ : Shape).Idx → Elt Ideal .f32) (ix2 (rowOf t p) k) := by
  obtain ⟨-, -, ea, eb, -, -, -, -, -, -, -, -, -, -, -, -, -, -, -, -⟩ := idx_facts t
  show (V c main_v151 : (⟨2, ![400000, 128]⟩ : Shape).Idx → Elt Ideal .f32) (((cfg4.win 1).blk t).view.emb (ix2 p k)) = _
  refine congrArg _ (funext fun a => Fin.ext ?_)
  match a with
  | ⟨0, _⟩ => show win4_1.index t (0 : Fin 2) * 5000 + 1 * p.val = t.val * 5000 + p.val; rw [ea]; omega
  | ⟨1, _⟩ => show win4_1.index t (1 : Fin 2) * 128 + 1 * k.val = k.val; rw [eb]; omega

/-- Every point's block of input 2 is the whole matrix. -/
theorem read2 (t : Fin cfg4.N) (k j : Fin 128) :
    iblk4 V c 2 t (ix2 k j) = (V c main_v178 : (⟨2, ![128, 128]⟩ : Shape).Idx → Elt Ideal .f32) (ix2 k j) := by
  obtain ⟨-, -, -, -, ea, eb, -, -, -, -, -, -, -, -, -, -, -, -, -, -⟩ := idx_facts t
  show (V c main_v178 : (⟨2, ![128, 128]⟩ : Shape).Idx → Elt Ideal .f32) (((cfg4.win 2).blk t).view.emb (ix2 k j)) = _
  refine congrArg _ (funext fun a => Fin.ext ?_)
  match a with
  | ⟨0, _⟩ => show win4_2.index t (0 : Fin 2) * 128 + 1 * k.val = k.val; rw [ea]; omega
  | ⟨1, _⟩ => show win4_2.index t (1 : Fin 2) * 128 + 1 * j.val = j.val; rw [eb]; omega

/-- Every point's block of input 3 is the whole matrix. -/
theorem read3 (t : Fin cfg4.N) (k j : Fin 128) :
    iblk4 V c 3 t (ix2 k j) = (V c main_v180 : (⟨2, ![128, 128]⟩ : Shape).Idx → Elt Ideal .f32) (ix2 k j) := by
  obtain ⟨-, -, -, -, -, -, ea, eb, -, -, -, -, -, -, -, -, -, -, -, -⟩ := idx_facts t
  show (V c main_v180 : (⟨2, ![128, 128]⟩ : Shape).Idx → Elt Ideal .f32) (((cfg4.win 3).blk t).view.emb (ix2 k j)) = _
  refine congrArg _ (funext fun a => Fin.ext ?_)
  match a with
  | ⟨0, _⟩ => show win4_3.index t (0 : Fin 2) * 128 + 1 * k.val = k.val; rw [ea]; omega
  | ⟨1, _⟩ => show win4_3.index t (1 : Fin 2) * 128 + 1 * j.val = j.val; rw [eb]; omega

/-- Every point's block of input 4 is the whole row. -/
theorem read4 (t : Fin cfg4.N) (j : Fin 128) :
    iblk4 V c 4 t (ix2 (0 : Fin 1) j) = (V c main_v183 : (⟨2, ![1, 128]⟩ : Shape).Idx → Elt Ideal .f32) (ix2 (0 : Fin 1) j) := by
  obtain ⟨-, -, -, -, -, -, -, -, ea, eb, -, -, -, -, -, -, -, -, -, -⟩ := idx_facts t
  show (V c main_v183 : (⟨2, ![1, 128]⟩ : Shape).Idx → Elt Ideal .f32) (((cfg4.win 4).blk t).view.emb (ix2 (0 : Fin 1) j)) = _
  refine congrArg _ (funext fun a => Fin.ext ?_)
  match a with
  | ⟨0, _⟩ => show win4_4.index t (0 : Fin 2) * 1 + 1 * 0 = 0; rw [ea]
  | ⟨1, _⟩ => show win4_4.index t (1 : Fin 2) * 128 + 1 * j.val = j.val; rw [eb]; omega

/-- Every point's block of input 5 is the whole row. -/
theorem read5 (t : Fin cfg4.N) (j : Fin 128) :
    iblk4 V c 5 t (ix2 (0 : Fin 1) j) = (V c main_v186 : (⟨2, ![1, 128]⟩ : Shape).Idx → Elt Ideal .f32) (ix2 (0 : Fin 1) j) := by
  obtain ⟨-, -, -, -, -, -, -, -, -, -, ea, eb, -, -, -, -, -, -, -, -⟩ := idx_facts t
  show (V c main_v186 : (⟨2, ![1, 128]⟩ : Shape).Idx → Elt Ideal .f32) (((cfg4.win 5).blk t).view.emb (ix2 (0 : Fin 1) j)) = _
  refine congrArg _ (funext fun a => Fin.ext ?_)
  match a with
  | ⟨0, _⟩ => show win4_5.index t (0 : Fin 2) * 1 + 1 * 0 = 0; rw [ea]
  | ⟨1, _⟩ => show win4_5.index t (1 : Fin 2) * 128 + 1 * j.val = j.val; rw [eb]; omega

/-- Every point's block of input 6 is the whole row. -/
theorem read6 (t : Fin cfg4.N) (j : Fin 128) :
    iblk4 V c 6 t (ix2 (0 : Fin 1) j) = (V c main_v189 : (⟨2, ![1, 128]⟩ : Shape).Idx → Elt Ideal .f32) (ix2 (0 : Fin 1) j) := by
  obtain ⟨-, -, -, -, -, -, -, -, -, -, -, -, ea, eb, -, -, -, -, -, -⟩ := idx_facts t
  show (V c main_v189 : (⟨2, ![1, 128]⟩ : Shape).Idx → Elt Ideal .f32) (((cfg4.win 6).blk t).view.emb (ix2 (0 : Fin 1) j)) = _
  refine congrArg _ (funext fun a => Fin.ext ?_)
  match a with
  | ⟨0, _⟩ => show win4_6.index t (0 : Fin 2) * 1 + 1 * 0 = 0; rw [ea]
  | ⟨1, _⟩ => show win4_6.index t (1 : Fin 2) * 128 + 1 * j.val = j.val; rw [eb]; omega

/-- Every point's block of input 7 is the whole row. -/
theorem read7 (t : Fin cfg4.N) (j : Fin 128) :
    iblk4 V c 7 t (ix2 (0 : Fin 1) j) = (V c main_v192 : (⟨2, ![1, 128]⟩ : Shape).Idx → Elt Ideal .f32) (ix2 (0 : Fin 1) j) := by
  obtain ⟨-, -, -, -, -, -, -, -, -, -, -, -, -, -, ea, eb, -, -, -, -⟩ := idx_facts t
  show (V c main_v192 : (⟨2, ![1, 128]⟩ : Shape).Idx → Elt Ideal .f32) (((cfg4.win 7).blk t).view.emb (ix2 (0 : Fin 1) j)) = _
  refine congrArg _ (funext fun a => Fin.ext ?_)
  match a with
  | ⟨0, _⟩ => show win4_7.index t (0 : Fin 2) * 1 + 1 * 0 = 0; rw [ea]
  | ⟨1, _⟩ => show win4_7.index t (1 : Fin 2) * 128 + 1 * j.val = j.val; rw [eb]; omega

/-- Every point's block of input 8 is the whole row. -/
theorem read8 (t : Fin cfg4.N) (j : Fin 128) :
    iblk4 V c 8 t (ix2 (0 : Fin 1) j) = (V c main_v195 : (⟨2, ![1, 128]⟩ : Shape).Idx → Elt Ideal .f32) (ix2 (0 : Fin 1) j) := by
  obtain ⟨-, -, -, -, -, -, -, -, -, -, -, -, -, -, -, -, ea, eb, -, -⟩ := idx_facts t
  show (V c main_v195 : (⟨2, ![1, 128]⟩ : Shape).Idx → Elt Ideal .f32) (((cfg4.win 8).blk t).view.emb (ix2 (0 : Fin 1) j)) = _
  refine congrArg _ (funext fun a => Fin.ext ?_)
  match a with
  | ⟨0, _⟩ => show win4_8.index t (0 : Fin 2) * 1 + 1 * 0 = 0; rw [ea]
  | ⟨1, _⟩ => show win4_8.index t (1 : Fin 2) * 128 + 1 * j.val = j.val; rw [eb]; omega

/-- The body's stored value in this region is the first region's body, term for term. -/
theorem pay_same (x0 x1 : Vec Ideal S5000x128 .f32) (x2 x3 : Vec Ideal S128x128 .f32) (x4 x5 x6 x7 x8 : Vec Ideal S1x128 .f32) :
    k4_pay1 (k4_pay2 x0 x1 x2 x3 x4 x5 x6 x7 x8) = k0_pay1 (k0_pay2 x0 x1 x2 x3 x4 x5 x6 x7 x8) := rfl

/-- What point t writes back is block t of the reference's whole-array transform of the arrays the region found. -/
theorem flushed (agg h : FVec Ideal ⟨2, ![400000, 128]⟩ .f32) (wl wr : FVec Ideal ⟨2, ![128, 128]⟩ .f32) (bl g be mu v : FVec Ideal ⟨1, ![128]⟩ .f32)
    (e0 : (V c main_v164 : (⟨2, ![400000, 128]⟩ : Shape).Idx → Elt Ideal .f32) = agg) (e1 : (V c main_v151 : (⟨2, ![400000, 128]⟩ : Shape).Idx → Elt Ideal .f32) = h) (e2 : (V c main_v178 : (⟨2, ![128, 128]⟩ : Shape).Idx → Elt Ideal .f32) = wl) (e3 : (V c main_v180 : (⟨2, ![128, 128]⟩ : Shape).Idx → Elt Ideal .f32) = wr)
    (e4 : ∀ j : Fin 128, (V c main_v183 : (⟨2, ![1, 128]⟩ : Shape).Idx → Elt Ideal .f32) (ix2 (0 : Fin 1) j) = bl (ix1 j)) (e5 : ∀ j : Fin 128, (V c main_v186 : (⟨2, ![1, 128]⟩ : Shape).Idx → Elt Ideal .f32) (ix2 (0 : Fin 1) j) = g (ix1 j))
    (e6 : ∀ j : Fin 128, (V c main_v189 : (⟨2, ![1, 128]⟩ : Shape).Idx → Elt Ideal .f32) (ix2 (0 : Fin 1) j) = be (ix1 j)) (e7 : ∀ j : Fin 128, (V c main_v192 : (⟨2, ![1, 128]⟩ : Shape).Idx → Elt Ideal .f32) (ix2 (0 : Fin 1) j) = mu (ix1 j))
    (e8 : ∀ j : Fin 128, (V c main_v195 : (⟨2, ![1, 128]⟩ : Shape).Idx → Elt Ideal .f32) (ix2 (0 : Fin 1) j) = v (ix1 j)) (t : Fin cfg4.N) :
    (dat4 V c).flushed 9 t = ((cfg4.win 9).blk t).view.read (Elt Ideal) (layerT agg h wl wr bl g be mu v) := by
  show (cfg4.win 9).cut (grid4.coords t) ((dat4 V c).after 9 t) = _
  rw [after4_9]
  unfold out4_9
  rw [View.canon_unit_zero hz]
  simp only [View.ld_unit_zero (S := S5000x128) hz, View.ld_unit_zero (S := S128x128) hz, View.ld_unit_zero (S := S1x128) hz]
  funext y
  obtain ⟨p, q, rfl⟩ : ∃ (p : Fin 5000) (q : Fin 128), y = ix2 p q := ⟨y 0, y 1, eq_ix2 y⟩
  have hemb : ((cfg4.win 9).blk t).view.emb (ix2 p q) = ix2 (rowOf t p) q := by
    obtain ⟨-, -, -, -, -, -, -, -, -, -, -, -, -, -, -, -, -, -, ea, eb⟩ := idx_facts t
    refine funext fun a => Fin.ext ?_
    match a with
    | ⟨0, _⟩ => show win4_9.index t (0 : Fin 2) * 5000 + 1 * p.val = t.val * 5000 + p.val; rw [ea]; omega
    | ⟨1, _⟩ => show win4_9.index t (1 : Fin 2) * 128 + 1 * q.val = q.val; rw [eb]; omega
  show k4_pay1 (k4_pay2 (iblk4 V c 0 t) (iblk4 V c 1 t) (iblk4 V c 2 t) (iblk4 V c 3 t) (iblk4 V c 4 t) (iblk4 V c 5 t) (iblk4 V c 6 t) (iblk4 V c 7 t) (iblk4 V c 8 t)) (ix2 p q)
    = layerT agg h wl wr bl g be mu v (((cfg4.win 9).blk t).view.emb (ix2 p q))
  rw [hemb, pay_same]
  exact blockT_eq agg h wl wr bl g be mu v (iblk4 V c 0 t) (iblk4 V c 1 t) (iblk4 V c 2 t) (iblk4 V c 3 t) (iblk4 V c 4 t) (iblk4 V c 5 t) (iblk4 V c 6 t) (iblk4 V c 7 t) (iblk4 V c 8 t) (rowOf t)
    (fun p k => (read0 V c t p k).trans (congrFun e0 _)) (fun p k => (read1 V c t p k).trans (congrFun e1 _))
    (fun k j => (read2 V c t k j).trans (congrFun e2 _)) (fun k j => (read3 V c t k j).trans (congrFun e3 _))
    (fun j => (read4 V c t j).trans (e4 j)) (fun j => (read5 V c t j).trans (e5 j)) (fun j => (read6 V c t j).trans (e6 j))
    (fun j => (read7 V c t j).trans (e7 j)) (fun j => (read8 V c t j).trans (e8 j)) p q

/-- An index of the output array is in point t's block iff each coordinate is in the block's range on its axis. -/
theorem mem_blk (t : Fin cfg4.N) (i : S400000x128.Idx) :
    i ∈ ((cfg4.win 9).blk t).view.set ↔ ∀ a : Fin 2, win4_9.index t a * S5000x128.size a ≤ (i a).val
      ∧ (i a).val < win4_9.index t a * S5000x128.size a + S5000x128.size a := by
  show i ∈ ((View.whole main_v215).slice (win4_9.rect t)).set ↔ _
  rw [View.set_slice_whole, Rect.mem_set_unit]
  exact Iff.rfl

/-- Every row of the output is in the block of the point that is its row number divided by 5000. -/
theorem cover (i : S400000x128.Idx) : ∃ t : Fin cfg4.N, (cfg4.win 9).flush t = true ∧ i ∈ ((cfg4.win 9).blk t).view.set := by
  have hi0 : (i 0).val < 400000 := (i 0).isLt
  have hi1 : (i 1).val < 128 := (i 1).isLt
  have hN : cfg4.N = 80 := N_4
  obtain ⟨t, ht⟩ : ∃ t : Fin cfg4.N, t.val = (i 0).val / 5000 := ⟨⟨(i 0).val / 5000, by omega⟩, rfl⟩
  obtain ⟨-, -, -, -, -, -, -, -, -, -, -, -, -, -, -, -, -, -, ea, eb⟩ := idx_facts t
  refine ⟨t, flush4_9 t, ?_⟩
  rw [mem_blk]
  intro a
  match a with
  | ⟨0, _⟩ =>
    show win4_9.index t (0 : Fin 2) * 5000 ≤ (i 0).val ∧ (i 0).val < win4_9.index t (0 : Fin 2) * 5000 + 5000
    rw [ea, ht]; omega
  | ⟨1, _⟩ =>
    show win4_9.index t (1 : Fin 2) * 128 ≤ (i 1).val ∧ (i 1).val < win4_9.index t (1 : Fin 2) * 128 + 128
    rw [eb]; omega

/-- The output array after the region: the reference's whole-array transform of the arrays the region found. -/
theorem final (agg h : FVec Ideal ⟨2, ![400000, 128]⟩ .f32) (wl wr : FVec Ideal ⟨2, ![128, 128]⟩ .f32) (bl g be mu v : FVec Ideal ⟨1, ![128]⟩ .f32)
    (e0 : (V c main_v164 : (⟨2, ![400000, 128]⟩ : Shape).Idx → Elt Ideal .f32) = agg) (e1 : (V c main_v151 : (⟨2, ![400000, 128]⟩ : Shape).Idx → Elt Ideal .f32) = h) (e2 : (V c main_v178 : (⟨2, ![128, 128]⟩ : Shape).Idx → Elt Ideal .f32) = wl) (e3 : (V c main_v180 : (⟨2, ![128, 128]⟩ : Shape).Idx → Elt Ideal .f32) = wr)
    (e4 : ∀ j : Fin 128, (V c main_v183 : (⟨2, ![1, 128]⟩ : Shape).Idx → Elt Ideal .f32) (ix2 (0 : Fin 1) j) = bl (ix1 j)) (e5 : ∀ j : Fin 128, (V c main_v186 : (⟨2, ![1, 128]⟩ : Shape).Idx → Elt Ideal .f32) (ix2 (0 : Fin 1) j) = g (ix1 j))
    (e6 : ∀ j : Fin 128, (V c main_v189 : (⟨2, ![1, 128]⟩ : Shape).Idx → Elt Ideal .f32) (ix2 (0 : Fin 1) j) = be (ix1 j)) (e7 : ∀ j : Fin 128, (V c main_v192 : (⟨2, ![1, 128]⟩ : Shape).Idx → Elt Ideal .f32) (ix2 (0 : Fin 1) j) = mu (ix1 j))
    (e8 : ∀ j : Fin 128, (V c main_v195 : (⟨2, ![1, 128]⟩ : Shape).Idx → Elt Ideal .f32) (ix2 (0 : Fin 1) j) = v (ix1 j)) :
    (dat4 V c).arrAt 9 cfg4.N = layerT agg h wl wr bl g be mu v :=
  (dat4 V c).arrAt_eq_of_cover 9 (layerT agg h wl wr bl g be mu v)
    (fun t _ => flushed V c agg h wl wr bl g be mu v e0 e1 e2 e3 e4 e5 e6 e7 e8 t) (cover)

end Cert.KernelIdeal.Region4

end
-- ==== Proof.Region5.lean ====
/-
  Region 5: the 100000-row node transform, from its blocks to its whole output array.

  The grid has 20 points; point t takes rows 5000·t … 5000·t + 4999 of the two feature arrays and writes the same rows
  of the output, while the weights and the five rows are the same whole arrays at every point. So what point t writes
  back is the reference's whole-array transform read through block t, the blocks cover the output array, and the
  array therefore ends holding that transform of the arrays the region found.
-/
import proofs.«179405_j8443905704157_1_alg».proof.Proof.Gen.KernelIdeal.Frame
import proofs.«179405_j8443905704157_1_alg».proof.Proof.BlockEq
import Idealize.ShloMosaic.Lib.Pipeline.Value

set_option maxRecDepth 16384

noncomputable section

namespace Cert.KernelIdeal.Region5

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Body Cert.ReferenceIdeal.Layer

variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- Where each window's index map sends point t: the feature windows and the output move with the point along the
    rows, every other window stays at block (0, 0). Decided over the 20 points. -/
theorem idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = 0 ∧ win5_7.index t (1 : Fin 2) = 0
    ∧ win5_8.index t (0 : Fin 2) = 0 ∧ win5_8.index t (1 : Fin 2) = 0
    ∧ win5_9.index t (0 : Fin 2) = t.val ∧ win5_9.index t (1 : Fin 2) = 0 :=
  (by decide +kernel : ∀ t : Fin grid5.N, _)

/-- The row of the whole array that row p of point t's block is. -/
def rowOf (t : Fin cfg5.N) (p : Fin 5000) : Fin 100000 :=
  ⟨t.val * 5000 + p.val, by have h := t.isLt; have hN : cfg5.N = 20 := N_5; have hp := p.isLt; omega⟩

/-- Row p of point t's block of input 0 is row `rowOf t p` of the whole array. -/
theorem read0 (t : Fin cfg5.N) (p : Fin 5000) (k : Fin 128) :
    iblk5 V c 0 t (ix2 p k) = (V c main_v176 : (⟨2, ![100000, 128]⟩ : Shape).Idx → Elt Ideal .f32) (ix2 (rowOf t p) k) := by
  obtain ⟨ea, eb, -, -, -, -, -, -, -, -, -, -, -, -, -, -, -, -, -, -⟩ := idx_facts t
  show (V c main_v176 : (⟨2, ![100000, 128]⟩ : Shape).Idx → Elt Ideal .f32) (((cfg5.win 0).blk t).view.emb (ix2 p k)) = _
  refine congrArg _ (funext fun a => Fin.ext ?_)
  match a with
  | ⟨0, _⟩ => show win5_0.index t (0 : Fin 2) * 5000 + 1 * p.val = t.val * 5000 + p.val; rw [ea]; omega
  | ⟨1, _⟩ => show win5_0.index t (1 : Fin 2) * 128 + 1 * k.val = k.val; rw [eb]; omega

/-- Row p of point t's block of input 1 is row `rowOf t p` of the whole array. -/
theorem read1 (t : Fin cfg5.N) (p : Fin 5000) (k : Fin 128) :
    iblk5 V c 1 t (ix2 p k) = (V c main_v152 : (⟨2, ![100000, 128]⟩ : Shape).Idx → Elt Ideal .f32) (ix2 (rowOf t p) k) := by
  obtain ⟨-, -, ea, eb, -, -, -, -, -, -, -, -, -, -, -, -, -, -, -, -⟩ := idx_facts t
  show (V c main_v152 : (⟨2, ![100000, 128]⟩ : Shape).Idx → Elt Ideal .f32) (((cfg5.win 1).blk t).view.emb (ix2 p k)) = _
  refine congrArg _ (funext fun a => Fin.ext ?_)
  match a with
  | ⟨0, _⟩ => show win5_1.index t (0 : Fin 2) * 5000 + 1 * p.val = t.val * 5000 + p.val; rw [ea]; omega
  | ⟨1, _⟩ => show win5_1.index t (1 : Fin 2) * 128 + 1 * k.val = k.val; rw [eb]; omega

/-- Every point's block of input 2 is the whole matrix. -/
theorem read2 (t : Fin cfg5.N) (k j : Fin 128) :
    iblk5 V c 2 t (ix2 k j) = (V c main_v197 : (⟨2, ![128, 128]⟩ : Shape).Idx → Elt Ideal .f32) (ix2 k j) := by
  obtain ⟨-, -, -, -, ea, eb, -, -, -, -, -, -, -, -, -, -, -, -, -, -⟩ := idx_facts t
  show (V c main_v197 : (⟨2, ![128, 128]⟩ : Shape).Idx → Elt Ideal .f32) (((cfg5.win 2).blk t).view.emb (ix2 k j)) = _
  refine congrArg _ (funext fun a => Fin.ext ?_)
  match a with
  | ⟨0, _⟩ => show win5_2.index t (0 : Fin 2) * 128 + 1 * k.val = k.val; rw [ea]; omega
  | ⟨1, _⟩ => show win5_2.index t (1 : Fin 2) * 128 + 1 * j.val = j.val; rw [eb]; omega

/-- Every point's block of input 3 is the whole matrix. -/
theorem read3 (t : Fin cfg5.N) (k j : Fin 128) :
    iblk5 V c 3 t (ix2 k j) = (V c main_v199 : (⟨2, ![128, 128]⟩ : Shape).Idx → Elt Ideal .f32) (ix2 k j) := by
  obtain ⟨-, -, -, -, -, -, ea, eb, -, -, -, -, -, -, -, -, -, -, -, -⟩ := idx_facts t
  show (V c main_v199 : (⟨2, ![128, 128]⟩ : Shape).Idx → Elt Ideal .f32) (((cfg5.win 3).blk t).view.emb (ix2 k j)) = _
  refine congrArg _ (funext fun a => Fin.ext ?_)
  match a with
  | ⟨0, _⟩ => show win5_3.index t (0 : Fin 2) * 128 + 1 * k.val = k.val; rw [ea]; omega
  | ⟨1, _⟩ => show win5_3.index t (1 : Fin 2) * 128 + 1 * j.val = j.val; rw [eb]; omega

/-- Every point's block of input 4 is the whole row. -/
theorem read4 (t : Fin cfg5.N) (j : Fin 128) :
    iblk5 V c 4 t (ix2 (0 : Fin 1) j) = (V c main_v202 : (⟨2, ![1, 128]⟩ : Shape).Idx → Elt Ideal .f32) (ix2 (0 : Fin 1) j) := by
  obtain ⟨-, -, -, -, -, -, -, -, ea, eb, -, -, -, -, -, -, -, -, -, -⟩ := idx_facts t
  show (V c main_v202 : (⟨2, ![1, 128]⟩ : Shape).Idx → Elt Ideal .f32) (((cfg5.win 4).blk t).view.emb (ix2 (0 : Fin 1) j)) = _
  refine congrArg _ (funext fun a => Fin.ext ?_)
  match a with
  | ⟨0, _⟩ => show win5_4.index t (0 : Fin 2) * 1 + 1 * 0 = 0; rw [ea]
  | ⟨1, _⟩ => show win5_4.index t (1 : Fin 2) * 128 + 1 * j.val = j.val; rw [eb]; omega

/-- Every point's block of input 5 is the whole row. -/
theorem read5 (t : Fin cfg5.N) (j : Fin 128) :
    iblk5 V c 5 t (ix2 (0 : Fin 1) j) = (V c main_v205 : (⟨2, ![1, 128]⟩ : Shape).Idx → Elt Ideal .f32) (ix2 (0 : Fin 1) j) := by
  obtain ⟨-, -, -, -, -, -, -, -, -, -, ea, eb, -, -, -, -, -, -, -, -⟩ := idx_facts t
  show (V c main_v205 : (⟨2, ![1, 128]⟩ : Shape).Idx → Elt Ideal .f32) (((cfg5.win 5).blk t).view.emb (ix2 (0 : Fin 1) j)) = _
  refine congrArg _ (funext fun a => Fin.ext ?_)
  match a with
  | ⟨0, _⟩ => show win5_5.index t (0 : Fin 2) * 1 + 1 * 0 = 0; rw [ea]
  | ⟨1, _⟩ => show win5_5.index t (1 : Fin 2) * 128 + 1 * j.val = j.val; rw [eb]; omega

/-- Every point's block of input 6 is the whole row. -/
theorem read6 (t : Fin cfg5.N) (j : Fin 128) :
    iblk5 V c 6 t (ix2 (0 : Fin 1) j) = (V c main_v208 : (⟨2, ![1, 128]⟩ : Shape).Idx → Elt Ideal .f32) (ix2 (0 : Fin 1) j) := by
  obtain ⟨-, -, -, -, -, -, -, -, -, -, -, -, ea, eb, -, -, -, -, -, -⟩ := idx_facts t
  show (V c main_v208 : (⟨2, ![1, 128]⟩ : Shape).Idx → Elt Ideal .f32) (((cfg5.win 6).blk t).view.emb (ix2 (0 : Fin 1) j)) = _
  refine congrArg _ (funext fun a => Fin.ext ?_)
  match a with
  | ⟨0, _⟩ => show win5_6.index t (0 : Fin 2) * 1 + 1 * 0 = 0; rw [ea]
  | ⟨1, _⟩ => show win5_6.index t (1 : Fin 2) * 128 + 1 * j.val = j.val; rw [eb]; omega

/-- Every point's block of input 7 is the whole row. -/
theorem read7 (t : Fin cfg5.N) (j : Fin 128) :
    iblk5 V c 7 t (ix2 (0 : Fin 1) j) = (V c main_v211 : (⟨2, ![1, 128]⟩ : Shape).Idx → Elt Ideal .f32) (ix2 (0 : Fin 1) j) := by
  obtain ⟨-, -, -, -, -, -, -, -, -, -, -, -, -, -, ea, eb, -, -, -, -⟩ := idx_facts t
  show (V c main_v211 : (⟨2, ![1, 128]⟩ : Shape).Idx → Elt Ideal .f32) (((cfg5.win 7).blk t).view.emb (ix2 (0 : Fin 1) j)) = _
  refine congrArg _ (funext fun a => Fin.ext ?_)
  match a with
  | ⟨0, _⟩ => show win5_7.index t (0 : Fin 2) * 1 + 1 * 0 = 0; rw [ea]
  | ⟨1, _⟩ => show win5_7.index t (1 : Fin 2) * 128 + 1 * j.val = j.val; rw [eb]; omega

/-- Every point's block of input 8 is the whole row. -/
theorem read8 (t : Fin cfg5.N) (j : Fin 128) :
    iblk5 V c 8 t (ix2 (0 : Fin 1) j) = (V c main_v214 : (⟨2, ![1, 128]⟩ : Shape).Idx → Elt Ideal .f32) (ix2 (0 : Fin 1) j) := by
  obtain ⟨-, -, -, -, -, -, -, -, -, -, -, -, -, -, -, -, ea, eb, -, -⟩ := idx_facts t
  show (V c main_v214 : (⟨2, ![1, 128]⟩ : Shape).Idx → Elt Ideal .f32) (((cfg5.win 8).blk t).view.emb (ix2 (0 : Fin 1) j)) = _
  refine congrArg _ (funext fun a => Fin.ext ?_)
  match a with
  | ⟨0, _⟩ => show win5_8.index t (0 : Fin 2) * 1 + 1 * 0 = 0; rw [ea]
  | ⟨1, _⟩ => show win5_8.index t (1 : Fin 2) * 128 + 1 * j.val = j.val; rw [eb]; omega

/-- The body's stored value in this region is the first region's body, term for term. -/
theorem pay_same (x0 x1 : Vec Ideal S5000x128 .f32) (x2 x3 : Vec Ideal S128x128 .f32) (x4 x5 x6 x7 x8 : Vec Ideal S1x128 .f32) :
    k5_pay1 (k5_pay2 x0 x1 x2 x3 x4 x5 x6 x7 x8) = k0_pay1 (k0_pay2 x0 x1 x2 x3 x4 x5 x6 x7 x8) := rfl

/-- What point t writes back is block t of the reference's whole-array transform of the arrays the region found. -/
theorem flushed (agg h : FVec Ideal ⟨2, ![100000, 128]⟩ .f32) (wl wr : FVec Ideal ⟨2, ![128, 128]⟩ .f32) (bl g be mu v : FVec Ideal ⟨1, ![128]⟩ .f32)
    (e0 : (V c main_v176 : (⟨2, ![100000, 128]⟩ : Shape).Idx → Elt Ideal .f32) = agg) (e1 : (V c main_v152 : (⟨2, ![100000, 128]⟩ : Shape).Idx → Elt Ideal .f32) = h) (e2 : (V c main_v197 : (⟨2, ![128, 128]⟩ : Shape).Idx → Elt Ideal .f32) = wl) (e3 : (V c main_v199 : (⟨2, ![128, 128]⟩ : Shape).Idx → Elt Ideal .f32) = wr)
    (e4 : ∀ j : Fin 128, (V c main_v202 : (⟨2, ![1, 128]⟩ : Shape).Idx → Elt Ideal .f32) (ix2 (0 : Fin 1) j) = bl (ix1 j)) (e5 : ∀ j : Fin 128, (V c main_v205 : (⟨2, ![1, 128]⟩ : Shape).Idx → Elt Ideal .f32) (ix2 (0 : Fin 1) j) = g (ix1 j))
    (e6 : ∀ j : Fin 128, (V c main_v208 : (⟨2, ![1, 128]⟩ : Shape).Idx → Elt Ideal .f32) (ix2 (0 : Fin 1) j) = be (ix1 j)) (e7 : ∀ j : Fin 128, (V c main_v211 : (⟨2, ![1, 128]⟩ : Shape).Idx → Elt Ideal .f32) (ix2 (0 : Fin 1) j) = mu (ix1 j))
    (e8 : ∀ j : Fin 128, (V c main_v214 : (⟨2, ![1, 128]⟩ : Shape).Idx → Elt Ideal .f32) (ix2 (0 : Fin 1) j) = v (ix1 j)) (t : Fin cfg5.N) :
    (dat5 V c).flushed 9 t = ((cfg5.win 9).blk t).view.read (Elt Ideal) (layerU agg h wl wr bl g be mu v) := by
  show (cfg5.win 9).cut (grid5.coords t) ((dat5 V c).after 9 t) = _
  rw [after5_9]
  unfold out5_9
  rw [View.canon_unit_zero hz]
  simp only [View.ld_unit_zero (S := S5000x128) hz, View.ld_unit_zero (S := S128x128) hz, View.ld_unit_zero (S := S1x128) hz]
  funext y
  obtain ⟨p, q, rfl⟩ : ∃ (p : Fin 5000) (q : Fin 128), y = ix2 p q := ⟨y 0, y 1, eq_ix2 y⟩
  have hemb : ((cfg5.win 9).blk t).view.emb (ix2 p q) = ix2 (rowOf t p) q := by
    obtain ⟨-, -, -, -, -, -, -, -, -, -, -, -, -, -, -, -, -, -, ea, eb⟩ := idx_facts t
    refine funext fun a => Fin.ext ?_
    match a with
    | ⟨0, _⟩ => show win5_9.index t (0 : Fin 2) * 5000 + 1 * p.val = t.val * 5000 + p.val; rw [ea]; omega
    | ⟨1, _⟩ => show win5_9.index t (1 : Fin 2) * 128 + 1 * q.val = q.val; rw [eb]; omega
  show k5_pay1 (k5_pay2 (iblk5 V c 0 t) (iblk5 V c 1 t) (iblk5 V c 2 t) (iblk5 V c 3 t) (iblk5 V c 4 t) (iblk5 V c 5 t) (iblk5 V c 6 t) (iblk5 V c 7 t) (iblk5 V c 8 t)) (ix2 p q)
    = layerU agg h wl wr bl g be mu v (((cfg5.win 9).blk t).view.emb (ix2 p q))
  rw [hemb, pay_same]
  exact blockU_eq agg h wl wr bl g be mu v (iblk5 V c 0 t) (iblk5 V c 1 t) (iblk5 V c 2 t) (iblk5 V c 3 t) (iblk5 V c 4 t) (iblk5 V c 5 t) (iblk5 V c 6 t) (iblk5 V c 7 t) (iblk5 V c 8 t) (rowOf t)
    (fun p k => (read0 V c t p k).trans (congrFun e0 _)) (fun p k => (read1 V c t p k).trans (congrFun e1 _))
    (fun k j => (read2 V c t k j).trans (congrFun e2 _)) (fun k j => (read3 V c t k j).trans (congrFun e3 _))
    (fun j => (read4 V c t j).trans (e4 j)) (fun j => (read5 V c t j).trans (e5 j)) (fun j => (read6 V c t j).trans (e6 j))
    (fun j => (read7 V c t j).trans (e7 j)) (fun j => (read8 V c t j).trans (e8 j)) p q

/-- An index of the output array is in point t's block iff each coordinate is in the block's range on its axis. -/
theorem mem_blk (t : Fin cfg5.N) (i : S100000x128.Idx) :
    i ∈ ((cfg5.win 9).blk t).view.set ↔ ∀ a : Fin 2, win5_9.index t a * S5000x128.size a ≤ (i a).val
      ∧ (i a).val < win5_9.index t a * S5000x128.size a + S5000x128.size a := by
  show i ∈ ((View.whole main_v216).slice (win5_9.rect t)).set ↔ _
  rw [View.set_slice_whole, Rect.mem_set_unit]
  exact Iff.rfl

/-- Every row of the output is in the block of the point that is its row number divided by 5000. -/
theorem cover (i : S100000x128.Idx) : ∃ t : Fin cfg5.N, (cfg5.win 9).flush t = true ∧ i ∈ ((cfg5.win 9).blk t).view.set := by
  have hi0 : (i 0).val < 100000 := (i 0).isLt
  have hi1 : (i 1).val < 128 := (i 1).isLt
  have hN : cfg5.N = 20 := N_5
  obtain ⟨t, ht⟩ : ∃ t : Fin cfg5.N, t.val = (i 0).val / 5000 := ⟨⟨(i 0).val / 5000, by omega⟩, rfl⟩
  obtain ⟨-, -, -, -, -, -, -, -, -, -, -, -, -, -, -, -, -, -, ea, eb⟩ := idx_facts t
  refine ⟨t, flush5_9 t, ?_⟩
  rw [mem_blk]
  intro a
  match a with
  | ⟨0, _⟩ =>
    show win5_9.index t (0 : Fin 2) * 5000 ≤ (i 0).val ∧ (i 0).val < win5_9.index t (0 : Fin 2) * 5000 + 5000
    rw [ea, ht]; omega
  | ⟨1, _⟩ =>
    show win5_9.index t (1 : Fin 2) * 128 ≤ (i 1).val ∧ (i 1).val < win5_9.index t (1 : Fin 2) * 128 + 128
    rw [eb]; omega

/-- The output array after the region: the reference's whole-array transform of the arrays the region found. -/
theorem final (agg h : FVec Ideal ⟨2, ![100000, 128]⟩ .f32) (wl wr : FVec Ideal ⟨2, ![128, 128]⟩ .f32) (bl g be mu v : FVec Ideal ⟨1, ![128]⟩ .f32)
    (e0 : (V c main_v176 : (⟨2, ![100000, 128]⟩ : Shape).Idx → Elt Ideal .f32) = agg) (e1 : (V c main_v152 : (⟨2, ![100000, 128]⟩ : Shape).Idx → Elt Ideal .f32) = h) (e2 : (V c main_v197 : (⟨2, ![128, 128]⟩ : Shape).Idx → Elt Ideal .f32) = wl) (e3 : (V c main_v199 : (⟨2, ![128, 128]⟩ : Shape).Idx → Elt Ideal .f32) = wr)
    (e4 : ∀ j : Fin 128, (V c main_v202 : (⟨2, ![1, 128]⟩ : Shape).Idx → Elt Ideal .f32) (ix2 (0 : Fin 1) j) = bl (ix1 j)) (e5 : ∀ j : Fin 128, (V c main_v205 : (⟨2, ![1, 128]⟩ : Shape).Idx → Elt Ideal .f32) (ix2 (0 : Fin 1) j) = g (ix1 j))
    (e6 : ∀ j : Fin 128, (V c main_v208 : (⟨2, ![1, 128]⟩ : Shape).Idx → Elt Ideal .f32) (ix2 (0 : Fin 1) j) = be (ix1 j)) (e7 : ∀ j : Fin 128, (V c main_v211 : (⟨2, ![1, 128]⟩ : Shape).Idx → Elt Ideal .f32) (ix2 (0 : Fin 1) j) = mu (ix1 j))
    (e8 : ∀ j : Fin 128, (V c main_v214 : (⟨2, ![1, 128]⟩ : Shape).Idx → Elt Ideal .f32) (ix2 (0 : Fin 1) j) = v (ix1 j)) :
    (dat5 V c).arrAt 9 cfg5.N = layerU agg h wl wr bl g be mu v :=
  (dat5 V c).arrAt_eq_of_cover 9 (layerU agg h wl wr bl g be mu v)
    (fun t _ => flushed V c agg h wl wr bl g be mu v e0 e1 e2 e3 e4 e5 e6 e7 e8 t) (cover)

end Cert.KernelIdeal.Region5

end
-- ==== Proof.Region6.lean ====
/-
  Region 6: the head, from its blocks to the result array.

  The grid has 100 points; point t takes rows 5000·t … 5000·t + 4999 of the stacked features and writes the same rows of
  the 500000 × 2 result, while the two matrices and the two bias rows are the same whole arrays at every point. So the
  result array ends holding the reference's whole-array head of the arrays the region found.
-/
import proofs.«179405_j8443905704157_1_alg».proof.Proof.Gen.KernelIdeal.Frame
import proofs.«179405_j8443905704157_1_alg».proof.Proof.BlockEq
import Idealize.ShloMosaic.Lib.Pipeline.Value

set_option maxRecDepth 16384

noncomputable section

namespace Cert.KernelIdeal.Region6

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Body Cert.ReferenceIdeal.Layer

variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- Where each window's index map sends point t: the features and the result move with the point along the rows,
    every other window stays at block (0, 0). Decided over the 100 points. -/
theorem idx_facts : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

/-- The row of the whole array that row p of point t's block is. -/
def rowOf (t : Fin cfg6.N) (p : Fin 5000) : Fin 500000 :=
  ⟨t.val * 5000 + p.val, by have h := t.isLt; have hN : cfg6.N = 100 := N_6; have hp := p.isLt; omega⟩

/-- Row p of point t's block of the features is row `rowOf t p` of the whole array. -/
theorem read0 (t : Fin cfg6.N) (p : Fin 5000) (k : Fin 128) :
    iblk6 V c 0 t (ix2 p k) = (V c main_v217 : (⟨2, ![500000, 128]⟩ : Shape).Idx → Elt Ideal .f32) (ix2 (rowOf t p) k) := by
  obtain ⟨ea, eb, -, -, -, -, -, -, -, -, -, -⟩ := idx_facts t
  show (V c main_v217 : (⟨2, ![500000, 128]⟩ : Shape).Idx → Elt Ideal .f32) (((cfg6.win 0).blk t).view.emb (ix2 p k)) = _
  refine congrArg _ (funext fun a => Fin.ext ?_)
  match a with
  | ⟨0, _⟩ => show win6_0.index t (0 : Fin 2) * 5000 + 1 * p.val = t.val * 5000 + p.val; rw [ea]; omega
  | ⟨1, _⟩ => show win6_0.index t (1 : Fin 2) * 128 + 1 * k.val = k.val; rw [eb]; omega

/-- Every point's block of the first matrix is the whole matrix. -/
theorem read1 (t : Fin cfg6.N) (k : Fin 128) (q : Fin 64) :
    iblk6 V c 1 t (ix2 k q) = (V c main_arg15 : (⟨2, ![128, 64]⟩ : Shape).Idx → Elt Ideal .f32) (ix2 k q) := by
  obtain ⟨-, -, ea, eb, -, -, -, -, -, -, -, -⟩ := idx_facts t
  show (V c main_arg15 : (⟨2, ![128, 64]⟩ : Shape).Idx → Elt Ideal .f32) (((cfg6.win 1).blk t).view.emb (ix2 k q)) = _
  refine congrArg _ (funext fun a => Fin.ext ?_)
  match a with
  | ⟨0, _⟩ => show win6_1.index t (0 : Fin 2) * 128 + 1 * k.val = k.val; rw [ea]; omega
  | ⟨1, _⟩ => show win6_1.index t (1 : Fin 2) * 64 + 1 * q.val = q.val; rw [eb]; omega

/-- Every point's block of the first bias is the whole row. -/
theorem read2 (t : Fin cfg6.N) (q : Fin 64) :
    iblk6 V c 2 t (ix2 (0 : Fin 1) q) = (V c main_v218 : (⟨2, ![1, 64]⟩ : Shape).Idx → Elt Ideal .f32) (ix2 (0 : Fin 1) q) := by
  obtain ⟨-, -, -, -, ea, eb, -, -, -, -, -, -⟩ := idx_facts t
  show (V c main_v218 : (⟨2, ![1, 64]⟩ : Shape).Idx → Elt Ideal .f32) (((cfg6.win 2).blk t).view.emb (ix2 (0 : Fin 1) q)) = _
  refine congrArg _ (funext fun a => Fin.ext ?_)
  match a with
  | ⟨0, _⟩ => show win6_2.index t (0 : Fin 2) * 1 + 1 * 0 = 0; rw [ea]
  | ⟨1, _⟩ => show win6_2.index t (1 : Fin 2) * 64 + 1 * q.val = q.val; rw [eb]; omega

/-- Every point's block of the second matrix is the whole matrix. -/
theorem read3 (t : Fin cfg6.N) (q : Fin 64) (o : Fin 2) :
    iblk6 V c 3 t (ix2 q o) = (V c main_arg17 : (⟨2, ![64, 2]⟩ : Shape).Idx → Elt Ideal .f32) (ix2 q o) := by
  obtain ⟨-, -, -, -, -, -, ea, eb, -, -, -, -⟩ := idx_facts t
  show (V c main_arg17 : (⟨2, ![64, 2]⟩ : Shape).Idx → Elt Ideal .f32) (((cfg6.win 3).blk t).view.emb (ix2 q o)) = _
  refine congrArg _ (funext fun a => Fin.ext ?_)
  match a with
  | ⟨0, _⟩ => show win6_3.index t (0 : Fin 2) * 64 + 1 * q.val = q.val; rw [ea]; omega
  | ⟨1, _⟩ => show win6_3.index t (1 : Fin 2) * 2 + 1 * o.val = o.val; rw [eb]; omega

/-- Every point's block of the second bias is the whole row. -/
theorem read4 (t : Fin cfg6.N) (o : Fin 2) :
    iblk6 V c 4 t (ix2 (0 : Fin 1) o) = (V c main_v219 : (⟨2, ![1, 2]⟩ : Shape).Idx → Elt Ideal .f32) (ix2 (0 : Fin 1) o) := by
  obtain ⟨-, -, -, -, -, -, -, -, ea, eb, -, -⟩ := idx_facts t
  show (V c main_v219 : (⟨2, ![1, 2]⟩ : Shape).Idx → Elt Ideal .f32) (((cfg6.win 4).blk t).view.emb (ix2 (0 : Fin 1) o)) = _
  refine congrArg _ (funext fun a => Fin.ext ?_)
  match a with
  | ⟨0, _⟩ => show win6_4.index t (0 : Fin 2) * 1 + 1 * 0 = 0; rw [ea]
  | ⟨1, _⟩ => show win6_4.index t (1 : Fin 2) * 2 + 1 * o.val = o.val; rw [eb]; omega

/-- What point t writes back is block t of the reference's whole-array head of the arrays the region found. -/
theorem flushed (x : FVec Ideal ⟨2, ![500000, 128]⟩ .f32) (w1 : FVec Ideal ⟨2, ![128, 64]⟩ .f32) (b1 : FVec Ideal ⟨1, ![64]⟩ .f32)
    (w2 : FVec Ideal ⟨2, ![64, 2]⟩ .f32) (b2 : FVec Ideal ⟨1, ![2]⟩ .f32)
    (e0 : (V c main_v217 : (⟨2, ![500000, 128]⟩ : Shape).Idx → Elt Ideal .f32) = x) (e1 : (V c main_arg15 : (⟨2, ![128, 64]⟩ : Shape).Idx → Elt Ideal .f32) = w1) (e2 : ∀ q : Fin 64, (V c main_v218 : (⟨2, ![1, 64]⟩ : Shape).Idx → Elt Ideal .f32) (ix2 (0 : Fin 1) q) = b1 (ix1 q))
    (e3 : (V c main_arg17 : (⟨2, ![64, 2]⟩ : Shape).Idx → Elt Ideal .f32) = w2) (e4 : ∀ o : Fin 2, (V c main_v219 : (⟨2, ![1, 2]⟩ : Shape).Idx → Elt Ideal .f32) (ix2 (0 : Fin 1) o) = b2 (ix1 o)) (t : Fin cfg6.N) :
    (dat6 V c).flushed 5 t = ((cfg6.win 5).blk t).view.read (Elt Ideal) (headRef x w1 b1 w2 b2) := by
  show (cfg6.win 5).cut (grid6.coords t) ((dat6 V c).after 5 t) = _
  rw [after6_5]
  unfold out6_5
  rw [View.canon_unit_zero hz]
  simp only [View.ld_unit_zero (S := S5000x128) hz, View.ld_unit_zero (S := S128x64) hz, View.ld_unit_zero (S := S1x64) hz,
    View.ld_unit_zero (S := S64x2) hz, View.ld_unit_zero (S := S1x2) hz]
  funext y
  obtain ⟨p, o, rfl⟩ : ∃ (p : Fin 5000) (o : Fin 2), y = ix2 p o := ⟨y 0, y 1, eq_ix2 y⟩
  have hemb : ((cfg6.win 5).blk t).view.emb (ix2 p o) = ix2 (rowOf t p) o := by
    obtain ⟨-, -, -, -, -, -, -, -, -, -, ea, eb⟩ := idx_facts t
    refine funext fun a => Fin.ext ?_
    match a with
    | ⟨0, _⟩ => show win6_5.index t (0 : Fin 2) * 5000 + 1 * p.val = t.val * 5000 + p.val; rw [ea]; omega
    | ⟨1, _⟩ => show win6_5.index t (1 : Fin 2) * 2 + 1 * o.val = o.val; rw [eb]; omega
  show k6_pay1 (iblk6 V c 0 t) (iblk6 V c 1 t) (iblk6 V c 2 t) (iblk6 V c 3 t) (iblk6 V c 4 t) (ix2 p o) = headRef x w1 b1 w2 b2 (((cfg6.win 5).blk t).view.emb (ix2 p o))
  rw [hemb]
  exact blockH_eq x w1 b1 w2 b2 (iblk6 V c 0 t) (iblk6 V c 1 t) (iblk6 V c 2 t) (iblk6 V c 3 t) (iblk6 V c 4 t) (rowOf t)
    (fun p k => (read0 V c t p k).trans (congrFun e0 _)) (fun k q => (read1 V c t k q).trans (congrFun e1 _))
    (fun q => (read2 V c t q).trans (e2 q)) (fun q o => (read3 V c t q o).trans (congrFun e3 _))
    (fun o => (read4 V c t o).trans (e4 o)) p o

/-- An index of the result array is in point t's block iff each coordinate is in the block's range on its axis. -/
theorem mem_blk (t : Fin cfg6.N) (i : S500000x2.Idx) :
    i ∈ ((cfg6.win 5).blk t).view.set ↔ ∀ a : Fin 2, win6_5.index t a * S5000x2.size a ≤ (i a).val
      ∧ (i a).val < win6_5.index t a * S5000x2.size a + S5000x2.size a := by
  show i ∈ ((View.whole main_v220).slice (win6_5.rect t)).set ↔ _
  rw [View.set_slice_whole, Rect.mem_set_unit]
  exact Iff.rfl

/-- Every row of the result is in the block of the point that is its row number divided by 5000. -/
theorem cover (i : S500000x2.Idx) : ∃ t : Fin cfg6.N, (cfg6.win 5).flush t = true ∧ i ∈ ((cfg6.win 5).blk t).view.set := by
  have hi0 : (i 0).val < 500000 := (i 0).isLt
  have hi1 : (i 1).val < 2 := (i 1).isLt
  have hN : cfg6.N = 100 := N_6
  obtain ⟨t, ht⟩ : ∃ t : Fin cfg6.N, t.val = (i 0).val / 5000 := ⟨⟨(i 0).val / 5000, by omega⟩, rfl⟩
  obtain ⟨-, -, -, -, -, -, -, -, -, -, ea, eb⟩ := idx_facts t
  refine ⟨t, flush6_5 t, ?_⟩
  rw [mem_blk]
  intro a
  match a with
  | ⟨0, _⟩ =>
    show win6_5.index t (0 : Fin 2) * 5000 ≤ (i 0).val ∧ (i 0).val < win6_5.index t (0 : Fin 2) * 5000 + 5000
    rw [ea, ht]; omega
  | ⟨1, _⟩ =>
    show win6_5.index t (1 : Fin 2) * 2 ≤ (i 1).val ∧ (i 1).val < win6_5.index t (1 : Fin 2) * 2 + 2
    rw [eb]; omega

/-- The result array after the region: the reference's whole-array head of the arrays the region found. -/
theorem final (x : FVec Ideal ⟨2, ![500000, 128]⟩ .f32) (w1 : FVec Ideal ⟨2, ![128, 64]⟩ .f32) (b1 : FVec Ideal ⟨1, ![64]⟩ .f32)
    (w2 : FVec Ideal ⟨2, ![64, 2]⟩ .f32) (b2 : FVec Ideal ⟨1, ![2]⟩ .f32)
    (e0 : (V c main_v217 : (⟨2, ![500000, 128]⟩ : Shape).Idx → Elt Ideal .f32) = x) (e1 : (V c main_arg15 : (⟨2, ![128, 64]⟩ : Shape).Idx → Elt Ideal .f32) = w1) (e2 : ∀ q : Fin 64, (V c main_v218 : (⟨2, ![1, 64]⟩ : Shape).Idx → Elt Ideal .f32) (ix2 (0 : Fin 1) q) = b1 (ix1 q))
    (e3 : (V c main_arg17 : (⟨2, ![64, 2]⟩ : Shape).Idx → Elt Ideal .f32) = w2) (e4 : ∀ o : Fin 2, (V c main_v219 : (⟨2, ![1, 2]⟩ : Shape).Idx → Elt Ideal .f32) (ix2 (0 : Fin 1) o) = b2 (ix1 o)) :
    (dat6 V c).arrAt 5 cfg6.N = headRef x w1 b1 w2 b2 :=
  (dat6 V c).arrAt_eq_of_cover 5 (headRef x w1 b1 w2 b2)
    (fun t _ => flushed V c x w1 b1 w2 b2 e0 e1 e2 e3 e4 t) (cover)

end Cert.KernelIdeal.Region6

end
-- ==== Proof.RefStages.lean ====
/-
  The reference program as a short composition of named stages.

  The reference embeds the two node types by a row gather, then three times replaces the pair (user features,
  transaction features) by their node transforms — each side's transform fed with the mean, over its incoming edges,
  of the other side's features — and finally sends the concatenated features through the head. Each stage below is
  the reference's own host operations in its own order; `out` composes them.
-/
import proofs.«179405_j8443905704157_1_alg».proof.Proof.LayerRef
import proofs.«179405_j8443905704157_1_alg».proof.Proof.HeadRef

noncomputable section

namespace Cert.ReferenceIdeal.Stages

open Idealize.ShloMosaic Idealize.ShloMosaic.TcCoe Idealize.SL.Sem Cert.ReferenceIdeal Cert.ReferenceIdeal.Gen Cert.ReferenceIdeal.Layer

/-- An integer array of shape `S`. -/
abbrev IV (S : Shape) : Type := IVec S 32
/-- A float array of shape `S`, its entries extended reals. -/
abbrev FV (S : Shape) : Type := FVec Ideal S .f32

/-- The 100000 row indices as a gather takes them: an index below zero counted from the end of the 10000-row table. -/
def wrapU (x : IV S100000) : IV S100000x1 :=
  broadcastInDim S100000x1 ![0] bcast_S100000_S100000x1_0
    (select (cmpi .slt x (broadcastInDim S100000 ![] bcast_S_S100000 (constantI S_ 32 0#32)))
      (addi x (broadcastInDim S100000 ![] bcast_S_S100000 (constantI S_ 32 10000#32))) x)

/-- 400000 row indices as a gather takes them: an index below zero counted from the end of an `n`-row table. -/
def wrapE (n : BitVec 32) (x : IV S400000) : IV S400000x1 :=
  broadcastInDim S400000x1 ![0] bcast_S400000_S400000x1_0
    (select (cmpi .slt x (broadcastInDim S400000 ![] bcast_S_S400000 (constantI S_ 32 0#32)))
      (addi x (broadcastInDim S400000 ![] bcast_S_S400000 (constantI S_ 32 n))) x)

/-- The user nodes' embedded features. -/
def embU (x0 : IV S100000) (x6 : FV S10000x128) : FV S100000x128 :=
  Host.gather gather_S10000x128_S100000x1_S100000x128_1_0_n_n_0_1_1128 x6 (wrapU x0)

/-- The transaction nodes' embedded features. -/
def embT (x1 : IV S400000) (x7 : FV S10000x128) : FV S400000x128 :=
  Host.gather gather_S10000x128_S400000x1_S400000x128_1_0_n_n_0_1_1128 x7 (wrapE 10000#32 x1)

/-- The number of edges into each transaction node, at least one. -/
def cntT (x3 : IV S400000) : FV S400000x1 :=
  maximumf
    (Host.scatterAdd scatter_S400000x1_S400000x1_S400000x1_1_0_0_1
      (broadcastInDim S400000x1 ![] bcast_S_S400000x1 (constant S_ .f32 0x00000000#32))
      (broadcastInDim S400000x1 ![0] bcast_S400000_S400000x1_0 x3)
      (broadcastInDim S400000x1 ![] bcast_S_S400000x1 (constant S_ .f32 0x3F800000#32)))
    (broadcastInDim S400000x1 ![] bcast_S_S400000x1 (constant S_ .f32 0x3F800000#32))

/-- The number of edges into each user node, at least one. -/
def cntU (x5 : IV S400000) : FV S100000x1 :=
  maximumf
    (Host.scatterAdd scatter_S100000x1_S400000x1_S400000x1_1_0_0_1
      (broadcastInDim S100000x1 ![] bcast_S_S100000x1 (constant S_ .f32 0x00000000#32))
      (broadcastInDim S400000x1 ![0] bcast_S400000_S400000x1_0 x5)
      (broadcastInDim S400000x1 ![] bcast_S_S400000x1 (constant S_ .f32 0x3F800000#32)))
    (broadcastInDim S100000x1 ![] bcast_S_S100000x1 (constant S_ .f32 0x3F800000#32))

/-- The sum, over the edges into each transaction node, of the source user's features, divided by a given count. -/
def meanTw (hu : FV S100000x128) (x2 x3 : IV S400000) (cnt : FV S400000x1) : FV S400000x128 :=
  Host.divf
    (Host.scatterAdd scatter_S400000x128_S400000x1_S400000x128_1_0_0_1
      (broadcastInDim S400000x128 ![] bcast_S_S400000x128 (constant S_ .f32 0x00000000#32))
      (broadcastInDim S400000x1 ![0] bcast_S400000_S400000x1_0 x3)
      (Host.gather gather_S100000x128_S400000x1_S400000x128_1_0_n_n_0_1_1128 hu (wrapE 100000#32 x2)))
    (broadcastInDim S400000x128 ![0, 1] bcast_S400000x1_S400000x128_0_1 cnt)

/-- The mean, over the edges into each transaction node, of the source user's features. -/
def meanT (hu : FV S100000x128) (x2 x3 : IV S400000) : FV S400000x128 := meanTw hu x2 x3 (cntT x3)

/-- The sum, over the edges into each user node, of the source transaction's features, divided by a given count. -/
def meanUw (ht : FV S400000x128) (x4 x5 : IV S400000) (cnt : FV S100000x1) : FV S100000x128 :=
  Host.divf
    (Host.scatterAdd scatter_S100000x128_S400000x1_S400000x128_1_0_0_1
      (broadcastInDim S100000x128 ![] bcast_S_S100000x128 (constant S_ .f32 0x00000000#32))
      (broadcastInDim S400000x1 ![0] bcast_S400000_S400000x1_0 x5)
      (Host.gather gather_S400000x128_S400000x1_S400000x128_1_0_n_n_0_1_1128 ht (wrapE 400000#32 x4)))
    (broadcastInDim S100000x128 ![0, 1] bcast_S100000x1_S100000x128_0_1 cnt)

/-- The mean, over the edges into each user node, of the source transaction's features. -/
def meanU (ht : FV S400000x128) (x4 x5 : IV S400000) : FV S100000x128 := meanUw ht x4 x5 (cntU x5)

/-- One 128 × 128 matrix out of a stack of 3 × 2 of them. -/
def mat (o : Fin 4 → Nat) (h : S3x2x128x128.Slices o S1x1x128x128) (x : FV S3x2x128x128) : FV S128x128 :=
  shapeCast _ (extractStridedSlice S1x1x128x128 o x h) shapeCasts_S1x1x128x128_S128x128

/-- One 128-vector out of a stack of 3 × 2 of them. -/
def vec (o : Fin 3 → Nat) (h : S3x2x128.Slices o S1x1x128) (x : FV S3x2x128) : FV S128 :=
  shapeCast _ (extractStridedSlice S1x1x128 o x h) shapeCasts_S1x1x128_S128

/-- Layer 0, transaction side: the mean of the gathered user features and the transaction features through the
    node transform with the layer's first weight pair and the second batch-norm row. -/
def tOut0 (hu : FV S100000x128) (ht : FV S400000x128) (x2 x3 : IV S400000) (x8 : FV S3x2x128x128) (x9 : FV S3x2x128)
    (x10 : FV S3x2x128x128) (x11 x12 x13 x14 : FV S3x2x128) : FV S400000x128 :=
  layerT (meanT hu x2 x3) ht (mat ![0, 0, 0, 0] slices_S3x2x128x128_S1x1x128x128_0_0_0_0 x8) (mat ![0, 0, 0, 0] slices_S3x2x128x128_S1x1x128x128_0_0_0_0 x10) (vec ![0, 0, 0] slices_S3x2x128_S1x1x128_0_0_0 x9) (vec ![0, 1, 0] slices_S3x2x128_S1x1x128_0_1_0 x11) (vec ![0, 1, 0] slices_S3x2x128_S1x1x128_0_1_0 x12) (vec ![0, 1, 0] slices_S3x2x128_S1x1x128_0_1_0 x13) (vec ![0, 1, 0] slices_S3x2x128_S1x1x128_0_1_0 x14)

/-- Layer 0, user side: the mean of the gathered transaction features and the user features through the node
    transform with the layer's second weight pair and the first batch-norm row. -/
def uOut0 (hu : FV S100000x128) (ht : FV S400000x128) (x4 x5 : IV S400000) (x8 : FV S3x2x128x128) (x9 : FV S3x2x128)
    (x10 : FV S3x2x128x128) (x11 x12 x13 x14 : FV S3x2x128) : FV S100000x128 :=
  layerU (meanU ht x4 x5) hu (mat ![0, 1, 0, 0] slices_S3x2x128x128_S1x1x128x128_0_1_0_0 x8) (mat ![0, 1, 0, 0] slices_S3x2x128x128_S1x1x128x128_0_1_0_0 x10) (vec ![0, 1, 0] slices_S3x2x128_S1x1x128_0_1_0 x9) (vec ![0, 0, 0] slices_S3x2x128_S1x1x128_0_0_0 x11) (vec ![0, 0, 0] slices_S3x2x128_S1x1x128_0_0_0 x12) (vec ![0, 0, 0] slices_S3x2x128_S1x1x128_0_0_0 x13) (vec ![0, 0, 0] slices_S3x2x128_S1x1x128_0_0_0 x14)

/-- Layer 1, transaction side: the mean of the gathered user features and the transaction features through the
    node transform with the layer's first weight pair and the second batch-norm row. -/
def tOut1 (hu : FV S100000x128) (ht : FV S400000x128) (x2 x3 : IV S400000) (x8 : FV S3x2x128x128) (x9 : FV S3x2x128)
    (x10 : FV S3x2x128x128) (x11 x12 x13 x14 : FV S3x2x128) : FV S400000x128 :=
  layerT (meanT hu x2 x3) ht (mat ![1, 0, 0, 0] slices_S3x2x128x128_S1x1x128x128_1_0_0_0 x8) (mat ![1, 0, 0, 0] slices_S3x2x128x128_S1x1x128x128_1_0_0_0 x10) (vec ![1, 0, 0] slices_S3x2x128_S1x1x128_1_0_0 x9) (vec ![1, 1, 0] slices_S3x2x128_S1x1x128_1_1_0 x11) (vec ![1, 1, 0] slices_S3x2x128_S1x1x128_1_1_0 x12) (vec ![1, 1, 0] slices_S3x2x128_S1x1x128_1_1_0 x13) (vec ![1, 1, 0] slices_S3x2x128_S1x1x128_1_1_0 x14)

/-- Layer 1, user side: the mean of the gathered transaction features and the user features through the node
    transform with the layer's second weight pair and the first batch-norm row. -/
def uOut1 (hu : FV S100000x128) (ht : FV S400000x128) (x4 x5 : IV S400000) (x8 : FV S3x2x128x128) (x9 : FV S3x2x128)
    (x10 : FV S3x2x128x128) (x11 x12 x13 x14 : FV S3x2x128) : FV S100000x128 :=
  layerU (meanU ht x4 x5) hu (mat ![1, 1, 0, 0] slices_S3x2x128x128_S1x1x128x128_1_1_0_0 x8) (mat ![1, 1, 0, 0] slices_S3x2x128x128_S1x1x128x128_1_1_0_0 x10) (vec ![1, 1, 0] slices_S3x2x128_S1x1x128_1_1_0 x9) (vec ![1, 0, 0] slices_S3x2x128_S1x1x128_1_0_0 x11) (vec ![1, 0, 0] slices_S3x2x128_S1x1x128_1_0_0 x12) (vec ![1, 0, 0] slices_S3x2x128_S1x1x128_1_0_0 x13) (vec ![1, 0, 0] slices_S3x2x128_S1x1x128_1_0_0 x14)

/-- Layer 2, transaction side: the mean of the gathered user features and the transaction features through the
    node transform with the layer's first weight pair and the second batch-norm row. -/
def tOut2 (hu : FV S100000x128) (ht : FV S400000x128) (x2 x3 : IV S400000) (x8 : FV S3x2x128x128) (x9 : FV S3x2x128)
    (x10 : FV S3x2x128x128) (x11 x12 x13 x14 : FV S3x2x128) : FV S400000x128 :=
  layerT (meanT hu x2 x3) ht (mat ![2, 0, 0, 0] slices_S3x2x128x128_S1x1x128x128_2_0_0_0 x8) (mat ![2, 0, 0, 0] slices_S3x2x128x128_S1x1x128x128_2_0_0_0 x10) (vec ![2, 0, 0] slices_S3x2x128_S1x1x128_2_0_0 x9) (vec ![2, 1, 0] slices_S3x2x128_S1x1x128_2_1_0 x11) (vec ![2, 1, 0] slices_S3x2x128_S1x1x128_2_1_0 x12) (vec ![2, 1, 0] slices_S3x2x128_S1x1x128_2_1_0 x13) (vec ![2, 1, 0] slices_S3x2x128_S1x1x128_2_1_0 x14)

/-- Layer 2, user side: the mean of the gathered transaction features and the user features through the node
    transform with the layer's second weight pair and the first batch-norm row. -/
def uOut2 (hu : FV S100000x128) (ht : FV S400000x128) (x4 x5 : IV S400000) (x8 : FV S3x2x128x128) (x9 : FV S3x2x128)
    (x10 : FV S3x2x128x128) (x11 x12 x13 x14 : FV S3x2x128) : FV S100000x128 :=
  layerU (meanU ht x4 x5) hu (mat ![2, 1, 0, 0] slices_S3x2x128x128_S1x1x128x128_2_1_0_0 x8) (mat ![2, 1, 0, 0] slices_S3x2x128x128_S1x1x128x128_2_1_0_0 x10) (vec ![2, 1, 0] slices_S3x2x128_S1x1x128_2_1_0 x9) (vec ![2, 0, 0] slices_S3x2x128_S1x1x128_2_0_0 x11) (vec ![2, 0, 0] slices_S3x2x128_S1x1x128_2_0_0 x12) (vec ![2, 0, 0] slices_S3x2x128_S1x1x128_2_0_0 x13) (vec ![2, 0, 0] slices_S3x2x128_S1x1x128_2_0_0 x14)

/-- The user features after one, two and three layers, and the transaction features likewise. -/
def u1 (x0 : IV S100000) (x1 x2 x3 x4 x5 : IV S400000) (x6 x7 : FV S10000x128) (x8 : FV S3x2x128x128) (x9 : FV S3x2x128)
    (x10 : FV S3x2x128x128) (x11 x12 x13 x14 : FV S3x2x128) : FV S100000x128 := uOut0 (embU x0 x6) (embT x1 x7) x4 x5 x8 x9 x10 x11 x12 x13 x14
def t1 (x0 : IV S100000) (x1 x2 x3 x4 x5 : IV S400000) (x6 x7 : FV S10000x128) (x8 : FV S3x2x128x128) (x9 : FV S3x2x128)
    (x10 : FV S3x2x128x128) (x11 x12 x13 x14 : FV S3x2x128) : FV S400000x128 := tOut0 (embU x0 x6) (embT x1 x7) x2 x3 x8 x9 x10 x11 x12 x13 x14
def u2 (x0 : IV S100000) (x1 x2 x3 x4 x5 : IV S400000) (x6 x7 : FV S10000x128) (x8 : FV S3x2x128x128) (x9 : FV S3x2x128)
    (x10 : FV S3x2x128x128) (x11 x12 x13 x14 : FV S3x2x128) : FV S100000x128 := uOut1 (u1 x0 x1 x2 x3 x4 x5 x6 x7 x8 x9 x10 x11 x12 x13 x14) (t1 x0 x1 x2 x3 x4 x5 x6 x7 x8 x9 x10 x11 x12 x13 x14) x4 x5 x8 x9 x10 x11 x12 x13 x14
def t2 (x0 : IV S100000) (x1 x2 x3 x4 x5 : IV S400000) (x6 x7 : FV S10000x128) (x8 : FV S3x2x128x128) (x9 : FV S3x2x128)
    (x10 : FV S3x2x128x128) (x11 x12 x13 x14 : FV S3x2x128) : FV S400000x128 := tOut1 (u1 x0 x1 x2 x3 x4 x5 x6 x7 x8 x9 x10 x11 x12 x13 x14) (t1 x0 x1 x2 x3 x4 x5 x6 x7 x8 x9 x10 x11 x12 x13 x14) x2 x3 x8 x9 x10 x11 x12 x13 x14
def u3 (x0 : IV S100000) (x1 x2 x3 x4 x5 : IV S400000) (x6 x7 : FV S10000x128) (x8 : FV S3x2x128x128) (x9 : FV S3x2x128)
    (x10 : FV S3x2x128x128) (x11 x12 x13 x14 : FV S3x2x128) : FV S100000x128 := uOut2 (u2 x0 x1 x2 x3 x4 x5 x6 x7 x8 x9 x10 x11 x12 x13 x14) (t2 x0 x1 x2 x3 x4 x5 x6 x7 x8 x9 x10 x11 x12 x13 x14) x4 x5 x8 x9 x10 x11 x12 x13 x14
def t3 (x0 : IV S100000) (x1 x2 x3 x4 x5 : IV S400000) (x6 x7 : FV S10000x128) (x8 : FV S3x2x128x128) (x9 : FV S3x2x128)
    (x10 : FV S3x2x128x128) (x11 x12 x13 x14 : FV S3x2x128) : FV S400000x128 := tOut2 (u2 x0 x1 x2 x3 x4 x5 x6 x7 x8 x9 x10 x11 x12 x13 x14) (t2 x0 x1 x2 x3 x4 x5 x6 x7 x8 x9 x10 x11 x12 x13 x14) x2 x3 x8 x9 x10 x11 x12 x13 x14

/-- The user features stacked over the transaction features. -/
def stack (hu : FV S100000x128) (ht : FV S400000x128) : FV S500000x128 :=
  concatenate S500000x128 0 [⟨S100000x128, hu⟩, ⟨S400000x128, ht⟩] concatenates_S100000x128_S400000x128_S500000x128_d0

/-- The reference's result as a function of its nineteen arguments. -/
def out (x0 : IV S100000) (x1 x2 x3 x4 x5 : IV S400000) (x6 x7 : FV S10000x128) (x8 : FV S3x2x128x128) (x9 : FV S3x2x128)
    (x10 : FV S3x2x128x128) (x11 x12 x13 x14 : FV S3x2x128) (x15 : FV S128x64) (x16 : FV S64) (x17 : FV S64x2) (x18 : FV S2) : FV S500000x2 :=
  headRef (stack (u3 x0 x1 x2 x3 x4 x5 x6 x7 x8 x9 x10 x11 x12 x13 x14) (t3 x0 x1 x2 x3 x4 x5 x6 x7 x8 x9 x10 x11 x12 x13 x14)) x15 x16 x17 x18

end Cert.ReferenceIdeal.Stages

end
-- ==== Proof.KernelRows.lean ====
/-
  A vector stored as a one-row matrix.

  The kernel hands each 128-vector (a bias, a scale, a shift, a mean, a variance) to a region as a 1 × 128 array, and the
  head's two biases as 1 × 64 and 1 × 2 arrays: a reshape, which keeps the entries in order. Entry (0, j) of the row is
  entry j of the vector.
-/
import proofs.«179405_j8443905704157_1_alg».proof.Proof.Gen.KernelIdeal
import Idealize.ShloMosaic.PureOps.Ideal
import Idealize.ShloMosaic.Lib.ValueIdx
import Idealize.ShloMosaic.Lib.ValueLayout

noncomputable section

namespace Cert.KernelIdeal.Rows

open Idealize.ShloMosaic Idealize.ShloMosaic.ValueIdx Cert.KernelIdeal Cert.KernelIdeal.Gen

/-- A 128-vector as a 1 × 128 array. -/
def asRow128 (x : FVec Ideal ⟨1, ![128]⟩ .f32) : FVec Ideal ⟨2, ![1, 128]⟩ .f32 := shapeCast _ x shapeCasts_S128_S1x128

/-- Entry (0, j) of the row is entry j of the vector. -/
theorem asRow128_apply (x : FVec Ideal ⟨1, ![128]⟩ .f32) (j : Fin 128) : asRow128 x (ix2 (0 : Fin 1) j) = x (ix1 j) :=
  shapeCast_a_1a_apply x shapeCasts_S128_S1x128 0 j

/-- A 64-vector as a 1 × 64 array. -/
def asRow64 (x : FVec Ideal ⟨1, ![64]⟩ .f32) : FVec Ideal ⟨2, ![1, 64]⟩ .f32 := shapeCast _ x shapeCasts_S64_S1x64

/-- Entry (0, j) of the row is entry j of the vector. -/
theorem asRow64_apply (x : FVec Ideal ⟨1, ![64]⟩ .f32) (j : Fin 64) : asRow64 x (ix2 (0 : Fin 1) j) = x (ix1 j) :=
  shapeCast_a_1a_apply x shapeCasts_S64_S1x64 0 j

/-- A 2-vector as a 1 × 2 array. -/
def asRow2 (x : FVec Ideal ⟨1, ![2]⟩ .f32) : FVec Ideal ⟨2, ![1, 2]⟩ .f32 := shapeCast _ x shapeCasts_S2_S1x2

/-- Entry (0, j) of the row is entry j of the vector. -/
theorem asRow2_apply (x : FVec Ideal ⟨1, ![2]⟩ .f32) (j : Fin 2) : asRow2 x (ix2 (0 : Fin 1) j) = x (ix1 j) :=
  shapeCast_a_1a_apply x shapeCasts_S2_S1x2 0 j

end Cert.KernelIdeal.Rows

end
-- ==== Proof.Stretch0.lean ====
/-
  The host operations before layer 0's two regions, read at the buffers the regions take.

  From any buffer contents `Wp` at the stretch's start: the aggregated features are the segment mean of the gathered
  features, the weight matrices and the five 128-vectors of each side are slices of the argument stacks (a vector
  stored as a 1 × 128 row), and the buffers the stretch does not write keep their contents.
-/
import proofs.«179405_j8443905704157_1_alg».proof.Proof.Gen.KernelIdeal.Launch
import proofs.«179405_j8443905704157_1_alg».proof.Proof.RefStages
import proofs.«179405_j8443905704157_1_alg».proof.Proof.KernelRows

set_option maxRecDepth 16384

noncomputable section

namespace Cert.KernelIdeal.Stretch0

open Idealize.ShloMosaic Idealize.ShloMosaic.TcCoe Idealize.SL.Sem Idealize.ShloMosaic.StableHlo
open Cert.KernelIdeal Cert.KernelIdeal.Gen Cert.KernelIdeal.Rows Cert.ReferenceIdeal.Stages

variable (Wp : Valuation τ sig (Elt Ideal))

set_option maxHeartbeats 40000000 in
/-- What the stretch computes, buffer by buffer. -/
theorem vals :
    (StableHlo.after (hostOps0 (F := Ideal)) Wp (Proc.devRef .tc main_v6) = embU (Wp (Proc.devRef .tc main_arg0)) (Wp (Proc.devRef .tc main_arg6)))
    ∧ (StableHlo.after (hostOps0 (F := Ideal)) Wp (Proc.devRef .tc main_v13) = embT (Wp (Proc.devRef .tc main_arg1)) (Wp (Proc.devRef .tc main_arg7)))
    ∧ (StableHlo.after (hostOps0 (F := Ideal)) Wp (Proc.devRef .tc main_v19) = cntT (Wp (Proc.devRef .tc main_arg3)))
    ∧ (StableHlo.after (hostOps0 (F := Ideal)) Wp (Proc.devRef .tc main_v24) = cntU (Wp (Proc.devRef .tc main_arg5)))
    ∧ (StableHlo.after (hostOps0 (F := Ideal)) Wp (Proc.devRef .tc main_v36) = meanT (embU (Wp (Proc.devRef .tc main_arg0)) (Wp (Proc.devRef .tc main_arg6))) (Wp (Proc.devRef .tc main_arg2)) (Wp (Proc.devRef .tc main_arg3)))
    ∧ (StableHlo.after (hostOps0 (F := Ideal)) Wp (Proc.devRef .tc main_v48) = meanU (embT (Wp (Proc.devRef .tc main_arg1)) (Wp (Proc.devRef .tc main_arg7))) (Wp (Proc.devRef .tc main_arg4)) (Wp (Proc.devRef .tc main_arg5)))
    ∧ (StableHlo.after (hostOps0 (F := Ideal)) Wp (Proc.devRef .tc main_v50) = mat ![0, 0, 0, 0] slices_S3x2x128x128_S1x1x128x128_0_0_0_0 (Wp (Proc.devRef .tc main_arg8)))
    ∧ (StableHlo.after (hostOps0 (F := Ideal)) Wp (Proc.devRef .tc main_v52) = mat ![0, 0, 0, 0] slices_S3x2x128x128_S1x1x128x128_0_0_0_0 (Wp (Proc.devRef .tc main_arg10)))
    ∧ (StableHlo.after (hostOps0 (F := Ideal)) Wp (Proc.devRef .tc main_v55) = asRow128 (vec ![0, 0, 0] slices_S3x2x128_S1x1x128_0_0_0 (Wp (Proc.devRef .tc main_arg9))))
    ∧ (StableHlo.after (hostOps0 (F := Ideal)) Wp (Proc.devRef .tc main_v58) = asRow128 (vec ![0, 1, 0] slices_S3x2x128_S1x1x128_0_1_0 (Wp (Proc.devRef .tc main_arg11))))
    ∧ (StableHlo.after (hostOps0 (F := Ideal)) Wp (Proc.devRef .tc main_v61) = asRow128 (vec ![0, 1, 0] slices_S3x2x128_S1x1x128_0_1_0 (Wp (Proc.devRef .tc main_arg12))))
    ∧ (StableHlo.after (hostOps0 (F := Ideal)) Wp (Proc.devRef .tc main_v64) = asRow128 (vec ![0, 1, 0] slices_S3x2x128_S1x1x128_0_1_0 (Wp (Proc.devRef .tc main_arg13))))
    ∧ (StableHlo.after (hostOps0 (F := Ideal)) Wp (Proc.devRef .tc main_v67) = asRow128 (vec ![0, 1, 0] slices_S3x2x128_S1x1x128_0_1_0 (Wp (Proc.devRef .tc main_arg14))))
    ∧ (StableHlo.after (hostOps0 (F := Ideal)) Wp (Proc.devRef .tc main_v69) = mat ![0, 1, 0, 0] slices_S3x2x128x128_S1x1x128x128_0_1_0_0 (Wp (Proc.devRef .tc main_arg8)))
    ∧ (StableHlo.after (hostOps0 (F := Ideal)) Wp (Proc.devRef .tc main_v71) = mat ![0, 1, 0, 0] slices_S3x2x128x128_S1x1x128x128_0_1_0_0 (Wp (Proc.devRef .tc main_arg10)))
    ∧ (StableHlo.after (hostOps0 (F := Ideal)) Wp (Proc.devRef .tc main_v74) = asRow128 (vec ![0, 1, 0] slices_S3x2x128_S1x1x128_0_1_0 (Wp (Proc.devRef .tc main_arg9))))
    ∧ (StableHlo.after (hostOps0 (F := Ideal)) Wp (Proc.devRef .tc main_v77) = asRow128 (vec ![0, 0, 0] slices_S3x2x128_S1x1x128_0_0_0 (Wp (Proc.devRef .tc main_arg11))))
    ∧ (StableHlo.after (hostOps0 (F := Ideal)) Wp (Proc.devRef .tc main_v80) = asRow128 (vec ![0, 0, 0] slices_S3x2x128_S1x1x128_0_0_0 (Wp (Proc.devRef .tc main_arg12))))
    ∧ (StableHlo.after (hostOps0 (F := Ideal)) Wp (Proc.devRef .tc main_v83) = asRow128 (vec ![0, 0, 0] slices_S3x2x128_S1x1x128_0_0_0 (Wp (Proc.devRef .tc main_arg13))))
    ∧ (StableHlo.after (hostOps0 (F := Ideal)) Wp (Proc.devRef .tc main_v86) = asRow128 (vec ![0, 0, 0] slices_S3x2x128_S1x1x128_0_0_0 (Wp (Proc.devRef .tc main_arg14)))) := by
  after_results_simp
  exact ⟨rfl, rfl, rfl, rfl, rfl, rfl, rfl, rfl, rfl, rfl, rfl, rfl, rfl, rfl, rfl, rfl, rfl, rfl, rfl, rfl⟩

set_option maxHeartbeats 40000000 in
/-- What the stretch leaves as it found it. -/
theorem keeps :
    (StableHlo.after (hostOps0 (F := Ideal)) Wp (Proc.devRef .tc main_arg2) = Wp (Proc.devRef .tc main_arg2))
    ∧ (StableHlo.after (hostOps0 (F := Ideal)) Wp (Proc.devRef .tc main_arg3) = Wp (Proc.devRef .tc main_arg3))
    ∧ (StableHlo.after (hostOps0 (F := Ideal)) Wp (Proc.devRef .tc main_arg4) = Wp (Proc.devRef .tc main_arg4))
    ∧ (StableHlo.after (hostOps0 (F := Ideal)) Wp (Proc.devRef .tc main_arg5) = Wp (Proc.devRef .tc main_arg5))
    ∧ (StableHlo.after (hostOps0 (F := Ideal)) Wp (Proc.devRef .tc main_arg8) = Wp (Proc.devRef .tc main_arg8))
    ∧ (StableHlo.after (hostOps0 (F := Ideal)) Wp (Proc.devRef .tc main_arg9) = Wp (Proc.devRef .tc main_arg9))
    ∧ (StableHlo.after (hostOps0 (F := Ideal)) Wp (Proc.devRef .tc main_arg10) = Wp (Proc.devRef .tc main_arg10))
    ∧ (StableHlo.after (hostOps0 (F := Ideal)) Wp (Proc.devRef .tc main_arg11) = Wp (Proc.devRef .tc main_arg11))
    ∧ (StableHlo.after (hostOps0 (F := Ideal)) Wp (Proc.devRef .tc main_arg12) = Wp (Proc.devRef .tc main_arg12))
    ∧ (StableHlo.after (hostOps0 (F := Ideal)) Wp (Proc.devRef .tc main_arg13) = Wp (Proc.devRef .tc main_arg13))
    ∧ (StableHlo.after (hostOps0 (F := Ideal)) Wp (Proc.devRef .tc main_arg14) = Wp (Proc.devRef .tc main_arg14))
    ∧ (StableHlo.after (hostOps0 (F := Ideal)) Wp (Proc.devRef .tc main_arg15) = Wp (Proc.devRef .tc main_arg15))
    ∧ (StableHlo.after (hostOps0 (F := Ideal)) Wp (Proc.devRef .tc main_arg16) = Wp (Proc.devRef .tc main_arg16))
    ∧ (StableHlo.after (hostOps0 (F := Ideal)) Wp (Proc.devRef .tc main_arg17) = Wp (Proc.devRef .tc main_arg17))
    ∧ (StableHlo.after (hostOps0 (F := Ideal)) Wp (Proc.devRef .tc main_arg18) = Wp (Proc.devRef .tc main_arg18)) := by
  after_results_simp
  all_goals (repeat' constructor)

end Cert.KernelIdeal.Stretch0

end
-- ==== Proof.Stretch1.lean ====
/-
  The host operations before layer 1's two regions, read at the buffers the regions take.

  From any buffer contents `Wp` at the stretch's start: the aggregated features are the segment mean of the gathered
  features, the weight matrices and the five 128-vectors of each side are slices of the argument stacks (a vector
  stored as a 1 × 128 row), and the buffers the stretch does not write keep their contents.
-/
import proofs.«179405_j8443905704157_1_alg».proof.Proof.Gen.KernelIdeal.Launch
import proofs.«179405_j8443905704157_1_alg».proof.Proof.RefStages
import proofs.«179405_j8443905704157_1_alg».proof.Proof.KernelRows

set_option maxRecDepth 16384

noncomputable section

namespace Cert.KernelIdeal.Stretch1

open Idealize.ShloMosaic Idealize.ShloMosaic.TcCoe Idealize.SL.Sem Idealize.ShloMosaic.StableHlo
open Cert.KernelIdeal Cert.KernelIdeal.Gen Cert.KernelIdeal.Rows Cert.ReferenceIdeal.Stages

variable (Wp : Valuation τ sig (Elt Ideal))

set_option maxHeartbeats 40000000 in
/-- What the stretch computes, buffer by buffer. -/
theorem vals :
    (StableHlo.after (hostOps2 (F := Ideal)) Wp (Proc.devRef .tc main_v100) = meanTw (Wp (Proc.devRef .tc main_v88)) (Wp (Proc.devRef .tc main_arg2)) (Wp (Proc.devRef .tc main_arg3)) (Wp (Proc.devRef .tc main_v19)))
    ∧ (StableHlo.after (hostOps2 (F := Ideal)) Wp (Proc.devRef .tc main_v112) = meanUw (Wp (Proc.devRef .tc main_v87)) (Wp (Proc.devRef .tc main_arg4)) (Wp (Proc.devRef .tc main_arg5)) (Wp (Proc.devRef .tc main_v24)))
    ∧ (StableHlo.after (hostOps2 (F := Ideal)) Wp (Proc.devRef .tc main_v114) = mat ![1, 0, 0, 0] slices_S3x2x128x128_S1x1x128x128_1_0_0_0 (Wp (Proc.devRef .tc main_arg8)))
    ∧ (StableHlo.after (hostOps2 (F := Ideal)) Wp (Proc.devRef .tc main_v116) = mat ![1, 0, 0, 0] slices_S3x2x128x128_S1x1x128x128_1_0_0_0 (Wp (Proc.devRef .tc main_arg10)))
    ∧ (StableHlo.after (hostOps2 (F := Ideal)) Wp (Proc.devRef .tc main_v119) = asRow128 (vec ![1, 0, 0] slices_S3x2x128_S1x1x128_1_0_0 (Wp (Proc.devRef .tc main_arg9))))
    ∧ (StableHlo.after (hostOps2 (F := Ideal)) Wp (Proc.devRef .tc main_v122) = asRow128 (vec ![1, 1, 0] slices_S3x2x128_S1x1x128_1_1_0 (Wp (Proc.devRef .tc main_arg11))))
    ∧ (StableHlo.after (hostOps2 (F := Ideal)) Wp (Proc.devRef .tc main_v125) = asRow128 (vec ![1, 1, 0] slices_S3x2x128_S1x1x128_1_1_0 (Wp (Proc.devRef .tc main_arg12))))
    ∧ (StableHlo.after (hostOps2 (F := Ideal)) Wp (Proc.devRef .tc main_v128) = asRow128 (vec ![1, 1, 0] slices_S3x2x128_S1x1x128_1_1_0 (Wp (Proc.devRef .tc main_arg13))))
    ∧ (StableHlo.after (hostOps2 (F := Ideal)) Wp (Proc.devRef .tc main_v131) = asRow128 (vec ![1, 1, 0] slices_S3x2x128_S1x1x128_1_1_0 (Wp (Proc.devRef .tc main_arg14))))
    ∧ (StableHlo.after (hostOps2 (F := Ideal)) Wp (Proc.devRef .tc main_v133) = mat ![1, 1, 0, 0] slices_S3x2x128x128_S1x1x128x128_1_1_0_0 (Wp (Proc.devRef .tc main_arg8)))
    ∧ (StableHlo.after (hostOps2 (F := Ideal)) Wp (Proc.devRef .tc main_v135) = mat ![1, 1, 0, 0] slices_S3x2x128x128_S1x1x128x128_1_1_0_0 (Wp (Proc.devRef .tc main_arg10)))
    ∧ (StableHlo.after (hostOps2 (F := Ideal)) Wp (Proc.devRef .tc main_v138) = asRow128 (vec ![1, 1, 0] slices_S3x2x128_S1x1x128_1_1_0 (Wp (Proc.devRef .tc main_arg9))))
    ∧ (StableHlo.after (hostOps2 (F := Ideal)) Wp (Proc.devRef .tc main_v141) = asRow128 (vec ![1, 0, 0] slices_S3x2x128_S1x1x128_1_0_0 (Wp (Proc.devRef .tc main_arg11))))
    ∧ (StableHlo.after (hostOps2 (F := Ideal)) Wp (Proc.devRef .tc main_v144) = asRow128 (vec ![1, 0, 0] slices_S3x2x128_S1x1x128_1_0_0 (Wp (Proc.devRef .tc main_arg12))))
    ∧ (StableHlo.after (hostOps2 (F := Ideal)) Wp (Proc.devRef .tc main_v147) = asRow128 (vec ![1, 0, 0] slices_S3x2x128_S1x1x128_1_0_0 (Wp (Proc.devRef .tc main_arg13))))
    ∧ (StableHlo.after (hostOps2 (F := Ideal)) Wp (Proc.devRef .tc main_v150) = asRow128 (vec ![1, 0, 0] slices_S3x2x128_S1x1x128_1_0_0 (Wp (Proc.devRef .tc main_arg14)))) := by
  after_results_simp
  exact ⟨rfl, rfl, rfl, rfl, rfl, rfl, rfl, rfl, rfl, rfl, rfl, rfl, rfl, rfl, rfl, rfl⟩

set_option maxHeartbeats 40000000 in
/-- What the stretch leaves as it found it. -/
theorem keeps :
    (StableHlo.after (hostOps2 (F := Ideal)) Wp (Proc.devRef .tc main_arg2) = Wp (Proc.devRef .tc main_arg2))
    ∧ (StableHlo.after (hostOps2 (F := Ideal)) Wp (Proc.devRef .tc main_arg3) = Wp (Proc.devRef .tc main_arg3))
    ∧ (StableHlo.after (hostOps2 (F := Ideal)) Wp (Proc.devRef .tc main_arg4) = Wp (Proc.devRef .tc main_arg4))
    ∧ (StableHlo.after (hostOps2 (F := Ideal)) Wp (Proc.devRef .tc main_arg5) = Wp (Proc.devRef .tc main_arg5))
    ∧ (StableHlo.after (hostOps2 (F := Ideal)) Wp (Proc.devRef .tc main_arg8) = Wp (Proc.devRef .tc main_arg8))
    ∧ (StableHlo.after (hostOps2 (F := Ideal)) Wp (Proc.devRef .tc main_arg9) = Wp (Proc.devRef .tc main_arg9))
    ∧ (StableHlo.after (hostOps2 (F := Ideal)) Wp (Proc.devRef .tc main_arg10) = Wp (Proc.devRef .tc main_arg10))
    ∧ (StableHlo.after (hostOps2 (F := Ideal)) Wp (Proc.devRef .tc main_arg11) = Wp (Proc.devRef .tc main_arg11))
    ∧ (StableHlo.after (hostOps2 (F := Ideal)) Wp (Proc.devRef .tc main_arg12) = Wp (Proc.devRef .tc main_arg12))
    ∧ (StableHlo.after (hostOps2 (F := Ideal)) Wp (Proc.devRef .tc main_arg13) = Wp (Proc.devRef .tc main_arg13))
    ∧ (StableHlo.after (hostOps2 (F := Ideal)) Wp (Proc.devRef .tc main_arg14) = Wp (Proc.devRef .tc main_arg14))
    ∧ (StableHlo.after (hostOps2 (F := Ideal)) Wp (Proc.devRef .tc main_arg15) = Wp (Proc.devRef .tc main_arg15))
    ∧ (StableHlo.after (hostOps2 (F := Ideal)) Wp (Proc.devRef .tc main_arg16) = Wp (Proc.devRef .tc main_arg16))
    ∧ (StableHlo.after (hostOps2 (F := Ideal)) Wp (Proc.devRef .tc main_arg17) = Wp (Proc.devRef .tc main_arg17))
    ∧ (StableHlo.after (hostOps2 (F := Ideal)) Wp (Proc.devRef .tc main_arg18) = Wp (Proc.devRef .tc main_arg18))
    ∧ (StableHlo.after (hostOps2 (F := Ideal)) Wp (Proc.devRef .tc main_v19) = Wp (Proc.devRef .tc main_v19))
    ∧ (StableHlo.after (hostOps2 (F := Ideal)) Wp (Proc.devRef .tc main_v24) = Wp (Proc.devRef .tc main_v24))
    ∧ (StableHlo.after (hostOps2 (F := Ideal)) Wp (Proc.devRef .tc main_v88) = Wp (Proc.devRef .tc main_v88))
    ∧ (StableHlo.after (hostOps2 (F := Ideal)) Wp (Proc.devRef .tc main_v87) = Wp (Proc.devRef .tc main_v87)) := by
  after_results_simp
  all_goals (repeat' constructor)

end Cert.KernelIdeal.Stretch1

end
-- ==== Proof.Stretch2.lean ====
/-
  The host operations before layer 2's two regions, read at the buffers the regions take.

  From any buffer contents `Wp` at the stretch's start: the aggregated features are the segment mean of the gathered
  features, the weight matrices and the five 128-vectors of each side are slices of the argument stacks (a vector
  stored as a 1 × 128 row), and the buffers the stretch does not write keep their contents.
-/
import proofs.«179405_j8443905704157_1_alg».proof.Proof.Gen.KernelIdeal.Launch
import proofs.«179405_j8443905704157_1_alg».proof.Proof.RefStages
import proofs.«179405_j8443905704157_1_alg».proof.Proof.KernelRows

set_option maxRecDepth 16384

noncomputable section

namespace Cert.KernelIdeal.Stretch2

open Idealize.ShloMosaic Idealize.ShloMosaic.TcCoe Idealize.SL.Sem Idealize.ShloMosaic.StableHlo
open Cert.KernelIdeal Cert.KernelIdeal.Gen Cert.KernelIdeal.Rows Cert.ReferenceIdeal.Stages

variable (Wp : Valuation τ sig (Elt Ideal))

set_option maxHeartbeats 40000000 in
/-- What the stretch computes, buffer by buffer. -/
theorem vals :
    (StableHlo.after (hostOps4 (F := Ideal)) Wp (Proc.devRef .tc main_v164) = meanTw (Wp (Proc.devRef .tc main_v152)) (Wp (Proc.devRef .tc main_arg2)) (Wp (Proc.devRef .tc main_arg3)) (Wp (Proc.devRef .tc main_v19)))
    ∧ (StableHlo.after (hostOps4 (F := Ideal)) Wp (Proc.devRef .tc main_v176) = meanUw (Wp (Proc.devRef .tc main_v151)) (Wp (Proc.devRef .tc main_arg4)) (Wp (Proc.devRef .tc main_arg5)) (Wp (Proc.devRef .tc main_v24)))
    ∧ (StableHlo.after (hostOps4 (F := Ideal)) Wp (Proc.devRef .tc main_v178) = mat ![2, 0, 0, 0] slices_S3x2x128x128_S1x1x128x128_2_0_0_0 (Wp (Proc.devRef .tc main_arg8)))
    ∧ (StableHlo.after (hostOps4 (F := Ideal)) Wp (Proc.devRef .tc main_v180) = mat ![2, 0, 0, 0] slices_S3x2x128x128_S1x1x128x128_2_0_0_0 (Wp (Proc.devRef .tc main_arg10)))
    ∧ (StableHlo.after (hostOps4 (F := Ideal)) Wp (Proc.devRef .tc main_v183) = asRow128 (vec ![2, 0, 0] slices_S3x2x128_S1x1x128_2_0_0 (Wp (Proc.devRef .tc main_arg9))))
    ∧ (StableHlo.after (hostOps4 (F := Ideal)) Wp (Proc.devRef .tc main_v186) = asRow128 (vec ![2, 1, 0] slices_S3x2x128_S1x1x128_2_1_0 (Wp (Proc.devRef .tc main_arg11))))
    ∧ (StableHlo.after (hostOps4 (F := Ideal)) Wp (Proc.devRef .tc main_v189) = asRow128 (vec ![2, 1, 0] slices_S3x2x128_S1x1x128_2_1_0 (Wp (Proc.devRef .tc main_arg12))))
    ∧ (StableHlo.after (hostOps4 (F := Ideal)) Wp (Proc.devRef .tc main_v192) = asRow128 (vec ![2, 1, 0] slices_S3x2x128_S1x1x128_2_1_0 (Wp (Proc.devRef .tc main_arg13))))
    ∧ (StableHlo.after (hostOps4 (F := Ideal)) Wp (Proc.devRef .tc main_v195) = asRow128 (vec ![2, 1, 0] slices_S3x2x128_S1x1x128_2_1_0 (Wp (Proc.devRef .tc main_arg14))))
    ∧ (StableHlo.after (hostOps4 (F := Ideal)) Wp (Proc.devRef .tc main_v197) = mat ![2, 1, 0, 0] slices_S3x2x128x128_S1x1x128x128_2_1_0_0 (Wp (Proc.devRef .tc main_arg8)))
    ∧ (StableHlo.after (hostOps4 (F := Ideal)) Wp (Proc.devRef .tc main_v199) = mat ![2, 1, 0, 0] slices_S3x2x128x128_S1x1x128x128_2_1_0_0 (Wp (Proc.devRef .tc main_arg10)))
    ∧ (StableHlo.after (hostOps4 (F := Ideal)) Wp (Proc.devRef .tc main_v202) = asRow128 (vec ![2, 1, 0] slices_S3x2x128_S1x1x128_2_1_0 (Wp (Proc.devRef .tc main_arg9))))
    ∧ (StableHlo.after (hostOps4 (F := Ideal)) Wp (Proc.devRef .tc main_v205) = asRow128 (vec ![2, 0, 0] slices_S3x2x128_S1x1x128_2_0_0 (Wp (Proc.devRef .tc main_arg11))))
    ∧ (StableHlo.after (hostOps4 (F := Ideal)) Wp (Proc.devRef .tc main_v208) = asRow128 (vec ![2, 0, 0] slices_S3x2x128_S1x1x128_2_0_0 (Wp (Proc.devRef .tc main_arg12))))
    ∧ (StableHlo.after (hostOps4 (F := Ideal)) Wp (Proc.devRef .tc main_v211) = asRow128 (vec ![2, 0, 0] slices_S3x2x128_S1x1x128_2_0_0 (Wp (Proc.devRef .tc main_arg13))))
    ∧ (StableHlo.after (hostOps4 (F := Ideal)) Wp (Proc.devRef .tc main_v214) = asRow128 (vec ![2, 0, 0] slices_S3x2x128_S1x1x128_2_0_0 (Wp (Proc.devRef .tc main_arg14)))) := by
  after_results_simp
  exact ⟨rfl, rfl, rfl, rfl, rfl, rfl, rfl, rfl, rfl, rfl, rfl, rfl, rfl, rfl, rfl, rfl⟩

set_option maxHeartbeats 40000000 in
/-- What the stretch leaves as it found it. -/
theorem keeps :
    (StableHlo.after (hostOps4 (F := Ideal)) Wp (Proc.devRef .tc main_arg15) = Wp (Proc.devRef .tc main_arg15))
    ∧ (StableHlo.after (hostOps4 (F := Ideal)) Wp (Proc.devRef .tc main_arg16) = Wp (Proc.devRef .tc main_arg16))
    ∧ (StableHlo.after (hostOps4 (F := Ideal)) Wp (Proc.devRef .tc main_arg17) = Wp (Proc.devRef .tc main_arg17))
    ∧ (StableHlo.after (hostOps4 (F := Ideal)) Wp (Proc.devRef .tc main_arg18) = Wp (Proc.devRef .tc main_arg18))
    ∧ (StableHlo.after (hostOps4 (F := Ideal)) Wp (Proc.devRef .tc main_v152) = Wp (Proc.devRef .tc main_v152))
    ∧ (StableHlo.after (hostOps4 (F := Ideal)) Wp (Proc.devRef .tc main_v151) = Wp (Proc.devRef .tc main_v151)) := by
  after_results_simp
  all_goals (repeat' constructor)

end Cert.KernelIdeal.Stretch2

end
-- ==== Proof.StretchH.lean ====
/-
  The host operations before the head: the two final feature arrays stacked, the head's two biases stored as rows.
-/
import proofs.«179405_j8443905704157_1_alg».proof.Proof.Gen.KernelIdeal.Launch
import proofs.«179405_j8443905704157_1_alg».proof.Proof.RefStages
import proofs.«179405_j8443905704157_1_alg».proof.Proof.KernelRows

set_option maxRecDepth 16384

noncomputable section

namespace Cert.KernelIdeal.StretchH

open Idealize.ShloMosaic Idealize.ShloMosaic.TcCoe Idealize.SL.Sem Idealize.ShloMosaic.StableHlo
open Cert.KernelIdeal Cert.KernelIdeal.Gen Cert.KernelIdeal.Rows Cert.ReferenceIdeal.Stages

variable (Wp : Valuation τ sig (Elt Ideal))

/-- What the stretch computes, buffer by buffer. -/
theorem vals :
    (StableHlo.after (hostOps6 (F := Ideal)) Wp (Proc.devRef .tc main_v217) = stack (Wp (Proc.devRef .tc main_v216)) (Wp (Proc.devRef .tc main_v215)))
    ∧ (StableHlo.after (hostOps6 (F := Ideal)) Wp (Proc.devRef .tc main_v218) = asRow64 (Wp (Proc.devRef .tc main_arg16)))
    ∧ (StableHlo.after (hostOps6 (F := Ideal)) Wp (Proc.devRef .tc main_v219) = asRow2 (Wp (Proc.devRef .tc main_arg18))) := by
  after_results_simp
  exact ⟨rfl, rfl, rfl⟩

/-- What the stretch leaves as it found it. -/
theorem keeps :
    (StableHlo.after (hostOps6 (F := Ideal)) Wp (Proc.devRef .tc main_arg15) = Wp (Proc.devRef .tc main_arg15))
    ∧ (StableHlo.after (hostOps6 (F := Ideal)) Wp (Proc.devRef .tc main_arg17) = Wp (Proc.devRef .tc main_arg17)) := by
  after_results_simp
  all_goals (repeat' constructor)

end Cert.KernelIdeal.StretchH

end
-- ==== Proof.Chain.lean ====
/-
  The kernel's result array, read through the whole program.

  Going through the eleven segments in order: the first stretch of host operations embeds the two node types and
  prepares the first layer's operands; each pair of regions replaces the transaction features and the user features by
  their node transforms (the region lemmas), the stretches between them prepare the next layer's operands from those
  outputs and from argument arrays that nothing has written; the last stretch stacks the final features and the head
  region writes the result. At every boundary each buffer that matters holds the same named stage of the argument
  arrays that the reference computes, so the result array ends at the reference's `out` of the arguments.
-/
import proofs.«179405_j8443905704157_1_alg».proof.Proof.Gen.KernelIdeal.Frame
import proofs.«179405_j8443905704157_1_alg».proof.Proof.Region0
import proofs.«179405_j8443905704157_1_alg».proof.Proof.Region1
import proofs.«179405_j8443905704157_1_alg».proof.Proof.Region2
import proofs.«179405_j8443905704157_1_alg».proof.Proof.Region3
import proofs.«179405_j8443905704157_1_alg».proof.Proof.Region4
import proofs.«179405_j8443905704157_1_alg».proof.Proof.Region5
import proofs.«179405_j8443905704157_1_alg».proof.Proof.Region6
import proofs.«179405_j8443905704157_1_alg».proof.Proof.Stretch0
import proofs.«179405_j8443905704157_1_alg».proof.Proof.Stretch1
import proofs.«179405_j8443905704157_1_alg».proof.Proof.Stretch2
import proofs.«179405_j8443905704157_1_alg».proof.Proof.StretchH
import proofs.«179405_j8443905704157_1_alg».proof.Proof.RefStages
import proofs.«179405_j8443905704157_1_alg».proof.Proof.KernelRows

set_option maxRecDepth 16384

noncomputable section

namespace Cert.KernelIdeal.Chain

open Idealize.ShloMosaic Idealize.ShloMosaic.TcCoe Idealize.ShloMosaic.ValueIdx Idealize.SL.Sem
open Cert.KernelIdeal Cert.KernelIdeal.Gen Cert.KernelIdeal.Rows Cert.ReferenceIdeal.Stages Cert.ReferenceIdeal.Layer

variable (m : (ℓ : Loc nD τ sig) → Buf (Elt Ideal) ℓ) (ρ : Dev nD → PrngReg) (c : Dev nD)

/-! ## The argument arrays and the stages of them -/

abbrev A0 := m ((c.tc : Thread nD τ).loc main_arg0)
abbrev A1 := m ((c.tc : Thread nD τ).loc main_arg1)
abbrev A2 := m ((c.tc : Thread nD τ).loc main_arg2)
abbrev A3 := m ((c.tc : Thread nD τ).loc main_arg3)
abbrev A4 := m ((c.tc : Thread nD τ).loc main_arg4)
abbrev A5 := m ((c.tc : Thread nD τ).loc main_arg5)
abbrev A6 := m ((c.tc : Thread nD τ).loc main_arg6)
abbrev A7 := m ((c.tc : Thread nD τ).loc main_arg7)
abbrev A8 := m ((c.tc : Thread nD τ).loc main_arg8)
abbrev A9 := m ((c.tc : Thread nD τ).loc main_arg9)
abbrev A10 := m ((c.tc : Thread nD τ).loc main_arg10)
abbrev A11 := m ((c.tc : Thread nD τ).loc main_arg11)
abbrev A12 := m ((c.tc : Thread nD τ).loc main_arg12)
abbrev A13 := m ((c.tc : Thread nD τ).loc main_arg13)
abbrev A14 := m ((c.tc : Thread nD τ).loc main_arg14)
abbrev A15 := m ((c.tc : Thread nD τ).loc main_arg15)
abbrev A16 := m ((c.tc : Thread nD τ).loc main_arg16)
abbrev A17 := m ((c.tc : Thread nD τ).loc main_arg17)
abbrev A18 := m ((c.tc : Thread nD τ).loc main_arg18)

abbrev U0 := embU (A0 m c) (A6 m c)
abbrev T0 := embT (A1 m c) (A7 m c)
abbrev U1 := u1 (A0 m c) (A1 m c) (A2 m c) (A3 m c) (A4 m c) (A5 m c) (A6 m c) (A7 m c) (A8 m c) (A9 m c) (A10 m c) (A11 m c) (A12 m c) (A13 m c) (A14 m c)
abbrev T1 := t1 (A0 m c) (A1 m c) (A2 m c) (A3 m c) (A4 m c) (A5 m c) (A6 m c) (A7 m c) (A8 m c) (A9 m c) (A10 m c) (A11 m c) (A12 m c) (A13 m c) (A14 m c)
abbrev U2 := u2 (A0 m c) (A1 m c) (A2 m c) (A3 m c) (A4 m c) (A5 m c) (A6 m c) (A7 m c) (A8 m c) (A9 m c) (A10 m c) (A11 m c) (A12 m c) (A13 m c) (A14 m c)
abbrev T2 := t2 (A0 m c) (A1 m c) (A2 m c) (A3 m c) (A4 m c) (A5 m c) (A6 m c) (A7 m c) (A8 m c) (A9 m c) (A10 m c) (A11 m c) (A12 m c) (A13 m c) (A14 m c)
abbrev U3 := u3 (A0 m c) (A1 m c) (A2 m c) (A3 m c) (A4 m c) (A5 m c) (A6 m c) (A7 m c) (A8 m c) (A9 m c) (A10 m c) (A11 m c) (A12 m c) (A13 m c) (A14 m c)
abbrev T3 := t3 (A0 m c) (A1 m c) (A2 m c) (A3 m c) (A4 m c) (A5 m c) (A6 m c) (A7 m c) (A8 m c) (A9 m c) (A10 m c) (A11 m c) (A12 m c) (A13 m c) (A14 m c)

/-! ## Layer 0 -/

theorem B0_hu : W1 m ρ c (Proc.devRef .tc main_v6) = (U0 m c) :=
  ((Stretch0.vals (W0 m ρ c)).1).trans rfl

theorem B0_ht : W1 m ρ c (Proc.devRef .tc main_v13) = (T0 m c) :=
  ((Stretch0.vals (W0 m ρ c)).2.1).trans rfl

theorem B0_cntT : W1 m ρ c (Proc.devRef .tc main_v19) = cntT (A3 m c) :=
  ((Stretch0.vals (W0 m ρ c)).2.2.1).trans rfl

theorem B0_cntU : W1 m ρ c (Proc.devRef .tc main_v24) = cntU (A5 m c) :=
  ((Stretch0.vals (W0 m ρ c)).2.2.2.1).trans rfl

theorem B0_aggT : W1 m ρ c (Proc.devRef .tc main_v36) = meanT (U0 m c) (A2 m c) (A3 m c) :=
  ((Stretch0.vals (W0 m ρ c)).2.2.2.2.1).trans rfl

theorem B0_aggU : W1 m ρ c (Proc.devRef .tc main_v48) = meanU (T0 m c) (A4 m c) (A5 m c) :=
  ((Stretch0.vals (W0 m ρ c)).2.2.2.2.2.1).trans rfl

theorem B0_wlT : W1 m ρ c (Proc.devRef .tc main_v50) = mat ![0, 0, 0, 0] slices_S3x2x128x128_S1x1x128x128_0_0_0_0 (A8 m c) :=
  ((Stretch0.vals (W0 m ρ c)).2.2.2.2.2.2.1).trans rfl

theorem B0_wrT : W1 m ρ c (Proc.devRef .tc main_v52) = mat ![0, 0, 0, 0] slices_S3x2x128x128_S1x1x128x128_0_0_0_0 (A10 m c) :=
  ((Stretch0.vals (W0 m ρ c)).2.2.2.2.2.2.2.1).trans rfl

theorem B0_blT : W1 m ρ c (Proc.devRef .tc main_v55) = asRow128 (vec ![0, 0, 0] slices_S3x2x128_S1x1x128_0_0_0 (A9 m c)) :=
  ((Stretch0.vals (W0 m ρ c)).2.2.2.2.2.2.2.2.1).trans rfl

theorem B0_gT : W1 m ρ c (Proc.devRef .tc main_v58) = asRow128 (vec ![0, 1, 0] slices_S3x2x128_S1x1x128_0_1_0 (A11 m c)) :=
  ((Stretch0.vals (W0 m ρ c)).2.2.2.2.2.2.2.2.2.1).trans rfl

theorem B0_beT : W1 m ρ c (Proc.devRef .tc main_v61) = asRow128 (vec ![0, 1, 0] slices_S3x2x128_S1x1x128_0_1_0 (A12 m c)) :=
  ((Stretch0.vals (W0 m ρ c)).2.2.2.2.2.2.2.2.2.2.1).trans rfl

theorem B0_muT : W1 m ρ c (Proc.devRef .tc main_v64) = asRow128 (vec ![0, 1, 0] slices_S3x2x128_S1x1x128_0_1_0 (A13 m c)) :=
  ((Stretch0.vals (W0 m ρ c)).2.2.2.2.2.2.2.2.2.2.2.1).trans rfl

theorem B0_vT : W1 m ρ c (Proc.devRef .tc main_v67) = asRow128 (vec ![0, 1, 0] slices_S3x2x128_S1x1x128_0_1_0 (A14 m c)) :=
  ((Stretch0.vals (W0 m ρ c)).2.2.2.2.2.2.2.2.2.2.2.2.1).trans rfl

theorem B0_wlU : W1 m ρ c (Proc.devRef .tc main_v69) = mat ![0, 1, 0, 0] slices_S3x2x128x128_S1x1x128x128_0_1_0_0 (A8 m c) :=
  ((Stretch0.vals (W0 m ρ c)).2.2.2.2.2.2.2.2.2.2.2.2.2.1).trans rfl

theorem B0_wrU : W1 m ρ c (Proc.devRef .tc main_v71) = mat ![0, 1, 0, 0] slices_S3x2x128x128_S1x1x128x128_0_1_0_0 (A10 m c) :=
  ((Stretch0.vals (W0 m ρ c)).2.2.2.2.2.2.2.2.2.2.2.2.2.2.1).trans rfl

theorem B0_blU : W1 m ρ c (Proc.devRef .tc main_v74) = asRow128 (vec ![0, 1, 0] slices_S3x2x128_S1x1x128_0_1_0 (A9 m c)) :=
  ((Stretch0.vals (W0 m ρ c)).2.2.2.2.2.2.2.2.2.2.2.2.2.2.2.1).trans rfl

theorem B0_gU : W1 m ρ c (Proc.devRef .tc main_v77) = asRow128 (vec ![0, 0, 0] slices_S3x2x128_S1x1x128_0_0_0 (A11 m c)) :=
  ((Stretch0.vals (W0 m ρ c)).2.2.2.2.2.2.2.2.2.2.2.2.2.2.2.2.1).trans rfl

theorem B0_beU : W1 m ρ c (Proc.devRef .tc main_v80) = asRow128 (vec ![0, 0, 0] slices_S3x2x128_S1x1x128_0_0_0 (A12 m c)) :=
  ((Stretch0.vals (W0 m ρ c)).2.2.2.2.2.2.2.2.2.2.2.2.2.2.2.2.2.1).trans rfl

theorem B0_muU : W1 m ρ c (Proc.devRef .tc main_v83) = asRow128 (vec ![0, 0, 0] slices_S3x2x128_S1x1x128_0_0_0 (A13 m c)) :=
  ((Stretch0.vals (W0 m ρ c)).2.2.2.2.2.2.2.2.2.2.2.2.2.2.2.2.2.2.1).trans rfl

theorem B0_vU : W1 m ρ c (Proc.devRef .tc main_v86) = asRow128 (vec ![0, 0, 0] slices_S3x2x128_S1x1x128_0_0_0 (A14 m c)) :=
  ((Stretch0.vals (W0 m ρ c)).2.2.2.2.2.2.2.2.2.2.2.2.2.2.2.2.2.2.2).trans rfl

theorem K0_arg2 : W1 m ρ c (Proc.devRef .tc main_arg2) = (A2 m c) :=
  ((Stretch0.keeps (W0 m ρ c)).1).trans rfl

theorem K0_arg3 : W1 m ρ c (Proc.devRef .tc main_arg3) = (A3 m c) :=
  ((Stretch0.keeps (W0 m ρ c)).2.1).trans rfl

theorem K0_arg4 : W1 m ρ c (Proc.devRef .tc main_arg4) = (A4 m c) :=
  ((Stretch0.keeps (W0 m ρ c)).2.2.1).trans rfl

theorem K0_arg5 : W1 m ρ c (Proc.devRef .tc main_arg5) = (A5 m c) :=
  ((Stretch0.keeps (W0 m ρ c)).2.2.2.1).trans rfl

theorem K0_arg8 : W1 m ρ c (Proc.devRef .tc main_arg8) = (A8 m c) :=
  ((Stretch0.keeps (W0 m ρ c)).2.2.2.2.1).trans rfl

theorem K0_arg9 : W1 m ρ c (Proc.devRef .tc main_arg9) = (A9 m c) :=
  ((Stretch0.keeps (W0 m ρ c)).2.2.2.2.2.1).trans rfl

theorem K0_arg10 : W1 m ρ c (Proc.devRef .tc main_arg10) = (A10 m c) :=
  ((Stretch0.keeps (W0 m ρ c)).2.2.2.2.2.2.1).trans rfl

theorem K0_arg11 : W1 m ρ c (Proc.devRef .tc main_arg11) = (A11 m c) :=
  ((Stretch0.keeps (W0 m ρ c)).2.2.2.2.2.2.2.1).trans rfl

theorem K0_arg12 : W1 m ρ c (Proc.devRef .tc main_arg12) = (A12 m c) :=
  ((Stretch0.keeps (W0 m ρ c)).2.2.2.2.2.2.2.2.1).trans rfl

theorem K0_arg13 : W1 m ρ c (Proc.devRef .tc main_arg13) = (A13 m c) :=
  ((Stretch0.keeps (W0 m ρ c)).2.2.2.2.2.2.2.2.2.1).trans rfl

theorem K0_arg14 : W1 m ρ c (Proc.devRef .tc main_arg14) = (A14 m c) :=
  ((Stretch0.keeps (W0 m ρ c)).2.2.2.2.2.2.2.2.2.2.1).trans rfl

theorem K0_arg15 : W1 m ρ c (Proc.devRef .tc main_arg15) = (A15 m c) :=
  ((Stretch0.keeps (W0 m ρ c)).2.2.2.2.2.2.2.2.2.2.2.1).trans rfl

theorem K0_arg16 : W1 m ρ c (Proc.devRef .tc main_arg16) = (A16 m c) :=
  ((Stretch0.keeps (W0 m ρ c)).2.2.2.2.2.2.2.2.2.2.2.2.1).trans rfl

theorem K0_arg17 : W1 m ρ c (Proc.devRef .tc main_arg17) = (A17 m c) :=
  ((Stretch0.keeps (W0 m ρ c)).2.2.2.2.2.2.2.2.2.2.2.2.2.1).trans rfl

theorem K0_arg18 : W1 m ρ c (Proc.devRef .tc main_arg18) = (A18 m c) :=
  ((Stretch0.keeps (W0 m ρ c)).2.2.2.2.2.2.2.2.2.2.2.2.2.2).trans rfl

/-- The transaction features after layer 0's node transform. -/
theorem T0_out : W2 m ρ c (Proc.devRef .tc main_v87) = (T1 m c) :=
  (W2_arr m ρ c 9).trans (Region0.final (V1 m ρ) c (meanT (U0 m c) (A2 m c) (A3 m c)) (T0 m c) (mat ![0, 0, 0, 0] slices_S3x2x128x128_S1x1x128x128_0_0_0_0 (A8 m c)) (mat ![0, 0, 0, 0] slices_S3x2x128x128_S1x1x128x128_0_0_0_0 (A10 m c)) (vec ![0, 0, 0] slices_S3x2x128_S1x1x128_0_0_0 (A9 m c)) (vec ![0, 1, 0] slices_S3x2x128_S1x1x128_0_1_0 (A11 m c)) (vec ![0, 1, 0] slices_S3x2x128_S1x1x128_0_1_0 (A12 m c)) (vec ![0, 1, 0] slices_S3x2x128_S1x1x128_0_1_0 (A13 m c)) (vec ![0, 1, 0] slices_S3x2x128_S1x1x128_0_1_0 (A14 m c))
    (B0_aggT m ρ c) (B0_ht m ρ c) (B0_wlT m ρ c) (B0_wrT m ρ c) (fun j => (congrFun (B0_blT m ρ c) (ix2 (0 : Fin 1) j)).trans (asRow128_apply _ j)) (fun j => (congrFun (B0_gT m ρ c) (ix2 (0 : Fin 1) j)).trans (asRow128_apply _ j)) (fun j => (congrFun (B0_beT m ρ c) (ix2 (0 : Fin 1) j)).trans (asRow128_apply _ j)) (fun j => (congrFun (B0_muT m ρ c) (ix2 (0 : Fin 1) j)).trans (asRow128_apply _ j)) (fun j => (congrFun (B0_vT m ρ c) (ix2 (0 : Fin 1) j)).trans (asRow128_apply _ j)))

/-- The user features after layer 0's node transform. -/
theorem U0_out : W3 m ρ c (Proc.devRef .tc main_v88) = (U1 m c) :=
  (W3_arr m ρ c 9).trans (Region1.final (V2 m ρ) c (meanU (T0 m c) (A4 m c) (A5 m c)) (U0 m c) (mat ![0, 1, 0, 0] slices_S3x2x128x128_S1x1x128x128_0_1_0_0 (A8 m c)) (mat ![0, 1, 0, 0] slices_S3x2x128x128_S1x1x128x128_0_1_0_0 (A10 m c)) (vec ![0, 1, 0] slices_S3x2x128_S1x1x128_0_1_0 (A9 m c)) (vec ![0, 0, 0] slices_S3x2x128_S1x1x128_0_0_0 (A11 m c)) (vec ![0, 0, 0] slices_S3x2x128_S1x1x128_0_0_0 (A12 m c)) (vec ![0, 0, 0] slices_S3x2x128_S1x1x128_0_0_0 (A13 m c)) (vec ![0, 0, 0] slices_S3x2x128_S1x1x128_0_0_0 (A14 m c))
    ((W2_of_ne m ρ c main_v48 (by decide)).trans (B0_aggU m ρ c)) ((W2_of_ne m ρ c main_v6 (by decide)).trans (B0_hu m ρ c)) ((W2_of_ne m ρ c main_v69 (by decide)).trans (B0_wlU m ρ c)) ((W2_of_ne m ρ c main_v71 (by decide)).trans (B0_wrU m ρ c))
    (fun j => (congrFun ((W2_of_ne m ρ c main_v74 (by decide)).trans (B0_blU m ρ c)) (ix2 (0 : Fin 1) j)).trans (asRow128_apply _ j)) (fun j => (congrFun ((W2_of_ne m ρ c main_v77 (by decide)).trans (B0_gU m ρ c)) (ix2 (0 : Fin 1) j)).trans (asRow128_apply _ j)) (fun j => (congrFun ((W2_of_ne m ρ c main_v80 (by decide)).trans (B0_beU m ρ c)) (ix2 (0 : Fin 1) j)).trans (asRow128_apply _ j)) (fun j => (congrFun ((W2_of_ne m ρ c main_v83 (by decide)).trans (B0_muU m ρ c)) (ix2 (0 : Fin 1) j)).trans (asRow128_apply _ j)) (fun j => (congrFun ((W2_of_ne m ρ c main_v86 (by decide)).trans (B0_vU m ρ c)) (ix2 (0 : Fin 1) j)).trans (asRow128_apply _ j)))

theorem E1_v88 : W3 m ρ c (Proc.devRef .tc main_v88) = (U1 m c) := U0_out m ρ c

theorem E1_v87 : W3 m ρ c (Proc.devRef .tc main_v87) = (T1 m c) :=
  (W3_of_ne m ρ c main_v87 (by decide)).trans (T0_out m ρ c)

theorem E1_arg2 : W3 m ρ c (Proc.devRef .tc main_arg2) = (A2 m c) :=
  (W3_of_ne m ρ c main_arg2 (by decide)).trans ((W2_of_ne m ρ c main_arg2 (by decide)).trans (K0_arg2 m ρ c))

theorem E1_arg3 : W3 m ρ c (Proc.devRef .tc main_arg3) = (A3 m c) :=
  (W3_of_ne m ρ c main_arg3 (by decide)).trans ((W2_of_ne m ρ c main_arg3 (by decide)).trans (K0_arg3 m ρ c))

theorem E1_arg4 : W3 m ρ c (Proc.devRef .tc main_arg4) = (A4 m c) :=
  (W3_of_ne m ρ c main_arg4 (by decide)).trans ((W2_of_ne m ρ c main_arg4 (by decide)).trans (K0_arg4 m ρ c))

theorem E1_arg5 : W3 m ρ c (Proc.devRef .tc main_arg5) = (A5 m c) :=
  (W3_of_ne m ρ c main_arg5 (by decide)).trans ((W2_of_ne m ρ c main_arg5 (by decide)).trans (K0_arg5 m ρ c))

theorem E1_arg8 : W3 m ρ c (Proc.devRef .tc main_arg8) = (A8 m c) :=
  (W3_of_ne m ρ c main_arg8 (by decide)).trans ((W2_of_ne m ρ c main_arg8 (by decide)).trans (K0_arg8 m ρ c))

theorem E1_arg9 : W3 m ρ c (Proc.devRef .tc main_arg9) = (A9 m c) :=
  (W3_of_ne m ρ c main_arg9 (by decide)).trans ((W2_of_ne m ρ c main_arg9 (by decide)).trans (K0_arg9 m ρ c))

theorem E1_arg10 : W3 m ρ c (Proc.devRef .tc main_arg10) = (A10 m c) :=
  (W3_of_ne m ρ c main_arg10 (by decide)).trans ((W2_of_ne m ρ c main_arg10 (by decide)).trans (K0_arg10 m ρ c))

theorem E1_arg11 : W3 m ρ c (Proc.devRef .tc main_arg11) = (A11 m c) :=
  (W3_of_ne m ρ c main_arg11 (by decide)).trans ((W2_of_ne m ρ c main_arg11 (by decide)).trans (K0_arg11 m ρ c))

theorem E1_arg12 : W3 m ρ c (Proc.devRef .tc main_arg12) = (A12 m c) :=
  (W3_of_ne m ρ c main_arg12 (by decide)).trans ((W2_of_ne m ρ c main_arg12 (by decide)).trans (K0_arg12 m ρ c))

theorem E1_arg13 : W3 m ρ c (Proc.devRef .tc main_arg13) = (A13 m c) :=
  (W3_of_ne m ρ c main_arg13 (by decide)).trans ((W2_of_ne m ρ c main_arg13 (by decide)).trans (K0_arg13 m ρ c))

theorem E1_arg14 : W3 m ρ c (Proc.devRef .tc main_arg14) = (A14 m c) :=
  (W3_of_ne m ρ c main_arg14 (by decide)).trans ((W2_of_ne m ρ c main_arg14 (by decide)).trans (K0_arg14 m ρ c))

theorem E1_arg15 : W3 m ρ c (Proc.devRef .tc main_arg15) = (A15 m c) :=
  (W3_of_ne m ρ c main_arg15 (by decide)).trans ((W2_of_ne m ρ c main_arg15 (by decide)).trans (K0_arg15 m ρ c))

theorem E1_arg16 : W3 m ρ c (Proc.devRef .tc main_arg16) = (A16 m c) :=
  (W3_of_ne m ρ c main_arg16 (by decide)).trans ((W2_of_ne m ρ c main_arg16 (by decide)).trans (K0_arg16 m ρ c))

theorem E1_arg17 : W3 m ρ c (Proc.devRef .tc main_arg17) = (A17 m c) :=
  (W3_of_ne m ρ c main_arg17 (by decide)).trans ((W2_of_ne m ρ c main_arg17 (by decide)).trans (K0_arg17 m ρ c))

theorem E1_arg18 : W3 m ρ c (Proc.devRef .tc main_arg18) = (A18 m c) :=
  (W3_of_ne m ρ c main_arg18 (by decide)).trans ((W2_of_ne m ρ c main_arg18 (by decide)).trans (K0_arg18 m ρ c))

theorem E1_v19 : W3 m ρ c (Proc.devRef .tc main_v19) = (cntT (A3 m c)) :=
  (W3_of_ne m ρ c main_v19 (by decide)).trans ((W2_of_ne m ρ c main_v19 (by decide)).trans (B0_cntT m ρ c))

theorem E1_v24 : W3 m ρ c (Proc.devRef .tc main_v24) = (cntU (A5 m c)) :=
  (W3_of_ne m ρ c main_v24 (by decide)).trans ((W2_of_ne m ρ c main_v24 (by decide)).trans (B0_cntU m ρ c))
/-! ## Layer 1 -/

theorem B1_aggT : W4 m ρ c (Proc.devRef .tc main_v100) = meanT (U1 m c) (A2 m c) (A3 m c) :=
  ((Stretch1.vals (W3 m ρ c)).1).trans (by rw [E1_v88 m ρ c, E1_arg2 m ρ c, E1_arg3 m ρ c, E1_v19 m ρ c]; try rfl)

theorem B1_aggU : W4 m ρ c (Proc.devRef .tc main_v112) = meanU (T1 m c) (A4 m c) (A5 m c) :=
  ((Stretch1.vals (W3 m ρ c)).2.1).trans (by rw [E1_v87 m ρ c, E1_arg4 m ρ c, E1_arg5 m ρ c, E1_v24 m ρ c]; try rfl)

theorem B1_wlT : W4 m ρ c (Proc.devRef .tc main_v114) = mat ![1, 0, 0, 0] slices_S3x2x128x128_S1x1x128x128_1_0_0_0 (A8 m c) :=
  ((Stretch1.vals (W3 m ρ c)).2.2.1).trans (by rw [E1_arg8 m ρ c]; try rfl)

theorem B1_wrT : W4 m ρ c (Proc.devRef .tc main_v116) = mat ![1, 0, 0, 0] slices_S3x2x128x128_S1x1x128x128_1_0_0_0 (A10 m c) :=
  ((Stretch1.vals (W3 m ρ c)).2.2.2.1).trans (by rw [E1_arg10 m ρ c]; try rfl)

theorem B1_blT : W4 m ρ c (Proc.devRef .tc main_v119) = asRow128 (vec ![1, 0, 0] slices_S3x2x128_S1x1x128_1_0_0 (A9 m c)) :=
  ((Stretch1.vals (W3 m ρ c)).2.2.2.2.1).trans (by rw [E1_arg9 m ρ c]; try rfl)

theorem B1_gT : W4 m ρ c (Proc.devRef .tc main_v122) = asRow128 (vec ![1, 1, 0] slices_S3x2x128_S1x1x128_1_1_0 (A11 m c)) :=
  ((Stretch1.vals (W3 m ρ c)).2.2.2.2.2.1).trans (by rw [E1_arg11 m ρ c]; try rfl)

theorem B1_beT : W4 m ρ c (Proc.devRef .tc main_v125) = asRow128 (vec ![1, 1, 0] slices_S3x2x128_S1x1x128_1_1_0 (A12 m c)) :=
  ((Stretch1.vals (W3 m ρ c)).2.2.2.2.2.2.1).trans (by rw [E1_arg12 m ρ c]; try rfl)

theorem B1_muT : W4 m ρ c (Proc.devRef .tc main_v128) = asRow128 (vec ![1, 1, 0] slices_S3x2x128_S1x1x128_1_1_0 (A13 m c)) :=
  ((Stretch1.vals (W3 m ρ c)).2.2.2.2.2.2.2.1).trans (by rw [E1_arg13 m ρ c]; try rfl)

theorem B1_vT : W4 m ρ c (Proc.devRef .tc main_v131) = asRow128 (vec ![1, 1, 0] slices_S3x2x128_S1x1x128_1_1_0 (A14 m c)) :=
  ((Stretch1.vals (W3 m ρ c)).2.2.2.2.2.2.2.2.1).trans (by rw [E1_arg14 m ρ c]; try rfl)

theorem B1_wlU : W4 m ρ c (Proc.devRef .tc main_v133) = mat ![1, 1, 0, 0] slices_S3x2x128x128_S1x1x128x128_1_1_0_0 (A8 m c) :=
  ((Stretch1.vals (W3 m ρ c)).2.2.2.2.2.2.2.2.2.1).trans (by rw [E1_arg8 m ρ c]; try rfl)

theorem B1_wrU : W4 m ρ c (Proc.devRef .tc main_v135) = mat ![1, 1, 0, 0] slices_S3x2x128x128_S1x1x128x128_1_1_0_0 (A10 m c) :=
  ((Stretch1.vals (W3 m ρ c)).2.2.2.2.2.2.2.2.2.2.1).trans (by rw [E1_arg10 m ρ c]; try rfl)

theorem B1_blU : W4 m ρ c (Proc.devRef .tc main_v138) = asRow128 (vec ![1, 1, 0] slices_S3x2x128_S1x1x128_1_1_0 (A9 m c)) :=
  ((Stretch1.vals (W3 m ρ c)).2.2.2.2.2.2.2.2.2.2.2.1).trans (by rw [E1_arg9 m ρ c]; try rfl)

theorem B1_gU : W4 m ρ c (Proc.devRef .tc main_v141) = asRow128 (vec ![1, 0, 0] slices_S3x2x128_S1x1x128_1_0_0 (A11 m c)) :=
  ((Stretch1.vals (W3 m ρ c)).2.2.2.2.2.2.2.2.2.2.2.2.1).trans (by rw [E1_arg11 m ρ c]; try rfl)

theorem B1_beU : W4 m ρ c (Proc.devRef .tc main_v144) = asRow128 (vec ![1, 0, 0] slices_S3x2x128_S1x1x128_1_0_0 (A12 m c)) :=
  ((Stretch1.vals (W3 m ρ c)).2.2.2.2.2.2.2.2.2.2.2.2.2.1).trans (by rw [E1_arg12 m ρ c]; try rfl)

theorem B1_muU : W4 m ρ c (Proc.devRef .tc main_v147) = asRow128 (vec ![1, 0, 0] slices_S3x2x128_S1x1x128_1_0_0 (A13 m c)) :=
  ((Stretch1.vals (W3 m ρ c)).2.2.2.2.2.2.2.2.2.2.2.2.2.2.1).trans (by rw [E1_arg13 m ρ c]; try rfl)

theorem B1_vU : W4 m ρ c (Proc.devRef .tc main_v150) = asRow128 (vec ![1, 0, 0] slices_S3x2x128_S1x1x128_1_0_0 (A14 m c)) :=
  ((Stretch1.vals (W3 m ρ c)).2.2.2.2.2.2.2.2.2.2.2.2.2.2.2).trans (by rw [E1_arg14 m ρ c]; try rfl)

theorem K1_arg2 : W4 m ρ c (Proc.devRef .tc main_arg2) = (A2 m c) :=
  ((Stretch1.keeps (W3 m ρ c)).1).trans (E1_arg2 m ρ c)

theorem K1_arg3 : W4 m ρ c (Proc.devRef .tc main_arg3) = (A3 m c) :=
  ((Stretch1.keeps (W3 m ρ c)).2.1).trans (E1_arg3 m ρ c)

theorem K1_arg4 : W4 m ρ c (Proc.devRef .tc main_arg4) = (A4 m c) :=
  ((Stretch1.keeps (W3 m ρ c)).2.2.1).trans (E1_arg4 m ρ c)

theorem K1_arg5 : W4 m ρ c (Proc.devRef .tc main_arg5) = (A5 m c) :=
  ((Stretch1.keeps (W3 m ρ c)).2.2.2.1).trans (E1_arg5 m ρ c)

theorem K1_arg8 : W4 m ρ c (Proc.devRef .tc main_arg8) = (A8 m c) :=
  ((Stretch1.keeps (W3 m ρ c)).2.2.2.2.1).trans (E1_arg8 m ρ c)

theorem K1_arg9 : W4 m ρ c (Proc.devRef .tc main_arg9) = (A9 m c) :=
  ((Stretch1.keeps (W3 m ρ c)).2.2.2.2.2.1).trans (E1_arg9 m ρ c)

theorem K1_arg10 : W4 m ρ c (Proc.devRef .tc main_arg10) = (A10 m c) :=
  ((Stretch1.keeps (W3 m ρ c)).2.2.2.2.2.2.1).trans (E1_arg10 m ρ c)

theorem K1_arg11 : W4 m ρ c (Proc.devRef .tc main_arg11) = (A11 m c) :=
  ((Stretch1.keeps (W3 m ρ c)).2.2.2.2.2.2.2.1).trans (E1_arg11 m ρ c)

theorem K1_arg12 : W4 m ρ c (Proc.devRef .tc main_arg12) = (A12 m c) :=
  ((Stretch1.keeps (W3 m ρ c)).2.2.2.2.2.2.2.2.1).trans (E1_arg12 m ρ c)

theorem K1_arg13 : W4 m ρ c (Proc.devRef .tc main_arg13) = (A13 m c) :=
  ((Stretch1.keeps (W3 m ρ c)).2.2.2.2.2.2.2.2.2.1).trans (E1_arg13 m ρ c)

theorem K1_arg14 : W4 m ρ c (Proc.devRef .tc main_arg14) = (A14 m c) :=
  ((Stretch1.keeps (W3 m ρ c)).2.2.2.2.2.2.2.2.2.2.1).trans (E1_arg14 m ρ c)

theorem K1_arg15 : W4 m ρ c (Proc.devRef .tc main_arg15) = (A15 m c) :=
  ((Stretch1.keeps (W3 m ρ c)).2.2.2.2.2.2.2.2.2.2.2.1).trans (E1_arg15 m ρ c)

theorem K1_arg16 : W4 m ρ c (Proc.devRef .tc main_arg16) = (A16 m c) :=
  ((Stretch1.keeps (W3 m ρ c)).2.2.2.2.2.2.2.2.2.2.2.2.1).trans (E1_arg16 m ρ c)

theorem K1_arg17 : W4 m ρ c (Proc.devRef .tc main_arg17) = (A17 m c) :=
  ((Stretch1.keeps (W3 m ρ c)).2.2.2.2.2.2.2.2.2.2.2.2.2.1).trans (E1_arg17 m ρ c)

theorem K1_arg18 : W4 m ρ c (Proc.devRef .tc main_arg18) = (A18 m c) :=
  ((Stretch1.keeps (W3 m ρ c)).2.2.2.2.2.2.2.2.2.2.2.2.2.2.1).trans (E1_arg18 m ρ c)

theorem K1_v19 : W4 m ρ c (Proc.devRef .tc main_v19) = (cntT (A3 m c)) :=
  ((Stretch1.keeps (W3 m ρ c)).2.2.2.2.2.2.2.2.2.2.2.2.2.2.2.1).trans (E1_v19 m ρ c)

theorem K1_v24 : W4 m ρ c (Proc.devRef .tc main_v24) = (cntU (A5 m c)) :=
  ((Stretch1.keeps (W3 m ρ c)).2.2.2.2.2.2.2.2.2.2.2.2.2.2.2.2.1).trans (E1_v24 m ρ c)

theorem K1_v88 : W4 m ρ c (Proc.devRef .tc main_v88) = (U1 m c) :=
  ((Stretch1.keeps (W3 m ρ c)).2.2.2.2.2.2.2.2.2.2.2.2.2.2.2.2.2.1).trans (E1_v88 m ρ c)

theorem K1_v87 : W4 m ρ c (Proc.devRef .tc main_v87) = (T1 m c) :=
  ((Stretch1.keeps (W3 m ρ c)).2.2.2.2.2.2.2.2.2.2.2.2.2.2.2.2.2.2).trans (E1_v87 m ρ c)

/-- The transaction features after layer 1's node transform. -/
theorem T1_out : W5 m ρ c (Proc.devRef .tc main_v151) = (T2 m c) :=
  (W5_arr m ρ c 9).trans (Region2.final (V4 m ρ) c (meanT (U1 m c) (A2 m c) (A3 m c)) (T1 m c) (mat ![1, 0, 0, 0] slices_S3x2x128x128_S1x1x128x128_1_0_0_0 (A8 m c)) (mat ![1, 0, 0, 0] slices_S3x2x128x128_S1x1x128x128_1_0_0_0 (A10 m c)) (vec ![1, 0, 0] slices_S3x2x128_S1x1x128_1_0_0 (A9 m c)) (vec ![1, 1, 0] slices_S3x2x128_S1x1x128_1_1_0 (A11 m c)) (vec ![1, 1, 0] slices_S3x2x128_S1x1x128_1_1_0 (A12 m c)) (vec ![1, 1, 0] slices_S3x2x128_S1x1x128_1_1_0 (A13 m c)) (vec ![1, 1, 0] slices_S3x2x128_S1x1x128_1_1_0 (A14 m c))
    (B1_aggT m ρ c) (K1_v87 m ρ c) (B1_wlT m ρ c) (B1_wrT m ρ c) (fun j => (congrFun (B1_blT m ρ c) (ix2 (0 : Fin 1) j)).trans (asRow128_apply _ j)) (fun j => (congrFun (B1_gT m ρ c) (ix2 (0 : Fin 1) j)).trans (asRow128_apply _ j)) (fun j => (congrFun (B1_beT m ρ c) (ix2 (0 : Fin 1) j)).trans (asRow128_apply _ j)) (fun j => (congrFun (B1_muT m ρ c) (ix2 (0 : Fin 1) j)).trans (asRow128_apply _ j)) (fun j => (congrFun (B1_vT m ρ c) (ix2 (0 : Fin 1) j)).trans (asRow128_apply _ j)))

/-- The user features after layer 1's node transform. -/
theorem U1_out : W6 m ρ c (Proc.devRef .tc main_v152) = (U2 m c) :=
  (W6_arr m ρ c 9).trans (Region3.final (V5 m ρ) c (meanU (T1 m c) (A4 m c) (A5 m c)) (U1 m c) (mat ![1, 1, 0, 0] slices_S3x2x128x128_S1x1x128x128_1_1_0_0 (A8 m c)) (mat ![1, 1, 0, 0] slices_S3x2x128x128_S1x1x128x128_1_1_0_0 (A10 m c)) (vec ![1, 1, 0] slices_S3x2x128_S1x1x128_1_1_0 (A9 m c)) (vec ![1, 0, 0] slices_S3x2x128_S1x1x128_1_0_0 (A11 m c)) (vec ![1, 0, 0] slices_S3x2x128_S1x1x128_1_0_0 (A12 m c)) (vec ![1, 0, 0] slices_S3x2x128_S1x1x128_1_0_0 (A13 m c)) (vec ![1, 0, 0] slices_S3x2x128_S1x1x128_1_0_0 (A14 m c))
    ((W5_of_ne m ρ c main_v112 (by decide)).trans (B1_aggU m ρ c)) ((W5_of_ne m ρ c main_v88 (by decide)).trans (K1_v88 m ρ c)) ((W5_of_ne m ρ c main_v133 (by decide)).trans (B1_wlU m ρ c)) ((W5_of_ne m ρ c main_v135 (by decide)).trans (B1_wrU m ρ c))
    (fun j => (congrFun ((W5_of_ne m ρ c main_v138 (by decide)).trans (B1_blU m ρ c)) (ix2 (0 : Fin 1) j)).trans (asRow128_apply _ j)) (fun j => (congrFun ((W5_of_ne m ρ c main_v141 (by decide)).trans (B1_gU m ρ c)) (ix2 (0 : Fin 1) j)).trans (asRow128_apply _ j)) (fun j => (congrFun ((W5_of_ne m ρ c main_v144 (by decide)).trans (B1_beU m ρ c)) (ix2 (0 : Fin 1) j)).trans (asRow128_apply _ j)) (fun j => (congrFun ((W5_of_ne m ρ c main_v147 (by decide)).trans (B1_muU m ρ c)) (ix2 (0 : Fin 1) j)).trans (asRow128_apply _ j)) (fun j => (congrFun ((W5_of_ne m ρ c main_v150 (by decide)).trans (B1_vU m ρ c)) (ix2 (0 : Fin 1) j)).trans (asRow128_apply _ j)))

theorem E2_v152 : W6 m ρ c (Proc.devRef .tc main_v152) = (U2 m c) := U1_out m ρ c

theorem E2_v151 : W6 m ρ c (Proc.devRef .tc main_v151) = (T2 m c) :=
  (W6_of_ne m ρ c main_v151 (by decide)).trans (T1_out m ρ c)

theorem E2_arg2 : W6 m ρ c (Proc.devRef .tc main_arg2) = (A2 m c) :=
  (W6_of_ne m ρ c main_arg2 (by decide)).trans ((W5_of_ne m ρ c main_arg2 (by decide)).trans (K1_arg2 m ρ c))

theorem E2_arg3 : W6 m ρ c (Proc.devRef .tc main_arg3) = (A3 m c) :=
  (W6_of_ne m ρ c main_arg3 (by decide)).trans ((W5_of_ne m ρ c main_arg3 (by decide)).trans (K1_arg3 m ρ c))

theorem E2_arg4 : W6 m ρ c (Proc.devRef .tc main_arg4) = (A4 m c) :=
  (W6_of_ne m ρ c main_arg4 (by decide)).trans ((W5_of_ne m ρ c main_arg4 (by decide)).trans (K1_arg4 m ρ c))

theorem E2_arg5 : W6 m ρ c (Proc.devRef .tc main_arg5) = (A5 m c) :=
  (W6_of_ne m ρ c main_arg5 (by decide)).trans ((W5_of_ne m ρ c main_arg5 (by decide)).trans (K1_arg5 m ρ c))

theorem E2_arg8 : W6 m ρ c (Proc.devRef .tc main_arg8) = (A8 m c) :=
  (W6_of_ne m ρ c main_arg8 (by decide)).trans ((W5_of_ne m ρ c main_arg8 (by decide)).trans (K1_arg8 m ρ c))

theorem E2_arg9 : W6 m ρ c (Proc.devRef .tc main_arg9) = (A9 m c) :=
  (W6_of_ne m ρ c main_arg9 (by decide)).trans ((W5_of_ne m ρ c main_arg9 (by decide)).trans (K1_arg9 m ρ c))

theorem E2_arg10 : W6 m ρ c (Proc.devRef .tc main_arg10) = (A10 m c) :=
  (W6_of_ne m ρ c main_arg10 (by decide)).trans ((W5_of_ne m ρ c main_arg10 (by decide)).trans (K1_arg10 m ρ c))

theorem E2_arg11 : W6 m ρ c (Proc.devRef .tc main_arg11) = (A11 m c) :=
  (W6_of_ne m ρ c main_arg11 (by decide)).trans ((W5_of_ne m ρ c main_arg11 (by decide)).trans (K1_arg11 m ρ c))

theorem E2_arg12 : W6 m ρ c (Proc.devRef .tc main_arg12) = (A12 m c) :=
  (W6_of_ne m ρ c main_arg12 (by decide)).trans ((W5_of_ne m ρ c main_arg12 (by decide)).trans (K1_arg12 m ρ c))

theorem E2_arg13 : W6 m ρ c (Proc.devRef .tc main_arg13) = (A13 m c) :=
  (W6_of_ne m ρ c main_arg13 (by decide)).trans ((W5_of_ne m ρ c main_arg13 (by decide)).trans (K1_arg13 m ρ c))

theorem E2_arg14 : W6 m ρ c (Proc.devRef .tc main_arg14) = (A14 m c) :=
  (W6_of_ne m ρ c main_arg14 (by decide)).trans ((W5_of_ne m ρ c main_arg14 (by decide)).trans (K1_arg14 m ρ c))

theorem E2_arg15 : W6 m ρ c (Proc.devRef .tc main_arg15) = (A15 m c) :=
  (W6_of_ne m ρ c main_arg15 (by decide)).trans ((W5_of_ne m ρ c main_arg15 (by decide)).trans (K1_arg15 m ρ c))

theorem E2_arg16 : W6 m ρ c (Proc.devRef .tc main_arg16) = (A16 m c) :=
  (W6_of_ne m ρ c main_arg16 (by decide)).trans ((W5_of_ne m ρ c main_arg16 (by decide)).trans (K1_arg16 m ρ c))

theorem E2_arg17 : W6 m ρ c (Proc.devRef .tc main_arg17) = (A17 m c) :=
  (W6_of_ne m ρ c main_arg17 (by decide)).trans ((W5_of_ne m ρ c main_arg17 (by decide)).trans (K1_arg17 m ρ c))

theorem E2_arg18 : W6 m ρ c (Proc.devRef .tc main_arg18) = (A18 m c) :=
  (W6_of_ne m ρ c main_arg18 (by decide)).trans ((W5_of_ne m ρ c main_arg18 (by decide)).trans (K1_arg18 m ρ c))

theorem E2_v19 : W6 m ρ c (Proc.devRef .tc main_v19) = (cntT (A3 m c)) :=
  (W6_of_ne m ρ c main_v19 (by decide)).trans ((W5_of_ne m ρ c main_v19 (by decide)).trans (K1_v19 m ρ c))

theorem E2_v24 : W6 m ρ c (Proc.devRef .tc main_v24) = (cntU (A5 m c)) :=
  (W6_of_ne m ρ c main_v24 (by decide)).trans ((W5_of_ne m ρ c main_v24 (by decide)).trans (K1_v24 m ρ c))
/-! ## Layer 2 -/

theorem B2_aggT : W7 m ρ c (Proc.devRef .tc main_v164) = meanT (U2 m c) (A2 m c) (A3 m c) :=
  ((Stretch2.vals (W6 m ρ c)).1).trans (by rw [E2_v152 m ρ c, E2_arg2 m ρ c, E2_arg3 m ρ c, E2_v19 m ρ c]; try rfl)

theorem B2_aggU : W7 m ρ c (Proc.devRef .tc main_v176) = meanU (T2 m c) (A4 m c) (A5 m c) :=
  ((Stretch2.vals (W6 m ρ c)).2.1).trans (by rw [E2_v151 m ρ c, E2_arg4 m ρ c, E2_arg5 m ρ c, E2_v24 m ρ c]; try rfl)

theorem B2_wlT : W7 m ρ c (Proc.devRef .tc main_v178) = mat ![2, 0, 0, 0] slices_S3x2x128x128_S1x1x128x128_2_0_0_0 (A8 m c) :=
  ((Stretch2.vals (W6 m ρ c)).2.2.1).trans (by rw [E2_arg8 m ρ c]; try rfl)

theorem B2_wrT : W7 m ρ c (Proc.devRef .tc main_v180) = mat ![2, 0, 0, 0] slices_S3x2x128x128_S1x1x128x128_2_0_0_0 (A10 m c) :=
  ((Stretch2.vals (W6 m ρ c)).2.2.2.1).trans (by rw [E2_arg10 m ρ c]; try rfl)

theorem B2_blT : W7 m ρ c (Proc.devRef .tc main_v183) = asRow128 (vec ![2, 0, 0] slices_S3x2x128_S1x1x128_2_0_0 (A9 m c)) :=
  ((Stretch2.vals (W6 m ρ c)).2.2.2.2.1).trans (by rw [E2_arg9 m ρ c]; try rfl)

theorem B2_gT : W7 m ρ c (Proc.devRef .tc main_v186) = asRow128 (vec ![2, 1, 0] slices_S3x2x128_S1x1x128_2_1_0 (A11 m c)) :=
  ((Stretch2.vals (W6 m ρ c)).2.2.2.2.2.1).trans (by rw [E2_arg11 m ρ c]; try rfl)

theorem B2_beT : W7 m ρ c (Proc.devRef .tc main_v189) = asRow128 (vec ![2, 1, 0] slices_S3x2x128_S1x1x128_2_1_0 (A12 m c)) :=
  ((Stretch2.vals (W6 m ρ c)).2.2.2.2.2.2.1).trans (by rw [E2_arg12 m ρ c]; try rfl)

theorem B2_muT : W7 m ρ c (Proc.devRef .tc main_v192) = asRow128 (vec ![2, 1, 0] slices_S3x2x128_S1x1x128_2_1_0 (A13 m c)) :=
  ((Stretch2.vals (W6 m ρ c)).2.2.2.2.2.2.2.1).trans (by rw [E2_arg13 m ρ c]; try rfl)

theorem B2_vT : W7 m ρ c (Proc.devRef .tc main_v195) = asRow128 (vec ![2, 1, 0] slices_S3x2x128_S1x1x128_2_1_0 (A14 m c)) :=
  ((Stretch2.vals (W6 m ρ c)).2.2.2.2.2.2.2.2.1).trans (by rw [E2_arg14 m ρ c]; try rfl)

theorem B2_wlU : W7 m ρ c (Proc.devRef .tc main_v197) = mat ![2, 1, 0, 0] slices_S3x2x128x128_S1x1x128x128_2_1_0_0 (A8 m c) :=
  ((Stretch2.vals (W6 m ρ c)).2.2.2.2.2.2.2.2.2.1).trans (by rw [E2_arg8 m ρ c]; try rfl)

theorem B2_wrU : W7 m ρ c (Proc.devRef .tc main_v199) = mat ![2, 1, 0, 0] slices_S3x2x128x128_S1x1x128x128_2_1_0_0 (A10 m c) :=
  ((Stretch2.vals (W6 m ρ c)).2.2.2.2.2.2.2.2.2.2.1).trans (by rw [E2_arg10 m ρ c]; try rfl)

theorem B2_blU : W7 m ρ c (Proc.devRef .tc main_v202) = asRow128 (vec ![2, 1, 0] slices_S3x2x128_S1x1x128_2_1_0 (A9 m c)) :=
  ((Stretch2.vals (W6 m ρ c)).2.2.2.2.2.2.2.2.2.2.2.1).trans (by rw [E2_arg9 m ρ c]; try rfl)

theorem B2_gU : W7 m ρ c (Proc.devRef .tc main_v205) = asRow128 (vec ![2, 0, 0] slices_S3x2x128_S1x1x128_2_0_0 (A11 m c)) :=
  ((Stretch2.vals (W6 m ρ c)).2.2.2.2.2.2.2.2.2.2.2.2.1).trans (by rw [E2_arg11 m ρ c]; try rfl)

theorem B2_beU : W7 m ρ c (Proc.devRef .tc main_v208) = asRow128 (vec ![2, 0, 0] slices_S3x2x128_S1x1x128_2_0_0 (A12 m c)) :=
  ((Stretch2.vals (W6 m ρ c)).2.2.2.2.2.2.2.2.2.2.2.2.2.1).trans (by rw [E2_arg12 m ρ c]; try rfl)

theorem B2_muU : W7 m ρ c (Proc.devRef .tc main_v211) = asRow128 (vec ![2, 0, 0] slices_S3x2x128_S1x1x128_2_0_0 (A13 m c)) :=
  ((Stretch2.vals (W6 m ρ c)).2.2.2.2.2.2.2.2.2.2.2.2.2.2.1).trans (by rw [E2_arg13 m ρ c]; try rfl)

theorem B2_vU : W7 m ρ c (Proc.devRef .tc main_v214) = asRow128 (vec ![2, 0, 0] slices_S3x2x128_S1x1x128_2_0_0 (A14 m c)) :=
  ((Stretch2.vals (W6 m ρ c)).2.2.2.2.2.2.2.2.2.2.2.2.2.2.2).trans (by rw [E2_arg14 m ρ c]; try rfl)

theorem K2_arg15 : W7 m ρ c (Proc.devRef .tc main_arg15) = (A15 m c) :=
  ((Stretch2.keeps (W6 m ρ c)).1).trans (E2_arg15 m ρ c)

theorem K2_arg16 : W7 m ρ c (Proc.devRef .tc main_arg16) = (A16 m c) :=
  ((Stretch2.keeps (W6 m ρ c)).2.1).trans (E2_arg16 m ρ c)

theorem K2_arg17 : W7 m ρ c (Proc.devRef .tc main_arg17) = (A17 m c) :=
  ((Stretch2.keeps (W6 m ρ c)).2.2.1).trans (E2_arg17 m ρ c)

theorem K2_arg18 : W7 m ρ c (Proc.devRef .tc main_arg18) = (A18 m c) :=
  ((Stretch2.keeps (W6 m ρ c)).2.2.2.1).trans (E2_arg18 m ρ c)

theorem K2_v152 : W7 m ρ c (Proc.devRef .tc main_v152) = (U2 m c) :=
  ((Stretch2.keeps (W6 m ρ c)).2.2.2.2.1).trans (E2_v152 m ρ c)

theorem K2_v151 : W7 m ρ c (Proc.devRef .tc main_v151) = (T2 m c) :=
  ((Stretch2.keeps (W6 m ρ c)).2.2.2.2.2).trans (E2_v151 m ρ c)

/-- The transaction features after layer 2's node transform. -/
theorem T2_out : W8 m ρ c (Proc.devRef .tc main_v215) = (T3 m c) :=
  (W8_arr m ρ c 9).trans (Region4.final (V7 m ρ) c (meanT (U2 m c) (A2 m c) (A3 m c)) (T2 m c) (mat ![2, 0, 0, 0] slices_S3x2x128x128_S1x1x128x128_2_0_0_0 (A8 m c)) (mat ![2, 0, 0, 0] slices_S3x2x128x128_S1x1x128x128_2_0_0_0 (A10 m c)) (vec ![2, 0, 0] slices_S3x2x128_S1x1x128_2_0_0 (A9 m c)) (vec ![2, 1, 0] slices_S3x2x128_S1x1x128_2_1_0 (A11 m c)) (vec ![2, 1, 0] slices_S3x2x128_S1x1x128_2_1_0 (A12 m c)) (vec ![2, 1, 0] slices_S3x2x128_S1x1x128_2_1_0 (A13 m c)) (vec ![2, 1, 0] slices_S3x2x128_S1x1x128_2_1_0 (A14 m c))
    (B2_aggT m ρ c) (K2_v151 m ρ c) (B2_wlT m ρ c) (B2_wrT m ρ c) (fun j => (congrFun (B2_blT m ρ c) (ix2 (0 : Fin 1) j)).trans (asRow128_apply _ j)) (fun j => (congrFun (B2_gT m ρ c) (ix2 (0 : Fin 1) j)).trans (asRow128_apply _ j)) (fun j => (congrFun (B2_beT m ρ c) (ix2 (0 : Fin 1) j)).trans (asRow128_apply _ j)) (fun j => (congrFun (B2_muT m ρ c) (ix2 (0 : Fin 1) j)).trans (asRow128_apply _ j)) (fun j => (congrFun (B2_vT m ρ c) (ix2 (0 : Fin 1) j)).trans (asRow128_apply _ j)))

/-- The user features after layer 2's node transform. -/
theorem U2_out : W9 m ρ c (Proc.devRef .tc main_v216) = (U3 m c) :=
  (W9_arr m ρ c 9).trans (Region5.final (V8 m ρ) c (meanU (T2 m c) (A4 m c) (A5 m c)) (U2 m c) (mat ![2, 1, 0, 0] slices_S3x2x128x128_S1x1x128x128_2_1_0_0 (A8 m c)) (mat ![2, 1, 0, 0] slices_S3x2x128x128_S1x1x128x128_2_1_0_0 (A10 m c)) (vec ![2, 1, 0] slices_S3x2x128_S1x1x128_2_1_0 (A9 m c)) (vec ![2, 0, 0] slices_S3x2x128_S1x1x128_2_0_0 (A11 m c)) (vec ![2, 0, 0] slices_S3x2x128_S1x1x128_2_0_0 (A12 m c)) (vec ![2, 0, 0] slices_S3x2x128_S1x1x128_2_0_0 (A13 m c)) (vec ![2, 0, 0] slices_S3x2x128_S1x1x128_2_0_0 (A14 m c))
    ((W8_of_ne m ρ c main_v176 (by decide)).trans (B2_aggU m ρ c)) ((W8_of_ne m ρ c main_v152 (by decide)).trans (K2_v152 m ρ c)) ((W8_of_ne m ρ c main_v197 (by decide)).trans (B2_wlU m ρ c)) ((W8_of_ne m ρ c main_v199 (by decide)).trans (B2_wrU m ρ c))
    (fun j => (congrFun ((W8_of_ne m ρ c main_v202 (by decide)).trans (B2_blU m ρ c)) (ix2 (0 : Fin 1) j)).trans (asRow128_apply _ j)) (fun j => (congrFun ((W8_of_ne m ρ c main_v205 (by decide)).trans (B2_gU m ρ c)) (ix2 (0 : Fin 1) j)).trans (asRow128_apply _ j)) (fun j => (congrFun ((W8_of_ne m ρ c main_v208 (by decide)).trans (B2_beU m ρ c)) (ix2 (0 : Fin 1) j)).trans (asRow128_apply _ j)) (fun j => (congrFun ((W8_of_ne m ρ c main_v211 (by decide)).trans (B2_muU m ρ c)) (ix2 (0 : Fin 1) j)).trans (asRow128_apply _ j)) (fun j => (congrFun ((W8_of_ne m ρ c main_v214 (by decide)).trans (B2_vU m ρ c)) (ix2 (0 : Fin 1) j)).trans (asRow128_apply _ j)))

theorem E3_v216 : W9 m ρ c (Proc.devRef .tc main_v216) = (U3 m c) := U2_out m ρ c

theorem E3_v215 : W9 m ρ c (Proc.devRef .tc main_v215) = (T3 m c) :=
  (W9_of_ne m ρ c main_v215 (by decide)).trans (T2_out m ρ c)

theorem E3_arg15 : W9 m ρ c (Proc.devRef .tc main_arg15) = (A15 m c) :=
  (W9_of_ne m ρ c main_arg15 (by decide)).trans ((W8_of_ne m ρ c main_arg15 (by decide)).trans (K2_arg15 m ρ c))

theorem E3_arg16 : W9 m ρ c (Proc.devRef .tc main_arg16) = (A16 m c) :=
  (W9_of_ne m ρ c main_arg16 (by decide)).trans ((W8_of_ne m ρ c main_arg16 (by decide)).trans (K2_arg16 m ρ c))

theorem E3_arg17 : W9 m ρ c (Proc.devRef .tc main_arg17) = (A17 m c) :=
  (W9_of_ne m ρ c main_arg17 (by decide)).trans ((W8_of_ne m ρ c main_arg17 (by decide)).trans (K2_arg17 m ρ c))

theorem E3_arg18 : W9 m ρ c (Proc.devRef .tc main_arg18) = (A18 m c) :=
  (W9_of_ne m ρ c main_arg18 (by decide)).trans ((W8_of_ne m ρ c main_arg18 (by decide)).trans (K2_arg18 m ρ c))
/-! ## The head -/

theorem H_stack : W10 m ρ c (Proc.devRef .tc main_v217) = stack (U3 m c) (T3 m c) :=
  ((StretchH.vals (W9 m ρ c)).1).trans (by rw [E3_v216 m ρ c, E3_v215 m ρ c])

theorem H_b1 : W10 m ρ c (Proc.devRef .tc main_v218) = asRow64 (A16 m c) :=
  ((StretchH.vals (W9 m ρ c)).2.1).trans (by rw [E3_arg16 m ρ c])

theorem H_b2 : W10 m ρ c (Proc.devRef .tc main_v219) = asRow2 (A18 m c) :=
  ((StretchH.vals (W9 m ρ c)).2.2).trans (by rw [E3_arg18 m ρ c])

theorem H_w1 : W10 m ρ c (Proc.devRef .tc main_arg15) = (A15 m c) :=
  ((StretchH.keeps (W9 m ρ c)).1).trans (E3_arg15 m ρ c)

theorem H_w2 : W10 m ρ c (Proc.devRef .tc main_arg17) = (A17 m c) :=
  ((StretchH.keeps (W9 m ρ c)).2).trans (E3_arg17 m ρ c)

/-- THE RESULT ARRAY at the return is the reference's `out` of the argument arrays. -/
theorem kernel_out : W11 m ρ c (Proc.devRef .tc main_v220)
    = out (A0 m c) (A1 m c) (A2 m c) (A3 m c) (A4 m c) (A5 m c) (A6 m c) (A7 m c) (A8 m c) (A9 m c) (A10 m c) (A11 m c) (A12 m c) (A13 m c) (A14 m c) (A15 m c) (A16 m c) (A17 m c) (A18 m c) :=
  (W11_arr m ρ c 5).trans (Region6.final (V10 m ρ) c (stack (U3 m c) (T3 m c)) (A15 m c) (A16 m c) (A17 m c) (A18 m c)
    (H_stack m ρ c) (H_w1 m ρ c) (fun q => (congrFun (H_b1 m ρ c) (ix2 (0 : Fin 1) q)).trans (asRow64_apply _ q))
    (H_w2 m ρ c) (fun o => (congrFun (H_b2 m ρ c) (ix2 (0 : Fin 1) o)).trans (asRow2_apply _ o)))

end Cert.KernelIdeal.Chain

end
-- ==== Proof.LibAfterAppend.lean ====
/-
  A general lemma on straight lines of host operations: the buffer contents after two stretches run one after the
  other are the contents after their concatenation — so a long line can be read stretch by stretch.
-/
import Idealize.ShloMosaic.Lib.StableHlo.Run

namespace Cert.LibAfterAppend

open Idealize.ShloMosaic Idealize.ShloMosaic.StableHlo

/-- The contents after `l₁ ++ l₂` from `V` are the contents after `l₂` from the contents after `l₁` from `V`, for any
    topology, buffer signature and value types. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Cert.LibAfterAppend
-- ==== Proof.RefOps.lean ====
/-
  The reference program's @main as five stretches of host operations.

  The reference is one straight line of 408 host operations (a called function's operations standing in its call's
  place). Read in five stretches — the embeddings, the three layers, the head — each stretch is short enough to be
  read back buffer by buffer, and the contents after the whole line are the contents after the last stretch from the
  contents after the one before it, and so on back to the launch.
-/
import proofs.«179405_j8443905704157_1_alg».proof.Proof.Gen.ReferenceIdeal
import proofs.«179405_j8443905704157_1_alg».proof.Proof.LibAfterAppend
import Idealize.ShloMosaic.Lib.StableHlo.Run

noncomputable section

namespace Cert.ReferenceIdeal.Whole

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- The two embeddings: each node's row of its table. (18 operations, in the program's order) -/
abbrev ops0 : List (HloOp τ sig (Elt F)) :=
  [ nullary main_c (constantI S_ 32 0#32),
    unary main_c main_v0 (broadcastInDim S100000 ![] bcast_S_S100000 : (⟨S_, .i32⟩ : BufTy).Contents (Elt F) → (⟨S100000, .i32⟩ : BufTy).Contents (Elt F)),
    binary main_arg0 main_v0 main_v1 (cmpi .slt : (⟨S100000, .i32⟩ : BufTy).Contents (Elt F) → (⟨S100000, .i32⟩ : BufTy).Contents (Elt F) → (⟨S100000, .i1⟩ : BufTy).Contents (Elt F)),
    nullary main_c_0 (constantI S_ 32 10000#32),
    unary main_c_0 main_v2 (broadcastInDim S100000 ![] bcast_S_S100000 : (⟨S_, .i32⟩ : BufTy).Contents (Elt F) → (⟨S100000, .i32⟩ : BufTy).Contents (Elt F)),
    binary main_arg0 main_v2 main_v3 (addi : (⟨S100000, .i32⟩ : BufTy).Contents (Elt F) → (⟨S100000, .i32⟩ : BufTy).Contents (Elt F) → (⟨S100000, .i32⟩ : BufTy).Contents (Elt F)),
    ternary main_v1 main_v3 main_arg0 main_v4 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v4 main_v5 (broadcastInDim S100000x1 ![0] bcast_S100000_S100000x1_0 : (⟨S100000, .i32⟩ : BufTy).Contents (Elt F) → (⟨S100000x1, .i32⟩ : BufTy).Contents (Elt F)),
    binary main_arg6 main_v5 main_v6 ((fun x i => Host.gather gather_S10000x128_S100000x1_S100000x128_1_0_n_n_0_1_1128 x i) : (⟨S10000x128, .f32⟩ : BufTy).Contents (Elt F) → (⟨S100000x1, .i32⟩ : BufTy).Contents (Elt F) → (⟨S100000x128, .f32⟩ : BufTy).Contents (Elt F)),
    nullary main_c_1 (constantI S_ 32 0#32),
    unary main_c_1 main_v7 (broadcastInDim S400000 ![] bcast_S_S400000 : (⟨S_, .i32⟩ : BufTy).Contents (Elt F) → (⟨S400000, .i32⟩ : BufTy).Contents (Elt F)),
    binary main_arg1 main_v7 main_v8 (cmpi .slt : (⟨S400000, .i32⟩ : BufTy).Contents (Elt F) → (⟨S400000, .i32⟩ : BufTy).Contents (Elt F) → (⟨S400000, .i1⟩ : BufTy).Contents (Elt F)),
    nullary main_c_2 (constantI S_ 32 10000#32),
    unary main_c_2 main_v9 (broadcastInDim S400000 ![] bcast_S_S400000 : (⟨S_, .i32⟩ : BufTy).Contents (Elt F) → (⟨S400000, .i32⟩ : BufTy).Contents (Elt F)),
    binary main_arg1 main_v9 main_v10 (addi : (⟨S400000, .i32⟩ : BufTy).Contents (Elt F) → (⟨S400000, .i32⟩ : BufTy).Contents (Elt F) → (⟨S400000, .i32⟩ : BufTy).Contents (Elt F)),
    ternary main_v8 main_v10 main_arg1 main_v11 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v11 main_v12 (broadcastInDim S400000x1 ![0] bcast_S400000_S400000x1_0 : (⟨S400000, .i32⟩ : BufTy).Contents (Elt F) → (⟨S400000x1, .i32⟩ : BufTy).Contents (Elt F)),
    binary main_arg7 main_v12 main_v13 ((fun x i => Host.gather gather_S10000x128_S400000x1_S400000x128_1_0_n_n_0_1_1128 x i) : (⟨S10000x128, .f32⟩ : BufTy).Contents (Elt F) → (⟨S400000x1, .i32⟩ : BufTy).Contents (Elt F) → (⟨S400000x128, .f32⟩ : BufTy).Contents (Elt F)) ]

set_option maxRecDepth 8192 in
theorem ops0_sub : (ops0 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

theorem ops0_fresh : (ops0 : List (HloOp τ sig (Elt F))).Forall fun op => op.fresh = ∅ := by
  simp only [List.Forall]; repeat' constructor

set_option maxHeartbeats 4000000 in
/-- Layer 0: the two segment means and the two node transforms. (126 operations, in the program's order) -/
abbrev ops1 : List (HloOp τ sig (Elt F)) :=
  [ nullary main_c_3 (constantI S_ 32 0#32),
    unary main_c_3 main_v14 (broadcastInDim S400000 ![] bcast_S_S400000 : (⟨S_, .i32⟩ : BufTy).Contents (Elt F) → (⟨S400000, .i32⟩ : BufTy).Contents (Elt F)),
    binary main_arg2 main_v14 main_v15 (cmpi .slt : (⟨S400000, .i32⟩ : BufTy).Contents (Elt F) → (⟨S400000, .i32⟩ : BufTy).Contents (Elt F) → (⟨S400000, .i1⟩ : BufTy).Contents (Elt F)),
    nullary main_c_4 (constantI S_ 32 100000#32),
    unary main_c_4 main_v16 (broadcastInDim S400000 ![] bcast_S_S400000 : (⟨S_, .i32⟩ : BufTy).Contents (Elt F) → (⟨S400000, .i32⟩ : BufTy).Contents (Elt F)),
    binary main_arg2 main_v16 main_v17 (addi : (⟨S400000, .i32⟩ : BufTy).Contents (Elt F) → (⟨S400000, .i32⟩ : BufTy).Contents (Elt F) → (⟨S400000, .i32⟩ : BufTy).Contents (Elt F)),
    ternary main_v15 main_v17 main_arg2 main_v18 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v18 main_v19 (broadcastInDim S400000x1 ![0] bcast_S400000_S400000x1_0 : (⟨S400000, .i32⟩ : BufTy).Contents (Elt F) → (⟨S400000x1, .i32⟩ : BufTy).Contents (Elt F)),
    binary main_v6 main_v19 main_v20 ((fun x i => Host.gather gather_S100000x128_S400000x1_S400000x128_1_0_n_n_0_1_1128 x i) : (⟨S100000x128, .f32⟩ : BufTy).Contents (Elt F) → (⟨S400000x1, .i32⟩ : BufTy).Contents (Elt F) → (⟨S400000x128, .f32⟩ : BufTy).Contents (Elt F)),
    nullary main_cst (constant S_ .f32 0x00000000#32),
    unary main_cst main_v21 (broadcastInDim S400000x128 ![] bcast_S_S400000x128 : (⟨S_, .f32⟩ : BufTy).Contents (Elt F) → (⟨S400000x128, .f32⟩ : BufTy).Contents (Elt F)),
    unary main_arg3 main_v22 (broadcastInDim S400000x1 ![0] bcast_S400000_S400000x1_0 : (⟨S400000, .i32⟩ : BufTy).Contents (Elt F) → (⟨S400000x1, .i32⟩ : BufTy).Contents (Elt F)),
    ternary main_v21 main_v22 main_v20 main_v23 ((fun x i u => Host.scatterAdd scatter_S400000x128_S400000x1_S400000x128_1_0_0_1 x i u) : (⟨S400000x128, .f32⟩ : BufTy).Contents (Elt F) → (⟨S400000x1, .i32⟩ : BufTy).Contents (Elt F) → (⟨S400000x128, .f32⟩ : BufTy).Contents (Elt F) → (⟨S400000x128, .f32⟩ : BufTy).Contents (Elt F)),
    nullary main_cst_5 (constant S_ .f32 0x3F800000#32),
    unary main_cst_5 main_v24 (broadcastInDim S400000x1 ![] bcast_S_S400000x1 : (⟨S_, .f32⟩ : BufTy).Contents (Elt F) → (⟨S400000x1, .f32⟩ : BufTy).Contents (Elt F)),
    nullary main_cst_6 (constant S_ .f32 0x00000000#32),
    unary main_cst_6 main_v25 (broadcastInDim S400000x1 ![] bcast_S_S400000x1 : (⟨S_, .f32⟩ : BufTy).Contents (Elt F) → (⟨S400000x1, .f32⟩ : BufTy).Contents (Elt F)),
    unary main_arg3 main_v26 (broadcastInDim S400000x1 ![0] bcast_S400000_S400000x1_0 : (⟨S400000, .i32⟩ : BufTy).Contents (Elt F) → (⟨S400000x1, .i32⟩ : BufTy).Contents (Elt F)),
    ternary main_v25 main_v26 main_v24 main_v27 ((fun x i u => Host.scatterAdd scatter_S400000x1_S400000x1_S400000x1_1_0_0_1 x i u) : (⟨S400000x1, .f32⟩ : BufTy).Contents (Elt F) → (⟨S400000x1, .i32⟩ : BufTy).Contents (Elt F) → (⟨S400000x1, .f32⟩ : BufTy).Contents (Elt F) → (⟨S400000x1, .f32⟩ : BufTy).Contents (Elt F)),
    nullary main_cst_7 (constant S_ .f32 0x3F800000#32),
    unary main_cst_7 main_v28 (broadcastInDim S400000x1 ![] bcast_S_S400000x1 : (⟨S_, .f32⟩ : BufTy).Contents (Elt F) → (⟨S400000x1, .f32⟩ : BufTy).Contents (Elt F)),
    binary main_v27 main_v28 main_v29 (maximumf : (⟨S400000x1, .f32⟩ : BufTy).Contents (Elt F) → (⟨S400000x1, .f32⟩ : BufTy).Contents (Elt F) → (⟨S400000x1, .f32⟩ : BufTy).Contents (Elt F)),
    unary main_v29 main_v30 (broadcastInDim S400000x128 ![0, 1] bcast_S400000x1_S400000x128_0_1 : (⟨S400000x1, .f32⟩ : BufTy).Contents (Elt F) → (⟨S400000x128, .f32⟩ : BufTy).Contents (Elt F)),
    binary main_v23 main_v30 main_v31 (Host.divf : (⟨S400000x128, .f32⟩ : BufTy).Contents (Elt F) → (⟨S400000x128, .f32⟩ : BufTy).Contents (Elt F) → (⟨S400000x128, .f32⟩ : BufTy).Contents (Elt F)),
    nullary main_c_8 (constantI S_ 32 0#32),
    unary main_c_8 main_v32 (broadcastInDim S400000 ![] bcast_S_S400000 : (⟨S_, .i32⟩ : BufTy).Contents (Elt F) → (⟨S400000, .i32⟩ : BufTy).Contents (Elt F)),
    binary main_arg4 main_v32 main_v33 (cmpi .slt : (⟨S400000, .i32⟩ : BufTy).Contents (Elt F) → (⟨S400000, .i32⟩ : BufTy).Contents (Elt F) → (⟨S400000, .i1⟩ : BufTy).Contents (Elt F)),
    nullary main_c_9 (constantI S_ 32 400000#32),
    unary main_c_9 main_v34 (broadcastInDim S400000 ![] bcast_S_S400000 : (⟨S_, .i32⟩ : BufTy).Contents (Elt F) → (⟨S400000, .i32⟩ : BufTy).Contents (Elt F)),
    binary main_arg4 main_v34 main_v35 (addi : (⟨S400000, .i32⟩ : BufTy).Contents (Elt F) → (⟨S400000, .i32⟩ : BufTy).Contents (Elt F) → (⟨S400000, .i32⟩ : BufTy).Contents (Elt F)),
    ternary main_v33 main_v35 main_arg4 main_v36 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v36 main_v37 (broadcastInDim S400000x1 ![0] bcast_S400000_S400000x1_0 : (⟨S400000, .i32⟩ : BufTy).Contents (Elt F) → (⟨S400000x1, .i32⟩ : BufTy).Contents (Elt F)),
    binary main_v13 main_v37 main_v38 ((fun x i => Host.gather gather_S400000x128_S400000x1_S400000x128_1_0_n_n_0_1_1128 x i) : (⟨S400000x128, .f32⟩ : BufTy).Contents (Elt F) → (⟨S400000x1, .i32⟩ : BufTy).Contents (Elt F) → (⟨S400000x128, .f32⟩ : BufTy).Contents (Elt F)),
    nullary main_cst_10 (constant S_ .f32 0x00000000#32),
    unary main_cst_10 main_v39 (broadcastInDim S100000x128 ![] bcast_S_S100000x128 : (⟨S_, .f32⟩ : BufTy).Contents (Elt F) → (⟨S100000x128, .f32⟩ : BufTy).Contents (Elt F)),
    unary main_arg5 main_v40 (broadcastInDim S400000x1 ![0] bcast_S400000_S400000x1_0 : (⟨S400000, .i32⟩ : BufTy).Contents (Elt F) → (⟨S400000x1, .i32⟩ : BufTy).Contents (Elt F)),
    ternary main_v39 main_v40 main_v38 main_v41 ((fun x i u => Host.scatterAdd scatter_S100000x128_S400000x1_S400000x128_1_0_0_1 x i u) : (⟨S100000x128, .f32⟩ : BufTy).Contents (Elt F) → (⟨S400000x1, .i32⟩ : BufTy).Contents (Elt F) → (⟨S400000x128, .f32⟩ : BufTy).Contents (Elt F) → (⟨S100000x128, .f32⟩ : BufTy).Contents (Elt F)),
    nullary main_cst_11 (constant S_ .f32 0x3F800000#32),
    unary main_cst_11 main_v42 (broadcastInDim S400000x1 ![] bcast_S_S400000x1 : (⟨S_, .f32⟩ : BufTy).Contents (Elt F) → (⟨S400000x1, .f32⟩ : BufTy).Contents (Elt F)),
    nullary main_cst_12 (constant S_ .f32 0x00000000#32),
    unary main_cst_12 main_v43 (broadcastInDim S100000x1 ![] bcast_S_S100000x1 : (⟨S_, .f32⟩ : BufTy).Contents (Elt F) → (⟨S100000x1, .f32⟩ : BufTy).Contents (Elt F)),
    unary main_arg5 main_v44 (broadcastInDim S400000x1 ![0] bcast_S400000_S400000x1_0 : (⟨S400000, .i32⟩ : BufTy).Contents (Elt F) → (⟨S400000x1, .i32⟩ : BufTy).Contents (Elt F)),
    ternary main_v43 main_v44 main_v42 main_v45 ((fun x i u => Host.scatterAdd scatter_S100000x1_S400000x1_S400000x1_1_0_0_1 x i u) : (⟨S100000x1, .f32⟩ : BufTy).Contents (Elt F) → (⟨S400000x1, .i32⟩ : BufTy).Contents (Elt F) → (⟨S400000x1, .f32⟩ : BufTy).Contents (Elt F) → (⟨S100000x1, .f32⟩ : BufTy).Contents (Elt F)),
    nullary main_cst_13 (constant S_ .f32 0x3F800000#32),
    unary main_cst_13 main_v46 (broadcastInDim S100000x1 ![] bcast_S_S100000x1 : (⟨S_, .f32⟩ : BufTy).Contents (Elt F) → (⟨S100000x1, .f32⟩ : BufTy).Contents (Elt F)),
    binary main_v45 main_v46 main_v47 (maximumf : (⟨S100000x1, .f32⟩ : BufTy).Contents (Elt F) → (⟨S100000x1, .f32⟩ : BufTy).Contents (Elt F) → (⟨S100000x1, .f32⟩ : BufTy).Contents (Elt F)),
    unary main_v47 main_v48 (broadcastInDim S100000x128 ![0, 1] bcast_S100000x1_S100000x128_0_1 : (⟨S100000x1, .f32⟩ : BufTy).Contents (Elt F) → (⟨S100000x128, .f32⟩ : BufTy).Contents (Elt F)),
    binary main_v41 main_v48 main_v49 (Host.divf : (⟨S100000x128, .f32⟩ : BufTy).Contents (Elt F) → (⟨S100000x128, .f32⟩ : BufTy).Contents (Elt F) → (⟨S100000x128, .f32⟩ : BufTy).Contents (Elt F)),
    unary main_arg8 main_v50 ((extractStridedSlice S1x1x128x128 ![0, 0, 0, 0] · slices_S3x2x128x128_S1x1x128x128_0_0_0_0) : (⟨S3x2x128x128, .f32⟩ : BufTy).Contents (Elt F) → (⟨S1x1x128x128, .f32⟩ : BufTy).Contents (Elt F)),
    reshape main_v50 main_v51 rfl shapeCasts_S1x1x128x128_S128x128,
    binary main_v31 main_v51 main_v52 ((fun l r => Host.dotGeneral dot_S400000x128_S128x128_S400000x128_1_0_0_1_n_n none l r) : (⟨S400000x128, .f32⟩ : BufTy).Contents (Elt F) → (⟨S128x128, .f32⟩ : BufTy).Contents (Elt F) → (⟨S400000x128, .f32⟩ : BufTy).Contents (Elt F)),
    unary main_arg9 main_v53 ((extractStridedSlice S1x1x128 ![0, 0, 0] · slices_S3x2x128_S1x1x128_0_0_0) : (⟨S3x2x128, .f32⟩ : BufTy).Contents (Elt F) → (⟨S1x1x128, .f32⟩ : BufTy).Contents (Elt F)),
    reshape main_v53 main_v54 rfl shapeCasts_S1x1x128_S128,
    unary main_v54 main_v55 (broadcastInDim S1x128 ![1] bcast_S128_S1x128_1 : (⟨S128, .f32⟩ : BufTy).Contents (Elt F) → (⟨S1x128, .f32⟩ : BufTy).Contents (Elt F)),
    unary main_v55 main_v56 (broadcastInDim S400000x128 ![0, 1] bcast_S1x128_S400000x128_0_1 : (⟨S1x128, .f32⟩ : BufTy).Contents (Elt F) → (⟨S400000x128, .f32⟩ : BufTy).Contents (Elt F)),
    binary main_v52 main_v56 main_v57 (addf : (⟨S400000x128, .f32⟩ : BufTy).Contents (Elt F) → (⟨S400000x128, .f32⟩ : BufTy).Contents (Elt F) → (⟨S400000x128, .f32⟩ : BufTy).Contents (Elt F)),
    unary main_arg10 main_v58 ((extractStridedSlice S1x1x128x128 ![0, 0, 0, 0] · slices_S3x2x128x128_S1x1x128x128_0_0_0_0) : (⟨S3x2x128x128, .f32⟩ : BufTy).Contents (Elt F) → (⟨S1x1x128x128, .f32⟩ : BufTy).Contents (Elt F)),
    reshape main_v58 main_v59 rfl shapeCasts_S1x1x128x128_S128x128,
    binary main_v13 main_v59 main_v60 ((fun l r => Host.dotGeneral dot_S400000x128_S128x128_S400000x128_1_0_0_1_n_n none l r) : (⟨S400000x128, .f32⟩ : BufTy).Contents (Elt F) → (⟨S128x128, .f32⟩ : BufTy).Contents (Elt F) → (⟨S400000x128, .f32⟩ : BufTy).Contents (Elt F)),
    binary main_v57 main_v60 main_v61 (addf : (⟨S400000x128, .f32⟩ : BufTy).Contents (Elt F) → (⟨S400000x128, .f32⟩ : BufTy).Contents (Elt F) → (⟨S400000x128, .f32⟩ : BufTy).Contents (Elt F)),
    unary main_arg8 main_v62 ((extractStridedSlice S1x1x128x128 ![0, 1, 0, 0] · slices_S3x2x128x128_S1x1x128x128_0_1_0_0) : (⟨S3x2x128x128, .f32⟩ : BufTy).Contents (Elt F) → (⟨S1x1x128x128, .f32⟩ : BufTy).Contents (Elt F)),
    reshape main_v62 main_v63 rfl shapeCasts_S1x1x128x128_S128x128,
    binary main_v49 main_v63 main_v64 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg9 main_v65 ((extractStridedSlice S1x1x128 ![0, 1, 0] · slices_S3x2x128_S1x1x128_0_1_0) : (⟨S3x2x128, .f32⟩ : BufTy).Contents (Elt F) → (⟨S1x1x128, .f32⟩ : BufTy).Contents (Elt F)),
    reshape main_v65 main_v66 rfl shapeCasts_S1x1x128_S128,
    unary main_v66 main_v67 (broadcastInDim S1x128 ![1] bcast_S128_S1x128_1 : (⟨S128, .f32⟩ : BufTy).Contents (Elt F) → (⟨S1x128, .f32⟩ : BufTy).Contents (Elt F)),
    unary main_v67 main_v68 (broadcastInDim S100000x128 ![0, 1] bcast_S1x128_S100000x128_0_1 : (⟨S1x128, .f32⟩ : BufTy).Contents (Elt F) → (⟨S100000x128, .f32⟩ : BufTy).Contents (Elt F)),
    binary main_v64 main_v68 main_v69 (addf : (⟨S100000x128, .f32⟩ : BufTy).Contents (Elt F) → (⟨S100000x128, .f32⟩ : BufTy).Contents (Elt F) → (⟨S100000x128, .f32⟩ : BufTy).Contents (Elt F)),
    unary main_arg10 main_v70 ((extractStridedSlice S1x1x128x128 ![0, 1, 0, 0] · slices_S3x2x128x128_S1x1x128x128_0_1_0_0) : (⟨S3x2x128x128, .f32⟩ : BufTy).Contents (Elt F) → (⟨S1x1x128x128, .f32⟩ : BufTy).Contents (Elt F)),
    reshape main_v70 main_v71 rfl shapeCasts_S1x1x128x128_S128x128,
    binary main_v6 main_v71 main_v72 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v69 main_v72 main_v73 (addf : (⟨S100000x128, .f32⟩ : BufTy).Contents (Elt F) → (⟨S100000x128, .f32⟩ : BufTy).Contents (Elt F) → (⟨S100000x128, .f32⟩ : BufTy).Contents (Elt F)),
    unary main_arg11 main_v74 ((extractStridedSlice S1x1x128 ![0, 0, 0] · slices_S3x2x128_S1x1x128_0_0_0) : (⟨S3x2x128, .f32⟩ : BufTy).Contents (Elt F) → (⟨S1x1x128, .f32⟩ : BufTy).Contents (Elt F)),
    reshape main_v74 main_v75 rfl shapeCasts_S1x1x128_S128,
    unary main_arg12 main_v76 ((extractStridedSlice S1x1x128 ![0, 0, 0] · slices_S3x2x128_S1x1x128_0_0_0) : (⟨S3x2x128, .f32⟩ : BufTy).Contents (Elt F) → (⟨S1x1x128, .f32⟩ : BufTy).Contents (Elt F)),
    reshape main_v76 main_v77 rfl shapeCasts_S1x1x128_S128,
    unary main_arg13 main_v78 ((extractStridedSlice S1x1x128 ![0, 0, 0] · slices_S3x2x128_S1x1x128_0_0_0) : (⟨S3x2x128, .f32⟩ : BufTy).Contents (Elt F) → (⟨S1x1x128, .f32⟩ : BufTy).Contents (Elt F)),
    reshape main_v78 main_v79 rfl shapeCasts_S1x1x128_S128,
    unary main_arg14 main_v80 ((extractStridedSlice S1x1x128 ![0, 0, 0] · slices_S3x2x128_S1x1x128_0_0_0) : (⟨S3x2x128, .f32⟩ : BufTy).Contents (Elt F) → (⟨S1x1x128, .f32⟩ : BufTy).Contents (Elt F)),
    reshape main_v80 main_v81 rfl shapeCasts_S1x1x128_S128,
    unary main_v79 main_v82 (broadcastInDim S1x128 ![1] bcast_S128_S1x128_1 : (⟨S128, .f32⟩ : BufTy).Contents (Elt F) → (⟨S1x128, .f32⟩ : BufTy).Contents (Elt F)),
    unary main_v82 main_v83 (broadcastInDim S100000x128 ![0, 1] bcast_S1x128_S100000x128_0_1 : (⟨S1x128, .f32⟩ : BufTy).Contents (Elt F) → (⟨S100000x128, .f32⟩ : BufTy).Contents (Elt F)),
    binary main_v73 main_v83 main_v84 (subf : (⟨S100000x128, .f32⟩ : BufTy).Contents (Elt F) → (⟨S100000x128, .f32⟩ : BufTy).Contents (Elt F) → (⟨S100000x128, .f32⟩ : BufTy).Contents (Elt F)),
    nullary main_cst_14 (constant S_ .f32 0x3727C5AC#32),
    unary main_cst_14 main_v85 (broadcastInDim S128 ![] bcast_S_S128 : (⟨S_, .f32⟩ : BufTy).Contents (Elt F) → (⟨S128, .f32⟩ : BufTy).Contents (Elt F)),
    binary main_v81 main_v85 main_v86 (addf : (⟨S128, .f32⟩ : BufTy).Contents (Elt F) → (⟨S128, .f32⟩ : BufTy).Contents (Elt F) → (⟨S128, .f32⟩ : BufTy).Contents (Elt F)),
    unary main_v86 main_v87 (Host.rsqrt : (⟨S128, .f32⟩ : BufTy).Contents (Elt F) → (⟨S128, .f32⟩ : BufTy).Contents (Elt F)),
    unary main_v87 main_v88 (broadcastInDim S1x128 ![1] bcast_S128_S1x128_1 : (⟨S128, .f32⟩ : BufTy).Contents (Elt F) → (⟨S1x128, .f32⟩ : BufTy).Contents (Elt F)),
    unary main_v88 main_v89 (broadcastInDim S100000x128 ![0, 1] bcast_S1x128_S100000x128_0_1 : (⟨S1x128, .f32⟩ : BufTy).Contents (Elt F) → (⟨S100000x128, .f32⟩ : BufTy).Contents (Elt F)),
    binary main_v84 main_v89 main_v90 (mulf : (⟨S100000x128, .f32⟩ : BufTy).Contents (Elt F) → (⟨S100000x128, .f32⟩ : BufTy).Contents (Elt F) → (⟨S100000x128, .f32⟩ : BufTy).Contents (Elt F)),
    unary main_v75 main_v91 (broadcastInDim S1x128 ![1] bcast_S128_S1x128_1 : (⟨S128, .f32⟩ : BufTy).Contents (Elt F) → (⟨S1x128, .f32⟩ : BufTy).Contents (Elt F)),
    unary main_v91 main_v92 (broadcastInDim S100000x128 ![0, 1] bcast_S1x128_S100000x128_0_1 : (⟨S1x128, .f32⟩ : BufTy).Contents (Elt F) → (⟨S100000x128, .f32⟩ : BufTy).Contents (Elt F)),
    binary main_v90 main_v92 main_v93 (mulf : (⟨S100000x128, .f32⟩ : BufTy).Contents (Elt F) → (⟨S100000x128, .f32⟩ : BufTy).Contents (Elt F) → (⟨S100000x128, .f32⟩ : BufTy).Contents (Elt F)),
    unary main_v77 main_v94 (broadcastInDim S1x128 ![1] bcast_S128_S1x128_1 : (⟨S128, .f32⟩ : BufTy).Contents (Elt F) → (⟨S1x128, .f32⟩ : BufTy).Contents (Elt F)),
    unary main_v94 main_v95 (broadcastInDim S100000x128 ![0, 1] bcast_S1x128_S100000x128_0_1 : (⟨S1x128, .f32⟩ : BufTy).Contents (Elt F) → (⟨S100000x128, .f32⟩ : BufTy).Contents (Elt F)),
    binary main_v93 main_v95 main_v96 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v96) (TRef.of (T := ⟨S100000x128, .f32⟩) main_call0_v0) (TRef.of (T := ⟨S100000x128, .f32⟩) main_v97) maximumf,
    unary main_arg11 main_v98 ((extractStridedSlice S1x1x128 ![0, 1, 0] · slices_S3x2x128_S1x1x128_0_1_0) : (⟨S3x2x128, .f32⟩ : BufTy).Contents (Elt F) → (⟨S1x1x128, .f32⟩ : BufTy).Contents (Elt F)),
    reshape main_v98 main_v99 rfl shapeCasts_S1x1x128_S128,
    unary main_arg12 main_v100 ((extractStridedSlice S1x1x128 ![0, 1, 0] · slices_S3x2x128_S1x1x128_0_1_0) : (⟨S3x2x128, .f32⟩ : BufTy).Contents (Elt F) → (⟨S1x1x128, .f32⟩ : BufTy).Contents (Elt F)),
    reshape main_v100 main_v101 rfl shapeCasts_S1x1x128_S128,
    unary main_arg13 main_v102 ((extractStridedSlice S1x1x128 ![0, 1, 0] · slices_S3x2x128_S1x1x128_0_1_0) : (⟨S3x2x128, .f32⟩ : BufTy).Contents (Elt F) → (⟨S1x1x128, .f32⟩ : BufTy).Contents (Elt F)),
    reshape main_v102 main_v103 rfl shapeCasts_S1x1x128_S128,
    unary main_arg14 main_v104 ((extractStridedSlice S1x1x128 ![0, 1, 0] · slices_S3x2x128_S1x1x128_0_1_0) : (⟨S3x2x128, .f32⟩ : BufTy).Contents (Elt F) → (⟨S1x1x128, .f32⟩ : BufTy).Contents (Elt F)),
    reshape main_v104 main_v105 rfl shapeCasts_S1x1x128_S128,
    unary main_v103 main_v106 (broadcastInDim S1x128 ![1] bcast_S128_S1x128_1 : (⟨S128, .f32⟩ : BufTy).Contents (Elt F) → (⟨S1x128, .f32⟩ : BufTy).Contents (Elt F)),
    unary main_v106 main_v107 (broadcastInDim S400000x128 ![0, 1] bcast_S1x128_S400000x128_0_1 : (⟨S1x128, .f32⟩ : BufTy).Contents (Elt F) → (⟨S400000x128, .f32⟩ : BufTy).Contents (Elt F)),
    binary main_v61 main_v107 main_v108 (subf : (⟨S400000x128, .f32⟩ : BufTy).Contents (Elt F) → (⟨S400000x128, .f32⟩ : BufTy).Contents (Elt F) → (⟨S400000x128, .f32⟩ : BufTy).Contents (Elt F)),
    nullary main_cst_15 (constant S_ .f32 0x3727C5AC#32),
    unary main_cst_15 main_v109 (broadcastInDim S128 ![] bcast_S_S128 : (⟨S_, .f32⟩ : BufTy).Contents (Elt F) → (⟨S128, .f32⟩ : BufTy).Contents (Elt F)),
    binary main_v105 main_v109 main_v110 (addf : (⟨S128, .f32⟩ : BufTy).Contents (Elt F) → (⟨S128, .f32⟩ : BufTy).Contents (Elt F) → (⟨S128, .f32⟩ : BufTy).Contents (Elt F)),
    unary main_v110 main_v111 (Host.rsqrt : (⟨S128, .f32⟩ : BufTy).Contents (Elt F) → (⟨S128, .f32⟩ : BufTy).Contents (Elt F)),
    unary main_v111 main_v112 (broadcastInDim S1x128 ![1] bcast_S128_S1x128_1 : (⟨S128, .f32⟩ : BufTy).Contents (Elt F) → (⟨S1x128, .f32⟩ : BufTy).Contents (Elt F)),
    unary main_v112 main_v113 (broadcastInDim S400000x128 ![0, 1] bcast_S1x128_S400000x128_0_1 : (⟨S1x128, .f32⟩ : BufTy).Contents (Elt F) → (⟨S400000x128, .f32⟩ : BufTy).Contents (Elt F)),
    binary main_v108 main_v113 main_v114 (mulf : (⟨S400000x128, .f32⟩ : BufTy).Contents (Elt F) → (⟨S400000x128, .f32⟩ : BufTy).Contents (Elt F) → (⟨S400000x128, .f32⟩ : BufTy).Contents (Elt F)),
    unary main_v99 main_v115 (broadcastInDim S1x128 ![1] bcast_S128_S1x128_1 : (⟨S128, .f32⟩ : BufTy).Contents (Elt F) → (⟨S1x128, .f32⟩ : BufTy).Contents (Elt F)),
    unary main_v115 main_v116 (broadcastInDim S400000x128 ![0, 1] bcast_S1x128_S400000x128_0_1 : (⟨S1x128, .f32⟩ : BufTy).Contents (Elt F) → (⟨S400000x128, .f32⟩ : BufTy).Contents (Elt F)),
    binary main_v114 main_v116 main_v117 (mulf : (⟨S400000x128, .f32⟩ : BufTy).Contents (Elt F) → (⟨S400000x128, .f32⟩ : BufTy).Contents (Elt F) → (⟨S400000x128, .f32⟩ : BufTy).Contents (Elt F)),
    unary main_v101 main_v118 (broadcastInDim S1x128 ![1] bcast_S128_S1x128_1 : (⟨S128, .f32⟩ : BufTy).Contents (Elt F) → (⟨S1x128, .f32⟩ : BufTy).Contents (Elt F)),
    unary main_v118 main_v119 (broadcastInDim S400000x128 ![0, 1] bcast_S1x128_S400000x128_0_1 : (⟨S1x128, .f32⟩ : BufTy).Contents (Elt F) → (⟨S400000x128, .f32⟩ : BufTy).Contents (Elt F)),
    binary main_v117 main_v119 main_v120 (addf : (⟨S400000x128, .f32⟩ : BufTy).Contents (Elt F) → (⟨S400000x128, .f32⟩ : BufTy).Contents (Elt F) → (⟨S400000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S400000x128, .f32⟩) main_call1_v0) (broadcastInDim S400000x128 ![] bcast_S_S400000x128),
    TRef.binary (TRef.of (T := ⟨S400000x128, .f32⟩) main_v120) (TRef.of (T := ⟨S400000x128, .f32⟩) main_call1_v0) (TRef.of (T := ⟨S400000x128, .f32⟩) main_v121) maximumf ]

set_option maxRecDepth 8192 in
theorem ops1_sub : (ops1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., binary_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

theorem ops1_fresh : (ops1 : List (HloOp τ sig (Elt F))).Forall fun op => op.fresh = ∅ := by
  simp only [List.Forall]; repeat' constructor

set_option maxHeartbeats 4000000 in
/-- Layer 1: the two segment means and the two node transforms. (126 operations, in the program's order) -/
abbrev ops2 : List (HloOp τ sig (Elt F)) :=
  [ nullary main_c_16 (constantI S_ 32 0#32),
    unary main_c_16 main_v122 (broadcastInDim S400000 ![] bcast_S_S400000 : (⟨S_, .i32⟩ : BufTy).Contents (Elt F) → (⟨S400000, .i32⟩ : BufTy).Contents (Elt F)),
    binary main_arg2 main_v122 main_v123 (cmpi .slt : (⟨S400000, .i32⟩ : BufTy).Contents (Elt F) → (⟨S400000, .i32⟩ : BufTy).Contents (Elt F) → (⟨S400000, .i1⟩ : BufTy).Contents (Elt F)),
    nullary main_c_17 (constantI S_ 32 100000#32),
    unary main_c_17 main_v124 (broadcastInDim S400000 ![] bcast_S_S400000 : (⟨S_, .i32⟩ : BufTy).Contents (Elt F) → (⟨S400000, .i32⟩ : BufTy).Contents (Elt F)),
    binary main_arg2 main_v124 main_v125 (addi : (⟨S400000, .i32⟩ : BufTy).Contents (Elt F) → (⟨S400000, .i32⟩ : BufTy).Contents (Elt F) → (⟨S400000, .i32⟩ : BufTy).Contents (Elt F)),
    ternary main_v123 main_v125 main_arg2 main_v126 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v126 main_v127 (broadcastInDim S400000x1 ![0] bcast_S400000_S400000x1_0 : (⟨S400000, .i32⟩ : BufTy).Contents (Elt F) → (⟨S400000x1, .i32⟩ : BufTy).Contents (Elt F)),
    binary main_v97 main_v127 main_v128 ((fun x i => Host.gather gather_S100000x128_S400000x1_S400000x128_1_0_n_n_0_1_1128 x i) : (⟨S100000x128, .f32⟩ : BufTy).Contents (Elt F) → (⟨S400000x1, .i32⟩ : BufTy).Contents (Elt F) → (⟨S400000x128, .f32⟩ : BufTy).Contents (Elt F)),
    nullary main_cst_18 (constant S_ .f32 0x00000000#32),
    unary main_cst_18 main_v129 (broadcastInDim S400000x128 ![] bcast_S_S400000x128 : (⟨S_, .f32⟩ : BufTy).Contents (Elt F) → (⟨S400000x128, .f32⟩ : BufTy).Contents (Elt F)),
    unary main_arg3 main_v130 (broadcastInDim S400000x1 ![0] bcast_S400000_S400000x1_0 : (⟨S400000, .i32⟩ : BufTy).Contents (Elt F) → (⟨S400000x1, .i32⟩ : BufTy).Contents (Elt F)),
    ternary main_v129 main_v130 main_v128 main_v131 ((fun x i u => Host.scatterAdd scatter_S400000x128_S400000x1_S400000x128_1_0_0_1 x i u) : (⟨S400000x128, .f32⟩ : BufTy).Contents (Elt F) → (⟨S400000x1, .i32⟩ : BufTy).Contents (Elt F) → (⟨S400000x128, .f32⟩ : BufTy).Contents (Elt F) → (⟨S400000x128, .f32⟩ : BufTy).Contents (Elt F)),
    nullary main_cst_19 (constant S_ .f32 0x3F800000#32),
    unary main_cst_19 main_v132 (broadcastInDim S400000x1 ![] bcast_S_S400000x1 : (⟨S_, .f32⟩ : BufTy).Contents (Elt F) → (⟨S400000x1, .f32⟩ : BufTy).Contents (Elt F)),
    nullary main_cst_20 (constant S_ .f32 0x00000000#32),
    unary main_cst_20 main_v133 (broadcastInDim S400000x1 ![] bcast_S_S400000x1 : (⟨S_, .f32⟩ : BufTy).Contents (Elt F) → (⟨S400000x1, .f32⟩ : BufTy).Contents (Elt F)),
    unary main_arg3 main_v134 (broadcastInDim S400000x1 ![0] bcast_S400000_S400000x1_0 : (⟨S400000, .i32⟩ : BufTy).Contents (Elt F) → (⟨S400000x1, .i32⟩ : BufTy).Contents (Elt F)),
    ternary main_v133 main_v134 main_v132 main_v135 ((fun x i u => Host.scatterAdd scatter_S400000x1_S400000x1_S400000x1_1_0_0_1 x i u) : (⟨S400000x1, .f32⟩ : BufTy).Contents (Elt F) → (⟨S400000x1, .i32⟩ : BufTy).Contents (Elt F) → (⟨S400000x1, .f32⟩ : BufTy).Contents (Elt F) → (⟨S400000x1, .f32⟩ : BufTy).Contents (Elt F)),
    nullary main_cst_21 (constant S_ .f32 0x3F800000#32),
    unary main_cst_21 main_v136 (broadcastInDim S400000x1 ![] bcast_S_S400000x1 : (⟨S_, .f32⟩ : BufTy).Contents (Elt F) → (⟨S400000x1, .f32⟩ : BufTy).Contents (Elt F)),
    binary main_v135 main_v136 main_v137 (maximumf : (⟨S400000x1, .f32⟩ : BufTy).Contents (Elt F) → (⟨S400000x1, .f32⟩ : BufTy).Contents (Elt F) → (⟨S400000x1, .f32⟩ : BufTy).Contents (Elt F)),
    unary main_v137 main_v138 (broadcastInDim S400000x128 ![0, 1] bcast_S400000x1_S400000x128_0_1 : (⟨S400000x1, .f32⟩ : BufTy).Contents (Elt F) → (⟨S400000x128, .f32⟩ : BufTy).Contents (Elt F)),
    binary main_v131 main_v138 main_v139 (Host.divf : (⟨S400000x128, .f32⟩ : BufTy).Contents (Elt F) → (⟨S400000x128, .f32⟩ : BufTy).Contents (Elt F) → (⟨S400000x128, .f32⟩ : BufTy).Contents (Elt F)),
    nullary main_c_22 (constantI S_ 32 0#32),
    unary main_c_22 main_v140 (broadcastInDim S400000 ![] bcast_S_S400000 : (⟨S_, .i32⟩ : BufTy).Contents (Elt F) → (⟨S400000, .i32⟩ : BufTy).Contents (Elt F)),
    binary main_arg4 main_v140 main_v141 (cmpi .slt : (⟨S400000, .i32⟩ : BufTy).Contents (Elt F) → (⟨S400000, .i32⟩ : BufTy).Contents (Elt F) → (⟨S400000, .i1⟩ : BufTy).Contents (Elt F)),
    nullary main_c_23 (constantI S_ 32 400000#32),
    unary main_c_23 main_v142 (broadcastInDim S400000 ![] bcast_S_S400000 : (⟨S_, .i32⟩ : BufTy).Contents (Elt F) → (⟨S400000, .i32⟩ : BufTy).Contents (Elt F)),
    binary main_arg4 main_v142 main_v143 (addi : (⟨S400000, .i32⟩ : BufTy).Contents (Elt F) → (⟨S400000, .i32⟩ : BufTy).Contents (Elt F) → (⟨S400000, .i32⟩ : BufTy).Contents (Elt F)),
    ternary main_v141 main_v143 main_arg4 main_v144 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v144 main_v145 (broadcastInDim S400000x1 ![0] bcast_S400000_S400000x1_0 : (⟨S400000, .i32⟩ : BufTy).Contents (Elt F) → (⟨S400000x1, .i32⟩ : BufTy).Contents (Elt F)),
    binary main_v121 main_v145 main_v146 ((fun x i => Host.gather gather_S400000x128_S400000x1_S400000x128_1_0_n_n_0_1_1128 x i) : (⟨S400000x128, .f32⟩ : BufTy).Contents (Elt F) → (⟨S400000x1, .i32⟩ : BufTy).Contents (Elt F) → (⟨S400000x128, .f32⟩ : BufTy).Contents (Elt F)),
    nullary main_cst_24 (constant S_ .f32 0x00000000#32),
    unary main_cst_24 main_v147 (broadcastInDim S100000x128 ![] bcast_S_S100000x128 : (⟨S_, .f32⟩ : BufTy).Contents (Elt F) → (⟨S100000x128, .f32⟩ : BufTy).Contents (Elt F)),
    unary main_arg5 main_v148 (broadcastInDim S400000x1 ![0] bcast_S400000_S400000x1_0 : (⟨S400000, .i32⟩ : BufTy).Contents (Elt F) → (⟨S400000x1, .i32⟩ : BufTy).Contents (Elt F)),
    ternary main_v147 main_v148 main_v146 main_v149 ((fun x i u => Host.scatterAdd scatter_S100000x128_S400000x1_S400000x128_1_0_0_1 x i u) : (⟨S100000x128, .f32⟩ : BufTy).Contents (Elt F) → (⟨S400000x1, .i32⟩ : BufTy).Contents (Elt F) → (⟨S400000x128, .f32⟩ : BufTy).Contents (Elt F) → (⟨S100000x128, .f32⟩ : BufTy).Contents (Elt F)),
    nullary main_cst_25 (constant S_ .f32 0x3F800000#32),
    unary main_cst_25 main_v150 (broadcastInDim S400000x1 ![] bcast_S_S400000x1 : (⟨S_, .f32⟩ : BufTy).Contents (Elt F) → (⟨S400000x1, .f32⟩ : BufTy).Contents (Elt F)),
    nullary main_cst_26 (constant S_ .f32 0x00000000#32),
    unary main_cst_26 main_v151 (broadcastInDim S100000x1 ![] bcast_S_S100000x1 : (⟨S_, .f32⟩ : BufTy).Contents (Elt F) → (⟨S100000x1, .f32⟩ : BufTy).Contents (Elt F)),
    unary main_arg5 main_v152 (broadcastInDim S400000x1 ![0] bcast_S400000_S400000x1_0 : (⟨S400000, .i32⟩ : BufTy).Contents (Elt F) → (⟨S400000x1, .i32⟩ : BufTy).Contents (Elt F)),
    ternary main_v151 main_v152 main_v150 main_v153 ((fun x i u => Host.scatterAdd scatter_S100000x1_S400000x1_S400000x1_1_0_0_1 x i u) : (⟨S100000x1, .f32⟩ : BufTy).Contents (Elt F) → (⟨S400000x1, .i32⟩ : BufTy).Contents (Elt F) → (⟨S400000x1, .f32⟩ : BufTy).Contents (Elt F) → (⟨S100000x1, .f32⟩ : BufTy).Contents (Elt F)),
    nullary main_cst_27 (constant S_ .f32 0x3F800000#32),
    unary main_cst_27 main_v154 (broadcastInDim S100000x1 ![] bcast_S_S100000x1 : (⟨S_, .f32⟩ : BufTy).Contents (Elt F) → (⟨S100000x1, .f32⟩ : BufTy).Contents (Elt F)),
    binary main_v153 main_v154 main_v155 (maximumf : (⟨S100000x1, .f32⟩ : BufTy).Contents (Elt F) → (⟨S100000x1, .f32⟩ : BufTy).Contents (Elt F) → (⟨S100000x1, .f32⟩ : BufTy).Contents (Elt F)),
    unary main_v155 main_v156 (broadcastInDim S100000x128 ![0, 1] bcast_S100000x1_S100000x128_0_1 : (⟨S100000x1, .f32⟩ : BufTy).Contents (Elt F) → (⟨S100000x128, .f32⟩ : BufTy).Contents (Elt F)),
    binary main_v149 main_v156 main_v157 (Host.divf : (⟨S100000x128, .f32⟩ : BufTy).Contents (Elt F) → (⟨S100000x128, .f32⟩ : BufTy).Contents (Elt F) → (⟨S100000x128, .f32⟩ : BufTy).Contents (Elt F)),
    unary main_arg8 main_v158 ((extractStridedSlice S1x1x128x128 ![1, 0, 0, 0] · slices_S3x2x128x128_S1x1x128x128_1_0_0_0) : (⟨S3x2x128x128, .f32⟩ : BufTy).Contents (Elt F) → (⟨S1x1x128x128, .f32⟩ : BufTy).Contents (Elt F)),
    reshape main_v158 main_v159 rfl shapeCasts_S1x1x128x128_S128x128,
    binary main_v139 main_v159 main_v160 ((fun l r => Host.dotGeneral dot_S400000x128_S128x128_S400000x128_1_0_0_1_n_n none l r) : (⟨S400000x128, .f32⟩ : BufTy).Contents (Elt F) → (⟨S128x128, .f32⟩ : BufTy).Contents (Elt F) → (⟨S400000x128, .f32⟩ : BufTy).Contents (Elt F)),
    unary main_arg9 main_v161 ((extractStridedSlice S1x1x128 ![1, 0, 0] · slices_S3x2x128_S1x1x128_1_0_0) : (⟨S3x2x128, .f32⟩ : BufTy).Contents (Elt F) → (⟨S1x1x128, .f32⟩ : BufTy).Contents (Elt F)),
    reshape main_v161 main_v162 rfl shapeCasts_S1x1x128_S128,
    unary main_v162 main_v163 (broadcastInDim S1x128 ![1] bcast_S128_S1x128_1 : (⟨S128, .f32⟩ : BufTy).Contents (Elt F) → (⟨S1x128, .f32⟩ : BufTy).Contents (Elt F)),
    unary main_v163 main_v164 (broadcastInDim S400000x128 ![0, 1] bcast_S1x128_S400000x128_0_1 : (⟨S1x128, .f32⟩ : BufTy).Contents (Elt F) → (⟨S400000x128, .f32⟩ : BufTy).Contents (Elt F)),
    binary main_v160 main_v164 main_v165 (addf : (⟨S400000x128, .f32⟩ : BufTy).Contents (Elt F) → (⟨S400000x128, .f32⟩ : BufTy).Contents (Elt F) → (⟨S400000x128, .f32⟩ : BufTy).Contents (Elt F)),
    unary main_arg10 main_v166 ((extractStridedSlice S1x1x128x128 ![1, 0, 0, 0] · slices_S3x2x128x128_S1x1x128x128_1_0_0_0) : (⟨S3x2x128x128, .f32⟩ : BufTy).Contents (Elt F) → (⟨S1x1x128x128, .f32⟩ : BufTy).Contents (Elt F)),
    reshape main_v166 main_v167 rfl shapeCasts_S1x1x128x128_S128x128,
    binary main_v121 main_v167 main_v168 ((fun l r => Host.dotGeneral dot_S400000x128_S128x128_S400000x128_1_0_0_1_n_n none l r) : (⟨S400000x128, .f32⟩ : BufTy).Contents (Elt F) → (⟨S128x128, .f32⟩ : BufTy).Contents (Elt F) → (⟨S400000x128, .f32⟩ : BufTy).Contents (Elt F)),
    binary main_v165 main_v168 main_v169 (addf : (⟨S400000x128, .f32⟩ : BufTy).Contents (Elt F) → (⟨S400000x128, .f32⟩ : BufTy).Contents (Elt F) → (⟨S400000x128, .f32⟩ : BufTy).Contents (Elt F)),
    unary main_arg8 main_v170 ((extractStridedSlice S1x1x128x128 ![1, 1, 0, 0] · slices_S3x2x128x128_S1x1x128x128_1_1_0_0) : (⟨S3x2x128x128, .f32⟩ : BufTy).Contents (Elt F) → (⟨S1x1x128x128, .f32⟩ : BufTy).Contents (Elt F)),
    reshape main_v170 main_v171 rfl shapeCasts_S1x1x128x128_S128x128,
    binary main_v157 main_v171 main_v172 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg9 main_v173 ((extractStridedSlice S1x1x128 ![1, 1, 0] · slices_S3x2x128_S1x1x128_1_1_0) : (⟨S3x2x128, .f32⟩ : BufTy).Contents (Elt F) → (⟨S1x1x128, .f32⟩ : BufTy).Contents (Elt F)),
    reshape main_v173 main_v174 rfl shapeCasts_S1x1x128_S128,
    unary main_v174 main_v175 (broadcastInDim S1x128 ![1] bcast_S128_S1x128_1 : (⟨S128, .f32⟩ : BufTy).Contents (Elt F) → (⟨S1x128, .f32⟩ : BufTy).Contents (Elt F)),
    unary main_v175 main_v176 (broadcastInDim S100000x128 ![0, 1] bcast_S1x128_S100000x128_0_1 : (⟨S1x128, .f32⟩ : BufTy).Contents (Elt F) → (⟨S100000x128, .f32⟩ : BufTy).Contents (Elt F)),
    binary main_v172 main_v176 main_v177 (addf : (⟨S100000x128, .f32⟩ : BufTy).Contents (Elt F) → (⟨S100000x128, .f32⟩ : BufTy).Contents (Elt F) → (⟨S100000x128, .f32⟩ : BufTy).Contents (Elt F)),
    unary main_arg10 main_v178 ((extractStridedSlice S1x1x128x128 ![1, 1, 0, 0] · slices_S3x2x128x128_S1x1x128x128_1_1_0_0) : (⟨S3x2x128x128, .f32⟩ : BufTy).Contents (Elt F) → (⟨S1x1x128x128, .f32⟩ : BufTy).Contents (Elt F)),
    reshape main_v178 main_v179 rfl shapeCasts_S1x1x128x128_S128x128,
    binary main_v97 main_v179 main_v180 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v177 main_v180 main_v181 (addf : (⟨S100000x128, .f32⟩ : BufTy).Contents (Elt F) → (⟨S100000x128, .f32⟩ : BufTy).Contents (Elt F) → (⟨S100000x128, .f32⟩ : BufTy).Contents (Elt F)),
    unary main_arg11 main_v182 ((extractStridedSlice S1x1x128 ![1, 0, 0] · slices_S3x2x128_S1x1x128_1_0_0) : (⟨S3x2x128, .f32⟩ : BufTy).Contents (Elt F) → (⟨S1x1x128, .f32⟩ : BufTy).Contents (Elt F)),
    reshape main_v182 main_v183 rfl shapeCasts_S1x1x128_S128,
    unary main_arg12 main_v184 ((extractStridedSlice S1x1x128 ![1, 0, 0] · slices_S3x2x128_S1x1x128_1_0_0) : (⟨S3x2x128, .f32⟩ : BufTy).Contents (Elt F) → (⟨S1x1x128, .f32⟩ : BufTy).Contents (Elt F)),
    reshape main_v184 main_v185 rfl shapeCasts_S1x1x128_S128,
    unary main_arg13 main_v186 ((extractStridedSlice S1x1x128 ![1, 0, 0] · slices_S3x2x128_S1x1x128_1_0_0) : (⟨S3x2x128, .f32⟩ : BufTy).Contents (Elt F) → (⟨S1x1x128, .f32⟩ : BufTy).Contents (Elt F)),
    reshape main_v186 main_v187 rfl shapeCasts_S1x1x128_S128,
    unary main_arg14 main_v188 ((extractStridedSlice S1x1x128 ![1, 0, 0] · slices_S3x2x128_S1x1x128_1_0_0) : (⟨S3x2x128, .f32⟩ : BufTy).Contents (Elt F) → (⟨S1x1x128, .f32⟩ : BufTy).Contents (Elt F)),
    reshape main_v188 main_v189 rfl shapeCasts_S1x1x128_S128,
    unary main_v187 main_v190 (broadcastInDim S1x128 ![1] bcast_S128_S1x128_1 : (⟨S128, .f32⟩ : BufTy).Contents (Elt F) → (⟨S1x128, .f32⟩ : BufTy).Contents (Elt F)),
    unary main_v190 main_v191 (broadcastInDim S100000x128 ![0, 1] bcast_S1x128_S100000x128_0_1 : (⟨S1x128, .f32⟩ : BufTy).Contents (Elt F) → (⟨S100000x128, .f32⟩ : BufTy).Contents (Elt F)),
    binary main_v181 main_v191 main_v192 (subf : (⟨S100000x128, .f32⟩ : BufTy).Contents (Elt F) → (⟨S100000x128, .f32⟩ : BufTy).Contents (Elt F) → (⟨S100000x128, .f32⟩ : BufTy).Contents (Elt F)),
    nullary main_cst_28 (constant S_ .f32 0x3727C5AC#32),
    unary main_cst_28 main_v193 (broadcastInDim S128 ![] bcast_S_S128 : (⟨S_, .f32⟩ : BufTy).Contents (Elt F) → (⟨S128, .f32⟩ : BufTy).Contents (Elt F)),
    binary main_v189 main_v193 main_v194 (addf : (⟨S128, .f32⟩ : BufTy).Contents (Elt F) → (⟨S128, .f32⟩ : BufTy).Contents (Elt F) → (⟨S128, .f32⟩ : BufTy).Contents (Elt F)),
    unary main_v194 main_v195 (Host.rsqrt : (⟨S128, .f32⟩ : BufTy).Contents (Elt F) → (⟨S128, .f32⟩ : BufTy).Contents (Elt F)),
    unary main_v195 main_v196 (broadcastInDim S1x128 ![1] bcast_S128_S1x128_1 : (⟨S128, .f32⟩ : BufTy).Contents (Elt F) → (⟨S1x128, .f32⟩ : BufTy).Contents (Elt F)),
    unary main_v196 main_v197 (broadcastInDim S100000x128 ![0, 1] bcast_S1x128_S100000x128_0_1 : (⟨S1x128, .f32⟩ : BufTy).Contents (Elt F) → (⟨S100000x128, .f32⟩ : BufTy).Contents (Elt F)),
    binary main_v192 main_v197 main_v198 (mulf : (⟨S100000x128, .f32⟩ : BufTy).Contents (Elt F) → (⟨S100000x128, .f32⟩ : BufTy).Contents (Elt F) → (⟨S100000x128, .f32⟩ : BufTy).Contents (Elt F)),
    unary main_v183 main_v199 (broadcastInDim S1x128 ![1] bcast_S128_S1x128_1 : (⟨S128, .f32⟩ : BufTy).Contents (Elt F) → (⟨S1x128, .f32⟩ : BufTy).Contents (Elt F)),
    unary main_v199 main_v200 (broadcastInDim S100000x128 ![0, 1] bcast_S1x128_S100000x128_0_1 : (⟨S1x128, .f32⟩ : BufTy).Contents (Elt F) → (⟨S100000x128, .f32⟩ : BufTy).Contents (Elt F)),
    binary main_v198 main_v200 main_v201 (mulf : (⟨S100000x128, .f32⟩ : BufTy).Contents (Elt F) → (⟨S100000x128, .f32⟩ : BufTy).Contents (Elt F) → (⟨S100000x128, .f32⟩ : BufTy).Contents (Elt F)),
    unary main_v185 main_v202 (broadcastInDim S1x128 ![1] bcast_S128_S1x128_1 : (⟨S128, .f32⟩ : BufTy).Contents (Elt F) → (⟨S1x128, .f32⟩ : BufTy).Contents (Elt F)),
    unary main_v202 main_v203 (broadcastInDim S100000x128 ![0, 1] bcast_S1x128_S100000x128_0_1 : (⟨S1x128, .f32⟩ : BufTy).Contents (Elt F) → (⟨S100000x128, .f32⟩ : BufTy).Contents (Elt F)),
    binary main_v201 main_v203 main_v204 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v204) (TRef.of (T := ⟨S100000x128, .f32⟩) main_call2_v0) (TRef.of (T := ⟨S100000x128, .f32⟩) main_v205) maximumf,
    unary main_arg11 main_v206 ((extractStridedSlice S1x1x128 ![1, 1, 0] · slices_S3x2x128_S1x1x128_1_1_0) : (⟨S3x2x128, .f32⟩ : BufTy).Contents (Elt F) → (⟨S1x1x128, .f32⟩ : BufTy).Contents (Elt F)),
    reshape main_v206 main_v207 rfl shapeCasts_S1x1x128_S128,
    unary main_arg12 main_v208 ((extractStridedSlice S1x1x128 ![1, 1, 0] · slices_S3x2x128_S1x1x128_1_1_0) : (⟨S3x2x128, .f32⟩ : BufTy).Contents (Elt F) → (⟨S1x1x128, .f32⟩ : BufTy).Contents (Elt F)),
    reshape main_v208 main_v209 rfl shapeCasts_S1x1x128_S128,
    unary main_arg13 main_v210 ((extractStridedSlice S1x1x128 ![1, 1, 0] · slices_S3x2x128_S1x1x128_1_1_0) : (⟨S3x2x128, .f32⟩ : BufTy).Contents (Elt F) → (⟨S1x1x128, .f32⟩ : BufTy).Contents (Elt F)),
    reshape main_v210 main_v211 rfl shapeCasts_S1x1x128_S128,
    unary main_arg14 main_v212 ((extractStridedSlice S1x1x128 ![1, 1, 0] · slices_S3x2x128_S1x1x128_1_1_0) : (⟨S3x2x128, .f32⟩ : BufTy).Contents (Elt F) → (⟨S1x1x128, .f32⟩ : BufTy).Contents (Elt F)),
    reshape main_v212 main_v213 rfl shapeCasts_S1x1x128_S128,
    unary main_v211 main_v214 (broadcastInDim S1x128 ![1] bcast_S128_S1x128_1 : (⟨S128, .f32⟩ : BufTy).Contents (Elt F) → (⟨S1x128, .f32⟩ : BufTy).Contents (Elt F)),
    unary main_v214 main_v215 (broadcastInDim S400000x128 ![0, 1] bcast_S1x128_S400000x128_0_1 : (⟨S1x128, .f32⟩ : BufTy).Contents (Elt F) → (⟨S400000x128, .f32⟩ : BufTy).Contents (Elt F)),
    binary main_v169 main_v215 main_v216 (subf : (⟨S400000x128, .f32⟩ : BufTy).Contents (Elt F) → (⟨S400000x128, .f32⟩ : BufTy).Contents (Elt F) → (⟨S400000x128, .f32⟩ : BufTy).Contents (Elt F)),
    nullary main_cst_29 (constant S_ .f32 0x3727C5AC#32),
    unary main_cst_29 main_v217 (broadcastInDim S128 ![] bcast_S_S128 : (⟨S_, .f32⟩ : BufTy).Contents (Elt F) → (⟨S128, .f32⟩ : BufTy).Contents (Elt F)),
    binary main_v213 main_v217 main_v218 (addf : (⟨S128, .f32⟩ : BufTy).Contents (Elt F) → (⟨S128, .f32⟩ : BufTy).Contents (Elt F) → (⟨S128, .f32⟩ : BufTy).Contents (Elt F)),
    unary main_v218 main_v219 (Host.rsqrt : (⟨S128, .f32⟩ : BufTy).Contents (Elt F) → (⟨S128, .f32⟩ : BufTy).Contents (Elt F)),
    unary main_v219 main_v220 (broadcastInDim S1x128 ![1] bcast_S128_S1x128_1 : (⟨S128, .f32⟩ : BufTy).Contents (Elt F) → (⟨S1x128, .f32⟩ : BufTy).Contents (Elt F)),
    unary main_v220 main_v221 (broadcastInDim S400000x128 ![0, 1] bcast_S1x128_S400000x128_0_1 : (⟨S1x128, .f32⟩ : BufTy).Contents (Elt F) → (⟨S400000x128, .f32⟩ : BufTy).Contents (Elt F)),
    binary main_v216 main_v221 main_v222 (mulf : (⟨S400000x128, .f32⟩ : BufTy).Contents (Elt F) → (⟨S400000x128, .f32⟩ : BufTy).Contents (Elt F) → (⟨S400000x128, .f32⟩ : BufTy).Contents (Elt F)),
    unary main_v207 main_v223 (broadcastInDim S1x128 ![1] bcast_S128_S1x128_1 : (⟨S128, .f32⟩ : BufTy).Contents (Elt F) → (⟨S1x128, .f32⟩ : BufTy).Contents (Elt F)),
    unary main_v223 main_v224 (broadcastInDim S400000x128 ![0, 1] bcast_S1x128_S400000x128_0_1 : (⟨S1x128, .f32⟩ : BufTy).Contents (Elt F) → (⟨S400000x128, .f32⟩ : BufTy).Contents (Elt F)),
    binary main_v222 main_v224 main_v225 (mulf : (⟨S400000x128, .f32⟩ : BufTy).Contents (Elt F) → (⟨S400000x128, .f32⟩ : BufTy).Contents (Elt F) → (⟨S400000x128, .f32⟩ : BufTy).Contents (Elt F)),
    unary main_v209 main_v226 (broadcastInDim S1x128 ![1] bcast_S128_S1x128_1 : (⟨S128, .f32⟩ : BufTy).Contents (Elt F) → (⟨S1x128, .f32⟩ : BufTy).Contents (Elt F)),
    unary main_v226 main_v227 (broadcastInDim S400000x128 ![0, 1] bcast_S1x128_S400000x128_0_1 : (⟨S1x128, .f32⟩ : BufTy).Contents (Elt F) → (⟨S400000x128, .f32⟩ : BufTy).Contents (Elt F)),
    binary main_v225 main_v227 main_v228 (addf : (⟨S400000x128, .f32⟩ : BufTy).Contents (Elt F) → (⟨S400000x128, .f32⟩ : BufTy).Contents (Elt F) → (⟨S400000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S400000x128, .f32⟩) main_call3_v0) (broadcastInDim S400000x128 ![] bcast_S_S400000x128),
    TRef.binary (TRef.of (T := ⟨S400000x128, .f32⟩) main_v228) (TRef.of (T := ⟨S400000x128, .f32⟩) main_call3_v0) (TRef.of (T := ⟨S400000x128, .f32⟩) main_v229) maximumf ]

set_option maxRecDepth 8192 in
theorem ops2_sub : (ops2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., binary_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

theorem ops2_fresh : (ops2 : List (HloOp τ sig (Elt F))).Forall fun op => op.fresh = ∅ := by
  simp only [List.Forall]; repeat' constructor

set_option maxHeartbeats 4000000 in
/-- Layer 2: the two segment means and the two node transforms. (126 operations, in the program's order) -/
abbrev ops3 : List (HloOp τ sig (Elt F)) :=
  [ nullary main_c_30 (constantI S_ 32 0#32),
    unary main_c_30 main_v230 (broadcastInDim S400000 ![] bcast_S_S400000 : (⟨S_, .i32⟩ : BufTy).Contents (Elt F) → (⟨S400000, .i32⟩ : BufTy).Contents (Elt F)),
    binary main_arg2 main_v230 main_v231 (cmpi .slt : (⟨S400000, .i32⟩ : BufTy).Contents (Elt F) → (⟨S400000, .i32⟩ : BufTy).Contents (Elt F) → (⟨S400000, .i1⟩ : BufTy).Contents (Elt F)),
    nullary main_c_31 (constantI S_ 32 100000#32),
    unary main_c_31 main_v232 (broadcastInDim S400000 ![] bcast_S_S400000 : (⟨S_, .i32⟩ : BufTy).Contents (Elt F) → (⟨S400000, .i32⟩ : BufTy).Contents (Elt F)),
    binary main_arg2 main_v232 main_v233 (addi : (⟨S400000, .i32⟩ : BufTy).Contents (Elt F) → (⟨S400000, .i32⟩ : BufTy).Contents (Elt F) → (⟨S400000, .i32⟩ : BufTy).Contents (Elt F)),
    ternary main_v231 main_v233 main_arg2 main_v234 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v234 main_v235 (broadcastInDim S400000x1 ![0] bcast_S400000_S400000x1_0 : (⟨S400000, .i32⟩ : BufTy).Contents (Elt F) → (⟨S400000x1, .i32⟩ : BufTy).Contents (Elt F)),
    binary main_v205 main_v235 main_v236 ((fun x i => Host.gather gather_S100000x128_S400000x1_S400000x128_1_0_n_n_0_1_1128 x i) : (⟨S100000x128, .f32⟩ : BufTy).Contents (Elt F) → (⟨S400000x1, .i32⟩ : BufTy).Contents (Elt F) → (⟨S400000x128, .f32⟩ : BufTy).Contents (Elt F)),
    nullary main_cst_32 (constant S_ .f32 0x00000000#32),
    unary main_cst_32 main_v237 (broadcastInDim S400000x128 ![] bcast_S_S400000x128 : (⟨S_, .f32⟩ : BufTy).Contents (Elt F) → (⟨S400000x128, .f32⟩ : BufTy).Contents (Elt F)),
    unary main_arg3 main_v238 (broadcastInDim S400000x1 ![0] bcast_S400000_S400000x1_0 : (⟨S400000, .i32⟩ : BufTy).Contents (Elt F) → (⟨S400000x1, .i32⟩ : BufTy).Contents (Elt F)),
    ternary main_v237 main_v238 main_v236 main_v239 ((fun x i u => Host.scatterAdd scatter_S400000x128_S400000x1_S400000x128_1_0_0_1 x i u) : (⟨S400000x128, .f32⟩ : BufTy).Contents (Elt F) → (⟨S400000x1, .i32⟩ : BufTy).Contents (Elt F) → (⟨S400000x128, .f32⟩ : BufTy).Contents (Elt F) → (⟨S400000x128, .f32⟩ : BufTy).Contents (Elt F)),
    nullary main_cst_33 (constant S_ .f32 0x3F800000#32),
    unary main_cst_33 main_v240 (broadcastInDim S400000x1 ![] bcast_S_S400000x1 : (⟨S_, .f32⟩ : BufTy).Contents (Elt F) → (⟨S400000x1, .f32⟩ : BufTy).Contents (Elt F)),
    nullary main_cst_34 (constant S_ .f32 0x00000000#32),
    unary main_cst_34 main_v241 (broadcastInDim S400000x1 ![] bcast_S_S400000x1 : (⟨S_, .f32⟩ : BufTy).Contents (Elt F) → (⟨S400000x1, .f32⟩ : BufTy).Contents (Elt F)),
    unary main_arg3 main_v242 (broadcastInDim S400000x1 ![0] bcast_S400000_S400000x1_0 : (⟨S400000, .i32⟩ : BufTy).Contents (Elt F) → (⟨S400000x1, .i32⟩ : BufTy).Contents (Elt F)),
    ternary main_v241 main_v242 main_v240 main_v243 ((fun x i u => Host.scatterAdd scatter_S400000x1_S400000x1_S400000x1_1_0_0_1 x i u) : (⟨S400000x1, .f32⟩ : BufTy).Contents (Elt F) → (⟨S400000x1, .i32⟩ : BufTy).Contents (Elt F) → (⟨S400000x1, .f32⟩ : BufTy).Contents (Elt F) → (⟨S400000x1, .f32⟩ : BufTy).Contents (Elt F)),
    nullary main_cst_35 (constant S_ .f32 0x3F800000#32),
    unary main_cst_35 main_v244 (broadcastInDim S400000x1 ![] bcast_S_S400000x1 : (⟨S_, .f32⟩ : BufTy).Contents (Elt F) → (⟨S400000x1, .f32⟩ : BufTy).Contents (Elt F)),
    binary main_v243 main_v244 main_v245 (maximumf : (⟨S400000x1, .f32⟩ : BufTy).Contents (Elt F) → (⟨S400000x1, .f32⟩ : BufTy).Contents (Elt F) → (⟨S400000x1, .f32⟩ : BufTy).Contents (Elt F)),
    unary main_v245 main_v246 (broadcastInDim S400000x128 ![0, 1] bcast_S400000x1_S400000x128_0_1 : (⟨S400000x1, .f32⟩ : BufTy).Contents (Elt F) → (⟨S400000x128, .f32⟩ : BufTy).Contents (Elt F)),
    binary main_v239 main_v246 main_v247 (Host.divf : (⟨S400000x128, .f32⟩ : BufTy).Contents (Elt F) → (⟨S400000x128, .f32⟩ : BufTy).Contents (Elt F) → (⟨S400000x128, .f32⟩ : BufTy).Contents (Elt F)),
    nullary main_c_36 (constantI S_ 32 0#32),
    unary main_c_36 main_v248 (broadcastInDim S400000 ![] bcast_S_S400000 : (⟨S_, .i32⟩ : BufTy).Contents (Elt F) → (⟨S400000, .i32⟩ : BufTy).Contents (Elt F)),
    binary main_arg4 main_v248 main_v249 (cmpi .slt : (⟨S400000, .i32⟩ : BufTy).Contents (Elt F) → (⟨S400000, .i32⟩ : BufTy).Contents (Elt F) → (⟨S400000, .i1⟩ : BufTy).Contents (Elt F)),
    nullary main_c_37 (constantI S_ 32 400000#32),
    unary main_c_37 main_v250 (broadcastInDim S400000 ![] bcast_S_S400000 : (⟨S_, .i32⟩ : BufTy).Contents (Elt F) → (⟨S400000, .i32⟩ : BufTy).Contents (Elt F)),
    binary main_arg4 main_v250 main_v251 (addi : (⟨S400000, .i32⟩ : BufTy).Contents (Elt F) → (⟨S400000, .i32⟩ : BufTy).Contents (Elt F) → (⟨S400000, .i32⟩ : BufTy).Contents (Elt F)),
    ternary main_v249 main_v251 main_arg4 main_v252 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v252 main_v253 (broadcastInDim S400000x1 ![0] bcast_S400000_S400000x1_0 : (⟨S400000, .i32⟩ : BufTy).Contents (Elt F) → (⟨S400000x1, .i32⟩ : BufTy).Contents (Elt F)),
    binary main_v229 main_v253 main_v254 ((fun x i => Host.gather gather_S400000x128_S400000x1_S400000x128_1_0_n_n_0_1_1128 x i) : (⟨S400000x128, .f32⟩ : BufTy).Contents (Elt F) → (⟨S400000x1, .i32⟩ : BufTy).Contents (Elt F) → (⟨S400000x128, .f32⟩ : BufTy).Contents (Elt F)),
    nullary main_cst_38 (constant S_ .f32 0x00000000#32),
    unary main_cst_38 main_v255 (broadcastInDim S100000x128 ![] bcast_S_S100000x128 : (⟨S_, .f32⟩ : BufTy).Contents (Elt F) → (⟨S100000x128, .f32⟩ : BufTy).Contents (Elt F)),
    unary main_arg5 main_v256 (broadcastInDim S400000x1 ![0] bcast_S400000_S400000x1_0 : (⟨S400000, .i32⟩ : BufTy).Contents (Elt F) → (⟨S400000x1, .i32⟩ : BufTy).Contents (Elt F)),
    ternary main_v255 main_v256 main_v254 main_v257 ((fun x i u => Host.scatterAdd scatter_S100000x128_S400000x1_S400000x128_1_0_0_1 x i u) : (⟨S100000x128, .f32⟩ : BufTy).Contents (Elt F) → (⟨S400000x1, .i32⟩ : BufTy).Contents (Elt F) → (⟨S400000x128, .f32⟩ : BufTy).Contents (Elt F) → (⟨S100000x128, .f32⟩ : BufTy).Contents (Elt F)),
    nullary main_cst_39 (constant S_ .f32 0x3F800000#32),
    unary main_cst_39 main_v258 (broadcastInDim S400000x1 ![] bcast_S_S400000x1 : (⟨S_, .f32⟩ : BufTy).Contents (Elt F) → (⟨S400000x1, .f32⟩ : BufTy).Contents (Elt F)),
    nullary main_cst_40 (constant S_ .f32 0x00000000#32),
    unary main_cst_40 main_v259 (broadcastInDim S100000x1 ![] bcast_S_S100000x1 : (⟨S_, .f32⟩ : BufTy).Contents (Elt F) → (⟨S100000x1, .f32⟩ : BufTy).Contents (Elt F)),
    unary main_arg5 main_v260 (broadcastInDim S400000x1 ![0] bcast_S400000_S400000x1_0 : (⟨S400000, .i32⟩ : BufTy).Contents (Elt F) → (⟨S400000x1, .i32⟩ : BufTy).Contents (Elt F)),
    ternary main_v259 main_v260 main_v258 main_v261 ((fun x i u => Host.scatterAdd scatter_S100000x1_S400000x1_S400000x1_1_0_0_1 x i u) : (⟨S100000x1, .f32⟩ : BufTy).Contents (Elt F) → (⟨S400000x1, .i32⟩ : BufTy).Contents (Elt F) → (⟨S400000x1, .f32⟩ : BufTy).Contents (Elt F) → (⟨S100000x1, .f32⟩ : BufTy).Contents (Elt F)),
    nullary main_cst_41 (constant S_ .f32 0x3F800000#32),
    unary main_cst_41 main_v262 (broadcastInDim S100000x1 ![] bcast_S_S100000x1 : (⟨S_, .f32⟩ : BufTy).Contents (Elt F) → (⟨S100000x1, .f32⟩ : BufTy).Contents (Elt F)),
    binary main_v261 main_v262 main_v263 (maximumf : (⟨S100000x1, .f32⟩ : BufTy).Contents (Elt F) → (⟨S100000x1, .f32⟩ : BufTy).Contents (Elt F) → (⟨S100000x1, .f32⟩ : BufTy).Contents (Elt F)),
    unary main_v263 main_v264 (broadcastInDim S100000x128 ![0, 1] bcast_S100000x1_S100000x128_0_1 : (⟨S100000x1, .f32⟩ : BufTy).Contents (Elt F) → (⟨S100000x128, .f32⟩ : BufTy).Contents (Elt F)),
    binary main_v257 main_v264 main_v265 (Host.divf : (⟨S100000x128, .f32⟩ : BufTy).Contents (Elt F) → (⟨S100000x128, .f32⟩ : BufTy).Contents (Elt F) → (⟨S100000x128, .f32⟩ : BufTy).Contents (Elt F)),
    unary main_arg8 main_v266 ((extractStridedSlice S1x1x128x128 ![2, 0, 0, 0] · slices_S3x2x128x128_S1x1x128x128_2_0_0_0) : (⟨S3x2x128x128, .f32⟩ : BufTy).Contents (Elt F) → (⟨S1x1x128x128, .f32⟩ : BufTy).Contents (Elt F)),
    reshape main_v266 main_v267 rfl shapeCasts_S1x1x128x128_S128x128,
    binary main_v247 main_v267 main_v268 ((fun l r => Host.dotGeneral dot_S400000x128_S128x128_S400000x128_1_0_0_1_n_n none l r) : (⟨S400000x128, .f32⟩ : BufTy).Contents (Elt F) → (⟨S128x128, .f32⟩ : BufTy).Contents (Elt F) → (⟨S400000x128, .f32⟩ : BufTy).Contents (Elt F)),
    unary main_arg9 main_v269 ((extractStridedSlice S1x1x128 ![2, 0, 0] · slices_S3x2x128_S1x1x128_2_0_0) : (⟨S3x2x128, .f32⟩ : BufTy).Contents (Elt F) → (⟨S1x1x128, .f32⟩ : BufTy).Contents (Elt F)),
    reshape main_v269 main_v270 rfl shapeCasts_S1x1x128_S128,
    unary main_v270 main_v271 (broadcastInDim S1x128 ![1] bcast_S128_S1x128_1 : (⟨S128, .f32⟩ : BufTy).Contents (Elt F) → (⟨S1x128, .f32⟩ : BufTy).Contents (Elt F)),
    unary main_v271 main_v272 (broadcastInDim S400000x128 ![0, 1] bcast_S1x128_S400000x128_0_1 : (⟨S1x128, .f32⟩ : BufTy).Contents (Elt F) → (⟨S400000x128, .f32⟩ : BufTy).Contents (Elt F)),
    binary main_v268 main_v272 main_v273 (addf : (⟨S400000x128, .f32⟩ : BufTy).Contents (Elt F) → (⟨S400000x128, .f32⟩ : BufTy).Contents (Elt F) → (⟨S400000x128, .f32⟩ : BufTy).Contents (Elt F)),
    unary main_arg10 main_v274 ((extractStridedSlice S1x1x128x128 ![2, 0, 0, 0] · slices_S3x2x128x128_S1x1x128x128_2_0_0_0) : (⟨S3x2x128x128, .f32⟩ : BufTy).Contents (Elt F) → (⟨S1x1x128x128, .f32⟩ : BufTy).Contents (Elt F)),
    reshape main_v274 main_v275 rfl shapeCasts_S1x1x128x128_S128x128,
    binary main_v229 main_v275 main_v276 ((fun l r => Host.dotGeneral dot_S400000x128_S128x128_S400000x128_1_0_0_1_n_n none l r) : (⟨S400000x128, .f32⟩ : BufTy).Contents (Elt F) → (⟨S128x128, .f32⟩ : BufTy).Contents (Elt F) → (⟨S400000x128, .f32⟩ : BufTy).Contents (Elt F)),
    binary main_v273 main_v276 main_v277 (addf : (⟨S400000x128, .f32⟩ : BufTy).Contents (Elt F) → (⟨S400000x128, .f32⟩ : BufTy).Contents (Elt F) → (⟨S400000x128, .f32⟩ : BufTy).Contents (Elt F)),
    unary main_arg8 main_v278 ((extractStridedSlice S1x1x128x128 ![2, 1, 0, 0] · slices_S3x2x128x128_S1x1x128x128_2_1_0_0) : (⟨S3x2x128x128, .f32⟩ : BufTy).Contents (Elt F) → (⟨S1x1x128x128, .f32⟩ : BufTy).Contents (Elt F)),
    reshape main_v278 main_v279 rfl shapeCasts_S1x1x128x128_S128x128,
    binary main_v265 main_v279 main_v280 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg9 main_v281 ((extractStridedSlice S1x1x128 ![2, 1, 0] · slices_S3x2x128_S1x1x128_2_1_0) : (⟨S3x2x128, .f32⟩ : BufTy).Contents (Elt F) → (⟨S1x1x128, .f32⟩ : BufTy).Contents (Elt F)),
    reshape main_v281 main_v282 rfl shapeCasts_S1x1x128_S128,
    unary main_v282 main_v283 (broadcastInDim S1x128 ![1] bcast_S128_S1x128_1 : (⟨S128, .f32⟩ : BufTy).Contents (Elt F) → (⟨S1x128, .f32⟩ : BufTy).Contents (Elt F)),
    unary main_v283 main_v284 (broadcastInDim S100000x128 ![0, 1] bcast_S1x128_S100000x128_0_1 : (⟨S1x128, .f32⟩ : BufTy).Contents (Elt F) → (⟨S100000x128, .f32⟩ : BufTy).Contents (Elt F)),
    binary main_v280 main_v284 main_v285 (addf : (⟨S100000x128, .f32⟩ : BufTy).Contents (Elt F) → (⟨S100000x128, .f32⟩ : BufTy).Contents (Elt F) → (⟨S100000x128, .f32⟩ : BufTy).Contents (Elt F)),
    unary main_arg10 main_v286 ((extractStridedSlice S1x1x128x128 ![2, 1, 0, 0] · slices_S3x2x128x128_S1x1x128x128_2_1_0_0) : (⟨S3x2x128x128, .f32⟩ : BufTy).Contents (Elt F) → (⟨S1x1x128x128, .f32⟩ : BufTy).Contents (Elt F)),
    reshape main_v286 main_v287 rfl shapeCasts_S1x1x128x128_S128x128,
    binary main_v205 main_v287 main_v288 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v285 main_v288 main_v289 (addf : (⟨S100000x128, .f32⟩ : BufTy).Contents (Elt F) → (⟨S100000x128, .f32⟩ : BufTy).Contents (Elt F) → (⟨S100000x128, .f32⟩ : BufTy).Contents (Elt F)),
    unary main_arg11 main_v290 ((extractStridedSlice S1x1x128 ![2, 0, 0] · slices_S3x2x128_S1x1x128_2_0_0) : (⟨S3x2x128, .f32⟩ : BufTy).Contents (Elt F) → (⟨S1x1x128, .f32⟩ : BufTy).Contents (Elt F)),
    reshape main_v290 main_v291 rfl shapeCasts_S1x1x128_S128,
    unary main_arg12 main_v292 ((extractStridedSlice S1x1x128 ![2, 0, 0] · slices_S3x2x128_S1x1x128_2_0_0) : (⟨S3x2x128, .f32⟩ : BufTy).Contents (Elt F) → (⟨S1x1x128, .f32⟩ : BufTy).Contents (Elt F)),
    reshape main_v292 main_v293 rfl shapeCasts_S1x1x128_S128,
    unary main_arg13 main_v294 ((extractStridedSlice S1x1x128 ![2, 0, 0] · slices_S3x2x128_S1x1x128_2_0_0) : (⟨S3x2x128, .f32⟩ : BufTy).Contents (Elt F) → (⟨S1x1x128, .f32⟩ : BufTy).Contents (Elt F)),
    reshape main_v294 main_v295 rfl shapeCasts_S1x1x128_S128,
    unary main_arg14 main_v296 ((extractStridedSlice S1x1x128 ![2, 0, 0] · slices_S3x2x128_S1x1x128_2_0_0) : (⟨S3x2x128, .f32⟩ : BufTy).Contents (Elt F) → (⟨S1x1x128, .f32⟩ : BufTy).Contents (Elt F)),
    reshape main_v296 main_v297 rfl shapeCasts_S1x1x128_S128,
    unary main_v295 main_v298 (broadcastInDim S1x128 ![1] bcast_S128_S1x128_1 : (⟨S128, .f32⟩ : BufTy).Contents (Elt F) → (⟨S1x128, .f32⟩ : BufTy).Contents (Elt F)),
    unary main_v298 main_v299 (broadcastInDim S100000x128 ![0, 1] bcast_S1x128_S100000x128_0_1 : (⟨S1x128, .f32⟩ : BufTy).Contents (Elt F) → (⟨S100000x128, .f32⟩ : BufTy).Contents (Elt F)),
    binary main_v289 main_v299 main_v300 (subf : (⟨S100000x128, .f32⟩ : BufTy).Contents (Elt F) → (⟨S100000x128, .f32⟩ : BufTy).Contents (Elt F) → (⟨S100000x128, .f32⟩ : BufTy).Contents (Elt F)),
    nullary main_cst_42 (constant S_ .f32 0x3727C5AC#32),
    unary main_cst_42 main_v301 (broadcastInDim S128 ![] bcast_S_S128 : (⟨S_, .f32⟩ : BufTy).Contents (Elt F) → (⟨S128, .f32⟩ : BufTy).Contents (Elt F)),
    binary main_v297 main_v301 main_v302 (addf : (⟨S128, .f32⟩ : BufTy).Contents (Elt F) → (⟨S128, .f32⟩ : BufTy).Contents (Elt F) → (⟨S128, .f32⟩ : BufTy).Contents (Elt F)),
    unary main_v302 main_v303 (Host.rsqrt : (⟨S128, .f32⟩ : BufTy).Contents (Elt F) → (⟨S128, .f32⟩ : BufTy).Contents (Elt F)),
    unary main_v303 main_v304 (broadcastInDim S1x128 ![1] bcast_S128_S1x128_1 : (⟨S128, .f32⟩ : BufTy).Contents (Elt F) → (⟨S1x128, .f32⟩ : BufTy).Contents (Elt F)),
    unary main_v304 main_v305 (broadcastInDim S100000x128 ![0, 1] bcast_S1x128_S100000x128_0_1 : (⟨S1x128, .f32⟩ : BufTy).Contents (Elt F) → (⟨S100000x128, .f32⟩ : BufTy).Contents (Elt F)),
    binary main_v300 main_v305 main_v306 (mulf : (⟨S100000x128, .f32⟩ : BufTy).Contents (Elt F) → (⟨S100000x128, .f32⟩ : BufTy).Contents (Elt F) → (⟨S100000x128, .f32⟩ : BufTy).Contents (Elt F)),
    unary main_v291 main_v307 (broadcastInDim S1x128 ![1] bcast_S128_S1x128_1 : (⟨S128, .f32⟩ : BufTy).Contents (Elt F) → (⟨S1x128, .f32⟩ : BufTy).Contents (Elt F)),
    unary main_v307 main_v308 (broadcastInDim S100000x128 ![0, 1] bcast_S1x128_S100000x128_0_1 : (⟨S1x128, .f32⟩ : BufTy).Contents (Elt F) → (⟨S100000x128, .f32⟩ : BufTy).Contents (Elt F)),
    binary main_v306 main_v308 main_v309 (mulf : (⟨S100000x128, .f32⟩ : BufTy).Contents (Elt F) → (⟨S100000x128, .f32⟩ : BufTy).Contents (Elt F) → (⟨S100000x128, .f32⟩ : BufTy).Contents (Elt F)),
    unary main_v293 main_v310 (broadcastInDim S1x128 ![1] bcast_S128_S1x128_1 : (⟨S128, .f32⟩ : BufTy).Contents (Elt F) → (⟨S1x128, .f32⟩ : BufTy).Contents (Elt F)),
    unary main_v310 main_v311 (broadcastInDim S100000x128 ![0, 1] bcast_S1x128_S100000x128_0_1 : (⟨S1x128, .f32⟩ : BufTy).Contents (Elt F) → (⟨S100000x128, .f32⟩ : BufTy).Contents (Elt F)),
    binary main_v309 main_v311 main_v312 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S100000x128, .f32⟩) main_call4_v0) (broadcastInDim S100000x128 ![] bcast_S_S100000x128),
    TRef.binary (TRef.of (T := ⟨S100000x128, .f32⟩) main_v312) (TRef.of (T := ⟨S100000x128, .f32⟩) main_call4_v0) (TRef.of (T := ⟨S100000x128, .f32⟩) main_v313) maximumf,
    unary main_arg11 main_v314 ((extractStridedSlice S1x1x128 ![2, 1, 0] · slices_S3x2x128_S1x1x128_2_1_0) : (⟨S3x2x128, .f32⟩ : BufTy).Contents (Elt F) → (⟨S1x1x128, .f32⟩ : BufTy).Contents (Elt F)),
    reshape main_v314 main_v315 rfl shapeCasts_S1x1x128_S128,
    unary main_arg12 main_v316 ((extractStridedSlice S1x1x128 ![2, 1, 0] · slices_S3x2x128_S1x1x128_2_1_0) : (⟨S3x2x128, .f32⟩ : BufTy).Contents (Elt F) → (⟨S1x1x128, .f32⟩ : BufTy).Contents (Elt F)),
    reshape main_v316 main_v317 rfl shapeCasts_S1x1x128_S128,
    unary main_arg13 main_v318 ((extractStridedSlice S1x1x128 ![2, 1, 0] · slices_S3x2x128_S1x1x128_2_1_0) : (⟨S3x2x128, .f32⟩ : BufTy).Contents (Elt F) → (⟨S1x1x128, .f32⟩ : BufTy).Contents (Elt F)),
    reshape main_v318 main_v319 rfl shapeCasts_S1x1x128_S128,
    unary main_arg14 main_v320 ((extractStridedSlice S1x1x128 ![2, 1, 0] · slices_S3x2x128_S1x1x128_2_1_0) : (⟨S3x2x128, .f32⟩ : BufTy).Contents (Elt F) → (⟨S1x1x128, .f32⟩ : BufTy).Contents (Elt F)),
    reshape main_v320 main_v321 rfl shapeCasts_S1x1x128_S128,
    unary main_v319 main_v322 (broadcastInDim S1x128 ![1] bcast_S128_S1x128_1 : (⟨S128, .f32⟩ : BufTy).Contents (Elt F) → (⟨S1x128, .f32⟩ : BufTy).Contents (Elt F)),
    unary main_v322 main_v323 (broadcastInDim S400000x128 ![0, 1] bcast_S1x128_S400000x128_0_1 : (⟨S1x128, .f32⟩ : BufTy).Contents (Elt F) → (⟨S400000x128, .f32⟩ : BufTy).Contents (Elt F)),
    binary main_v277 main_v323 main_v324 (subf : (⟨S400000x128, .f32⟩ : BufTy).Contents (Elt F) → (⟨S400000x128, .f32⟩ : BufTy).Contents (Elt F) → (⟨S400000x128, .f32⟩ : BufTy).Contents (Elt F)),
    nullary main_cst_43 (constant S_ .f32 0x3727C5AC#32),
    unary main_cst_43 main_v325 (broadcastInDim S128 ![] bcast_S_S128 : (⟨S_, .f32⟩ : BufTy).Contents (Elt F) → (⟨S128, .f32⟩ : BufTy).Contents (Elt F)),
    binary main_v321 main_v325 main_v326 (addf : (⟨S128, .f32⟩ : BufTy).Contents (Elt F) → (⟨S128, .f32⟩ : BufTy).Contents (Elt F) → (⟨S128, .f32⟩ : BufTy).Contents (Elt F)),
    unary main_v326 main_v327 (Host.rsqrt : (⟨S128, .f32⟩ : BufTy).Contents (Elt F) → (⟨S128, .f32⟩ : BufTy).Contents (Elt F)),
    unary main_v327 main_v328 (broadcastInDim S1x128 ![1] bcast_S128_S1x128_1 : (⟨S128, .f32⟩ : BufTy).Contents (Elt F) → (⟨S1x128, .f32⟩ : BufTy).Contents (Elt F)),
    unary main_v328 main_v329 (broadcastInDim S400000x128 ![0, 1] bcast_S1x128_S400000x128_0_1 : (⟨S1x128, .f32⟩ : BufTy).Contents (Elt F) → (⟨S400000x128, .f32⟩ : BufTy).Contents (Elt F)),
    binary main_v324 main_v329 main_v330 (mulf : (⟨S400000x128, .f32⟩ : BufTy).Contents (Elt F) → (⟨S400000x128, .f32⟩ : BufTy).Contents (Elt F) → (⟨S400000x128, .f32⟩ : BufTy).Contents (Elt F)),
    unary main_v315 main_v331 (broadcastInDim S1x128 ![1] bcast_S128_S1x128_1 : (⟨S128, .f32⟩ : BufTy).Contents (Elt F) → (⟨S1x128, .f32⟩ : BufTy).Contents (Elt F)),
    unary main_v331 main_v332 (broadcastInDim S400000x128 ![0, 1] bcast_S1x128_S400000x128_0_1 : (⟨S1x128, .f32⟩ : BufTy).Contents (Elt F) → (⟨S400000x128, .f32⟩ : BufTy).Contents (Elt F)),
    binary main_v330 main_v332 main_v333 (mulf : (⟨S400000x128, .f32⟩ : BufTy).Contents (Elt F) → (⟨S400000x128, .f32⟩ : BufTy).Contents (Elt F) → (⟨S400000x128, .f32⟩ : BufTy).Contents (Elt F)),
    unary main_v317 main_v334 (broadcastInDim S1x128 ![1] bcast_S128_S1x128_1 : (⟨S128, .f32⟩ : BufTy).Contents (Elt F) → (⟨S1x128, .f32⟩ : BufTy).Contents (Elt F)),
    unary main_v334 main_v335 (broadcastInDim S400000x128 ![0, 1] bcast_S1x128_S400000x128_0_1 : (⟨S1x128, .f32⟩ : BufTy).Contents (Elt F) → (⟨S400000x128, .f32⟩ : BufTy).Contents (Elt F)),
    binary main_v333 main_v335 main_v336 (addf : (⟨S400000x128, .f32⟩ : BufTy).Contents (Elt F) → (⟨S400000x128, .f32⟩ : BufTy).Contents (Elt F) → (⟨S400000x128, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S400000x128, .f32⟩) main_call5_v0) (broadcastInDim S400000x128 ![] bcast_S_S400000x128),
    TRef.binary (TRef.of (T := ⟨S400000x128, .f32⟩) main_v336) (TRef.of (T := ⟨S400000x128, .f32⟩) main_call5_v0) (TRef.of (T := ⟨S400000x128, .f32⟩) main_v337) maximumf ]

set_option maxRecDepth 8192 in
theorem ops3_sub : (ops3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., binary_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

theorem ops3_fresh : (ops3 : List (HloOp τ sig (Elt F))).Forall fun op => op.fresh = ∅ := by
  simp only [List.Forall]; repeat' constructor

set_option maxHeartbeats 4000000 in
/-- The head: the features stacked, two products with bias, a clamp between. (12 operations, in the program's order) -/
abbrev ops4 : List (HloOp τ sig (Elt F)) :=
  [ binary main_v313 main_v337 main_v338 ((fun a b => concatenate S500000x128 0 [⟨S100000x128, a⟩, ⟨S400000x128, b⟩] concatenates_S100000x128_S400000x128_S500000x128_d0) : (⟨S100000x128, .f32⟩ : BufTy).Contents (Elt F) → (⟨S400000x128, .f32⟩ : BufTy).Contents (Elt F) → (⟨S500000x128, .f32⟩ : BufTy).Contents (Elt F)),
    binary main_v338 main_arg15 main_v339 ((fun l r => Host.dotGeneral dot_S500000x128_S128x64_S500000x64_1_0_0_1_n_n none l r) : (⟨S500000x128, .f32⟩ : BufTy).Contents (Elt F) → (⟨S128x64, .f32⟩ : BufTy).Contents (Elt F) → (⟨S500000x64, .f32⟩ : BufTy).Contents (Elt F)),
    unary main_arg16 main_v340 (broadcastInDim S1x64 ![1] bcast_S64_S1x64_1 : (⟨S64, .f32⟩ : BufTy).Contents (Elt F) → (⟨S1x64, .f32⟩ : BufTy).Contents (Elt F)),
    unary main_v340 main_v341 (broadcastInDim S500000x64 ![0, 1] bcast_S1x64_S500000x64_0_1 : (⟨S1x64, .f32⟩ : BufTy).Contents (Elt F) → (⟨S500000x64, .f32⟩ : BufTy).Contents (Elt F)),
    binary main_v339 main_v341 main_v342 (addf : (⟨S500000x64, .f32⟩ : BufTy).Contents (Elt F) → (⟨S500000x64, .f32⟩ : BufTy).Contents (Elt F) → (⟨S500000x64, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S500000x64, .f32⟩) main_call6_v0) (broadcastInDim S500000x64 ![] bcast_S_S500000x64),
    TRef.binary (TRef.of (T := ⟨S500000x64, .f32⟩) main_v342) (TRef.of (T := ⟨S500000x64, .f32⟩) main_call6_v0) (TRef.of (T := ⟨S500000x64, .f32⟩) main_v343) maximumf,
    binary main_v343 main_arg17 main_v344 ((fun l r => Host.dotGeneral dot_S500000x64_S64x2_S500000x2_1_0_0_1_n_n none l r) : (⟨S500000x64, .f32⟩ : BufTy).Contents (Elt F) → (⟨S64x2, .f32⟩ : BufTy).Contents (Elt F) → (⟨S500000x2, .f32⟩ : BufTy).Contents (Elt F)),
    unary main_arg18 main_v345 (broadcastInDim S1x2 ![1] bcast_S2_S1x2_1 : (⟨S2, .f32⟩ : BufTy).Contents (Elt F) → (⟨S1x2, .f32⟩ : BufTy).Contents (Elt F)),
    unary main_v345 main_v346 (broadcastInDim S500000x2 ![0, 1] bcast_S1x2_S500000x2_0_1 : (⟨S1x2, .f32⟩ : BufTy).Contents (Elt F) → (⟨S500000x2, .f32⟩ : BufTy).Contents (Elt F)),
    binary main_v344 main_v346 main_v347 (addf : (⟨S500000x2, .f32⟩ : BufTy).Contents (Elt F) → (⟨S500000x2, .f32⟩ : BufTy).Contents (Elt F) → (⟨S500000x2, .f32⟩ : BufTy).Contents (Elt F)) ]

set_option maxRecDepth 8192 in
theorem ops4_sub : (ops4 : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

theorem ops4_fresh : (ops4 : List (HloOp τ sig (Elt F))).Forall fun op => op.fresh = ∅ := by
  simp only [List.Forall]; repeat' constructor

/-- @main's operations, in order. -/
abbrev ops : List (HloOp τ sig (Elt F)) := ops0 ++ (ops1 ++ (ops2 ++ (ops3 ++ ops4)))

set_option maxRecDepth 16384 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

/-- A property of every operation of two stretches holds of every operation of their concatenation. -/
theorem forall_append {α : Type*} {p : α → Prop} {l₁ l₂ : List α} (h₁ : l₁.Forall p) (h₂ : l₂.Forall p) : (l₁ ++ l₂).Forall p :=
  List.forall_iff_forall_mem.mpr fun x hx =>
    (List.mem_append.mp hx).elim (List.forall_iff_forall_mem.mp h₁ x) (List.forall_iff_forall_mem.mp h₂ x)

theorem ops_sub : (ops : List (HloOp τ sig (Elt F))).Forall fun op => op.bufs ⊆ tcRefs τ sig :=
  forall_append ops0_sub (forall_append ops1_sub (forall_append ops2_sub (forall_append ops3_sub ops4_sub)))

theorem ops_fresh : ∀ op ∈ (ops : List (HloOp τ sig (Elt F))), op.fresh = ∅ :=
  List.forall_iff_forall_mem.mp
    (forall_append ops0_fresh (forall_append ops1_fresh (forall_append ops2_fresh (forall_append ops3_fresh ops4_fresh))))

/-- The contents after the whole line, stretch by stretch. -/
theorem after_ops (V : Valuation τ sig (Elt F)) :
    after ops V = after ops4 (after ops3 (after ops2 (after ops1 (after ops0 V)))) := by
  show after (ops0 ++ (ops1 ++ (ops2 ++ (ops3 ++ ops4)))) V = _
  rw [Cert.LibAfterAppend.after_append, Cert.LibAfterAppend.after_append, Cert.LibAfterAppend.after_append,
    Cert.LibAfterAppend.after_append]

/-- Every weakly fair execution of the reference terminates, with each TensorCore buffer at the fold of the five
    stretches over its launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b)
        = after ops4 (after ops3 (after ops2 (after ops1 (after ops0 (launchContents m d))))) (Proc.devRef .tc b) :=
  (θ_run defs _ _).mono (fun _ h d b => (h d b).trans (congrFun (after_ops _) _))
    (run_seq scopedRefs_eq scopedSems_eq defs main (fun _ => ops) main_eq (fun _ => ops_sub) m ρ (fun _ => ops_fresh))

end Cert.ReferenceIdeal.Whole

end
-- ==== Proof.RefChunk0.lean ====
/-
  The reference's first stretch, read back: the two embeddings are row gathers of the two tables.
-/
import proofs.«179405_j8443905704157_1_alg».proof.Proof.RefOps
import proofs.«179405_j8443905704157_1_alg».proof.Proof.RefStages

set_option maxRecDepth 16384

noncomputable section

namespace Cert.ReferenceIdeal.Whole

open Cert.ReferenceIdeal Cert.ReferenceIdeal.Gen Idealize.ShloMosaic Idealize.ShloMosaic.TcCoe Idealize.SL.Sem Idealize.ShloMosaic.StableHlo
open Cert.ReferenceIdeal.Stages Cert.ReferenceIdeal.Layer

variable (Wp : Valuation τ sig (Elt Ideal))

set_option maxHeartbeats 40000000 in
/-- What the stretch computes. -/
theorem emb_vals :
    (after (ops0 (F := Ideal)) Wp (Proc.devRef .tc main_v6) = embU (Wp (Proc.devRef .tc main_arg0)) (Wp (Proc.devRef .tc main_arg6)))
    ∧ (after (ops0 (F := Ideal)) Wp (Proc.devRef .tc main_v13) = embT (Wp (Proc.devRef .tc main_arg1)) (Wp (Proc.devRef .tc main_arg7))) := by
  after_results_simp
  exact ⟨rfl, rfl⟩

set_option maxHeartbeats 40000000 in
/-- The stretch writes no argument array. -/
theorem emb_keeps :
    (after (ops0 (F := Ideal)) Wp (Proc.devRef .tc main_arg0) = Wp (Proc.devRef .tc main_arg0))
    ∧ (after (ops0 (F := Ideal)) Wp (Proc.devRef .tc main_arg1) = Wp (Proc.devRef .tc main_arg1))
    ∧ (after (ops0 (F := Ideal)) Wp (Proc.devRef .tc main_arg2) = Wp (Proc.devRef .tc main_arg2))
    ∧ (after (ops0 (F := Ideal)) Wp (Proc.devRef .tc main_arg3) = Wp (Proc.devRef .tc main_arg3))
    ∧ (after (ops0 (F := Ideal)) Wp (Proc.devRef .tc main_arg4) = Wp (Proc.devRef .tc main_arg4))
    ∧ (after (ops0 (F := Ideal)) Wp (Proc.devRef .tc main_arg5) = Wp (Proc.devRef .tc main_arg5))
    ∧ (after (ops0 (F := Ideal)) Wp (Proc.devRef .tc main_arg6) = Wp (Proc.devRef .tc main_arg6))
    ∧ (after (ops0 (F := Ideal)) Wp (Proc.devRef .tc main_arg7) = Wp (Proc.devRef .tc main_arg7))
    ∧ (after (ops0 (F := Ideal)) Wp (Proc.devRef .tc main_arg8) = Wp (Proc.devRef .tc main_arg8))
    ∧ (after (ops0 (F := Ideal)) Wp (Proc.devRef .tc main_arg9) = Wp (Proc.devRef .tc main_arg9))
    ∧ (after (ops0 (F := Ideal)) Wp (Proc.devRef .tc main_arg10) = Wp (Proc.devRef .tc main_arg10))
    ∧ (after (ops0 (F := Ideal)) Wp (Proc.devRef .tc main_arg11) = Wp (Proc.devRef .tc main_arg11))
    ∧ (after (ops0 (F := Ideal)) Wp (Proc.devRef .tc main_arg12) = Wp (Proc.devRef .tc main_arg12))
    ∧ (after (ops0 (F := Ideal)) Wp (Proc.devRef .tc main_arg13) = Wp (Proc.devRef .tc main_arg13))
    ∧ (after (ops0 (F := Ideal)) Wp (Proc.devRef .tc main_arg14) = Wp (Proc.devRef .tc main_arg14))
    ∧ (after (ops0 (F := Ideal)) Wp (Proc.devRef .tc main_arg15) = Wp (Proc.devRef .tc main_arg15))
    ∧ (after (ops0 (F := Ideal)) Wp (Proc.devRef .tc main_arg16) = Wp (Proc.devRef .tc main_arg16))
    ∧ (after (ops0 (F := Ideal)) Wp (Proc.devRef .tc main_arg17) = Wp (Proc.devRef .tc main_arg17))
    ∧ (after (ops0 (F := Ideal)) Wp (Proc.devRef .tc main_arg18) = Wp (Proc.devRef .tc main_arg18)) := by
  after_results_simp
  all_goals (repeat' constructor)

end Cert.ReferenceIdeal.Whole

end
-- ==== Proof.RefChunk1.lean ====
/-
  The reference's stretch for layer 0, read back: from the user and transaction features it finds, the two node
  transforms of the segment means.
-/
import proofs.«179405_j8443905704157_1_alg».proof.Proof.RefOps
import proofs.«179405_j8443905704157_1_alg».proof.Proof.RefStages

set_option maxRecDepth 16384

noncomputable section

namespace Cert.ReferenceIdeal.Whole

open Cert.ReferenceIdeal Cert.ReferenceIdeal.Gen Idealize.ShloMosaic Idealize.ShloMosaic.TcCoe Idealize.SL.Sem Idealize.ShloMosaic.StableHlo
open Cert.ReferenceIdeal.Stages Cert.ReferenceIdeal.Layer

variable (Wp : Valuation τ sig (Elt Ideal))

set_option maxHeartbeats 40000000 in
/-- What the stretch computes. -/
theorem layer0_vals :
    (after (ops1 (F := Ideal)) Wp (Proc.devRef .tc main_v97)
      = uOut0 (Wp (Proc.devRef .tc main_v6)) (Wp (Proc.devRef .tc main_v13)) (Wp (Proc.devRef .tc main_arg4)) (Wp (Proc.devRef .tc main_arg5)) (Wp (Proc.devRef .tc main_arg8)) (Wp (Proc.devRef .tc main_arg9)) (Wp (Proc.devRef .tc main_arg10)) (Wp (Proc.devRef .tc main_arg11)) (Wp (Proc.devRef .tc main_arg12)) (Wp (Proc.devRef .tc main_arg13)) (Wp (Proc.devRef .tc main_arg14)))
    ∧ (after (ops1 (F := Ideal)) Wp (Proc.devRef .tc main_v121)
      = tOut0 (Wp (Proc.devRef .tc main_v6)) (Wp (Proc.devRef .tc main_v13)) (Wp (Proc.devRef .tc main_arg2)) (Wp (Proc.devRef .tc main_arg3)) (Wp (Proc.devRef .tc main_arg8)) (Wp (Proc.devRef .tc main_arg9)) (Wp (Proc.devRef .tc main_arg10)) (Wp (Proc.devRef .tc main_arg11)) (Wp (Proc.devRef .tc main_arg12)) (Wp (Proc.devRef .tc main_arg13)) (Wp (Proc.devRef .tc main_arg14))) := by
  after_results_simp
  exact ⟨rfl, rfl⟩

set_option maxHeartbeats 40000000 in
/-- The stretch writes no argument array. -/
theorem layer0_keeps :
    (after (ops1 (F := Ideal)) Wp (Proc.devRef .tc main_arg0) = Wp (Proc.devRef .tc main_arg0))
    ∧ (after (ops1 (F := Ideal)) Wp (Proc.devRef .tc main_arg1) = Wp (Proc.devRef .tc main_arg1))
    ∧ (after (ops1 (F := Ideal)) Wp (Proc.devRef .tc main_arg2) = Wp (Proc.devRef .tc main_arg2))
    ∧ (after (ops1 (F := Ideal)) Wp (Proc.devRef .tc main_arg3) = Wp (Proc.devRef .tc main_arg3))
    ∧ (after (ops1 (F := Ideal)) Wp (Proc.devRef .tc main_arg4) = Wp (Proc.devRef .tc main_arg4))
    ∧ (after (ops1 (F := Ideal)) Wp (Proc.devRef .tc main_arg5) = Wp (Proc.devRef .tc main_arg5))
    ∧ (after (ops1 (F := Ideal)) Wp (Proc.devRef .tc main_arg6) = Wp (Proc.devRef .tc main_arg6))
    ∧ (after (ops1 (F := Ideal)) Wp (Proc.devRef .tc main_arg7) = Wp (Proc.devRef .tc main_arg7))
    ∧ (after (ops1 (F := Ideal)) Wp (Proc.devRef .tc main_arg8) = Wp (Proc.devRef .tc main_arg8))
    ∧ (after (ops1 (F := Ideal)) Wp (Proc.devRef .tc main_arg9) = Wp (Proc.devRef .tc main_arg9))
    ∧ (after (ops1 (F := Ideal)) Wp (Proc.devRef .tc main_arg10) = Wp (Proc.devRef .tc main_arg10))
    ∧ (after (ops1 (F := Ideal)) Wp (Proc.devRef .tc main_arg11) = Wp (Proc.devRef .tc main_arg11))
    ∧ (after (ops1 (F := Ideal)) Wp (Proc.devRef .tc main_arg12) = Wp (Proc.devRef .tc main_arg12))
    ∧ (after (ops1 (F := Ideal)) Wp (Proc.devRef .tc main_arg13) = Wp (Proc.devRef .tc main_arg13))
    ∧ (after (ops1 (F := Ideal)) Wp (Proc.devRef .tc main_arg14) = Wp (Proc.devRef .tc main_arg14))
    ∧ (after (ops1 (F := Ideal)) Wp (Proc.devRef .tc main_arg15) = Wp (Proc.devRef .tc main_arg15))
    ∧ (after (ops1 (F := Ideal)) Wp (Proc.devRef .tc main_arg16) = Wp (Proc.devRef .tc main_arg16))
    ∧ (after (ops1 (F := Ideal)) Wp (Proc.devRef .tc main_arg17) = Wp (Proc.devRef .tc main_arg17))
    ∧ (after (ops1 (F := Ideal)) Wp (Proc.devRef .tc main_arg18) = Wp (Proc.devRef .tc main_arg18)) := by
  after_results_simp
  all_goals (repeat' constructor)

end Cert.ReferenceIdeal.Whole

end
-- ==== Proof.RefChunk2.lean ====
/-
  The reference's stretch for layer 1, read back: from the user and transaction features it finds, the two node
  transforms of the segment means.
-/
import proofs.«179405_j8443905704157_1_alg».proof.Proof.RefOps
import proofs.«179405_j8443905704157_1_alg».proof.Proof.RefStages

set_option maxRecDepth 16384

noncomputable section

namespace Cert.ReferenceIdeal.Whole

open Cert.ReferenceIdeal Cert.ReferenceIdeal.Gen Idealize.ShloMosaic Idealize.ShloMosaic.TcCoe Idealize.SL.Sem Idealize.ShloMosaic.StableHlo
open Cert.ReferenceIdeal.Stages Cert.ReferenceIdeal.Layer

variable (Wp : Valuation τ sig (Elt Ideal))

set_option maxHeartbeats 40000000 in
/-- What the stretch computes. -/
theorem layer1_vals :
    (after (ops2 (F := Ideal)) Wp (Proc.devRef .tc main_v205)
      = uOut1 (Wp (Proc.devRef .tc main_v97)) (Wp (Proc.devRef .tc main_v121)) (Wp (Proc.devRef .tc main_arg4)) (Wp (Proc.devRef .tc main_arg5)) (Wp (Proc.devRef .tc main_arg8)) (Wp (Proc.devRef .tc main_arg9)) (Wp (Proc.devRef .tc main_arg10)) (Wp (Proc.devRef .tc main_arg11)) (Wp (Proc.devRef .tc main_arg12)) (Wp (Proc.devRef .tc main_arg13)) (Wp (Proc.devRef .tc main_arg14)))
    ∧ (after (ops2 (F := Ideal)) Wp (Proc.devRef .tc main_v229)
      = tOut1 (Wp (Proc.devRef .tc main_v97)) (Wp (Proc.devRef .tc main_v121)) (Wp (Proc.devRef .tc main_arg2)) (Wp (Proc.devRef .tc main_arg3)) (Wp (Proc.devRef .tc main_arg8)) (Wp (Proc.devRef .tc main_arg9)) (Wp (Proc.devRef .tc main_arg10)) (Wp (Proc.devRef .tc main_arg11)) (Wp (Proc.devRef .tc main_arg12)) (Wp (Proc.devRef .tc main_arg13)) (Wp (Proc.devRef .tc main_arg14))) := by
  after_results_simp
  exact ⟨rfl, rfl⟩

set_option maxHeartbeats 40000000 in
/-- The stretch writes no argument array. -/
theorem layer1_keeps :
    (after (ops2 (F := Ideal)) Wp (Proc.devRef .tc main_arg0) = Wp (Proc.devRef .tc main_arg0))
    ∧ (after (ops2 (F := Ideal)) Wp (Proc.devRef .tc main_arg1) = Wp (Proc.devRef .tc main_arg1))
    ∧ (after (ops2 (F := Ideal)) Wp (Proc.devRef .tc main_arg2) = Wp (Proc.devRef .tc main_arg2))
    ∧ (after (ops2 (F := Ideal)) Wp (Proc.devRef .tc main_arg3) = Wp (Proc.devRef .tc main_arg3))
    ∧ (after (ops2 (F := Ideal)) Wp (Proc.devRef .tc main_arg4) = Wp (Proc.devRef .tc main_arg4))
    ∧ (after (ops2 (F := Ideal)) Wp (Proc.devRef .tc main_arg5) = Wp (Proc.devRef .tc main_arg5))
    ∧ (after (ops2 (F := Ideal)) Wp (Proc.devRef .tc main_arg6) = Wp (Proc.devRef .tc main_arg6))
    ∧ (after (ops2 (F := Ideal)) Wp (Proc.devRef .tc main_arg7) = Wp (Proc.devRef .tc main_arg7))
    ∧ (after (ops2 (F := Ideal)) Wp (Proc.devRef .tc main_arg8) = Wp (Proc.devRef .tc main_arg8))
    ∧ (after (ops2 (F := Ideal)) Wp (Proc.devRef .tc main_arg9) = Wp (Proc.devRef .tc main_arg9))
    ∧ (after (ops2 (F := Ideal)) Wp (Proc.devRef .tc main_arg10) = Wp (Proc.devRef .tc main_arg10))
    ∧ (after (ops2 (F := Ideal)) Wp (Proc.devRef .tc main_arg11) = Wp (Proc.devRef .tc main_arg11))
    ∧ (after (ops2 (F := Ideal)) Wp (Proc.devRef .tc main_arg12) = Wp (Proc.devRef .tc main_arg12))
    ∧ (after (ops2 (F := Ideal)) Wp (Proc.devRef .tc main_arg13) = Wp (Proc.devRef .tc main_arg13))
    ∧ (after (ops2 (F := Ideal)) Wp (Proc.devRef .tc main_arg14) = Wp (Proc.devRef .tc main_arg14))
    ∧ (after (ops2 (F := Ideal)) Wp (Proc.devRef .tc main_arg15) = Wp (Proc.devRef .tc main_arg15))
    ∧ (after (ops2 (F := Ideal)) Wp (Proc.devRef .tc main_arg16) = Wp (Proc.devRef .tc main_arg16))
    ∧ (after (ops2 (F := Ideal)) Wp (Proc.devRef .tc main_arg17) = Wp (Proc.devRef .tc main_arg17))
    ∧ (after (ops2 (F := Ideal)) Wp (Proc.devRef .tc main_arg18) = Wp (Proc.devRef .tc main_arg18)) := by
  after_results_simp
  all_goals (repeat' constructor)

end Cert.ReferenceIdeal.Whole

end
-- ==== Proof.RefChunk3.lean ====
/-
  The reference's stretch for layer 2, read back: from the user and transaction features it finds, the two node
  transforms of the segment means.
-/
import proofs.«179405_j8443905704157_1_alg».proof.Proof.RefOps
import proofs.«179405_j8443905704157_1_alg».proof.Proof.RefStages

set_option maxRecDepth 16384

noncomputable section

namespace Cert.ReferenceIdeal.Whole

open Cert.ReferenceIdeal Cert.ReferenceIdeal.Gen Idealize.ShloMosaic Idealize.ShloMosaic.TcCoe Idealize.SL.Sem Idealize.ShloMosaic.StableHlo
open Cert.ReferenceIdeal.Stages Cert.ReferenceIdeal.Layer

variable (Wp : Valuation τ sig (Elt Ideal))

set_option maxHeartbeats 40000000 in
/-- What the stretch computes. -/
theorem layer2_vals :
    (after (ops3 (F := Ideal)) Wp (Proc.devRef .tc main_v313)
      = uOut2 (Wp (Proc.devRef .tc main_v205)) (Wp (Proc.devRef .tc main_v229)) (Wp (Proc.devRef .tc main_arg4)) (Wp (Proc.devRef .tc main_arg5)) (Wp (Proc.devRef .tc main_arg8)) (Wp (Proc.devRef .tc main_arg9)) (Wp (Proc.devRef .tc main_arg10)) (Wp (Proc.devRef .tc main_arg11)) (Wp (Proc.devRef .tc main_arg12)) (Wp (Proc.devRef .tc main_arg13)) (Wp (Proc.devRef .tc main_arg14)))
    ∧ (after (ops3 (F := Ideal)) Wp (Proc.devRef .tc main_v337)
      = tOut2 (Wp (Proc.devRef .tc main_v205)) (Wp (Proc.devRef .tc main_v229)) (Wp (Proc.devRef .tc main_arg2)) (Wp (Proc.devRef .tc main_arg3)) (Wp (Proc.devRef .tc main_arg8)) (Wp (Proc.devRef .tc main_arg9)) (Wp (Proc.devRef .tc main_arg10)) (Wp (Proc.devRef .tc main_arg11)) (Wp (Proc.devRef .tc main_arg12)) (Wp (Proc.devRef .tc main_arg13)) (Wp (Proc.devRef .tc main_arg14))) := by
  after_results_simp
  exact ⟨rfl, rfl⟩

set_option maxHeartbeats 40000000 in
/-- The stretch writes no argument array. -/
theorem layer2_keeps :
    (after (ops3 (F := Ideal)) Wp (Proc.devRef .tc main_arg0) = Wp (Proc.devRef .tc main_arg0))
    ∧ (after (ops3 (F := Ideal)) Wp (Proc.devRef .tc main_arg1) = Wp (Proc.devRef .tc main_arg1))
    ∧ (after (ops3 (F := Ideal)) Wp (Proc.devRef .tc main_arg2) = Wp (Proc.devRef .tc main_arg2))
    ∧ (after (ops3 (F := Ideal)) Wp (Proc.devRef .tc main_arg3) = Wp (Proc.devRef .tc main_arg3))
    ∧ (after (ops3 (F := Ideal)) Wp (Proc.devRef .tc main_arg4) = Wp (Proc.devRef .tc main_arg4))
    ∧ (after (ops3 (F := Ideal)) Wp (Proc.devRef .tc main_arg5) = Wp (Proc.devRef .tc main_arg5))
    ∧ (after (ops3 (F := Ideal)) Wp (Proc.devRef .tc main_arg6) = Wp (Proc.devRef .tc main_arg6))
    ∧ (after (ops3 (F := Ideal)) Wp (Proc.devRef .tc main_arg7) = Wp (Proc.devRef .tc main_arg7))
    ∧ (after (ops3 (F := Ideal)) Wp (Proc.devRef .tc main_arg8) = Wp (Proc.devRef .tc main_arg8))
    ∧ (after (ops3 (F := Ideal)) Wp (Proc.devRef .tc main_arg9) = Wp (Proc.devRef .tc main_arg9))
    ∧ (after (ops3 (F := Ideal)) Wp (Proc.devRef .tc main_arg10) = Wp (Proc.devRef .tc main_arg10))
    ∧ (after (ops3 (F := Ideal)) Wp (Proc.devRef .tc main_arg11) = Wp (Proc.devRef .tc main_arg11))
    ∧ (after (ops3 (F := Ideal)) Wp (Proc.devRef .tc main_arg12) = Wp (Proc.devRef .tc main_arg12))
    ∧ (after (ops3 (F := Ideal)) Wp (Proc.devRef .tc main_arg13) = Wp (Proc.devRef .tc main_arg13))
    ∧ (after (ops3 (F := Ideal)) Wp (Proc.devRef .tc main_arg14) = Wp (Proc.devRef .tc main_arg14))
    ∧ (after (ops3 (F := Ideal)) Wp (Proc.devRef .tc main_arg15) = Wp (Proc.devRef .tc main_arg15))
    ∧ (after (ops3 (F := Ideal)) Wp (Proc.devRef .tc main_arg16) = Wp (Proc.devRef .tc main_arg16))
    ∧ (after (ops3 (F := Ideal)) Wp (Proc.devRef .tc main_arg17) = Wp (Proc.devRef .tc main_arg17))
    ∧ (after (ops3 (F := Ideal)) Wp (Proc.devRef .tc main_arg18) = Wp (Proc.devRef .tc main_arg18)) := by
  after_results_simp
  all_goals (repeat' constructor)

end Cert.ReferenceIdeal.Whole

end
-- ==== Proof.RefChunk4.lean ====
/-
  The reference's last stretch, read back: the head of the stacked features.
-/
import proofs.«179405_j8443905704157_1_alg».proof.Proof.RefOps
import proofs.«179405_j8443905704157_1_alg».proof.Proof.RefStages

set_option maxRecDepth 16384

noncomputable section

namespace Cert.ReferenceIdeal.Whole

open Cert.ReferenceIdeal Cert.ReferenceIdeal.Gen Idealize.ShloMosaic Idealize.ShloMosaic.TcCoe Idealize.SL.Sem Idealize.ShloMosaic.StableHlo
open Cert.ReferenceIdeal.Stages Cert.ReferenceIdeal.Layer

variable (Wp : Valuation τ sig (Elt Ideal))

set_option maxHeartbeats 40000000 in
/-- What the stretch computes. -/
theorem head_vals :
    after (ops4 (F := Ideal)) Wp (Proc.devRef .tc main_v347)
      = headRef (stack (Wp (Proc.devRef .tc main_v313)) (Wp (Proc.devRef .tc main_v337))) (Wp (Proc.devRef .tc main_arg15)) (Wp (Proc.devRef .tc main_arg16)) (Wp (Proc.devRef .tc main_arg17)) (Wp (Proc.devRef .tc main_arg18)) := by
  after_results_simp
  rfl

set_option maxHeartbeats 40000000 in
/-- The stretch writes no argument array. -/
theorem head_keeps :
    (after (ops4 (F := Ideal)) Wp (Proc.devRef .tc main_arg0) = Wp (Proc.devRef .tc main_arg0))
    ∧ (after (ops4 (F := Ideal)) Wp (Proc.devRef .tc main_arg1) = Wp (Proc.devRef .tc main_arg1))
    ∧ (after (ops4 (F := Ideal)) Wp (Proc.devRef .tc main_arg2) = Wp (Proc.devRef .tc main_arg2))
    ∧ (after (ops4 (F := Ideal)) Wp (Proc.devRef .tc main_arg3) = Wp (Proc.devRef .tc main_arg3))
    ∧ (after (ops4 (F := Ideal)) Wp (Proc.devRef .tc main_arg4) = Wp (Proc.devRef .tc main_arg4))
    ∧ (after (ops4 (F := Ideal)) Wp (Proc.devRef .tc main_arg5) = Wp (Proc.devRef .tc main_arg5))
    ∧ (after (ops4 (F := Ideal)) Wp (Proc.devRef .tc main_arg6) = Wp (Proc.devRef .tc main_arg6))
    ∧ (after (ops4 (F := Ideal)) Wp (Proc.devRef .tc main_arg7) = Wp (Proc.devRef .tc main_arg7))
    ∧ (after (ops4 (F := Ideal)) Wp (Proc.devRef .tc main_arg8) = Wp (Proc.devRef .tc main_arg8))
    ∧ (after (ops4 (F := Ideal)) Wp (Proc.devRef .tc main_arg9) = Wp (Proc.devRef .tc main_arg9))
    ∧ (after (ops4 (F := Ideal)) Wp (Proc.devRef .tc main_arg10) = Wp (Proc.devRef .tc main_arg10))
    ∧ (after (ops4 (F := Ideal)) Wp (Proc.devRef .tc main_arg11) = Wp (Proc.devRef .tc main_arg11))
    ∧ (after (ops4 (F := Ideal)) Wp (Proc.devRef .tc main_arg12) = Wp (Proc.devRef .tc main_arg12))
    ∧ (after (ops4 (F := Ideal)) Wp (Proc.devRef .tc main_arg13) = Wp (Proc.devRef .tc main_arg13))
    ∧ (after (ops4 (F := Ideal)) Wp (Proc.devRef .tc main_arg14) = Wp (Proc.devRef .tc main_arg14))
    ∧ (after (ops4 (F := Ideal)) Wp (Proc.devRef .tc main_arg15) = Wp (Proc.devRef .tc main_arg15))
    ∧ (after (ops4 (F := Ideal)) Wp (Proc.devRef .tc main_arg16) = Wp (Proc.devRef .tc main_arg16))
    ∧ (after (ops4 (F := Ideal)) Wp (Proc.devRef .tc main_arg17) = Wp (Proc.devRef .tc main_arg17))
    ∧ (after (ops4 (F := Ideal)) Wp (Proc.devRef .tc main_arg18) = Wp (Proc.devRef .tc main_arg18)) := by
  after_results_simp
  all_goals (repeat' constructor)

end Cert.ReferenceIdeal.Whole

end
-- ==== Proof.RefRun.lean ====
/-
  The reference's run ends at `out` of its arguments.

  The contents after the reference's line are read stretch by stretch: the embeddings, then three times the pair of node
  transforms from the pair before, then the head; no stretch writes an argument array. So the result buffer ends at the
  composition of the named stages, `out`, of the argument arrays, and the argument arrays end as launched.
-/
import proofs.«179405_j8443905704157_1_alg».proof.Proof.RefOps
import proofs.«179405_j8443905704157_1_alg».proof.Proof.RefChunk0
import proofs.«179405_j8443905704157_1_alg».proof.Proof.RefChunk1
import proofs.«179405_j8443905704157_1_alg».proof.Proof.RefChunk2
import proofs.«179405_j8443905704157_1_alg».proof.Proof.RefChunk3
import proofs.«179405_j8443905704157_1_alg».proof.Proof.RefChunk4
import proofs.«179405_j8443905704157_1_alg».proof.Proof.RefStages

set_option maxRecDepth 16384

noncomputable section

namespace Cert.ReferenceIdeal.Whole

open Cert.ReferenceIdeal Cert.ReferenceIdeal.Gen Idealize.ShloMosaic Idealize.ShloMosaic.TcCoe Idealize.SL.Sem Idealize.ShloMosaic.StableHlo
open Cert.ReferenceIdeal.Stages Cert.ReferenceIdeal.Layer

variable (m : (ℓ : Loc nD τ sig) → Buf (Elt Ideal) ℓ) (ρ : Dev nD → PrngReg) (c : Dev nD)

abbrev a0 := m ((c.tc : Thread nD τ).loc main_arg0)
abbrev a1 := m ((c.tc : Thread nD τ).loc main_arg1)
abbrev a2 := m ((c.tc : Thread nD τ).loc main_arg2)
abbrev a3 := m ((c.tc : Thread nD τ).loc main_arg3)
abbrev a4 := m ((c.tc : Thread nD τ).loc main_arg4)
abbrev a5 := m ((c.tc : Thread nD τ).loc main_arg5)
abbrev a6 := m ((c.tc : Thread nD τ).loc main_arg6)
abbrev a7 := m ((c.tc : Thread nD τ).loc main_arg7)
abbrev a8 := m ((c.tc : Thread nD τ).loc main_arg8)
abbrev a9 := m ((c.tc : Thread nD τ).loc main_arg9)
abbrev a10 := m ((c.tc : Thread nD τ).loc main_arg10)
abbrev a11 := m ((c.tc : Thread nD τ).loc main_arg11)
abbrev a12 := m ((c.tc : Thread nD τ).loc main_arg12)
abbrev a13 := m ((c.tc : Thread nD τ).loc main_arg13)
abbrev a14 := m ((c.tc : Thread nD τ).loc main_arg14)
abbrev a15 := m ((c.tc : Thread nD τ).loc main_arg15)
abbrev a16 := m ((c.tc : Thread nD τ).loc main_arg16)
abbrev a17 := m ((c.tc : Thread nD τ).loc main_arg17)
abbrev a18 := m ((c.tc : Thread nD τ).loc main_arg18)

/-- The buffer contents at the launch and after each stretch. -/
abbrev R0 : Valuation τ sig (Elt Ideal) := launchContents m c
abbrev R1 : Valuation τ sig (Elt Ideal) := after ops0 (R0 m c)
abbrev R2 : Valuation τ sig (Elt Ideal) := after ops1 (R1 m c)
abbrev R3 : Valuation τ sig (Elt Ideal) := after ops2 (R2 m c)
abbrev R4 : Valuation τ sig (Elt Ideal) := after ops3 (R3 m c)
abbrev R5 : Valuation τ sig (Elt Ideal) := after ops4 (R4 m c)

theorem R0_arg0 : R0 m c (Proc.devRef .tc main_arg0) = (a0 m c) := rfl

theorem R1_arg0 : R1 m c (Proc.devRef .tc main_arg0) = (a0 m c) :=
  ((emb_keeps (R0 m c)).1).trans (R0_arg0 m c)

theorem R2_arg0 : R2 m c (Proc.devRef .tc main_arg0) = (a0 m c) :=
  ((layer0_keeps (R1 m c)).1).trans (R1_arg0 m c)

theorem R3_arg0 : R3 m c (Proc.devRef .tc main_arg0) = (a0 m c) :=
  ((layer1_keeps (R2 m c)).1).trans (R2_arg0 m c)

theorem R4_arg0 : R4 m c (Proc.devRef .tc main_arg0) = (a0 m c) :=
  ((layer2_keeps (R3 m c)).1).trans (R3_arg0 m c)

theorem R5_arg0 : R5 m c (Proc.devRef .tc main_arg0) = (a0 m c) :=
  ((head_keeps (R4 m c)).1).trans (R4_arg0 m c)

theorem R0_arg1 : R0 m c (Proc.devRef .tc main_arg1) = (a1 m c) := rfl

theorem R1_arg1 : R1 m c (Proc.devRef .tc main_arg1) = (a1 m c) :=
  ((emb_keeps (R0 m c)).2.1).trans (R0_arg1 m c)

theorem R2_arg1 : R2 m c (Proc.devRef .tc main_arg1) = (a1 m c) :=
  ((layer0_keeps (R1 m c)).2.1).trans (R1_arg1 m c)

theorem R3_arg1 : R3 m c (Proc.devRef .tc main_arg1) = (a1 m c) :=
  ((layer1_keeps (R2 m c)).2.1).trans (R2_arg1 m c)

theorem R4_arg1 : R4 m c (Proc.devRef .tc main_arg1) = (a1 m c) :=
  ((layer2_keeps (R3 m c)).2.1).trans (R3_arg1 m c)

theorem R5_arg1 : R5 m c (Proc.devRef .tc main_arg1) = (a1 m c) :=
  ((head_keeps (R4 m c)).2.1).trans (R4_arg1 m c)

theorem R0_arg2 : R0 m c (Proc.devRef .tc main_arg2) = (a2 m c) := rfl

theorem R1_arg2 : R1 m c (Proc.devRef .tc main_arg2) = (a2 m c) :=
  ((emb_keeps (R0 m c)).2.2.1).trans (R0_arg2 m c)

theorem R2_arg2 : R2 m c (Proc.devRef .tc main_arg2) = (a2 m c) :=
  ((layer0_keeps (R1 m c)).2.2.1).trans (R1_arg2 m c)

theorem R3_arg2 : R3 m c (Proc.devRef .tc main_arg2) = (a2 m c) :=
  ((layer1_keeps (R2 m c)).2.2.1).trans (R2_arg2 m c)

theorem R4_arg2 : R4 m c (Proc.devRef .tc main_arg2) = (a2 m c) :=
  ((layer2_keeps (R3 m c)).2.2.1).trans (R3_arg2 m c)

theorem R5_arg2 : R5 m c (Proc.devRef .tc main_arg2) = (a2 m c) :=
  ((head_keeps (R4 m c)).2.2.1).trans (R4_arg2 m c)

theorem R0_arg3 : R0 m c (Proc.devRef .tc main_arg3) = (a3 m c) := rfl

theorem R1_arg3 : R1 m c (Proc.devRef .tc main_arg3) = (a3 m c) :=
  ((emb_keeps (R0 m c)).2.2.2.1).trans (R0_arg3 m c)

theorem R2_arg3 : R2 m c (Proc.devRef .tc main_arg3) = (a3 m c) :=
  ((layer0_keeps (R1 m c)).2.2.2.1).trans (R1_arg3 m c)

theorem R3_arg3 : R3 m c (Proc.devRef .tc main_arg3) = (a3 m c) :=
  ((layer1_keeps (R2 m c)).2.2.2.1).trans (R2_arg3 m c)

theorem R4_arg3 : R4 m c (Proc.devRef .tc main_arg3) = (a3 m c) :=
  ((layer2_keeps (R3 m c)).2.2.2.1).trans (R3_arg3 m c)

theorem R5_arg3 : R5 m c (Proc.devRef .tc main_arg3) = (a3 m c) :=
  ((head_keeps (R4 m c)).2.2.2.1).trans (R4_arg3 m c)

theorem R0_arg4 : R0 m c (Proc.devRef .tc main_arg4) = (a4 m c) := rfl

theorem R1_arg4 : R1 m c (Proc.devRef .tc main_arg4) = (a4 m c) :=
  ((emb_keeps (R0 m c)).2.2.2.2.1).trans (R0_arg4 m c)

theorem R2_arg4 : R2 m c (Proc.devRef .tc main_arg4) = (a4 m c) :=
  ((layer0_keeps (R1 m c)).2.2.2.2.1).trans (R1_arg4 m c)

theorem R3_arg4 : R3 m c (Proc.devRef .tc main_arg4) = (a4 m c) :=
  ((layer1_keeps (R2 m c)).2.2.2.2.1).trans (R2_arg4 m c)

theorem R4_arg4 : R4 m c (Proc.devRef .tc main_arg4) = (a4 m c) :=
  ((layer2_keeps (R3 m c)).2.2.2.2.1).trans (R3_arg4 m c)

theorem R5_arg4 : R5 m c (Proc.devRef .tc main_arg4) = (a4 m c) :=
  ((head_keeps (R4 m c)).2.2.2.2.1).trans (R4_arg4 m c)

theorem R0_arg5 : R0 m c (Proc.devRef .tc main_arg5) = (a5 m c) := rfl

theorem R1_arg5 : R1 m c (Proc.devRef .tc main_arg5) = (a5 m c) :=
  ((emb_keeps (R0 m c)).2.2.2.2.2.1).trans (R0_arg5 m c)

theorem R2_arg5 : R2 m c (Proc.devRef .tc main_arg5) = (a5 m c) :=
  ((layer0_keeps (R1 m c)).2.2.2.2.2.1).trans (R1_arg5 m c)

theorem R3_arg5 : R3 m c (Proc.devRef .tc main_arg5) = (a5 m c) :=
  ((layer1_keeps (R2 m c)).2.2.2.2.2.1).trans (R2_arg5 m c)

theorem R4_arg5 : R4 m c (Proc.devRef .tc main_arg5) = (a5 m c) :=
  ((layer2_keeps (R3 m c)).2.2.2.2.2.1).trans (R3_arg5 m c)

theorem R5_arg5 : R5 m c (Proc.devRef .tc main_arg5) = (a5 m c) :=
  ((head_keeps (R4 m c)).2.2.2.2.2.1).trans (R4_arg5 m c)

theorem R0_arg6 : R0 m c (Proc.devRef .tc main_arg6) = (a6 m c) := rfl

theorem R1_arg6 : R1 m c (Proc.devRef .tc main_arg6) = (a6 m c) :=
  ((emb_keeps (R0 m c)).2.2.2.2.2.2.1).trans (R0_arg6 m c)

theorem R2_arg6 : R2 m c (Proc.devRef .tc main_arg6) = (a6 m c) :=
  ((layer0_keeps (R1 m c)).2.2.2.2.2.2.1).trans (R1_arg6 m c)

theorem R3_arg6 : R3 m c (Proc.devRef .tc main_arg6) = (a6 m c) :=
  ((layer1_keeps (R2 m c)).2.2.2.2.2.2.1).trans (R2_arg6 m c)

theorem R4_arg6 : R4 m c (Proc.devRef .tc main_arg6) = (a6 m c) :=
  ((layer2_keeps (R3 m c)).2.2.2.2.2.2.1).trans (R3_arg6 m c)

theorem R5_arg6 : R5 m c (Proc.devRef .tc main_arg6) = (a6 m c) :=
  ((head_keeps (R4 m c)).2.2.2.2.2.2.1).trans (R4_arg6 m c)

theorem R0_arg7 : R0 m c (Proc.devRef .tc main_arg7) = (a7 m c) := rfl

theorem R1_arg7 : R1 m c (Proc.devRef .tc main_arg7) = (a7 m c) :=
  ((emb_keeps (R0 m c)).2.2.2.2.2.2.2.1).trans (R0_arg7 m c)

theorem R2_arg7 : R2 m c (Proc.devRef .tc main_arg7) = (a7 m c) :=
  ((layer0_keeps (R1 m c)).2.2.2.2.2.2.2.1).trans (R1_arg7 m c)

theorem R3_arg7 : R3 m c (Proc.devRef .tc main_arg7) = (a7 m c) :=
  ((layer1_keeps (R2 m c)).2.2.2.2.2.2.2.1).trans (R2_arg7 m c)

theorem R4_arg7 : R4 m c (Proc.devRef .tc main_arg7) = (a7 m c) :=
  ((layer2_keeps (R3 m c)).2.2.2.2.2.2.2.1).trans (R3_arg7 m c)

theorem R5_arg7 : R5 m c (Proc.devRef .tc main_arg7) = (a7 m c) :=
  ((head_keeps (R4 m c)).2.2.2.2.2.2.2.1).trans (R4_arg7 m c)

theorem R0_arg8 : R0 m c (Proc.devRef .tc main_arg8) = (a8 m c) := rfl

theorem R1_arg8 : R1 m c (Proc.devRef .tc main_arg8) = (a8 m c) :=
  ((emb_keeps (R0 m c)).2.2.2.2.2.2.2.2.1).trans (R0_arg8 m c)

theorem R2_arg8 : R2 m c (Proc.devRef .tc main_arg8) = (a8 m c) :=
  ((layer0_keeps (R1 m c)).2.2.2.2.2.2.2.2.1).trans (R1_arg8 m c)

theorem R3_arg8 : R3 m c (Proc.devRef .tc main_arg8) = (a8 m c) :=
  ((layer1_keeps (R2 m c)).2.2.2.2.2.2.2.2.1).trans (R2_arg8 m c)

theorem R4_arg8 : R4 m c (Proc.devRef .tc main_arg8) = (a8 m c) :=
  ((layer2_keeps (R3 m c)).2.2.2.2.2.2.2.2.1).trans (R3_arg8 m c)

theorem R5_arg8 : R5 m c (Proc.devRef .tc main_arg8) = (a8 m c) :=
  ((head_keeps (R4 m c)).2.2.2.2.2.2.2.2.1).trans (R4_arg8 m c)

theorem R0_arg9 : R0 m c (Proc.devRef .tc main_arg9) = (a9 m c) := rfl

theorem R1_arg9 : R1 m c (Proc.devRef .tc main_arg9) = (a9 m c) :=
  ((emb_keeps (R0 m c)).2.2.2.2.2.2.2.2.2.1).trans (R0_arg9 m c)

theorem R2_arg9 : R2 m c (Proc.devRef .tc main_arg9) = (a9 m c) :=
  ((layer0_keeps (R1 m c)).2.2.2.2.2.2.2.2.2.1).trans (R1_arg9 m c)

theorem R3_arg9 : R3 m c (Proc.devRef .tc main_arg9) = (a9 m c) :=
  ((layer1_keeps (R2 m c)).2.2.2.2.2.2.2.2.2.1).trans (R2_arg9 m c)

theorem R4_arg9 : R4 m c (Proc.devRef .tc main_arg9) = (a9 m c) :=
  ((layer2_keeps (R3 m c)).2.2.2.2.2.2.2.2.2.1).trans (R3_arg9 m c)

theorem R5_arg9 : R5 m c (Proc.devRef .tc main_arg9) = (a9 m c) :=
  ((head_keeps (R4 m c)).2.2.2.2.2.2.2.2.2.1).trans (R4_arg9 m c)

theorem R0_arg10 : R0 m c (Proc.devRef .tc main_arg10) = (a10 m c) := rfl

theorem R1_arg10 : R1 m c (Proc.devRef .tc main_arg10) = (a10 m c) :=
  ((emb_keeps (R0 m c)).2.2.2.2.2.2.2.2.2.2.1).trans (R0_arg10 m c)

theorem R2_arg10 : R2 m c (Proc.devRef .tc main_arg10) = (a10 m c) :=
  ((layer0_keeps (R1 m c)).2.2.2.2.2.2.2.2.2.2.1).trans (R1_arg10 m c)

theorem R3_arg10 : R3 m c (Proc.devRef .tc main_arg10) = (a10 m c) :=
  ((layer1_keeps (R2 m c)).2.2.2.2.2.2.2.2.2.2.1).trans (R2_arg10 m c)

theorem R4_arg10 : R4 m c (Proc.devRef .tc main_arg10) = (a10 m c) :=
  ((layer2_keeps (R3 m c)).2.2.2.2.2.2.2.2.2.2.1).trans (R3_arg10 m c)

theorem R5_arg10 : R5 m c (Proc.devRef .tc main_arg10) = (a10 m c) :=
  ((head_keeps (R4 m c)).2.2.2.2.2.2.2.2.2.2.1).trans (R4_arg10 m c)

theorem R0_arg11 : R0 m c (Proc.devRef .tc main_arg11) = (a11 m c) := rfl

theorem R1_arg11 : R1 m c (Proc.devRef .tc main_arg11) = (a11 m c) :=
  ((emb_keeps (R0 m c)).2.2.2.2.2.2.2.2.2.2.2.1).trans (R0_arg11 m c)

theorem R2_arg11 : R2 m c (Proc.devRef .tc main_arg11) = (a11 m c) :=
  ((layer0_keeps (R1 m c)).2.2.2.2.2.2.2.2.2.2.2.1).trans (R1_arg11 m c)

theorem R3_arg11 : R3 m c (Proc.devRef .tc main_arg11) = (a11 m c) :=
  ((layer1_keeps (R2 m c)).2.2.2.2.2.2.2.2.2.2.2.1).trans (R2_arg11 m c)

theorem R4_arg11 : R4 m c (Proc.devRef .tc main_arg11) = (a11 m c) :=
  ((layer2_keeps (R3 m c)).2.2.2.2.2.2.2.2.2.2.2.1).trans (R3_arg11 m c)

theorem R5_arg11 : R5 m c (Proc.devRef .tc main_arg11) = (a11 m c) :=
  ((head_keeps (R4 m c)).2.2.2.2.2.2.2.2.2.2.2.1).trans (R4_arg11 m c)

theorem R0_arg12 : R0 m c (Proc.devRef .tc main_arg12) = (a12 m c) := rfl

theorem R1_arg12 : R1 m c (Proc.devRef .tc main_arg12) = (a12 m c) :=
  ((emb_keeps (R0 m c)).2.2.2.2.2.2.2.2.2.2.2.2.1).trans (R0_arg12 m c)

theorem R2_arg12 : R2 m c (Proc.devRef .tc main_arg12) = (a12 m c) :=
  ((layer0_keeps (R1 m c)).2.2.2.2.2.2.2.2.2.2.2.2.1).trans (R1_arg12 m c)

theorem R3_arg12 : R3 m c (Proc.devRef .tc main_arg12) = (a12 m c) :=
  ((layer1_keeps (R2 m c)).2.2.2.2.2.2.2.2.2.2.2.2.1).trans (R2_arg12 m c)

theorem R4_arg12 : R4 m c (Proc.devRef .tc main_arg12) = (a12 m c) :=
  ((layer2_keeps (R3 m c)).2.2.2.2.2.2.2.2.2.2.2.2.1).trans (R3_arg12 m c)

theorem R5_arg12 : R5 m c (Proc.devRef .tc main_arg12) = (a12 m c) :=
  ((head_keeps (R4 m c)).2.2.2.2.2.2.2.2.2.2.2.2.1).trans (R4_arg12 m c)

theorem R0_arg13 : R0 m c (Proc.devRef .tc main_arg13) = (a13 m c) := rfl

theorem R1_arg13 : R1 m c (Proc.devRef .tc main_arg13) = (a13 m c) :=
  ((emb_keeps (R0 m c)).2.2.2.2.2.2.2.2.2.2.2.2.2.1).trans (R0_arg13 m c)

theorem R2_arg13 : R2 m c (Proc.devRef .tc main_arg13) = (a13 m c) :=
  ((layer0_keeps (R1 m c)).2.2.2.2.2.2.2.2.2.2.2.2.2.1).trans (R1_arg13 m c)

theorem R3_arg13 : R3 m c (Proc.devRef .tc main_arg13) = (a13 m c) :=
  ((layer1_keeps (R2 m c)).2.2.2.2.2.2.2.2.2.2.2.2.2.1).trans (R2_arg13 m c)

theorem R4_arg13 : R4 m c (Proc.devRef .tc main_arg13) = (a13 m c) :=
  ((layer2_keeps (R3 m c)).2.2.2.2.2.2.2.2.2.2.2.2.2.1).trans (R3_arg13 m c)

theorem R5_arg13 : R5 m c (Proc.devRef .tc main_arg13) = (a13 m c) :=
  ((head_keeps (R4 m c)).2.2.2.2.2.2.2.2.2.2.2.2.2.1).trans (R4_arg13 m c)

theorem R0_arg14 : R0 m c (Proc.devRef .tc main_arg14) = (a14 m c) := rfl

theorem R1_arg14 : R1 m c (Proc.devRef .tc main_arg14) = (a14 m c) :=
  ((emb_keeps (R0 m c)).2.2.2.2.2.2.2.2.2.2.2.2.2.2.1).trans (R0_arg14 m c)

theorem R2_arg14 : R2 m c (Proc.devRef .tc main_arg14) = (a14 m c) :=
  ((layer0_keeps (R1 m c)).2.2.2.2.2.2.2.2.2.2.2.2.2.2.1).trans (R1_arg14 m c)

theorem R3_arg14 : R3 m c (Proc.devRef .tc main_arg14) = (a14 m c) :=
  ((layer1_keeps (R2 m c)).2.2.2.2.2.2.2.2.2.2.2.2.2.2.1).trans (R2_arg14 m c)

theorem R4_arg14 : R4 m c (Proc.devRef .tc main_arg14) = (a14 m c) :=
  ((layer2_keeps (R3 m c)).2.2.2.2.2.2.2.2.2.2.2.2.2.2.1).trans (R3_arg14 m c)

theorem R5_arg14 : R5 m c (Proc.devRef .tc main_arg14) = (a14 m c) :=
  ((head_keeps (R4 m c)).2.2.2.2.2.2.2.2.2.2.2.2.2.2.1).trans (R4_arg14 m c)

theorem R0_arg15 : R0 m c (Proc.devRef .tc main_arg15) = (a15 m c) := rfl

theorem R1_arg15 : R1 m c (Proc.devRef .tc main_arg15) = (a15 m c) :=
  ((emb_keeps (R0 m c)).2.2.2.2.2.2.2.2.2.2.2.2.2.2.2.1).trans (R0_arg15 m c)

theorem R2_arg15 : R2 m c (Proc.devRef .tc main_arg15) = (a15 m c) :=
  ((layer0_keeps (R1 m c)).2.2.2.2.2.2.2.2.2.2.2.2.2.2.2.1).trans (R1_arg15 m c)

theorem R3_arg15 : R3 m c (Proc.devRef .tc main_arg15) = (a15 m c) :=
  ((layer1_keeps (R2 m c)).2.2.2.2.2.2.2.2.2.2.2.2.2.2.2.1).trans (R2_arg15 m c)

theorem R4_arg15 : R4 m c (Proc.devRef .tc main_arg15) = (a15 m c) :=
  ((layer2_keeps (R3 m c)).2.2.2.2.2.2.2.2.2.2.2.2.2.2.2.1).trans (R3_arg15 m c)

theorem R5_arg15 : R5 m c (Proc.devRef .tc main_arg15) = (a15 m c) :=
  ((head_keeps (R4 m c)).2.2.2.2.2.2.2.2.2.2.2.2.2.2.2.1).trans (R4_arg15 m c)

theorem R0_arg16 : R0 m c (Proc.devRef .tc main_arg16) = (a16 m c) := rfl

theorem R1_arg16 : R1 m c (Proc.devRef .tc main_arg16) = (a16 m c) :=
  ((emb_keeps (R0 m c)).2.2.2.2.2.2.2.2.2.2.2.2.2.2.2.2.1).trans (R0_arg16 m c)

theorem R2_arg16 : R2 m c (Proc.devRef .tc main_arg16) = (a16 m c) :=
  ((layer0_keeps (R1 m c)).2.2.2.2.2.2.2.2.2.2.2.2.2.2.2.2.1).trans (R1_arg16 m c)

theorem R3_arg16 : R3 m c (Proc.devRef .tc main_arg16) = (a16 m c) :=
  ((layer1_keeps (R2 m c)).2.2.2.2.2.2.2.2.2.2.2.2.2.2.2.2.1).trans (R2_arg16 m c)

theorem R4_arg16 : R4 m c (Proc.devRef .tc main_arg16) = (a16 m c) :=
  ((layer2_keeps (R3 m c)).2.2.2.2.2.2.2.2.2.2.2.2.2.2.2.2.1).trans (R3_arg16 m c)

theorem R5_arg16 : R5 m c (Proc.devRef .tc main_arg16) = (a16 m c) :=
  ((head_keeps (R4 m c)).2.2.2.2.2.2.2.2.2.2.2.2.2.2.2.2.1).trans (R4_arg16 m c)

theorem R0_arg17 : R0 m c (Proc.devRef .tc main_arg17) = (a17 m c) := rfl

theorem R1_arg17 : R1 m c (Proc.devRef .tc main_arg17) = (a17 m c) :=
  ((emb_keeps (R0 m c)).2.2.2.2.2.2.2.2.2.2.2.2.2.2.2.2.2.1).trans (R0_arg17 m c)

theorem R2_arg17 : R2 m c (Proc.devRef .tc main_arg17) = (a17 m c) :=
  ((layer0_keeps (R1 m c)).2.2.2.2.2.2.2.2.2.2.2.2.2.2.2.2.2.1).trans (R1_arg17 m c)

theorem R3_arg17 : R3 m c (Proc.devRef .tc main_arg17) = (a17 m c) :=
  ((layer1_keeps (R2 m c)).2.2.2.2.2.2.2.2.2.2.2.2.2.2.2.2.2.1).trans (R2_arg17 m c)

theorem R4_arg17 : R4 m c (Proc.devRef .tc main_arg17) = (a17 m c) :=
  ((layer2_keeps (R3 m c)).2.2.2.2.2.2.2.2.2.2.2.2.2.2.2.2.2.1).trans (R3_arg17 m c)

theorem R5_arg17 : R5 m c (Proc.devRef .tc main_arg17) = (a17 m c) :=
  ((head_keeps (R4 m c)).2.2.2.2.2.2.2.2.2.2.2.2.2.2.2.2.2.1).trans (R4_arg17 m c)

theorem R0_arg18 : R0 m c (Proc.devRef .tc main_arg18) = (a18 m c) := rfl

theorem R1_arg18 : R1 m c (Proc.devRef .tc main_arg18) = (a18 m c) :=
  ((emb_keeps (R0 m c)).2.2.2.2.2.2.2.2.2.2.2.2.2.2.2.2.2.2).trans (R0_arg18 m c)

theorem R2_arg18 : R2 m c (Proc.devRef .tc main_arg18) = (a18 m c) :=
  ((layer0_keeps (R1 m c)).2.2.2.2.2.2.2.2.2.2.2.2.2.2.2.2.2.2).trans (R1_arg18 m c)

theorem R3_arg18 : R3 m c (Proc.devRef .tc main_arg18) = (a18 m c) :=
  ((layer1_keeps (R2 m c)).2.2.2.2.2.2.2.2.2.2.2.2.2.2.2.2.2.2).trans (R2_arg18 m c)

theorem R4_arg18 : R4 m c (Proc.devRef .tc main_arg18) = (a18 m c) :=
  ((layer2_keeps (R3 m c)).2.2.2.2.2.2.2.2.2.2.2.2.2.2.2.2.2.2).trans (R3_arg18 m c)

theorem R5_arg18 : R5 m c (Proc.devRef .tc main_arg18) = (a18 m c) :=
  ((head_keeps (R4 m c)).2.2.2.2.2.2.2.2.2.2.2.2.2.2.2.2.2.2).trans (R4_arg18 m c)

theorem R1_hu : R1 m c (Proc.devRef .tc main_v6) = (embU (a0 m c) (a6 m c)) :=
  ((emb_vals (R0 m c)).1).trans (by rw [R0_arg0 m c, R0_arg6 m c])
theorem R1_ht : R1 m c (Proc.devRef .tc main_v13) = (embT (a1 m c) (a7 m c)) :=
  ((emb_vals (R0 m c)).2).trans (by rw [R0_arg1 m c, R0_arg7 m c])

theorem R2_hu : R2 m c (Proc.devRef .tc main_v97) = (u1 (a0 m c) (a1 m c) (a2 m c) (a3 m c) (a4 m c) (a5 m c) (a6 m c) (a7 m c) (a8 m c) (a9 m c) (a10 m c) (a11 m c) (a12 m c) (a13 m c) (a14 m c)) :=
  ((layer0_vals (R1 m c)).1).trans (by rw [R1_hu m c, R1_ht m c, R1_arg4 m c, R1_arg5 m c, R1_arg8 m c, R1_arg9 m c, R1_arg10 m c, R1_arg11 m c, R1_arg12 m c, R1_arg13 m c, R1_arg14 m c]; try rfl)
theorem R2_ht : R2 m c (Proc.devRef .tc main_v121) = (t1 (a0 m c) (a1 m c) (a2 m c) (a3 m c) (a4 m c) (a5 m c) (a6 m c) (a7 m c) (a8 m c) (a9 m c) (a10 m c) (a11 m c) (a12 m c) (a13 m c) (a14 m c)) :=
  ((layer0_vals (R1 m c)).2).trans (by rw [R1_hu m c, R1_ht m c, R1_arg2 m c, R1_arg3 m c, R1_arg8 m c, R1_arg9 m c, R1_arg10 m c, R1_arg11 m c, R1_arg12 m c, R1_arg13 m c, R1_arg14 m c]; try rfl)

theorem R3_hu : R3 m c (Proc.devRef .tc main_v205) = (u2 (a0 m c) (a1 m c) (a2 m c) (a3 m c) (a4 m c) (a5 m c) (a6 m c) (a7 m c) (a8 m c) (a9 m c) (a10 m c) (a11 m c) (a12 m c) (a13 m c) (a14 m c)) :=
  ((layer1_vals (R2 m c)).1).trans (by rw [R2_hu m c, R2_ht m c, R2_arg4 m c, R2_arg5 m c, R2_arg8 m c, R2_arg9 m c, R2_arg10 m c, R2_arg11 m c, R2_arg12 m c, R2_arg13 m c, R2_arg14 m c]; try rfl)
theorem R3_ht : R3 m c (Proc.devRef .tc main_v229) = (t2 (a0 m c) (a1 m c) (a2 m c) (a3 m c) (a4 m c) (a5 m c) (a6 m c) (a7 m c) (a8 m c) (a9 m c) (a10 m c) (a11 m c) (a12 m c) (a13 m c) (a14 m c)) :=
  ((layer1_vals (R2 m c)).2).trans (by rw [R2_hu m c, R2_ht m c, R2_arg2 m c, R2_arg3 m c, R2_arg8 m c, R2_arg9 m c, R2_arg10 m c, R2_arg11 m c, R2_arg12 m c, R2_arg13 m c, R2_arg14 m c]; try rfl)

theorem R4_hu : R4 m c (Proc.devRef .tc main_v313) = (u3 (a0 m c) (a1 m c) (a2 m c) (a3 m c) (a4 m c) (a5 m c) (a6 m c) (a7 m c) (a8 m c) (a9 m c) (a10 m c) (a11 m c) (a12 m c) (a13 m c) (a14 m c)) :=
  ((layer2_vals (R3 m c)).1).trans (by rw [R3_hu m c, R3_ht m c, R3_arg4 m c, R3_arg5 m c, R3_arg8 m c, R3_arg9 m c, R3_arg10 m c, R3_arg11 m c, R3_arg12 m c, R3_arg13 m c, R3_arg14 m c]; try rfl)
theorem R4_ht : R4 m c (Proc.devRef .tc main_v337) = (t3 (a0 m c) (a1 m c) (a2 m c) (a3 m c) (a4 m c) (a5 m c) (a6 m c) (a7 m c) (a8 m c) (a9 m c) (a10 m c) (a11 m c) (a12 m c) (a13 m c) (a14 m c)) :=
  ((layer2_vals (R3 m c)).2).trans (by rw [R3_hu m c, R3_ht m c, R3_arg2 m c, R3_arg3 m c, R3_arg8 m c, R3_arg9 m c, R3_arg10 m c, R3_arg11 m c, R3_arg12 m c, R3_arg13 m c, R3_arg14 m c]; try rfl)

/-- The result buffer after the whole line. -/
theorem R5_out : R5 m c (Proc.devRef .tc main_v347) = out (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) :=
  (head_vals (R4 m c)).trans (by rw [R4_hu m c, R4_ht m c, R4_arg15 m c, R4_arg16 m c, R4_arg17 m c, R4_arg18 m c]; try rfl)

/-- THE REFERENCE'S RUN: every weakly fair execution terminates, the result at `out` of the argument arrays, the
    argument arrays as launched. -/
theorem run : θ_run defs (onTc (τ := τ) (main (F := Ideal))) ⟨m, fun _ => 0, ρ⟩ fun r => ∀ c : Dev nD,
      r.2.mem ((c.tc : Thread nD τ).loc main_v347) = out (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun _ h c => ⟨(h c main_v347).trans (R5_out m c),
      (h c main_arg0).trans (R5_arg0 m c),
      (h c main_arg1).trans (R5_arg1 m c),
      (h c main_arg2).trans (R5_arg2 m c),
      (h c main_arg3).trans (R5_arg3 m c),
      (h c main_arg4).trans (R5_arg4 m c),
      (h c main_arg5).trans (R5_arg5 m c),
      (h c main_arg6).trans (R5_arg6 m c),
      (h c main_arg7).trans (R5_arg7 m c),
      (h c main_arg8).trans (R5_arg8 m c),
      (h c main_arg9).trans (R5_arg9 m c),
      (h c main_arg10).trans (R5_arg10 m c),
      (h c main_arg11).trans (R5_arg11 m c),
      (h c main_arg12).trans (R5_arg12 m c),
      (h c main_arg13).trans (R5_arg13 m c),
      (h c main_arg14).trans (R5_arg14 m c),
      (h c main_arg15).trans (R5_arg15 m c),
      (h c main_arg16).trans (R5_arg16 m c),
      (h c main_arg17).trans (R5_arg17 m c),
      (h c main_arg18).trans (R5_arg18 m c)⟩)
    (run_after m ρ)

end Cert.ReferenceIdeal.Whole

end
-- ==== Proof.lean ====
/-
  The kernel (a three-layer heterogeneous graph network: row gathers and segment means on the host, six node-transform
  regions and a two-layer head region) against its plain reference, over the extended reals.

  Frames. The word-level kernel and the idealized kernel run by their generated frames. The reference is one straight
  line of host operations; its run is read back stretch by stretch (Proof/RefRun.lean).

  Idealization. The ideal pass rewrote nothing, so there is nothing to preserve.

  Values. Both programs compute the same composition of named stages of the argument arrays
  (Proof/RefStages.lean): the embeddings, three times the pair of node transforms, the head. On the kernel side each
  region's output array is the reference's whole-array transform of the arrays the region found — block by block the
  body's stored value is the same entry `nodeAt` (Proof/NodeSpec.lean), the only difference being the place where the
  bias is added, which addition on the extended reals does not see — and the host operations between the regions are
  the reference's own (Proof/Chain.lean). No finiteness of the inputs is used.
-/
import proofs.«179405_j8443905704157_1_alg».proof.Defs
import proofs.«179405_j8443905704157_1_alg».proof.Proof.Gen.Kernel
import proofs.«179405_j8443905704157_1_alg».proof.Proof.Gen.Kernel.Skeleton
import proofs.«179405_j8443905704157_1_alg».proof.Proof.Gen.Kernel.Launch
import proofs.«179405_j8443905704157_1_alg».proof.Proof.Gen.Kernel.Points
import proofs.«179405_j8443905704157_1_alg».proof.Proof.Gen.Kernel.Frame
import proofs.«179405_j8443905704157_1_alg».proof.Proof.Gen.KernelIdeal
import proofs.«179405_j8443905704157_1_alg».proof.Proof.Gen.KernelIdeal.Skeleton
import proofs.«179405_j8443905704157_1_alg».proof.Proof.Gen.KernelIdeal.Launch
import proofs.«179405_j8443905704157_1_alg».proof.Proof.Gen.KernelIdeal.Points
import proofs.«179405_j8443905704157_1_alg».proof.Proof.Gen.KernelIdeal.Frame
import proofs.«179405_j8443905704157_1_alg».proof.Proof.Gen.ReferenceIdeal
import proofs.«179405_j8443905704157_1_alg».proof.Proof.Gen.Pre_finite_inputs
import proofs.«179405_j8443905704157_1_alg».proof.Proof.KernelRun
import proofs.«179405_j8443905704157_1_alg».proof.Proof.Chain
import proofs.«179405_j8443905704157_1_alg».proof.Proof.RefRun
import Idealize.ShloMosaic.Adequacy
import Idealize.ShloMosaic.Init

set_option maxRecDepth 16384

noncomputable section

namespace Cert.Proof

open Idealize.ShloMosaic Idealize.SL.Sem

theorem frame_p : Cert.frame_Kernel := fun m ρ _ => Cert.Kernel.Gen.frame m ρ

theorem frame_pi : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Whole.run m ρ)

theorem preserves : Cert.preserves_Kernel_KernelIdeal := trivial

/-- Both runs end with the result at `out` of their argument arrays, and the argument arrays agree. -/
theorem algebraic : Cert.algebraic_KernelIdeal_ReferenceIdeal := by
  intro m ρ m' ρ' _ hagree
  refine ⟨fun c => Cert.ReferenceIdeal.Stages.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)), ?_, ?_⟩
  · refine (θ_run Cert.KernelIdeal.defs _ _).mono (fun r h c => ⟨(h c _ (Cert.KernelIdeal.Gen.mem_uc Cert.KernelIdeal.main_v220 (by decide))).trans (Cert.KernelIdeal.Chain.kernel_out m ρ c),
      (h c _ (Cert.KernelIdeal.Gen.mem_uc Cert.KernelIdeal.main_arg0 (by decide))).trans (Cert.KernelIdeal.Gen.W11_main_arg0 m ρ c),
      (h c _ (Cert.KernelIdeal.Gen.mem_uc Cert.KernelIdeal.main_arg1 (by decide))).trans (Cert.KernelIdeal.Gen.W11_main_arg1 m ρ c),
      (h c _ (Cert.KernelIdeal.Gen.mem_uc Cert.KernelIdeal.main_arg2 (by decide))).trans (Cert.KernelIdeal.Gen.W11_main_arg2 m ρ c),
      (h c _ (Cert.KernelIdeal.Gen.mem_uc Cert.KernelIdeal.main_arg3 (by decide))).trans (Cert.KernelIdeal.Gen.W11_main_arg3 m ρ c),
      (h c _ (Cert.KernelIdeal.Gen.mem_uc Cert.KernelIdeal.main_arg4 (by decide))).trans (Cert.KernelIdeal.Gen.W11_main_arg4 m ρ c),
      (h c _ (Cert.KernelIdeal.Gen.mem_uc Cert.KernelIdeal.main_arg5 (by decide))).trans (Cert.KernelIdeal.Gen.W11_main_arg5 m ρ c),
      (h c _ (Cert.KernelIdeal.Gen.mem_uc Cert.KernelIdeal.main_arg6 (by decide))).trans (Cert.KernelIdeal.Gen.W11_main_arg6 m ρ c),
      (h c _ (Cert.KernelIdeal.Gen.mem_uc Cert.KernelIdeal.main_arg7 (by decide))).trans (Cert.KernelIdeal.Gen.W11_main_arg7 m ρ c),
      (h c _ (Cert.KernelIdeal.Gen.mem_uc Cert.KernelIdeal.main_arg8 (by decide))).trans (Cert.KernelIdeal.Gen.W11_main_arg8 m ρ c),
      (h c _ (Cert.KernelIdeal.Gen.mem_uc Cert.KernelIdeal.main_arg9 (by decide))).trans (Cert.KernelIdeal.Gen.W11_main_arg9 m ρ c),
      (h c _ (Cert.KernelIdeal.Gen.mem_uc Cert.KernelIdeal.main_arg10 (by decide))).trans (Cert.KernelIdeal.Gen.W11_main_arg10 m ρ c),
      (h c _ (Cert.KernelIdeal.Gen.mem_uc Cert.KernelIdeal.main_arg11 (by decide))).trans (Cert.KernelIdeal.Gen.W11_main_arg11 m ρ c),
      (h c _ (Cert.KernelIdeal.Gen.mem_uc Cert.KernelIdeal.main_arg12 (by decide))).trans (Cert.KernelIdeal.Gen.W11_main_arg12 m ρ c),
      (h c _ (Cert.KernelIdeal.Gen.mem_uc Cert.KernelIdeal.main_arg13 (by decide))).trans (Cert.KernelIdeal.Gen.W11_main_arg13 m ρ c),
      (h c _ (Cert.KernelIdeal.Gen.mem_uc Cert.KernelIdeal.main_arg14 (by decide))).trans (Cert.KernelIdeal.Gen.W11_main_arg14 m ρ c),
      (h c _ (Cert.KernelIdeal.Gen.mem_uc Cert.KernelIdeal.main_arg15 (by decide))).trans (Cert.KernelIdeal.Gen.W11_main_arg15 m ρ c),
      (h c _ (Cert.KernelIdeal.Gen.mem_uc Cert.KernelIdeal.main_arg16 (by decide))).trans (Cert.KernelIdeal.Gen.W11_main_arg16 m ρ c),
      (h c _ (Cert.KernelIdeal.Gen.mem_uc Cert.KernelIdeal.main_arg17 (by decide))).trans (Cert.KernelIdeal.Gen.W11_main_arg17 m ρ c),
      (h c _ (Cert.KernelIdeal.Gen.mem_uc Cert.KernelIdeal.main_arg18 (by decide))).trans (Cert.KernelIdeal.Gen.W11_main_arg18 m ρ c)⟩)
      (Cert.KernelIdeal.Whole.run_all m ρ)
  · refine (θ_run Cert.ReferenceIdeal.defs _ _).mono (fun _ h c => ⟨(h c).1.trans ?_, (h c).2⟩) (Cert.ReferenceIdeal.Whole.run m' ρ')
    obtain ⟨e0, e1, e2, e3, e4, e5, e6, e7, e8, e9, e10, e11, e12, e13, e14, e15, e16, e17, e18⟩ := hagree c
    show Cert.ReferenceIdeal.Stages.out (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) = _
    rw [e0, e1, e2, e3, e4, e5, e6, e7, e8, e9, e10, e11, e12, e13, e14, e15, e16, e17, e18]

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
